-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2560x1x16x128 : Shape := ⟨4, ![2560, 1, 16, 128]⟩
abbrev S128x1x11x1 : Shape := ⟨4, ![128, 1, 11, 1]⟩
abbrev S128 : Shape := ⟨1, ![128]⟩
abbrev S128x128x11x1 : Shape := ⟨4, ![128, 128, 11, 1]⟩
abbrev S1x128x3x1 : Shape := ⟨4, ![1, 128, 3, 1]⟩
abbrev S1 : Shape := ⟨1, ![1]⟩
abbrev S100x2048 : Shape := ⟨2, ![100, 2048]⟩
abbrev S100 : Shape := ⟨1, ![100]⟩
abbrev S1x100 : Shape := ⟨2, ![1, 100]⟩
abbrev S_ : Shape := ⟨0, ![]⟩

class Facts : Prop where
  bcast_S_S2560x1x16x128 : S_.BroadcastsInDim S2560x1x16x128 (![] : Fin 0 → Fin S2560x1x16x128.rank)
  reducesTo_S2560x1x16x128_S_d0_1_2_3 : S2560x1x16x128.ReducesTo [0, 1, 2, 3] S_
  h_S_ : 0 < S_.numel
  bcast_S_S128x1x11x1 : S_.BroadcastsInDim S128x1x11x1 (![] : Fin 0 → Fin S128x1x11x1.rank)
  reducesTo_S128x1x11x1_S_d0_1_2_3 : S128x1x11x1.ReducesTo [0, 1, 2, 3] S_
  bcast_S_S128 : S_.BroadcastsInDim S128 (![] : Fin 0 → Fin S128.rank)
  reducesTo_S128_S_d0 : S128.ReducesTo [0] S_
  bcast_S_S128x128x11x1 : S_.BroadcastsInDim S128x128x11x1 (![] : Fin 0 → Fin S128x128x11x1.rank)
  reducesTo_S128x128x11x1_S_d0_1_2_3 : S128x128x11x1.ReducesTo [0, 1, 2, 3] S_
  bcast_S_S1x128x3x1 : S_.BroadcastsInDim S1x128x3x1 (![] : Fin 0 → Fin S1x128x3x1.rank)
  reducesTo_S1x128x3x1_S_d0_1_2_3 : S1x128x3x1.ReducesTo [0, 1, 2, 3] S_
  bcast_S_S1 : S_.BroadcastsInDim S1 (![] : Fin 0 → Fin S1.rank)
  reducesTo_S1_S_d0 : S1.ReducesTo [0] S_
  bcast_S_S100x2048 : S_.BroadcastsInDim S100x2048 (![] : Fin 0 → Fin S100x2048.rank)
  reducesTo_S100x2048_S_d0_1 : S100x2048.ReducesTo [0, 1] S_
  bcast_S_S100 : S_.BroadcastsInDim S100 (![] : Fin 0 → Fin S100.rank)
  reducesTo_S100_S_d0 : S100.ReducesTo [0] S_
  bcast_S_S1x100 : S_.BroadcastsInDim S1x100 (![] : Fin 0 → Fin S1x100.rank)
  reducesTo_S1x100_S_d0_1 : S1x100.ReducesTo [0, 1] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S100x2048 .f32) (main_arg12 : FVec F S100 .f32) (main_arg13 : FVec F S1x100 .f32) (main_arg14 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S100x2048 .f32 := Host.absf main_arg11
  let main_cst_20 : FVec F S_ .f32 := constant S_ .f32 0x7F800000#32
  let main_v55 : FVec F S100x2048 .f32 := broadcastInDim S100x2048 ![] bcast_S_S100x2048 main_cst_20
  let main_v56 : IVec S100x2048 1 := cmpf .olt main_v54 main_v55
  let main_c_21 : IVec S_ 1 := constantI S_ 1 1#1
  let main_v57 : IVec S_ 1 := (fun x v => Host.reduce IntOp.andi x v reducesTo_S100x2048_S_d0_1 h_S_) main_v56 main_c_21
  let main_v58 : IVec S_ 1 := andi main_v53 main_v57
  let main_v59 : FVec F S100 .f32 := Host.absf main_arg12
  let main_cst_22 : FVec F S_ .f32 := constant S_ .f32 0x7F800000#32
  let main_v60 : FVec F S100 .f32 := broadcastInDim S100 ![] bcast_S_S100 main_cst_22
  let main_v61 : IVec S100 1 := cmpf .olt main_v59 main_v60
  let main_c_23 : IVec S_ 1 := constantI S_ 1 1#1
  let main_v62 : IVec S_ 1 := (fun x v => Host.reduce IntOp.andi x v reducesTo_S100_S_d0 h_S_) main_v61 main_c_23
  let main_v63 : IVec S_ 1 := andi main_v58 main_v62
  let main_v64 : FVec F S1x100 .f32 := Host.absf main_arg13
  let main_cst_24 : FVec F S_ .f32 := constant S_ .f32 0x7F800000#32
  let main_v65 : FVec F S1x100 .f32 := broadcastInDim S1x100 ![] bcast_S_S1x100 main_cst_24
  let main_v66 : IVec S1x100 1 := cmpf .olt main_v64 main_v65
  let main_c_25 : IVec S_ 1 := constantI S_ 1 1#1
  let main_v67 : IVec S_ 1 := (fun x v => Host.reduce IntOp.andi x v reducesTo_S1x100_S_d0_1 h_S_) main_v66 main_c_25
  fn_part4 (F := F) main_arg14 main_v63 main_v67

def fn_part2 {F : FTy → Type} [FloatOps F] (main_arg7 : FVec F S128x128x11x1 .f32) (main_arg8 : FVec F S128 .f32) (main_arg9 : FVec F S1x128x3x1 .f32) (main_arg10 : FVec F S1 .f32) (main_arg11 : FVec F S100x2048 .f32) (main_arg12 : FVec F S100 .f32) (main_arg13 : FVec F S1x100 .f32) (main_arg14 : FVec F S1 .f32) (main_v33 : IVec S_ 1) : IVec S_ 1 :=
  let main_v34 : FVec F S128x128x11x1 .f32 := Host.absf main_arg7
  let main_cst_12 : FVec F S_ .f32 := constant S_ .f32 0x7F800000#32
  let main_v35 : FVec F S128x128x11x1 .f32 := broadcastInDim S128x128x11x1 ![] bcast_S_S128x128x11x1 main_cst_12
  let main_v36 : IVec S128x128x11x1 1 := cmpf .olt main_v34 main_v35
  let main_c_13 : IVec S_ 1 := constantI S_ 1 1#1
  let main_v37 : IVec S_ 1 := (fun x v => Host.reduce IntOp.andi x v reducesTo_S128x128x11x1_S_d0_1_2_3 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128x3x1 .f32 := Host.absf main_arg9
  let main_cst_16 : FVec F S_ .f32 := constant S_ .f32 0x7F800000#32
  let main_v45 : FVec F S1x128x3x1 .f32 := broadcastInDim S1x128x3x1 ![] bcast_S_S1x128x3x1 main_cst_16
  let main_v46 : IVec S1x128x3x1 1 := cmpf .olt main_v44 main_v45
  let main_c_17 : IVec S_ 1 := constantI S_ 1 1#1
  let main_v47 : IVec S_ 1 := (fun x v => Host.reduce IntOp.andi x v reducesTo_S1x128x3x1_S_d0_1_2_3 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_v48 main_v49 main_v50

def fn_part1 {F : FTy → Type} [FloatOps F] (main_arg4 : FVec F S128 .f32) (main_arg5 : FVec F S128x128x11x1 .f32) (main_arg6 : FVec F S128 .f32) (main_arg7 : FVec F S128x128x11x1 .f32) (main_arg8 : FVec F S128 .f32) (main_arg9 : FVec F S1x128x3x1 .f32) (main_arg10 : FVec F S1 .f32) (main_arg11 : FVec F S100x2048 .f32) (main_arg12 : FVec F S100 .f32) (main_arg13 : FVec F S1x100 .f32) (main_arg14 : FVec F S1 .f32) (main_v13 : IVec S_ 1) (main_v16 : IVec S128x128x11x1 1) : IVec S_ 1 :=
  let main_c_5 : IVec S_ 1 := constantI S_ 1 1#1
  let main_v17 : IVec S_ 1 := (fun x v => Host.reduce IntOp.andi x v reducesTo_S128x128x11x1_S_d0_1_2_3 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128x11x1 .f32 := Host.absf main_arg5
  let main_cst_8 : FVec F S_ .f32 := constant S_ .f32 0x7F800000#32
  let main_v25 : FVec F S128x128x11x1 .f32 := broadcastInDim S128x128x11x1 ![] bcast_S_S128x128x11x1 main_cst_8
  let main_v26 : IVec S128x128x11x1 1 := cmpf .olt main_v24 main_v25
  let main_c_9 : IVec S_ 1 := constantI S_ 1 1#1
  let main_v27 : IVec S_ 1 := (fun x v => Host.reduce IntOp.andi x v reducesTo_S128x128x11x1_S_d0_1_2_3 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2560x1x16x128 .f32) (main_arg1 : FVec F S128x1x11x1 .f32) (main_arg2 : FVec F S128 .f32) (main_arg3 : FVec F S128x128x11x1 .f32) (main_arg4 : FVec F S128 .f32) (main_arg5 : FVec F S128x128x11x1 .f32) (main_arg6 : FVec F S128 .f32) (main_arg7 : FVec F S128x128x11x1 .f32) (main_arg8 : FVec F S128 .f32) (main_arg9 : FVec F S1x128x3x1 .f32) (main_arg10 : FVec F S1 .f32) (main_arg11 : FVec F S100x2048 .f32) (main_arg12 : FVec F S100 .f32) (main_arg13 : FVec F S1x100 .f32) (main_arg14 : FVec F S1 .f32) : IVec S_ 1 :=
  let main_v0 : FVec F S2560x1x16x128 .f32 := Host.absf main_arg0
  let main_cst : FVec F S_ .f32 := constant S_ .f32 0x7F800000#32
  let main_v1 : FVec F S2560x1x16x128 .f32 := broadcastInDim S2560x1x16x128 ![] bcast_S_S2560x1x16x128 main_cst
  let main_v2 : IVec S2560x1x16x128 1 := cmpf .olt main_v0 main_v1
  let main_c : IVec S_ 1 := constantI S_ 1 1#1
  let main_v3 : IVec S_ 1 := (fun x v => Host.reduce IntOp.andi x v reducesTo_S2560x1x16x128_S_d0_1_2_3 h_S_) main_v2 main_c
  let main_v4 : FVec F S128x1x11x1 .f32 := Host.absf main_arg1
  let main_cst_0 : FVec F S_ .f32 := constant S_ .f32 0x7F800000#32
  let main_v5 : FVec F S128x1x11x1 .f32 := broadcastInDim S128x1x11x1 ![] bcast_S_S128x1x11x1 main_cst_0
  let main_v6 : IVec S128x1x11x1 1 := cmpf .olt main_v4 main_v5
  let main_c_1 : IVec S_ 1 := constantI S_ 1 1#1
  let main_v7 : IVec S_ 1 := (fun x v => Host.reduce IntOp.andi x v reducesTo_S128x1x11x1_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128x11x1 .f32 := Host.absf main_arg3
  let main_cst_4 : FVec F S_ .f32 := constant S_ .f32 0x7F800000#32
  let main_v15 : FVec F S128x128x11x1 .f32 := broadcastInDim S128x128x11x1 ![] bcast_S_S128x128x11x1 main_cst_4
  let main_v16 : IVec S128x128x11x1 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2560x1x16x128 : Shape := ⟨4, ![2560, 1, 16, 128]⟩
abbrev S128x1x11x1 : Shape := ⟨4, ![128, 1, 11, 1]⟩
abbrev S128 : Shape := ⟨1, ![128]⟩
abbrev S128x128x11x1 : Shape := ⟨4, ![128, 128, 11, 1]⟩
abbrev S1x128x3x1 : Shape := ⟨4, ![1, 128, 3, 1]⟩
abbrev S1 : Shape := ⟨1, ![1]⟩
abbrev S100x2048 : Shape := ⟨2, ![100, 2048]⟩
abbrev S100 : Shape := ⟨1, ![100]⟩
abbrev S1x100 : Shape := ⟨2, ![1, 100]⟩
abbrev S128x11 : Shape := ⟨2, ![128, 11]⟩
abbrev S11x128 : Shape := ⟨2, ![11, 128]⟩
abbrev S128x3 : Shape := ⟨2, ![128, 3]⟩
abbrev S3x128 : Shape := ⟨2, ![3, 128]⟩
abbrev S16 : Shape := ⟨1, ![16]⟩
abbrev S16x1 : Shape := ⟨2, ![16, 1]⟩
abbrev S6 : Shape := ⟨1, ![6]⟩
abbrev S1x6 : Shape := ⟨2, ![1, 6]⟩
abbrev S_ : Shape := ⟨0, ![]⟩
abbrev S5x128 : Shape := ⟨2, ![5, 128]⟩
abbrev S21x128 : Shape := ⟨2, ![21, 128]⟩
abbrev S16x6 : Shape := ⟨2, ![16, 6]⟩
abbrev S16x6x1 : Shape := ⟨3, ![16, 6, 1]⟩
abbrev S16x6x128 : Shape := ⟨3, ![16, 6, 128]⟩
abbrev S16x768 : Shape := ⟨2, ![16, 768]⟩
abbrev S6x1 : Shape := ⟨2, ![6, 1]⟩
abbrev S1x16 : Shape := ⟨2, ![1, 16]⟩
abbrev S13x128 : Shape := ⟨2, ![13, 128]⟩
abbrev S6x16 : Shape := ⟨2, ![6, 16]⟩
abbrev S6x16x1 : Shape := ⟨3, ![6, 16, 1]⟩
abbrev S6x16x128 : Shape := ⟨3, ![6, 16, 128]⟩
abbrev S1x16x1 : Shape := ⟨3, ![1, 16, 1]⟩
abbrev S6x128x16 : Shape := ⟨3, ![6, 128, 16]⟩
abbrev S768x16 : Shape := ⟨2, ![768, 16]⟩
abbrev S1x1 : Shape := ⟨2, ![1, 1]⟩
abbrev S1x128 : Shape := ⟨2, ![1, 128]⟩
abbrev S6x128 : Shape := ⟨2, ![6, 128]⟩
abbrev S768 : Shape := ⟨1, ![768]⟩
abbrev S1x768 : Shape := ⟨2, ![1, 768]⟩
abbrev S128x128x11 : Shape := ⟨3, ![128, 128, 11]⟩
abbrev S11x128x128 : Shape := ⟨3, ![11, 128, 128]⟩
abbrev S6x128x128 : Shape := ⟨3, ![6, 128, 128]⟩
abbrev S17x128x128 : Shape := ⟨3, ![17, 128, 128]⟩
abbrev S6x6 : Shape := ⟨2, ![6, 6]⟩
abbrev S6x6x1 : Shape := ⟨3, ![6, 6, 1]⟩
abbrev S6x6x128x128 : Shape := ⟨4, ![6, 6, 128, 128]⟩
abbrev S6x128x6x128 : Shape := ⟨4, ![6, 128, 6, 128]⟩
abbrev S768x768 : Shape := ⟨2, ![768, 768]⟩
abbrev S2560x16x128 : Shape := ⟨3, ![2560, 16, 128]⟩
abbrev S2560x128x16 : Shape := ⟨3, ![2560, 128, 16]⟩
abbrev S327680x16 : Shape := ⟨2, ![327680, 16]⟩
abbrev S1024x16 : Shape := ⟨2, ![1024, 16]⟩
abbrev S1024x768 : Shape := ⟨2, ![1024, 768]⟩
abbrev S100x16x128 : Shape := ⟨3, ![100, 16, 128]⟩
abbrev S100x14x128 : Shape := ⟨3, ![100, 14, 128]⟩
abbrev S128x16x128 : Shape := ⟨3, ![128, 16, 128]⟩
abbrev S2048x128 : Shape := ⟨2, ![2048, 128]⟩
abbrev S2560x2048 : Shape := ⟨2, ![2560, 2048]⟩
abbrev S2560x1 : Shape := ⟨2, ![2560, 1]⟩
abbrev S256x2048 : Shape := ⟨2, ![256, 2048]⟩
abbrev S256x1 : Shape := ⟨2, ![256, 1]⟩
abbrev S256x128 : Shape := ⟨2, ![256, 128]⟩
abbrev S256 : Shape := ⟨1, ![256]⟩

abbrev nBuf : Space → Nat
  | .hbm => 201
  | .vmem => 22
  | .smem => 0
  | _ => 0

abbrev hbmTy0_0 (i : Nat) : BufTy := match i % 128 with
  | 0 => ⟨S2560x1x16x128, .f32⟩
  | 1 => ⟨S128x1x11x1, .f32⟩
  | 2 => ⟨S128, .f32⟩
  | 3 => ⟨S128x128x11x1, .f32⟩
  | 4 => ⟨S128, .f32⟩
  | 5 => ⟨S128x128x11x1, .f32⟩
  | 6 => ⟨S128, .f32⟩
  | 7 => ⟨S128x128x11x1, .f32⟩
  | 8 => ⟨S128, .f32⟩
  | 9 => ⟨S1x128x3x1, .f32⟩
  | 10 => ⟨S1, .f32⟩
  | 11 => ⟨S100x2048, .f32⟩
  | 12 => ⟨S100, .f32⟩
  | 13 => ⟨S1x100, .f32⟩
  | 14 => ⟨S1, .f32⟩
  | 15 => ⟨S128x11, .f32⟩
  | 16 => ⟨S11x128, .f32⟩
  | 17 => ⟨S128x3, .f32⟩
  | 18 => ⟨S3x128, .f32⟩
  | 19 => ⟨S16, .i32⟩
  | 20 => ⟨S16x1, .i32⟩
  | 21 => ⟨S6, .i32⟩
  | 22 => ⟨S1x6, .i32⟩
  | 23 => ⟨S_, .f32⟩
  | 24 => ⟨S5x128, .f32⟩
  | 25 => ⟨S_, .f32⟩
  | 26 => ⟨S5x128, .f32⟩
  | 27 => ⟨S21x128, .f32⟩
  | 28 => ⟨S16x6, .i32⟩
  | 29 => ⟨S16x6, .i32⟩
  | 30 => ⟨S16x6, .i32⟩
  | 31 => ⟨S_, .i32⟩
  | 32 => ⟨S16x6, .i32⟩
  | 33 => ⟨S16x6, .i32⟩
  | 34 => ⟨S_, .i32⟩
  | 35 => ⟨S16x6, .i32⟩
  | 36 => ⟨S16x6, .i1⟩
  | 37 => ⟨S_, .i32⟩
  | 38 => ⟨S16x6, .i32⟩
  | 39 => ⟨S16x6, .i32⟩
  | 40 => ⟨S16x6, .i32⟩
  | 41 => ⟨S16x6x1, .i32⟩
  | 42 => ⟨S16x6x128, .f32⟩
  | 43 => ⟨S16x768, .f32⟩
  | 44 => ⟨S6, .i32⟩
  | 45 => ⟨S6x1, .i32⟩
  | 46 => ⟨S16, .i32⟩
  | 47 => ⟨S1x16, .i32⟩
  | 48 => ⟨S_, .f32⟩
  | 49 => ⟨S5x128, .f32⟩
  | 50 => ⟨S_, .f32⟩
  | 51 => ⟨S13x128, .f32⟩
  | 52 => ⟨S21x128, .f32⟩
  | 53 => ⟨S_, .i32⟩
  | 54 => ⟨S6x1, .i32⟩
  | 55 => ⟨S6x1, .i32⟩
  | 56 => ⟨S6x16, .i32⟩
  | 57 => ⟨S6x16, .i32⟩
  | 58 => ⟨S6x16, .i32⟩
  | 59 => ⟨S_, .i32⟩
  | 60 => ⟨S6x16, .i32⟩
  | 61 => ⟨S6x16, .i32⟩
  | 62 => ⟨S_, .i32⟩
  | 63 => ⟨S6x16, .i32⟩
  | 64 => ⟨S6x16, .i1⟩
  | 65 => ⟨S_, .i32⟩
  | 66 => ⟨S6x16, .i32⟩
  | 67 => ⟨S6x16, .i32⟩
  | 68 => ⟨S6x16, .i32⟩
  | 69 => ⟨S6x16x1, .i32⟩
  | 70 => ⟨S6x16x128, .f32⟩
  | 71 => ⟨S_, .i32⟩
  | 72 => ⟨S1x16, .i32⟩
  | 73 => ⟨S1x16, .i1⟩
  | 74 => ⟨S1x16x1, .i1⟩
  | 75 => ⟨S_, .f32⟩
  | 76 => ⟨S_, .f32⟩
  | 77 => ⟨S6x16x128, .i1⟩
  | 78 => ⟨S6x16x128, .f32⟩
  | 79 => ⟨S6x16x128, .f32⟩
  | 80 => ⟨S6x128x16, .f32⟩
  | 81 => ⟨S768x16, .f32⟩
  | 82 => ⟨S1x1, .f32⟩
  | 83 => ⟨S1x16, .f32⟩
  | 84 => ⟨S1x128, .f32⟩
  | 85 => ⟨S6x128, .f32⟩
  | 86 => ⟨S768, .f32⟩
  | 87 => ⟨S1x768, .f32⟩
  | 88 => ⟨S128x128x11, .f32⟩
  | 89 => ⟨S11x128x128, .f32⟩
  | 90 => ⟨S_, .f32⟩
  | 91 => ⟨S6x128x128, .f32⟩
  | 92 => ⟨S17x128x128, .f32⟩
  | 93 => ⟨S6, .i32⟩
  | 94 => ⟨S6x1, .i32⟩
  | 95 => ⟨S6, .i32⟩
  | 96 => ⟨S1x6, .i32⟩
  | 97 => ⟨S_, .i32⟩
  | 98 => ⟨S6x1, .i32⟩
  | 99 => ⟨S6x1, .i32⟩
  | 100 => ⟨S6x6, .i32⟩
  | 101 => ⟨S6x6, .i32⟩
  | 102 => ⟨S6x6, .i32⟩
  | 103 => ⟨S_, .i32⟩
  | 104 => ⟨S6x6, .i32⟩
  | 105 => ⟨S6x6, .i1⟩
  | 106 => ⟨S_, .i32⟩
  | 107 => ⟨S6x6, .i32⟩
  | 108 => ⟨S6x6, .i32⟩
  | 109 => ⟨S6x6, .i32⟩
  | 110 => ⟨S6x6x1, .i32⟩
  | 111 => ⟨S6x6x128x128, .f32⟩
  | 112 => ⟨S6x128x6x128, .f32⟩
  | 113 => ⟨S768x768, .f32⟩
  | 114 => ⟨S1x128, .f32⟩
  | 115 => ⟨S6x128, .f32⟩
  | 116 => ⟨S768, .f32⟩
  | 117 => ⟨S1x768, .f32⟩
  | 118 => ⟨S128x128x11, .f32⟩
  | 119 => ⟨S11x128x128, .f32⟩
  | 120 => ⟨S_, .f32⟩
  | 121 => ⟨S6x128x128, .f32⟩
  | 122 => ⟨S17x128x128, .f32⟩
  | 123 => ⟨S6, .i32⟩
  | 124 => ⟨S6x1, .i32⟩
  | 125 => ⟨S6, .i32⟩
  | 126 => ⟨S1x6, .i32⟩
  | 127 => ⟨S_, .i32⟩
  | _ => ⟨S2560x1x16x128, .f32⟩

abbrev hbmTy0_1 (i : Nat) : BufTy := match i % 128 with
  | 0 => ⟨S6x1, .i32⟩
  | 1 => ⟨S6x1, .i32⟩
  | 2 => ⟨S6x6, .i32⟩
  | 3 => ⟨S6x6, .i32⟩
  | 4 => ⟨S6x6, .i32⟩
  | 5 => ⟨S_, .i32⟩
  | 6 => ⟨S6x6, .i32⟩
  | 7 => ⟨S6x6, .i1⟩
  | 8 => ⟨S_, .i32⟩
  | 9 => ⟨S6x6, .i32⟩
  | 10 => ⟨S6x6, .i32⟩
  | 11 => ⟨S6x6, .i32⟩
  | 12 => ⟨S6x6x1, .i32⟩
  | 13 => ⟨S6x6x128x128, .f32⟩
  | 14 => ⟨S6x128x6x128, .f32⟩
  | 15 => ⟨S768x768, .f32⟩
  | 16 => ⟨S1x128, .f32⟩
  | 17 => ⟨S6x128, .f32⟩
  | 18 => ⟨S768, .f32⟩
  | 19 => ⟨S1x768, .f32⟩
  | 20 => ⟨S128x128x11, .f32⟩
  | 21 => ⟨S11x128x128, .f32⟩
  | 22 => ⟨S_, .f32⟩
  | 23 => ⟨S6x128x128, .f32⟩
  | 24 => ⟨S17x128x128, .f32⟩
  | 25 => ⟨S6, .i32⟩
  | 26 => ⟨S6x1, .i32⟩
  | 27 => ⟨S6, .i32⟩
  | 28 => ⟨S1x6, .i32⟩
  | 29 => ⟨S_, .i32⟩
  | 30 => ⟨S6x1, .i32⟩
  | 31 => ⟨S6x1, .i32⟩
  | 32 => ⟨S6x6, .i32⟩
  | 33 => ⟨S6x6, .i32⟩
  | 34 => ⟨S6x6, .i32⟩
  | 35 => ⟨S_, .i32⟩
  | 36 => ⟨S6x6, .i32⟩
  | 37 => ⟨S6x6, .i1⟩
  | 38 => ⟨S_, .i32⟩
  | 39 => ⟨S6x6, .i32⟩
  | 40 => ⟨S6x6, .i32⟩
  | 41 => ⟨S6x6, .i32⟩
  | 42 => ⟨S6x6x1, .i32⟩
  | 43 => ⟨S6x6x128x128, .f32⟩
  | 44 => ⟨S6x128x6x128, .f32⟩
  | 45 => ⟨S768x768, .f32⟩
  | 46 => ⟨S1x128, .f32⟩
  | 47 => ⟨S6x128, .f32⟩
  | 48 => ⟨S768, .f32⟩
  | 49 => ⟨S1x768, .f32⟩
  | 50 => ⟨S2560x16x128, .f32⟩
  | 51 => ⟨S2560x128x16, .f32⟩
  | 52 => ⟨S327680x16, .f32⟩
  | 53 => ⟨S327680x16, .f32⟩
  | 54 => ⟨S100x16x128, .f32⟩
  | 55 => ⟨S100x14x128, .f32⟩
  | 56 => ⟨S_, .i32⟩
  | 57 => ⟨S_, .f32⟩
  | 58 => ⟨S128x16x128, .f32⟩
  | 59 => ⟨S128x16x128, .f32⟩
  | 60 => ⟨S2048x128, .f32⟩
  | 61 => ⟨S_, .i32⟩
  | 62 => ⟨S_, .f32⟩
  | 63 => ⟨S128, .f32⟩
  | 64 => ⟨S1x128, .f32⟩
  | 65 => ⟨S100, .f32⟩
  | 66 => ⟨S_, .i32⟩
  | 67 => ⟨S_, .f32⟩
  | 68 => ⟨S128, .f32⟩
  | 69 => ⟨S1x128, .f32⟩
  | 70 => ⟨S2560x2048, .f32⟩
  | 71 => ⟨S1x1, .f32⟩
  | 72 => ⟨S2560x1, .f32⟩
  | _ => ⟨S2560x1x16x128, .f32⟩

abbrev hbmTy (i : Nat) : BufTy := match i / 128 with
  | 0 => hbmTy0_0 i
  | 1 => hbmTy0_1 i
  | _ => ⟨S2560x1x16x128, .f32⟩

abbrev bufTy : (tb : Table) → Fin (tcTables nBuf tb) → BufTy
  | .hbm, ⟨i, _⟩ => hbmTy i
  | .local _ .vmem, ⟨0, _⟩ => ⟨S1024x16, .f32⟩
  | .local _ .vmem, ⟨1, _⟩ => ⟨S1024x16, .f32⟩
  | .local _ .vmem, ⟨2, _⟩ => ⟨S16x768, .f32⟩
  | .local _ .vmem, ⟨3, _⟩ => ⟨S1x768, .f32⟩
  | .local _ .vmem, ⟨4, _⟩ => ⟨S768x768, .f32⟩
  | .local _ .vmem, ⟨5, _⟩ => ⟨S1x768, .f32⟩
  | .local _ .vmem, ⟨6, _⟩ => ⟨S768x768, .f32⟩
  | .local _ .vmem, ⟨7, _⟩ => ⟨S1x768, .f32⟩
  | .local _ .vmem, ⟨8, _⟩ => ⟨S768x768, .f32⟩
  | .local _ .vmem, ⟨9, _⟩ => ⟨S1x768, .f32⟩
  | .local _ .vmem, ⟨10, _⟩ => ⟨S768x16, .f32⟩
  | .local _ .vmem, ⟨11, _⟩ => ⟨S1x16, .f32⟩
  | .local _ .vmem, ⟨12, _⟩ => ⟨S1024x16, .f32⟩
  | .local _ .vmem, ⟨13, _⟩ => ⟨S1024x16, .f32⟩
  | .local _ .vmem, ⟨14, _⟩ => ⟨S256x2048, .f32⟩
  | .local _ .vmem, ⟨15, _⟩ => ⟨S256x2048, .f32⟩
  | .local _ .vmem, ⟨16, _⟩ => ⟨S2048x128, .f32⟩
  | .local _ .vmem, ⟨17, _⟩ => ⟨S1x128, .f32⟩
  | .local _ .vmem, ⟨18, _⟩ => ⟨S1x128, .f32⟩
  | .local _ .vmem, ⟨19, _⟩ => ⟨S1x1, .f32⟩
  | .local _ .vmem, ⟨20, _⟩ => ⟨S256x1, .f32⟩
  | .local _ .vmem, ⟨21, _⟩ => ⟨S256x1, .f32⟩
  | _, _ => ⟨S2560x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_15 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_16 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_17 : Ref sig .tc := ⟨.hbm, 133, rfl⟩
abbrev main_v96 : Ref sig .tc := ⟨.hbm, 134, rfl⟩
abbrev main_v97 : Ref sig .tc := ⟨.hbm, 135, rfl⟩
abbrev main_c_18 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_19 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_20 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_c_21 : Ref sig .tc := ⟨.hbm, 163, rfl⟩
abbrev main_v122 : Ref sig .tc := ⟨.hbm, 164, rfl⟩
abbrev main_v123 : Ref sig .tc := ⟨.hbm, 165, rfl⟩
abbrev main_c_22 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_c_23 : Ref sig .tc := ⟨.hbm, 184, rfl⟩
abbrev main_call1_v0 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_c_24 : Ref sig .tc := ⟨.hbm, 189, rfl⟩
abbrev main_call2_v0 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_25 : Ref sig .tc := ⟨.hbm, 194, rfl⟩
abbrev main_call3_v0 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128x1x11x1_S128x11 : S128x1x11x1.ShapeCasts S128x11
  transposes_S128x11_S11x128_1_0 : S128x11.Transposes [1, 0] S11x128
  shapeCasts_S1x128x3x1_S128x3 : S1x128x3x1.ShapeCasts S128x3
  transposes_S128x3_S3x128_1_0 : S128x3.Transposes [1, 0] S3x128
  bcast_S16_S16x1_0 : S16.BroadcastsInDim S16x1 (![0] : Fin 1 → Fin S16x1.rank)
  bcast_S6_S1x6_1 : S6.BroadcastsInDim S1x6 (![1] : Fin 1 → Fin S1x6.rank)
  bcast_S_S5x128 : S_.BroadcastsInDim S5x128 (![] : Fin 0 → Fin S5x128.rank)
  concatenates_S5x128_S11x128_S5x128_S21x128_d0 : Shape.Concatenates [S5x128, S11x128, S5x128] S21x128 0
  bcast_S16x1_S16x6_0_1 : S16x1.BroadcastsInDim S16x6 (![0, 1] : Fin 2 → Fin S16x6.rank)
  bcast_S1x6_S16x6_0_1 : S1x6.BroadcastsInDim S16x6 (![0, 1] : Fin 2 → Fin S16x6.rank)
  bcast_S_S16x6 : S_.BroadcastsInDim S16x6 (![] : Fin 0 → Fin S16x6.rank)
  bcast_S16x6_S16x6x1_0_1 : S16x6.BroadcastsInDim S16x6x1 (![0, 1] : Fin 2 → Fin S16x6x1.rank)
  shapeCasts_S16x6x128_S16x768 : S16x6x128.ShapeCasts S16x768
  bcast_S6_S6x1_0 : S6.BroadcastsInDim S6x1 (![0] : Fin 1 → Fin S6x1.rank)
  bcast_S16_S1x16_1 : S16.BroadcastsInDim S1x16 (![1] : Fin 1 → Fin S1x16.rank)
  bcast_S_S13x128 : S_.BroadcastsInDim S13x128 (![] : Fin 0 → Fin S13x128.rank)
  concatenates_S5x128_S3x128_S13x128_S21x128_d0 : Shape.Concatenates [S5x128, S3x128, S13x128] S21x128 0
  bcast_S_S6x1 : S_.BroadcastsInDim S6x1 (![] : Fin 0 → Fin S6x1.rank)
  bcast_S6x1_S6x16_0_1 : S6x1.BroadcastsInDim S6x16 (![0, 1] : Fin 2 → Fin S6x16.rank)
  bcast_S1x16_S6x16_0_1 : S1x16.BroadcastsInDim S6x16 (![0, 1] : Fin 2 → Fin S6x16.rank)
  bcast_S_S6x16 : S_.BroadcastsInDim S6x16 (![] : Fin 0 → Fin S6x16.rank)
  bcast_S6x16_S6x16x1_0_1 : S6x16.BroadcastsInDim S6x16x1 (![0, 1] : Fin 2 → Fin S6x16x1.rank)
  bcast_S_S1x16 : S_.BroadcastsInDim S1x16 (![] : Fin 0 → Fin S1x16.rank)
  bcast_S1x16_S1x16x1_0_1 : S1x16.BroadcastsInDim S1x16x1 (![0, 1] : Fin 2 → Fin S1x16x1.rank)
  bcast_S1x16x1_S6x16x128_0_1_2 : S1x16x1.BroadcastsInDim S6x16x128 (![0, 1, 2] : Fin 3 → Fin S6x16x128.rank)
  bcast_S_S6x16x128 : S_.BroadcastsInDim S6x16x128 (![] : Fin 0 → Fin S6x16x128.rank)
  transposes_S6x16x128_S6x128x16_0_2_1 : S6x16x128.Transposes [0, 2, 1] S6x128x16
  shapeCasts_S6x128x16_S768x16 : S6x128x16.ShapeCasts S768x16
  shapeCasts_S1_S1x1 : S1.ShapeCasts S1x1
  bcast_S1x1_S1x16_0_1 : S1x1.BroadcastsInDim S1x16 (![0, 1] : Fin 2 → Fin S1x16.rank)
  shapeCasts_S128_S1x128 : S128.ShapeCasts S1x128
  bcast_S1x128_S6x128_0_1 : S1x128.BroadcastsInDim S6x128 (![0, 1] : Fin 2 → Fin S6x128.rank)
  shapeCasts_S6x128_S768 : S6x128.ShapeCasts S768
  bcast_S768_S1x768_1 : S768.BroadcastsInDim S1x768 (![1] : Fin 1 → Fin S1x768.rank)
  shapeCasts_S128x128x11x1_S128x128x11 : S128x128x11x1.ShapeCasts S128x128x11
  transposes_S128x128x11_S11x128x128_2_1_0 : S128x128x11.Transposes [2, 1, 0] S11x128x128
  bcast_S_S6x128x128 : S_.BroadcastsInDim S6x128x128 (![] : Fin 0 → Fin S6x128x128.rank)
  concatenates_S11x128x128_S6x128x128_S17x128x128_d0 : Shape.Concatenates [S11x128x128, S6x128x128] S17x128x128 0
  bcast_S6x1_S6x6_0_1 : S6x1.BroadcastsInDim S6x6 (![0, 1] : Fin 2 → Fin S6x6.rank)
  bcast_S1x6_S6x6_0_1 : S1x6.BroadcastsInDim S6x6 (![0, 1] : Fin 2 → Fin S6x6.rank)
  bcast_S_S6x6 : S_.BroadcastsInDim S6x6 (![] : Fin 0 → Fin S6x6.rank)
  bcast_S6x6_S6x6x1_0_1 : S6x6.BroadcastsInDim S6x6x1 (![0, 1] : Fin 2 → Fin S6x6x1.rank)
  transposes_S6x6x128x128_S6x128x6x128_0_2_1_3 : S6x6x128x128.Transposes [0, 2, 1, 3] S6x128x6x128
  shapeCasts_S6x128x6x128_S768x768 : S6x128x6x128.ShapeCasts S768x768
  shapeCasts_S2560x1x16x128_S2560x16x128 : S2560x1x16x128.ShapeCasts S2560x16x128
  transposes_S2560x16x128_S2560x128x16_0_2_1 : S2560x16x128.Transposes [0, 2, 1] S2560x128x16
  shapeCasts_S2560x128x16_S327680x16 : S2560x128x16.ShapeCasts S327680x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x768_S16x768_0_0 : ∀ a, (![0, 0] : Fin 2 → Nat) a + S16x768.size a ≤ S16x768.size a
  h_S16x768 : 0 < S16x768.numel
  shapeCasts_S16x768_S16x768 : S16x768.ShapeCasts S16x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768x16_S768x16_0_0 : ∀ a, (![0, 0] : Fin 2 → Nat) a + S768x16.size a ≤ S768x16.size a
  h_S768x16 : 0 < S768x16.numel
  shapeCasts_S768x16_S768x16 : S768x16.ShapeCasts S768x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  shapeCasts_S100x2048_S100x16x128 : S100x2048.ShapeCasts S100x16x128
  slices_S100x16x128_S100x14x128_0_2_0 : S100x16x128.Slices ![0, 2, 0] S100x14x128
  pads_S100x14x128_S128x16x128_0280_020_000 : S100x14x128.Pads (![0, 0, 0] : Fin 3 → Nat) ![28, 2, 0] ![0, 0, 0] S128x16x128
  h_S_ : 0 < S_.numel
  transposes_S128x16x128_S128x16x128_2_1_0 : S128x16x128.Transposes [2, 1, 0] S128x16x128
  shapeCasts_S128x16x128_S2048x128 : S128x16x128.ShapeCasts S2048x128
  pads_S100_S128_0280 : S100.Pads (![0] : Fin 1 → Nat) ![28] ![0] S128
  bcast_S128_S1x128_1 : S128.BroadcastsInDim S1x128 (![1] : Fin 1 → Fin S1x128.rank)
  shapeCasts_S1x100_S100 : S1x100.ShapeCasts S100
  shapeCasts_S327680x16_S2560x2048 : S327680x16.ShapeCasts S2560x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  reduces_S256x128_S256 : S256x128.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  gather_S21x128_S16x6x1_S16x6x128_2_0_n_n_0_2_1128_wf : GatherDims.WF S21x128 S16x6x1 S16x6x128 [2] [0] [] [0] [] 2 ![1, 128]
  gather_S21x128_S6x16x1_S6x16x128_2_0_n_n_0_2_1128_wf : GatherDims.WF S21x128 S6x16x1 S6x16x128 [2] [0] [] [0] [] 2 ![1, 128]
  gather_S17x128x128_S6x6x1_S6x6x128x128_23_0_n_n_0_2_1128128_wf : GatherDims.WF S17x128x128 S6x6x1 S6x6x128x128 [2, 3] [0] [] [0] [] 2 ![1, 128, 128]
  dot_S1024x16_S16x768_S1024x768_1_0_0_1_n_n_wf : DotDims.WF S1024x16 S16x768 S1024x768 [1] [0] [0] [1] [] []
  dot_S1024x768_S768x768_S1024x768_1_0_0_1_n_n_wf : DotDims.WF S1024x768 S768x768 S1024x768 [1] [0] [0] [1] [] []
  dot_S1024x768_S768x16_S1024x16_1_0_0_1_n_n_wf : DotDims.WF S1024x768 S768x16 S1024x16 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S327680x16.size a
  hwx0_0 : ∀ i : grid0.Coords, EltTy.bits .f32 = 32 ∨ (Rect.block (s := S327680x16) S1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x768.size a ≤ S16x768.size a
  hwx0_1 : ∀ i : grid0.Coords, EltTy.bits .f32 = 32 ∨ (Rect.block (s := S16x768) S16x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .f32 = 32 ∨ (Rect.block (s := S768x768) S768x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .f32 = 32 ∨ (Rect.block (s := S768x768) S768x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x16.size a ≤ S768x16.size a
  hwx0_9 : ∀ i : grid0.Coords, EltTy.bits .f32 = 32 ∨ (Rect.block (s := S768x16) S768x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x16.size a ≤ S327680x16.size a
  hwx0_11 : ∀ i : grid0.Coords, EltTy.bits .f32 = 32 ∨ (Rect.block (s := S327680x16) S1024x16.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2560x2048.size a
  hwx1_0 : ∀ i : grid1.Coords, EltTy.bits .f32 = 32 ∨ (Rect.block (s := S2560x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x128.size a
  hwx1_1 : ∀ i : grid1.Coords, EltTy.bits .f32 = 32 ∨ (Rect.block (s := S2048x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S2560x1.size a
  hwx1_5 : ∀ i : grid1.Coords, EltTy.bits .f32 = 32 ∨ (Rect.block (s := S2560x1) S256x1.size (cc1_transform_5 i) (hinb1_5 i)).WholeWords (EltTy.packing .f32)

variable [Facts₀]

def gather_S21x128_S16x6x1_S16x6x128_2_0_n_n_0_2_1128 : GatherDims S21x128 S16x6x1 S16x6x128 where
  offsetDims := [2]
  collapsedSliceDims := [0]
  operandBatchingDims := []
  startIndicesBatchingDims := []
  startIndexMap := [0]
  indexVectorDim := 2
  sliceSizes := ![1, 128]
  wf := gather_S21x128_S16x6x1_S16x6x128_2_0_n_n_0_2_1128_wf
def gather_S21x128_S6x16x1_S6x16x128_2_0_n_n_0_2_1128 : GatherDims S21x128 S6x16x1 S6x16x128 where
  offsetDims := [2]
  collapsedSliceDims := [0]
  operandBatchingDims := []
  startIndicesBatchingDims := []
  startIndexMap := [0]
  indexVectorDim := 2
  sliceSizes := ![1, 128]
  wf := gather_S21x128_S6x16x1_S6x16x128_2_0_n_n_0_2_1128_wf
def gather_S17x128x128_S6x6x1_S6x6x128x128_23_0_n_n_0_2_1128128 : GatherDims S17x128x128 S6x6x1 S6x6x128x128 where
  offsetDims := [2, 3]
  collapsedSliceDims := [0]
  operandBatchingDims := []
  startIndicesBatchingDims := []
  startIndexMap := [0]
  indexVectorDim := 2
  sliceSizes := ![1, 128, 128]
  wf := gather_S17x128x128_S6x6x1_S6x6x128x128_23_0_n_n_0_2_1128128_wf
def dot_S1024x16_S16x768_S1024x768_1_0_0_1_n_n : DotDims S1024x16 S16x768 S1024x768 where
  lhsContracting := [1]
  rhsContracting := [0]
  lhsNonContracting := [0]
  rhsNonContracting := [1]
  lhsBatch := []
  rhsBatch := []
  wf := dot_S1024x16_S16x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S768x16_S1024x16_1_0_0_1_n_n : DotDims S1024x768 S768x16 S1024x16 where
  lhsContracting := [1]
  rhsContracting := [0]
  lhsNonContracting := [0]
  rhsNonContracting := [1]
  lhsBatch := []
  rhsBatch := []
  wf := dot_S1024x768_S768x16_S1024x16_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_v137) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S16x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v78) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v82) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v104) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v108) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v130) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v134) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S768x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v52) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v138) S1024x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v149) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v143) S2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v145) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v148) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v150) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v151) S256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2560x1x16x128 : Shape := ⟨4, ![2560, 1, 16, 128]⟩
abbrev S128x1x11x1 : Shape := ⟨4, ![128, 1, 11, 1]⟩
abbrev S128 : Shape := ⟨1, ![128]⟩
abbrev S128x128x11x1 : Shape := ⟨4, ![128, 128, 11, 1]⟩
abbrev S1x128x3x1 : Shape := ⟨4, ![1, 128, 3, 1]⟩
abbrev S1 : Shape := ⟨1, ![1]⟩
abbrev S100x2048 : Shape := ⟨2, ![100, 2048]⟩
abbrev S100 : Shape := ⟨1, ![100]⟩
abbrev S1x100 : Shape := ⟨2, ![1, 100]⟩
abbrev S2560x16x128 : Shape := ⟨3, ![2560, 16, 128]⟩
abbrev S2560x16x128x1 : Shape := ⟨4, ![2560, 16, 128, 1]⟩
abbrev S128x11 : Shape := ⟨2, ![128, 11]⟩
abbrev S11x128 : Shape := ⟨2, ![11, 128]⟩
abbrev S128x128x11 : Shape := ⟨3, ![128, 128, 11]⟩
abbrev S11x128x128 : Shape := ⟨3, ![11, 128, 128]⟩
abbrev S128x3 : Shape := ⟨2, ![128, 3]⟩
abbrev S3x128 : Shape := ⟨2, ![3, 128]⟩
abbrev S1x128 : Shape := ⟨2, ![1, 128]⟩
abbrev S1x1 : Shape := ⟨2, ![1, 1]⟩
abbrev S1x16x128x1 : Shape := ⟨4, ![1, 16, 128, 1]⟩
abbrev S16x128x1 : Shape := ⟨3, ![16, 128, 1]⟩
abbrev S6x128x128 : Shape := ⟨3, ![6, 128, 128]⟩
abbrev S6x128x1 : Shape := ⟨3, ![6, 128, 1]⟩
abbrev S1x1x128 : Shape := ⟨3, ![1, 1, 128]⟩
abbrev S10x128x128 : Shape := ⟨3, ![10, 128, 128]⟩
abbrev S16x128x128 : Shape := ⟨3, ![16, 128, 128]⟩
abbrev S768x128 : Shape := ⟨2, ![768, 128]⟩
abbrev S1x128x128 : Shape := ⟨3, ![1, 128, 128]⟩
abbrev S128x128 : Shape := ⟨2, ![128, 128]⟩
abbrev S14x128x1 : Shape := ⟨3, ![14, 128, 1]⟩
abbrev S14x128x128 : Shape := ⟨3, ![14, 128, 128]⟩
abbrev S14x128 : Shape := ⟨2, ![14, 128]⟩
abbrev S2x128x1 : Shape := ⟨3, ![2, 128, 1]⟩
abbrev S2560x2048 : Shape := ⟨2, ![2560, 2048]⟩
abbrev S2048x100 : Shape := ⟨2, ![2048, 100]⟩
abbrev S2560x1 : Shape := ⟨2, ![2560, 1]⟩
abbrev S2560x100 : Shape := ⟨2, ![2560, 100]⟩
abbrev S2560 : Shape := ⟨1, ![2560]⟩

abbrev nBuf : Space → Nat
  | .hbm => 39
  | .vmem => 20
  | .smem => 0
  | _ => 0

abbrev bufTy : (tb : Table) → Fin (tcTables nBuf tb) → BufTy
  | .hbm, ⟨0, _⟩ => ⟨S2560x1x16x128, .f32⟩
  | .hbm, ⟨1, _⟩ => ⟨S128x1x11x1, .f32⟩
  | .hbm, ⟨2, _⟩ => ⟨S128, .f32⟩
  | .hbm, ⟨3, _⟩ => ⟨S128x128x11x1, .f32⟩
  | .hbm, ⟨4, _⟩ => ⟨S128, .f32⟩
  | .hbm, ⟨5, _⟩ => ⟨S128x128x11x1, .f32⟩
  | .hbm, ⟨6, _⟩ => ⟨S128, .f32⟩
  | .hbm, ⟨7, _⟩ => ⟨S128x128x11x1, .f32⟩
  | .hbm, ⟨8, _⟩ => ⟨S128, .f32⟩
  | .hbm, ⟨9, _⟩ => ⟨S1x128x3x1, .f32⟩
  | .hbm, ⟨10, _⟩ => ⟨S1, .f32⟩
  | .hbm, ⟨11, _⟩ => ⟨S100x2048, .f32⟩
  | .hbm, ⟨12, _⟩ => ⟨S100, .f32⟩
  | .hbm, ⟨13, _⟩ => ⟨S1x100, .f32⟩
  | .hbm, ⟨14, _⟩ => ⟨S1, .f32⟩
  | .hbm, ⟨15, _⟩ => ⟨S2560x16x128, .f32⟩
  | .hbm, ⟨16, _⟩ => ⟨S2560x16x128x1, .f32⟩
  | .hbm, ⟨17, _⟩ => ⟨S128x11, .f32⟩
  | .hbm, ⟨18, _⟩ => ⟨S11x128, .f32⟩
  | .hbm, ⟨19, _⟩ => ⟨S128x128x11, .f32⟩
  | .hbm, ⟨20, _⟩ => ⟨S11x128x128, .f32⟩
  | .hbm, ⟨21, _⟩ => ⟨S128x128x11, .f32⟩
  | .hbm, ⟨22, _⟩ => ⟨S11x128x128, .f32⟩
  | .hbm, ⟨23, _⟩ => ⟨S128x128x11, .f32⟩
  | .hbm, ⟨24, _⟩ => ⟨S11x128x128, .f32⟩
  | .hbm, ⟨25, _⟩ => ⟨S128x3, .f32⟩
  | .hbm, ⟨26, _⟩ => ⟨S3x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x1, .f32⟩
  | .hbm, ⟨32, _⟩ => ⟨S2560x16x128x1, .f32⟩
  | .hbm, ⟨33, _⟩ => ⟨S2560x16x128, .f32⟩
  | .hbm, ⟨34, _⟩ => ⟨S2560x2048, .f32⟩
  | .hbm, ⟨35, _⟩ => ⟨S2048x100, .f32⟩
  | .hbm, ⟨36, _⟩ => ⟨S1x100, .f32⟩
  | .hbm, ⟨37, _⟩ => ⟨S1x1, .f32⟩
  | .hbm, ⟨38, _⟩ => ⟨S2560x1, .f32⟩
  | .local _ .vmem, ⟨0, _⟩ => ⟨S1x16x128x1, .f32⟩
  | .local _ .vmem, ⟨1, _⟩ => ⟨S1x16x128x1, .f32⟩
  | .local _ .vmem, ⟨2, _⟩ => ⟨S11x128, .f32⟩
  | .local _ .vmem, ⟨3, _⟩ => ⟨S1x128, .f32⟩
  | .local _ .vmem, ⟨4, _⟩ => ⟨S11x128x128, .f32⟩
  | .local _ .vmem, ⟨5, _⟩ => ⟨S1x128, .f32⟩
  | .local _ .vmem, ⟨6, _⟩ => ⟨S11x128x128, .f32⟩
  | .local _ .vmem, ⟨7, _⟩ => ⟨S1x128, .f32⟩
  | .local _ .vmem, ⟨8, _⟩ => ⟨S11x128x128, .f32⟩
  | .local _ .vmem, ⟨9, _⟩ => ⟨S1x128, .f32⟩
  | .local _ .vmem, ⟨10, _⟩ => ⟨S3x128, .f32⟩
  | .local _ .vmem, ⟨11, _⟩ => ⟨S1x1, .f32⟩
  | .local _ .vmem, ⟨12, _⟩ => ⟨S1x16x128x1, .f32⟩
  | .local _ .vmem, ⟨13, _⟩ => ⟨S1x16x128x1, .f32⟩
  | .local _ .vmem, ⟨14, _⟩ => ⟨S2560x2048, .f32⟩
  | .local _ .vmem, ⟨15, _⟩ => ⟨S2048x100, .f32⟩
  | .local _ .vmem, ⟨16, _⟩ => ⟨S1x100, .f32⟩
  | .local _ .vmem, ⟨17, _⟩ => ⟨S1x100, .f32⟩
  | .local _ .vmem, ⟨18, _⟩ => ⟨S1x1, .f32⟩
  | .local _ .vmem, ⟨19, _⟩ => ⟨S2560x1, .f32⟩
  | _, _ => ⟨S2560x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19

abbrev nD : Nat := 1
abbrev τ : Topo := Topo.v7x

variable {F : FTy → Type} [FloatOps F]

abbrev grid0 : Pipeline.Grid := ⟨1, ![2560], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x16x128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := .none

abbrev stage1_0 : Fin 1 → Memref sig .tc .vmem S2560x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2560x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

class Facts₀ : Prop where
  shapeCasts_S2560x1x16x128_S2560x16x128 : S2560x1x16x128.ShapeCasts S2560x16x128
  bcast_S2560x16x128_S2560x16x128x1_0_1_2 : S2560x16x128.BroadcastsInDim S2560x16x128x1 (![0, 1, 2] : Fin 3 → Fin S2560x16x128x1.rank)
  shapeCasts_S128x1x11x1_S128x11 : S128x1x11x1.ShapeCasts S128x11
  transposes_S128x11_S11x128_1_0 : S128x11.Transposes [1, 0] S11x128
  shapeCasts_S128x128x11x1_S128x128x11 : S128x128x11x1.ShapeCasts S128x128x11
  transposes_S128x128x11_S11x128x128_2_1_0 : S128x128x11.Transposes [2, 1, 0] S11x128x128
  shapeCasts_S1x128x3x1_S128x3 : S1x128x3x1.ShapeCasts S128x3
  transposes_S128x3_S3x128_1_0 : S128x3.Transposes [1, 0] S3x128
  bcast_S128_S1x128_1 : S128.BroadcastsInDim S1x128 (![1] : Fin 1 → Fin S1x128.rank)
  shapeCasts_S1_S1x1 : S1.ShapeCasts S1x1
  inb_S1x16x128x1_S1x16x128x1_0_0_0_0 : ∀ a, (![0, 0, 0, 0] : Fin 4 → Nat) a + S1x16x128x1.size a ≤ S1x16x128x1.size a
  h_S1x16x128x1 : 0 < S1x16x128x1.numel
  shapeCasts_S1x16x128x1_S16x128x1 : S1x16x128x1.ShapeCasts S16x128x1
  slices_S16x128x1_o0_0_0_S6x128x1 : S16x128x1.Slices ![0, 0, 0] S6x128x1
  inb_S11x128_S1x128_0_0 : ∀ a, (![0, 0] : Fin 2 → Nat) a + S1x128.size a ≤ S11x128.size a
  h_S1x128 : 0 < S1x128.numel
  shapeCasts_S1x128_S128 : S1x128.ShapeCasts S128
  shapeCasts_S128_S1x1x128 : S128.ShapeCasts S1x1x128
  broadcasts_S6x128x1_S6x128x128 : S6x128x1.Broadcasts S6x128x128
  broadcasts_S1x1x128_S6x128x128 : S1x1x128.Broadcasts S6x128x128
  slices_S16x128x1_o1_0_0_S6x128x1 : S16x128x1.Slices ![1, 0, 0] S6x128x1
  inb_S11x128_S1x128_1_0 : ∀ a, (![1, 0] : Fin 2 → Nat) a + S1x128.size a ≤ S11x128.size a
  slices_S16x128x1_o2_0_0_S6x128x1 : S16x128x1.Slices ![2, 0, 0] S6x128x1
  inb_S11x128_S1x128_2_0 : ∀ a, (![2, 0] : Fin 2 → Nat) a + S1x128.size a ≤ S11x128.size a
  slices_S16x128x1_o3_0_0_S6x128x1 : S16x128x1.Slices ![3, 0, 0] S6x128x1
  inb_S11x128_S1x128_3_0 : ∀ a, (![3, 0] : Fin 2 → Nat) a + S1x128.size a ≤ S11x128.size a
  slices_S16x128x1_o4_0_0_S6x128x1 : S16x128x1.Slices ![4, 0, 0] S6x128x1
  inb_S11x128_S1x128_4_0 : ∀ a, (![4, 0] : Fin 2 → Nat) a + S1x128.size a ≤ S11x128.size a
  slices_S16x128x1_o5_0_0_S6x128x1 : S16x128x1.Slices ![5, 0, 0] S6x128x1
  inb_S11x128_S1x128_5_0 : ∀ a, (![5, 0] : Fin 2 → Nat) a + S1x128.size a ≤ S11x128.size a
  slices_S16x128x1_o6_0_0_S6x128x1 : S16x128x1.Slices ![6, 0, 0] S6x128x1
  inb_S11x128_S1x128_6_0 : ∀ a, (![6, 0] : Fin 2 → Nat) a + S1x128.size a ≤ S11x128.size a
  slices_S16x128x1_o7_0_0_S6x128x1 : S16x128x1.Slices ![7, 0, 0] S6x128x1
  inb_S11x128_S1x128_7_0 : ∀ a, (![7, 0] : Fin 2 → Nat) a + S1x128.size a ≤ S11x128.size a
  slices_S16x128x1_o8_0_0_S6x128x1 : S16x128x1.Slices ![8, 0, 0] S6x128x1
  inb_S11x128_S1x128_8_0 : ∀ a, (![8, 0] : Fin 2 → Nat) a + S1x128.size a ≤ S11x128.size a
  slices_S16x128x1_o9_0_0_S6x128x1 : S16x128x1.Slices ![9, 0, 0] S6x128x1
  inb_S11x128_S1x128_9_0 : ∀ a, (![9, 0] : Fin 2 → Nat) a + S1x128.size a ≤ S11x128.size a
  slices_S16x128x1_o10_0_0_S6x128x1 : S16x128x1.Slices ![10, 0, 0] S6x128x1
  inb_S11x128_S1x128_10_0 : ∀ a, (![10, 0] : Fin 2 → Nat) a + S1x128.size a ≤ S11x128.size a
  inb_S1x128_S1x128_0_0 : ∀ a, (![0, 0] : Fin 2 → Nat) a + S1x128.size a ≤ S1x128.size a
  shapeCasts_S1x128_S1x128 : S1x128.ShapeCasts S1x128
  shapeCasts_S1x128_S1x1x128 : S1x128.ShapeCasts S1x1x128
  concatenates_S10x128x128_S6x128x128_S16x128x128_d0 : Shape.Concatenates [S10x128x128, S6x128x128] S16x128x128 0
  slices_S16x128x128_o0_0_0_S6x128x128 : S16x128x128.Slices ![0, 0, 0] S6x128x128
  shapeCasts_S6x128x128_S768x128 : S6x128x128.ShapeCasts S768x128
  inb_S11x128x128_S1x128x128_0_0_0 : ∀ a, (![0, 0, 0] : Fin 3 → Nat) a + S1x128x128.size a ≤ S11x128x128.size a
  h_S1x128x128 : 0 < S1x128x128.numel
  shapeCasts_S1x128x128_S128x128 : S1x128x128.ShapeCasts S128x128
  slices_S16x128x128_o1_0_0_S6x128x128 : S16x128x128.Slices ![1, 0, 0] S6x128x128
  inb_S11x128x128_S1x128x128_1_0_0 : ∀ a, (![1, 0, 0] : Fin 3 → Nat) a + S1x128x128.size a ≤ S11x128x128.size a
  slices_S16x128x128_o2_0_0_S6x128x128 : S16x128x128.Slices ![2, 0, 0] S6x128x128
  inb_S11x128x128_S1x128x128_2_0_0 : ∀ a, (![2, 0, 0] : Fin 3 → Nat) a + S1x128x128.size a ≤ S11x128x128.size a
  slices_S16x128x128_o3_0_0_S6x128x128 : S16x128x128.Slices ![3, 0, 0] S6x128x128
  inb_S11x128x128_S1x128x128_3_0_0 : ∀ a, (![3, 0, 0] : Fin 3 → Nat) a + S1x128x128.size a ≤ S11x128x128.size a
  slices_S16x128x128_o4_0_0_S6x128x128 : S16x128x128.Slices ![4, 0, 0] S6x128x128
  inb_S11x128x128_S1x128x128_4_0_0 : ∀ a, (![4, 0, 0] : Fin 3 → Nat) a + S1x128x128.size a ≤ S11x128x128.size a
  slices_S16x128x128_o5_0_0_S6x128x128 : S16x128x128.Slices ![5, 0, 0] S6x128x128
  inb_S11x128x128_S1x128x128_5_0_0 : ∀ a, (![5, 0, 0] : Fin 3 → Nat) a + S1x128x128.size a ≤ S11x128x128.size a
  slices_S16x128x128_o6_0_0_S6x128x128 : S16x128x128.Slices ![6, 0, 0] S6x128x128
  inb_S11x128x128_S1x128x128_6_0_0 : ∀ a, (![6, 0, 0] : Fin 3 → Nat) a + S1x128x128.size a ≤ S11x128x128.size a
  slices_S16x128x128_o7_0_0_S6x128x128 : S16x128x128.Slices ![7, 0, 0] S6x128x128
  inb_S11x128x128_S1x128x128_7_0_0 : ∀ a, (![7, 0, 0] : Fin 3 → Nat) a + S1x128x128.size a ≤ S11x128x128.size a
  slices_S16x128x128_o8_0_0_S6x128x128 : S16x128x128.Slices ![8, 0, 0] S6x128x128
  inb_S11x128x128_S1x128x128_8_0_0 : ∀ a, (![8, 0, 0] : Fin 3 → Nat) a + S1x128x128.size a ≤ S11x128x128.size a
  slices_S16x128x128_o9_0_0_S6x128x128 : S16x128x128.Slices ![9, 0, 0] S6x128x128
  inb_S11x128x128_S1x128x128_9_0_0 : ∀ a, (![9, 0, 0] : Fin 3 → Nat) a + S1x128x128.size a ≤ S11x128x128.size a
  slices_S16x128x128_o10_0_0_S6x128x128 : S16x128x128.Slices ![10, 0, 0] S6x128x128
  inb_S11x128x128_S1x128x128_10_0_0 : ∀ a, (![10, 0, 0] : Fin 3 → Nat) a + S1x128x128.size a ≤ S11x128x128.size a
  broadcasts_S1x128_S768x128 : S1x128.Broadcasts S768x128
  shapeCasts_S768x128_S6x128x128 : S768x128.ShapeCasts S6x128x128
  slices_S16x128x128_o0_0_0_S14x128x128 : S16x128x128.Slices ![0, 0, 0] S14x128x128
  inb_S3x128_S1x128_0_0 : ∀ a, (![0, 0] : Fin 2 → Nat) a + S1x128.size a ≤ S3x128.size a
  broadcasts_S1x1x128_S14x128x128 : S1x1x128.Broadcasts S14x128x128
  reduces_S14x128x128_S14x128 : S14x128x128.Reduces [2] S14x128
  shapeCasts_S14x128_S14x128x1 : S14x128.ShapeCasts S14x128x1
  slices_S16x128x128_o1_0_0_S14x128x128 : S16x128x128.Slices ![1, 0, 0] S14x128x128
  inb_S3x128_S1x128_1_0 : ∀ a, (![1, 0] : Fin 2 → Nat) a + S1x128.size a ≤ S3x128.size a
  slices_S16x128x128_o2_0_0_S14x128x128 : S16x128x128.Slices ![2, 0, 0] S14x128x128
  inb_S3x128_S1x128_2_0 : ∀ a, (![2, 0] : Fin 2 → Nat) a + S1x128.size a ≤ S3x128.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  concatenates_S2x128x1_S14x128x1_S16x128x1_d0 : Shape.Concatenates [S2x128x1, S14x128x1] S16x128x1 0
  shapeCasts_S16x128x1_S1x16x128x1 : S16x128x1.ShapeCasts S1x16x128x1
  shapeCasts_S2560x16x128x1_S2560x16x128 : S2560x16x128x1.ShapeCasts S2560x16x128
  shapeCasts_S2560x16x128_S2560x2048 : S2560x16x128.ShapeCasts S2560x2048
  transposes_S100x2048_S2048x100_1_0 : S100x2048.Transposes [1, 0] S2048x100
  bcast_S100_S1x100_1 : S100.BroadcastsInDim S1x100 (![1] : Fin 1 → Fin S1x100.rank)
  inb_S2560x2048_S2560x2048_0_0 : ∀ a, (![0, 0] : Fin 2 → Nat) a + S2560x2048.size a ≤ S2560x2048.size a
  h_S2560x2048 : 0 < S2560x2048.numel
  shapeCasts_S2560x2048_S2560x2048 : S2560x2048.ShapeCasts S2560x2048
  inb_S2048x100_S2048x100_0_0 : ∀ a, (![0, 0] : Fin 2 → Nat) a + S2048x100.size a ≤ S2048x100.size a
  h_S2048x100 : 0 < S2048x100.numel
  shapeCasts_S2048x100_S2048x100 : S2048x100.ShapeCasts S2048x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2560x100 : S1x100.Broadcasts S2560x100
  reduces_S2560x100_S2560 : S2560x100.Reduces [1] S2560
  shapeCasts_S2560_S2560x1 : S2560.ShapeCasts S2560x1
  shapeCasts_S1x1_S1x1 : S1x1.ShapeCasts S1x1
  broadcasts_S1x1_S2560x1 : S1x1.Broadcasts S2560x1
  inb_S2560x1_S2560x1_0_0 : ∀ a, (![0, 0] : Fin 2 → Nat) a + S2560x1.size a ≤ S2560x1.size a
  h_S2560x1 : 0 < S2560x1.numel
  dot_S768x128_S128x128_S768x128_1_0_0_1_n_n_wf : DotDims.WF S768x128 S128x128 S768x128 [1] [0] [0] [1] [] []
  dot_S2560x2048_S2048x100_S2560x100_1_0_0_1_n_n_wf : DotDims.WF S2560x2048 S2048x100 S2560x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x1.size a ≤ S2560x16x128x1.size a
  hwx0_0 : ∀ i : grid0.Coords, EltTy.bits .f32 = 32 ∨ (Rect.block (s := S2560x16x128x1) S1x16x128x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11x128x128.size a ≤ S11x128x128.size a
  hwx0_3 : ∀ i : grid0.Coords, EltTy.bits .f32 = 32 ∨ (Rect.block (s := S11x128x128) S11x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S11x128x128.size a ≤ S11x128x128.size a
  hwx0_5 : ∀ i : grid0.Coords, EltTy.bits .f32 = 32 ∨ (Rect.block (s := S11x128x128) S11x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S11x128x128.size a ≤ S11x128x128.size a
  hwx0_7 : ∀ i : grid0.Coords, EltTy.bits .f32 = 32 ∨ (Rect.block (s := S11x128x128) S11x128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x128.size a ≤ S3x128.size a
  hwx0_9 : ∀ i : grid0.Coords, EltTy.bits .f32 = 32 ∨ (Rect.block (s := S3x128) S3x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16x128x1.size a ≤ S2560x16x128x1.size a
  hwx0_11 : ∀ i : grid0.Coords, EltTy.bits .f32 = 32 ∨ (Rect.block (s := S2560x16x128x1) S1x16x128x1.size (cc0_transform_11 i) (hinb0_11 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole

variable [Facts₀]

def dot_S768x128_S128x128_S768x128_1_0_0_1_n_n : DotDims S768x128 S128x128 S768x128 where
  lhsContracting := [1]
  rhsContracting := [0]
  lhsNonContracting := [0]
  rhsNonContracting := [1]
  lhsBatch := []
  rhsBatch := []
  wf := dot_S768x128_S128x128_S768x128_1_0_0_1_n_n_wf
def dot_S2560x2048_S2048x100_S2560x100_1_0_0_1_n_n : DotDims S2560x2048 S2048x100 S2560x100 where
  lhsContracting := [1]
  rhsContracting := [0]
  lhsNonContracting := [0]
  rhsNonContracting := [1]
  lhsBatch := []
  rhsBatch := []
  wf := dot_S2560x2048_S2048x100_S2560x100_1_0_0_1_n_n_wf

abbrev win0_0 : Pipeline.Window sig grid0 :=
  Pipeline.Window.ofSpec (Memref.whole main_v1) S1x16x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S11x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S11x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S11x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S3x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x16x128x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.whole (Memref.whole main_v19) false false (stage1_0 0) (sem1_0 0) (Memref.isWhole_whole _) (hstage1_0 0)

abbrev win1_1 : Pipeline.Window sig grid1 :=
  Pipeline.Window.whole (Memref.whole main_v20) false false (stage1_1 0) (sem1_1 0) (Memref.isWhole_whole _) (hstage1_1 0)

abbrev win1_2 : Pipeline.Window sig grid1 :=
  Pipeline.Window.whole (Memref.whole main_v21) false false (stage1_2 0) (sem1_2 0) (Memref.isWhole_whole _) (hstage1_2 0)

abbrev win1_3 : Pipeline.Window sig grid1 :=
  Pipeline.Window.whole (Memref.whole main_arg13) false false (stage1_3 0) (sem1_3 0) (Memref.isWhole_whole _) (hstage1_3 0)

abbrev win1_4 : Pipeline.Window sig grid1 :=
  Pipeline.Window.whole (Memref.whole main_v22) false false (stage1_4 0) (sem1_4 0) (Memref.isWhole_whole _) (hstage1_4 0)

abbrev win1_5 : Pipeline.Window sig grid1 :=
  Pipeline.Window.whole (Memref.whole main_v23) true false (stage1_5 0) (sem1_5 0) (Memref.isWhole_whole _) (hstage1_5 0)

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.KernelRun.lean ====
/-
  The run of `Kernel`'s @main, written out: two pipelined regions (the banded convolution stack over blocks of 1024 rows,
  then the dense head over blocks of 256 rows) among stretches of host operations that build the banded weight
  matrices and re-lay the head's weights. Per region: each window's block at a grid point, what the body leaves in the
  output block as a function of the input blocks, the body's triple, the pipeline's proof data and its obligation.
  Then the buffer contents at every boundary between segments, a fold from the launch memory, and the launch over the
  segments: every unscoped buffer ends at the last boundary's contents. Nothing here depends on the float instance.
-/
import proofs.«109392_g2000007139875455_pallasbulk_612_2_alg».proof.Proof.Gen.Kernel.Launch
import proofs.«109392_g2000007139875455_pallasbulk_612_2_alg».proof.Proof.Gen.Kernel.Skeleton
import proofs.«109392_g2000007139875455_pallasbulk_612_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the windows' blocks at the contents `V` the region is entered with -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

abbrev rIn0_0 : Rect S1024x16 := Rect.unit (s := S1024x16) ![0, 0] S1024x16.size inb_S1024x16_S1024x16_0_0
abbrev rIn0_1 : Rect S16x768 := Rect.unit (s := S16x768) ![0, 0] S16x768.size inb_S16x768_S16x768_0_0
abbrev rIn0_2 : Rect S1x768 := Rect.unit (s := S1x768) ![0, 0] S1x768.size inb_S1x768_S1x768_0_0
abbrev rIn0_3 : Rect S768x768 := Rect.unit (s := S768x768) ![0, 0] S768x768.size inb_S768x768_S768x768_0_0
abbrev rIn0_4 : Rect S1x768 := Rect.unit (s := S1x768) ![0, 0] S1x768.size inb_S1x768_S1x768_0_0
abbrev rIn0_5 : Rect S768x768 := Rect.unit (s := S768x768) ![0, 0] S768x768.size inb_S768x768_S768x768_0_0
abbrev rIn0_6 : Rect S1x768 := Rect.unit (s := S1x768) ![0, 0] S1x768.size inb_S1x768_S1x768_0_0
abbrev rIn0_7 : Rect S768x768 := Rect.unit (s := S768x768) ![0, 0] S768x768.size inb_S768x768_S768x768_0_0
abbrev rIn0_8 : Rect S1x768 := Rect.unit (s := S1x768) ![0, 0] S1x768.size inb_S1x768_S1x768_0_0
abbrev rIn0_9 : Rect S768x16 := Rect.unit (s := S768x16) ![0, 0] S768x16.size inb_S768x16_S768x16_0_0
abbrev rIn0_10 : Rect S1x16 := Rect.unit (s := S1x16) ![0, 0] S1x16.size inb_S1x16_S1x16_0_0
abbrev rOut0 : Rect S1024x16 := Rect.unit (s := S1024x16) ![0, 0] S1024x16.size inb_S1024x16_S1024x16_0_0

/-- The output block after the body, from the input blocks: the body's one store, whole. -/
def out0 (x0 : Vec F S1024x16 .f32) (x1 : Vec F S16x768 .f32) (x2 : Vec F S1x768 .f32) (x3 : Vec F S768x768 .f32) (x4 : Vec F S1x768 .f32) (x5 : Vec F S768x768 .f32) (x6 : Vec F S1x768 .f32) (x7 : Vec F S768x768 .f32) (x8 : Vec F S1x768 .f32) (x9 : Vec F S768x16 .f32) (x10 : Vec F S1x16 .f32) : Vec F S1024x16 .f32 :=
  View.canon [⟨rOut0, k0_pay1 (k0_pay2 (View.ld x0 rIn0_0) (View.ld x1 rIn0_1) (View.ld x2 rIn0_2) (View.ld x3 rIn0_3) (View.ld x4 rIn0_4) (View.ld x5 rIn0_5) (View.ld x6 rIn0_6) (View.ld x7 rIn0_7) (View.ld x8 rIn0_8)) (View.ld x9 rIn0_9) (View.ld x10 rIn0_10)⟩]

/-- The one store covers the block. -/
theorem cover0 (p0 : Vec F S1024x16 .f32) (y : S1024x16.Idx) :
    ∃ pc ∈ ([⟨rOut0, p0⟩] : List (View.Piece (Elt F) S1024x16 .f32)), y ∈ pc.1.set :=
  View.cover_of_tiled [⟨rOut0, p0⟩] S1024x16.size (by rfl) y

set_option maxHeartbeats 8000000 in
/-- The body on whole staging buffers: the inputs are read and left as they were, the output ends at `out0` of them. -/
theorem sound_kernel0 (c : Dev nD) (E : Set ℕ) (i : grid0.Coords) (arg1 : Memref sig .tc .vmem S1024x16 .f32) (harg1 : arg1.IsWhole) (arg2 : Memref sig .tc .vmem S16x768 .f32) (harg2 : arg2.IsWhole) (arg3 : Memref sig .tc .vmem S1x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S768x16 .f32) (harg10 : arg10.IsWhole) (arg11 : Memref sig .tc .vmem S1x16 .f32) (harg11 : arg11.IsWhole) (arg12 : Memref sig .tc .vmem S1024x16 .f32) (harg12 : arg12.IsWhole)
    (x0 : Vec F S1024x16 .f32) (x1 : Vec F S16x768 .f32) (x2 : Vec F S1x768 .f32) (x3 : Vec F S768x768 .f32) (x4 : Vec F S1x768 .f32) (x5 : Vec F S768x768 .f32) (x6 : Vec F S1x768 .f32) (x7 : Vec F S768x768 .f32) (x8 : Vec F S1x768 .f32) (x9 : Vec F S768x16 .f32) (x10 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0 x0 x1 x2 x3 x4 x5 x6 x7 x8 x9 x10)) -∗ K ⟨⟩))
      ⊢ wp frame (wpE (defs₀ (F := F)) Variants.none c none) E (cc0__conv_stack_kernel i arg1 harg1 arg2 harg2 arg3 harg3 arg4 harg4 arg5 harg5 arg6 harg6 arg7 harg7 arg8 harg8 arg9 harg9 arg10 harg10 arg11 harg11 arg12 harg12) K := by
  simp only [cc0__conv_stack_kernel_eq_skeleton]; unfold cc0__conv_stack_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0 _)

/-- The pipeline's proof data on core `c`: the arrays as the region finds them; after the body each input's buffer at its
    block and the output's at `out0` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' buffers hold their blocks, so the triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation0 (c : Dev nD) : BodyObligation (dat0 (F := F) V c) (defs₀ (F := F)) Variants.none () Set.univ := fun t => by
  rw [bigSep_W0, bigSep_W0]
  exact sound_body0 V c t

/-! # Region 1: the windows' blocks at the contents `V` the region is entered with -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, whether the point fetches it or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, whether the point fetches it or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rIn1_0 : Rect S256x2048 := Rect.unit (s := S256x2048) ![0, 0] S256x2048.size inb_S256x2048_S256x2048_0_0
abbrev rIn1_1 : Rect S2048x128 := Rect.unit (s := S2048x128) ![0, 0] S2048x128.size inb_S2048x128_S2048x128_0_0
abbrev rIn1_2 : Rect S1x128 := Rect.unit (s := S1x128) ![0, 0] S1x128.size inb_S1x128_S1x128_0_0
abbrev rIn1_3 : Rect S1x128 := Rect.unit (s := S1x128) ![0, 0] S1x128.size inb_S1x128_S1x128_0_0
abbrev rIn1_4 : Rect S1x1 := Rect.unit (s := S1x1) ![0, 0] S1x1.size inb_S1x1_S1x1_0_0
abbrev rOut1 : Rect S256x1 := Rect.unit (s := S256x1) ![0, 0] S256x1.size inb_S256x1_S256x1_0_0

/-- The output block after the body, from the input blocks: the body's one store, whole. -/
def out1 (x0 : Vec F S256x2048 .f32) (x1 : Vec F S2048x128 .f32) (x2 : Vec F S1x128 .f32) (x3 : Vec F S1x128 .f32) (x4 : Vec F S1x1 .f32) : Vec F S256x1 .f32 :=
  View.canon [⟨rOut1, k1_pay1 (View.ld x0 rIn1_0) (View.ld x1 rIn1_1) (View.ld x2 rIn1_2) (View.ld x3 rIn1_3) (View.ld x4 rIn1_4)⟩]

/-- The one store covers the block. -/
theorem cover1 (p0 : Vec F S256x1 .f32) (y : S256x1.Idx) :
    ∃ pc ∈ ([⟨rOut1, p0⟩] : List (View.Piece (Elt F) S256x1 .f32)), y ∈ pc.1.set :=
  View.cover_of_tiled [⟨rOut1, p0⟩] S256x1.size (by rfl) y

set_option maxHeartbeats 8000000 in
/-- The body on whole staging buffers: the inputs are read and left as they were, the output ends at `out1` of them. -/
theorem sound_kernel1 (c : Dev nD) (E : Set ℕ) (i : grid1.Coords) (arg1 : Memref sig .tc .vmem S256x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S256x1 .f32) (harg6 : arg6.IsWhole)
    (x0 : Vec F S256x2048 .f32) (x1 : Vec F S2048x128 .f32) (x2 : Vec F S1x128 .f32) (x3 : Vec F S1x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1 x0 x1 x2 x3 x4)) -∗ K ⟨⟩))
      ⊢ wp frame (wpE (defs₀ (F := F)) Variants.none c none) E (cc1__head_kernel i arg1 harg1 arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1 _)

/-- The pipeline's proof data on core `c`: the arrays as the region finds them; after the body each input's buffer at its
    block and the output's at `out1` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

/-! # The run: the buffer contents at each boundary between segments, a fold through @main -/

/-- Core `c`'s buffers at launch. -/
abbrev B0 : Dev nD → Valuation τ sig (Elt F) := fun c b => (s₀ m ρ).mem ((c : Dev nD), b)
abbrev B1 : Dev nD → Valuation τ sig (Elt F) := fun c => StableHlo.after hostOps0 (B0 m ρ c)
abbrev B2 : Dev nD → Valuation τ sig (Elt F) := fun c => StableHlo.after hostOps0_1 (B1 m ρ c)
abbrev B3 : Dev nD → Valuation τ sig (Elt F) := fun c => StableHlo.after hostOps0_2 (B2 m ρ c)
/-- The contents region 0 is entered with, read at the TensorCore's references. -/
abbrev V3 : (c : Dev nD) → (b : Ref sig .tc) → Buf (Elt F) ((c : Thread nD τ).loc b) := fun c b => B3 m ρ c b
/-- At region 0's exit: its arrays at what the pipeline leaves, every other buffer as entered. -/
def B4 (c : Dev nD) : Valuation τ sig (Elt F) :=
  Pipeline.withArrays spec0 c (B3 m ρ c) fun w => (dat0 (V3 m ρ) c).arrAt w cfg0.N
theorem B4_arr (c : Dev nD) (w : Fin cfg0.W) :
    B4 m ρ c (Proc.devRef .tc (Pipeline.arrRef spec0 w)) = (dat0 (V3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev V4 : (c : Dev nD) → (b : Ref sig .tc) → Buf (Elt F) ((c : Thread nD τ).loc b) := fun c b => B4 m ρ c b
theorem hF0 (c : Dev nD) (w : Fin cfg0.W) : (dat0 (V3 m ρ) c).arrAt w cfg0.N = V4 m ρ c (Pipeline.arrRef spec0 w) :=
  (B4_arr m ρ c w).symm
theorem hrest0 (c : Dev nD) : ∀ b, b ∉ Finset.univ.image (Pipeline.arrRef spec0) → V4 m ρ c b = V3 m ρ c b :=
  fun b hb => B4_of_ne m ρ c b fun w e => hb (Finset.mem_image.mpr ⟨w, Finset.mem_univ _, e⟩)

abbrev B5 : Dev nD → Valuation τ sig (Elt F) := fun c => StableHlo.after hostOps1 (B4 m ρ c)
abbrev B6 : Dev nD → Valuation τ sig (Elt F) := fun c => StableHlo.after hostOps1_1 (B5 m ρ c)
abbrev B7 : Dev nD → Valuation τ sig (Elt F) := fun c => StableHlo.after hostOps1_2 (B6 m ρ c)
abbrev B8 : Dev nD → Valuation τ sig (Elt F) := fun c => StableHlo.after hostOps1_3 (B7 m ρ c)
abbrev B9 : Dev nD → Valuation τ sig (Elt F) := fun c => StableHlo.after hostOps1_4 (B8 m ρ c)
abbrev B10 : Dev nD → Valuation τ sig (Elt F) := fun c => StableHlo.after hostOps1_5 (B9 m ρ c)
abbrev B11 : Dev nD → Valuation τ sig (Elt F) := fun c => StableHlo.after hostOps1_6 (B10 m ρ c)
/-- The contents region 1 is entered with, read at the TensorCore's references. -/
abbrev V11 : (c : Dev nD) → (b : Ref sig .tc) → Buf (Elt F) ((c : Thread nD τ).loc b) := fun c b => B11 m ρ c b
/-- At region 1's exit: its arrays at what the pipeline leaves, every other buffer as entered. -/
def B12 (c : Dev nD) : Valuation τ sig (Elt F) :=
  Pipeline.withArrays spec1 c (B11 m ρ c) fun w => (dat1 (V11 m ρ) c).arrAt w cfg1.N
theorem B12_arr (c : Dev nD) (w : Fin cfg1.W) :
    B12 m ρ c (Proc.devRef .tc (Pipeline.arrRef spec1 w)) = (dat1 (V11 m ρ) c).arrAt w cfg1.N := by
  unfold B12; exact Pipeline.withArrays_arr spec1 launch1.win.arr_inj c _ _ w
theorem B12_of_ne (c : Dev nD) (b : Ref sig .tc) (hb : ∀ w, Pipeline.arrRef spec1 w ≠ b) :
    B12 m ρ c (Proc.devRef .tc b) = B11 m ρ c (Proc.devRef .tc b) := by
  unfold B12; exact Pipeline.withArrays_of_ne spec1 c _ _ b hb
abbrev V12 : (c : Dev nD) → (b : Ref sig .tc) → Buf (Elt F) ((c : Thread nD τ).loc b) := fun c b => B12 m ρ c b
theorem hF1 (c : Dev nD) (w : Fin cfg1.W) : (dat1 (V11 m ρ) c).arrAt w cfg1.N = V12 m ρ c (Pipeline.arrRef spec1 w) :=
  (B12_arr m ρ c w).symm
theorem hrest1 (c : Dev nD) : ∀ b, b ∉ Finset.univ.image (Pipeline.arrRef spec1) → V12 m ρ c b = V11 m ρ c b :=
  fun b hb => B12_of_ne m ρ c b fun w e => hb (Finset.mem_image.mpr ⟨w, Finset.mem_univ _, e⟩)

/-! ### No host operation and no region writes an argument's buffer: the fold at it walks back to the launch memory -/

/-- A stretch of host operations none of which writes `b` leaves `b` as it was. -/
local macro "stretch_keeps " ops:ident : term => `(StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide))))

theorem B12_main_arg0 (c : Dev nD) : B12 m ρ c (Proc.devRef .tc main_arg0) = m ((c : Thread nD τ).loc main_arg0) :=
  calc B12 m ρ c (Proc.devRef .tc main_arg0)
    _ = B11 m ρ c (Proc.devRef .tc main_arg0) := B12_of_ne m ρ c main_arg0 (by decide)
    _ = B10 m ρ c (Proc.devRef .tc main_arg0) := stretch_keeps hostOps1_6
    _ = B9 m ρ c (Proc.devRef .tc main_arg0) := stretch_keeps hostOps1_5
    _ = B8 m ρ c (Proc.devRef .tc main_arg0) := stretch_keeps hostOps1_4
    _ = B7 m ρ c (Proc.devRef .tc main_arg0) := stretch_keeps hostOps1_3
    _ = B6 m ρ c (Proc.devRef .tc main_arg0) := stretch_keeps hostOps1_2
    _ = B5 m ρ c (Proc.devRef .tc main_arg0) := stretch_keeps hostOps1_1
    _ = B4 m ρ c (Proc.devRef .tc main_arg0) := stretch_keeps hostOps1
    _ = B3 m ρ c (Proc.devRef .tc main_arg0) := B4_of_ne m ρ c main_arg0 (by decide)
    _ = B2 m ρ c (Proc.devRef .tc main_arg0) := stretch_keeps hostOps0_2
    _ = B1 m ρ c (Proc.devRef .tc main_arg0) := stretch_keeps hostOps0_1
    _ = B0 m ρ c (Proc.devRef .tc main_arg0) := stretch_keeps hostOps0
    _ = m ((c : Thread nD τ).loc main_arg0) := rfl

theorem B12_main_arg1 (c : Dev nD) : B12 m ρ c (Proc.devRef .tc main_arg1) = m ((c : Thread nD τ).loc main_arg1) :=
  calc B12 m ρ c (Proc.devRef .tc main_arg1)
    _ = B11 m ρ c (Proc.devRef .tc main_arg1) := B12_of_ne m ρ c main_arg1 (by decide)
    _ = B10 m ρ c (Proc.devRef .tc main_arg1) := stretch_keeps hostOps1_6
    _ = B9 m ρ c (Proc.devRef .tc main_arg1) := stretch_keeps hostOps1_5
    _ = B8 m ρ c (Proc.devRef .tc main_arg1) := stretch_keeps hostOps1_4
    _ = B7 m ρ c (Proc.devRef .tc main_arg1) := stretch_keeps hostOps1_3
    _ = B6 m ρ c (Proc.devRef .tc main_arg1) := stretch_keeps hostOps1_2
    _ = B5 m ρ c (Proc.devRef .tc main_arg1) := stretch_keeps hostOps1_1
    _ = B4 m ρ c (Proc.devRef .tc main_arg1) := stretch_keeps hostOps1
    _ = B3 m ρ c (Proc.devRef .tc main_arg1) := B4_of_ne m ρ c main_arg1 (by decide)
    _ = B2 m ρ c (Proc.devRef .tc main_arg1) := stretch_keeps hostOps0_2
    _ = B1 m ρ c (Proc.devRef .tc main_arg1) := stretch_keeps hostOps0_1
    _ = B0 m ρ c (Proc.devRef .tc main_arg1) := stretch_keeps hostOps0
    _ = m ((c : Thread nD τ).loc main_arg1) := rfl

theorem B12_main_arg2 (c : Dev nD) : B12 m ρ c (Proc.devRef .tc main_arg2) = m ((c : Thread nD τ).loc main_arg2) :=
  calc B12 m ρ c (Proc.devRef .tc main_arg2)
    _ = B11 m ρ c (Proc.devRef .tc main_arg2) := B12_of_ne m ρ c main_arg2 (by decide)
    _ = B10 m ρ c (Proc.devRef .tc main_arg2) := stretch_keeps hostOps1_6
    _ = B9 m ρ c (Proc.devRef .tc main_arg2) := stretch_keeps hostOps1_5
    _ = B8 m ρ c (Proc.devRef .tc main_arg2) := stretch_keeps hostOps1_4
    _ = B7 m ρ c (Proc.devRef .tc main_arg2) := stretch_keeps hostOps1_3
    _ = B6 m ρ c (Proc.devRef .tc main_arg2) := stretch_keeps hostOps1_2
    _ = B5 m ρ c (Proc.devRef .tc main_arg2) := stretch_keeps hostOps1_1
    _ = B4 m ρ c (Proc.devRef .tc main_arg2) := stretch_keeps hostOps1
    _ = B3 m ρ c (Proc.devRef .tc main_arg2) := B4_of_ne m ρ c main_arg2 (by decide)
    _ = B2 m ρ c (Proc.devRef .tc main_arg2) := stretch_keeps hostOps0_2
    _ = B1 m ρ c (Proc.devRef .tc main_arg2) := stretch_keeps hostOps0_1
    _ = B0 m ρ c (Proc.devRef .tc main_arg2) := stretch_keeps hostOps0
    _ = m ((c : Thread nD τ).loc main_arg2) := rfl

theorem B12_main_arg3 (c : Dev nD) : B12 m ρ c (Proc.devRef .tc main_arg3) = m ((c : Thread nD τ).loc main_arg3) :=
  calc B12 m ρ c (Proc.devRef .tc main_arg3)
    _ = B11 m ρ c (Proc.devRef .tc main_arg3) := B12_of_ne m ρ c main_arg3 (by decide)
    _ = B10 m ρ c (Proc.devRef .tc main_arg3) := stretch_keeps hostOps1_6
    _ = B9 m ρ c (Proc.devRef .tc main_arg3) := stretch_keeps hostOps1_5
    _ = B8 m ρ c (Proc.devRef .tc main_arg3) := stretch_keeps hostOps1_4
    _ = B7 m ρ c (Proc.devRef .tc main_arg3) := stretch_keeps hostOps1_3
    _ = B6 m ρ c (Proc.devRef .tc main_arg3) := stretch_keeps hostOps1_2
    _ = B5 m ρ c (Proc.devRef .tc main_arg3) := stretch_keeps hostOps1_1
    _ = B4 m ρ c (Proc.devRef .tc main_arg3) := stretch_keeps hostOps1
    _ = B3 m ρ c (Proc.devRef .tc main_arg3) := B4_of_ne m ρ c main_arg3 (by decide)
    _ = B2 m ρ c (Proc.devRef .tc main_arg3) := stretch_keeps hostOps0_2
    _ = B1 m ρ c (Proc.devRef .tc main_arg3) := stretch_keeps hostOps0_1
    _ = B0 m ρ c (Proc.devRef .tc main_arg3) := stretch_keeps hostOps0
    _ = m ((c : Thread nD τ).loc main_arg3) := rfl

theorem B12_main_arg4 (c : Dev nD) : B12 m ρ c (Proc.devRef .tc main_arg4) = m ((c : Thread nD τ).loc main_arg4) :=
  calc B12 m ρ c (Proc.devRef .tc main_arg4)
    _ = B11 m ρ c (Proc.devRef .tc main_arg4) := B12_of_ne m ρ c main_arg4 (by decide)
    _ = B10 m ρ c (Proc.devRef .tc main_arg4) := stretch_keeps hostOps1_6
    _ = B9 m ρ c (Proc.devRef .tc main_arg4) := stretch_keeps hostOps1_5
    _ = B8 m ρ c (Proc.devRef .tc main_arg4) := stretch_keeps hostOps1_4
    _ = B7 m ρ c (Proc.devRef .tc main_arg4) := stretch_keeps hostOps1_3
    _ = B6 m ρ c (Proc.devRef .tc main_arg4) := stretch_keeps hostOps1_2
    _ = B5 m ρ c (Proc.devRef .tc main_arg4) := stretch_keeps hostOps1_1
    _ = B4 m ρ c (Proc.devRef .tc main_arg4) := stretch_keeps hostOps1
    _ = B3 m ρ c (Proc.devRef .tc main_arg4) := B4_of_ne m ρ c main_arg4 (by decide)
    _ = B2 m ρ c (Proc.devRef .tc main_arg4) := stretch_keeps hostOps0_2
    _ = B1 m ρ c (Proc.devRef .tc main_arg4) := stretch_keeps hostOps0_1
    _ = B0 m ρ c (Proc.devRef .tc main_arg4) := stretch_keeps hostOps0
    _ = m ((c : Thread nD τ).loc main_arg4) := rfl

theorem B12_main_arg5 (c : Dev nD) : B12 m ρ c (Proc.devRef .tc main_arg5) = m ((c : Thread nD τ).loc main_arg5) :=
  calc B12 m ρ c (Proc.devRef .tc main_arg5)
    _ = B11 m ρ c (Proc.devRef .tc main_arg5) := B12_of_ne m ρ c main_arg5 (by decide)
    _ = B10 m ρ c (Proc.devRef .tc main_arg5) := stretch_keeps hostOps1_6
    _ = B9 m ρ c (Proc.devRef .tc main_arg5) := stretch_keeps hostOps1_5
    _ = B8 m ρ c (Proc.devRef .tc main_arg5) := stretch_keeps hostOps1_4
    _ = B7 m ρ c (Proc.devRef .tc main_arg5) := stretch_keeps hostOps1_3
    _ = B6 m ρ c (Proc.devRef .tc main_arg5) := stretch_keeps hostOps1_2
    _ = B5 m ρ c (Proc.devRef .tc main_arg5) := stretch_keeps hostOps1_1
    _ = B4 m ρ c (Proc.devRef .tc main_arg5) := stretch_keeps hostOps1
    _ = B3 m ρ c (Proc.devRef .tc main_arg5) := B4_of_ne m ρ c main_arg5 (by decide)
    _ = B2 m ρ c (Proc.devRef .tc main_arg5) := stretch_keeps hostOps0_2
    _ = B1 m ρ c (Proc.devRef .tc main_arg5) := stretch_keeps hostOps0_1
    _ = B0 m ρ c (Proc.devRef .tc main_arg5) := stretch_keeps hostOps0
    _ = m ((c : Thread nD τ).loc main_arg5) := rfl

theorem B12_main_arg6 (c : Dev nD) : B12 m ρ c (Proc.devRef .tc main_arg6) = m ((c : Thread nD τ).loc main_arg6) :=
  calc B12 m ρ c (Proc.devRef .tc main_arg6)
    _ = B11 m ρ c (Proc.devRef .tc main_arg6) := B12_of_ne m ρ c main_arg6 (by decide)
    _ = B10 m ρ c (Proc.devRef .tc main_arg6) := stretch_keeps hostOps1_6
    _ = B9 m ρ c (Proc.devRef .tc main_arg6) := stretch_keeps hostOps1_5
    _ = B8 m ρ c (Proc.devRef .tc main_arg6) := stretch_keeps hostOps1_4
    _ = B7 m ρ c (Proc.devRef .tc main_arg6) := stretch_keeps hostOps1_3
    _ = B6 m ρ c (Proc.devRef .tc main_arg6) := stretch_keeps hostOps1_2
    _ = B5 m ρ c (Proc.devRef .tc main_arg6) := stretch_keeps hostOps1_1
    _ = B4 m ρ c (Proc.devRef .tc main_arg6) := stretch_keeps hostOps1
    _ = B3 m ρ c (Proc.devRef .tc main_arg6) := B4_of_ne m ρ c main_arg6 (by decide)
    _ = B2 m ρ c (Proc.devRef .tc main_arg6) := stretch_keeps hostOps0_2
    _ = B1 m ρ c (Proc.devRef .tc main_arg6) := stretch_keeps hostOps0_1
    _ = B0 m ρ c (Proc.devRef .tc main_arg6) := stretch_keeps hostOps0
    _ = m ((c : Thread nD τ).loc main_arg6) := rfl

theorem B12_main_arg7 (c : Dev nD) : B12 m ρ c (Proc.devRef .tc main_arg7) = m ((c : Thread nD τ).loc main_arg7) :=
  calc B12 m ρ c (Proc.devRef .tc main_arg7)
    _ = B11 m ρ c (Proc.devRef .tc main_arg7) := B12_of_ne m ρ c main_arg7 (by decide)
    _ = B10 m ρ c (Proc.devRef .tc main_arg7) := stretch_keeps hostOps1_6
    _ = B9 m ρ c (Proc.devRef .tc main_arg7) := stretch_keeps hostOps1_5
    _ = B8 m ρ c (Proc.devRef .tc main_arg7) := stretch_keeps hostOps1_4
    _ = B7 m ρ c (Proc.devRef .tc main_arg7) := stretch_keeps hostOps1_3
    _ = B6 m ρ c (Proc.devRef .tc main_arg7) := stretch_keeps hostOps1_2
    _ = B5 m ρ c (Proc.devRef .tc main_arg7) := stretch_keeps hostOps1_1
    _ = B4 m ρ c (Proc.devRef .tc main_arg7) := stretch_keeps hostOps1
    _ = B3 m ρ c (Proc.devRef .tc main_arg7) := B4_of_ne m ρ c main_arg7 (by decide)
    _ = B2 m ρ c (Proc.devRef .tc main_arg7) := stretch_keeps hostOps0_2
    _ = B1 m ρ c (Proc.devRef .tc main_arg7) := stretch_keeps hostOps0_1
    _ = B0 m ρ c (Proc.devRef .tc main_arg7) := stretch_keeps hostOps0
    _ = m ((c : Thread nD τ).loc main_arg7) := rfl

theorem B12_main_arg8 (c : Dev nD) : B12 m ρ c (Proc.devRef .tc main_arg8) = m ((c : Thread nD τ).loc main_arg8) :=
  calc B12 m ρ c (Proc.devRef .tc main_arg8)
    _ = B11 m ρ c (Proc.devRef .tc main_arg8) := B12_of_ne m ρ c main_arg8 (by decide)
    _ = B10 m ρ c (Proc.devRef .tc main_arg8) := stretch_keeps hostOps1_6
    _ = B9 m ρ c (Proc.devRef .tc main_arg8) := stretch_keeps hostOps1_5
    _ = B8 m ρ c (Proc.devRef .tc main_arg8) := stretch_keeps hostOps1_4
    _ = B7 m ρ c (Proc.devRef .tc main_arg8) := stretch_keeps hostOps1_3
    _ = B6 m ρ c (Proc.devRef .tc main_arg8) := stretch_keeps hostOps1_2
    _ = B5 m ρ c (Proc.devRef .tc main_arg8) := stretch_keeps hostOps1_1
    _ = B4 m ρ c (Proc.devRef .tc main_arg8) := stretch_keeps hostOps1
    _ = B3 m ρ c (Proc.devRef .tc main_arg8) := B4_of_ne m ρ c main_arg8 (by decide)
    _ = B2 m ρ c (Proc.devRef .tc main_arg8) := stretch_keeps hostOps0_2
    _ = B1 m ρ c (Proc.devRef .tc main_arg8) := stretch_keeps hostOps0_1
    _ = B0 m ρ c (Proc.devRef .tc main_arg8) := stretch_keeps hostOps0
    _ = m ((c : Thread nD τ).loc main_arg8) := rfl

theorem B12_main_arg9 (c : Dev nD) : B12 m ρ c (Proc.devRef .tc main_arg9) = m ((c : Thread nD τ).loc main_arg9) :=
  calc B12 m ρ c (Proc.devRef .tc main_arg9)
    _ = B11 m ρ c (Proc.devRef .tc main_arg9) := B12_of_ne m ρ c main_arg9 (by decide)
    _ = B10 m ρ c (Proc.devRef .tc main_arg9) := stretch_keeps hostOps1_6
    _ = B9 m ρ c (Proc.devRef .tc main_arg9) := stretch_keeps hostOps1_5
    _ = B8 m ρ c (Proc.devRef .tc main_arg9) := stretch_keeps hostOps1_4
    _ = B7 m ρ c (Proc.devRef .tc main_arg9) := stretch_keeps hostOps1_3
    _ = B6 m ρ c (Proc.devRef .tc main_arg9) := stretch_keeps hostOps1_2
    _ = B5 m ρ c (Proc.devRef .tc main_arg9) := stretch_keeps hostOps1_1
    _ = B4 m ρ c (Proc.devRef .tc main_arg9) := stretch_keeps hostOps1
    _ = B3 m ρ c (Proc.devRef .tc main_arg9) := B4_of_ne m ρ c main_arg9 (by decide)
    _ = B2 m ρ c (Proc.devRef .tc main_arg9) := stretch_keeps hostOps0_2
    _ = B1 m ρ c (Proc.devRef .tc main_arg9) := stretch_keeps hostOps0_1
    _ = B0 m ρ c (Proc.devRef .tc main_arg9) := stretch_keeps hostOps0
    _ = m ((c : Thread nD τ).loc main_arg9) := rfl

theorem B12_main_arg10 (c : Dev nD) : B12 m ρ c (Proc.devRef .tc main_arg10) = m ((c : Thread nD τ).loc main_arg10) :=
  calc B12 m ρ c (Proc.devRef .tc main_arg10)
    _ = B11 m ρ c (Proc.devRef .tc main_arg10) := B12_of_ne m ρ c main_arg10 (by decide)
    _ = B10 m ρ c (Proc.devRef .tc main_arg10) := stretch_keeps hostOps1_6
    _ = B9 m ρ c (Proc.devRef .tc main_arg10) := stretch_keeps hostOps1_5
    _ = B8 m ρ c (Proc.devRef .tc main_arg10) := stretch_keeps hostOps1_4
    _ = B7 m ρ c (Proc.devRef .tc main_arg10) := stretch_keeps hostOps1_3
    _ = B6 m ρ c (Proc.devRef .tc main_arg10) := stretch_keeps hostOps1_2
    _ = B5 m ρ c (Proc.devRef .tc main_arg10) := stretch_keeps hostOps1_1
    _ = B4 m ρ c (Proc.devRef .tc main_arg10) := stretch_keeps hostOps1
    _ = B3 m ρ c (Proc.devRef .tc main_arg10) := B4_of_ne m ρ c main_arg10 (by decide)
    _ = B2 m ρ c (Proc.devRef .tc main_arg10) := stretch_keeps hostOps0_2
    _ = B1 m ρ c (Proc.devRef .tc main_arg10) := stretch_keeps hostOps0_1
    _ = B0 m ρ c (Proc.devRef .tc main_arg10) := stretch_keeps hostOps0
    _ = m ((c : Thread nD τ).loc main_arg10) := rfl

theorem B12_main_arg11 (c : Dev nD) : B12 m ρ c (Proc.devRef .tc main_arg11) = m ((c : Thread nD τ).loc main_arg11) :=
  calc B12 m ρ c (Proc.devRef .tc main_arg11)
    _ = B11 m ρ c (Proc.devRef .tc main_arg11) := B12_of_ne m ρ c main_arg11 (by decide)
    _ = B10 m ρ c (Proc.devRef .tc main_arg11) := stretch_keeps hostOps1_6
    _ = B9 m ρ c (Proc.devRef .tc main_arg11) := stretch_keeps hostOps1_5
    _ = B8 m ρ c (Proc.devRef .tc main_arg11) := stretch_keeps hostOps1_4
    _ = B7 m ρ c (Proc.devRef .tc main_arg11) := stretch_keeps hostOps1_3
    _ = B6 m ρ c (Proc.devRef .tc main_arg11) := stretch_keeps hostOps1_2
    _ = B5 m ρ c (Proc.devRef .tc main_arg11) := stretch_keeps hostOps1_1
    _ = B4 m ρ c (Proc.devRef .tc main_arg11) := stretch_keeps hostOps1
    _ = B3 m ρ c (Proc.devRef .tc main_arg11) := B4_of_ne m ρ c main_arg11 (by decide)
    _ = B2 m ρ c (Proc.devRef .tc main_arg11) := stretch_keeps hostOps0_2
    _ = B1 m ρ c (Proc.devRef .tc main_arg11) := stretch_keeps hostOps0_1
    _ = B0 m ρ c (Proc.devRef .tc main_arg11) := stretch_keeps hostOps0
    _ = m ((c : Thread nD τ).loc main_arg11) := rfl

theorem B12_main_arg12 (c : Dev nD) : B12 m ρ c (Proc.devRef .tc main_arg12) = m ((c : Thread nD τ).loc main_arg12) :=
  calc B12 m ρ c (Proc.devRef .tc main_arg12)
    _ = B11 m ρ c (Proc.devRef .tc main_arg12) := B12_of_ne m ρ c main_arg12 (by decide)
    _ = B10 m ρ c (Proc.devRef .tc main_arg12) := stretch_keeps hostOps1_6
    _ = B9 m ρ c (Proc.devRef .tc main_arg12) := stretch_keeps hostOps1_5
    _ = B8 m ρ c (Proc.devRef .tc main_arg12) := stretch_keeps hostOps1_4
    _ = B7 m ρ c (Proc.devRef .tc main_arg12) := stretch_keeps hostOps1_3
    _ = B6 m ρ c (Proc.devRef .tc main_arg12) := stretch_keeps hostOps1_2
    _ = B5 m ρ c (Proc.devRef .tc main_arg12) := stretch_keeps hostOps1_1
    _ = B4 m ρ c (Proc.devRef .tc main_arg12) := stretch_keeps hostOps1
    _ = B3 m ρ c (Proc.devRef .tc main_arg12) := B4_of_ne m ρ c main_arg12 (by decide)
    _ = B2 m ρ c (Proc.devRef .tc main_arg12) := stretch_keeps hostOps0_2
    _ = B1 m ρ c (Proc.devRef .tc main_arg12) := stretch_keeps hostOps0_1
    _ = B0 m ρ c (Proc.devRef .tc main_arg12) := stretch_keeps hostOps0
    _ = m ((c : Thread nD τ).loc main_arg12) := rfl

theorem B12_main_arg13 (c : Dev nD) : B12 m ρ c (Proc.devRef .tc main_arg13) = m ((c : Thread nD τ).loc main_arg13) :=
  calc B12 m ρ c (Proc.devRef .tc main_arg13)
    _ = B11 m ρ c (Proc.devRef .tc main_arg13) := B12_of_ne m ρ c main_arg13 (by decide)
    _ = B10 m ρ c (Proc.devRef .tc main_arg13) := stretch_keeps hostOps1_6
    _ = B9 m ρ c (Proc.devRef .tc main_arg13) := stretch_keeps hostOps1_5
    _ = B8 m ρ c (Proc.devRef .tc main_arg13) := stretch_keeps hostOps1_4
    _ = B7 m ρ c (Proc.devRef .tc main_arg13) := stretch_keeps hostOps1_3
    _ = B6 m ρ c (Proc.devRef .tc main_arg13) := stretch_keeps hostOps1_2
    _ = B5 m ρ c (Proc.devRef .tc main_arg13) := stretch_keeps hostOps1_1
    _ = B4 m ρ c (Proc.devRef .tc main_arg13) := stretch_keeps hostOps1
    _ = B3 m ρ c (Proc.devRef .tc main_arg13) := B4_of_ne m ρ c main_arg13 (by decide)
    _ = B2 m ρ c (Proc.devRef .tc main_arg13) := stretch_keeps hostOps0_2
    _ = B1 m ρ c (Proc.devRef .tc main_arg13) := stretch_keeps hostOps0_1
    _ = B0 m ρ c (Proc.devRef .tc main_arg13) := stretch_keeps hostOps0
    _ = m ((c : Thread nD τ).loc main_arg13) := rfl

theorem B12_main_arg14 (c : Dev nD) : B12 m ρ c (Proc.devRef .tc main_arg14) = m ((c : Thread nD τ).loc main_arg14) :=
  calc B12 m ρ c (Proc.devRef .tc main_arg14)
    _ = B11 m ρ c (Proc.devRef .tc main_arg14) := B12_of_ne m ρ c main_arg14 (by decide)
    _ = B10 m ρ c (Proc.devRef .tc main_arg14) := stretch_keeps hostOps1_6
    _ = B9 m ρ c (Proc.devRef .tc main_arg14) := stretch_keeps hostOps1_5
    _ = B8 m ρ c (Proc.devRef .tc main_arg14) := stretch_keeps hostOps1_4
    _ = B7 m ρ c (Proc.devRef .tc main_arg14) := stretch_keeps hostOps1_3
    _ = B6 m ρ c (Proc.devRef .tc main_arg14) := stretch_keeps hostOps1_2
    _ = B5 m ρ c (Proc.devRef .tc main_arg14) := stretch_keeps hostOps1_1
    _ = B4 m ρ c (Proc.devRef .tc main_arg14) := stretch_keeps hostOps1
    _ = B3 m ρ c (Proc.devRef .tc main_arg14) := B4_of_ne m ρ c main_arg14 (by decide)
    _ = B2 m ρ c (Proc.devRef .tc main_arg14) := stretch_keeps hostOps0_2
    _ = B1 m ρ c (Proc.devRef .tc main_arg14) := stretch_keeps hostOps0_1
    _ = B0 m ρ c (Proc.devRef .tc main_arg14) := stretch_keeps hostOps0
    _ = m ((c : Thread nD τ).loc main_arg14) := rfl

/-! ## The pipelines' proof data, the thread state between segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (B12 m ρ c) ∗ ∃ r, prngReg c r)

set_option backward.isDefEq.respectTransparency.types false in
/-- Region 0 over the thread state: entered with every unscoped buffer at `B3`, left at `B4`; its arrays split out of
    the unscoped buffers and put back at the exit contents; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B11`, left at `B12`; its arrays split out of
    the unscoped buffers and put back at the exit contents; the generator register into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (B11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's twelve segments in order. -/
abbrev segs : List (Pipeline.Seg (pcfgs (F := F)) adm (pdats m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (reg0 m ρ),
    .host (hseg hostOps1 hostOps1_sub hostOps1_fresh (B4 m ρ)),
    .host (hseg hostOps1_1 hostOps1_1_sub hostOps1_1_fresh (B5 m ρ)),
    .host (hseg hostOps1_2 hostOps1_2_sub hostOps1_2_fresh (B6 m ρ)),
    .host (hseg hostOps1_3 hostOps1_3_sub hostOps1_3_fresh (B7 m ρ)),
    .host (hseg hostOps1_4 hostOps1_4_sub hostOps1_4_fresh (B8 m ρ)),
    .host (hseg hostOps1_5 hostOps1_5_sub hostOps1_5_fresh (B9 m ρ)),
    .host (hseg hostOps1_6 hostOps1_6_sub hostOps1_6_fresh (B10 m ρ)),
    .region (reg1 m ρ) ]
set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- From any memory with zero counters every weakly fair execution of @main terminates, nothing faulting, and in every
    final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun s h c =>
      ⟨(h c _ (mem_uc main_arg0 (by decide))).trans (B12_main_arg0 m ρ c),
       (h c _ (mem_uc main_arg1 (by decide))).trans (B12_main_arg1 m ρ c),
       (h c _ (mem_uc main_arg2 (by decide))).trans (B12_main_arg2 m ρ c),
       (h c _ (mem_uc main_arg3 (by decide))).trans (B12_main_arg3 m ρ c),
       (h c _ (mem_uc main_arg4 (by decide))).trans (B12_main_arg4 m ρ c),
       (h c _ (mem_uc main_arg5 (by decide))).trans (B12_main_arg5 m ρ c),
       (h c _ (mem_uc main_arg6 (by decide))).trans (B12_main_arg6 m ρ c),
       (h c _ (mem_uc main_arg7 (by decide))).trans (B12_main_arg7 m ρ c),
       (h c _ (mem_uc main_arg8 (by decide))).trans (B12_main_arg8 m ρ c),
       (h c _ (mem_uc main_arg9 (by decide))).trans (B12_main_arg9 m ρ c),
       (h c _ (mem_uc main_arg10 (by decide))).trans (B12_main_arg10 m ρ c),
       (h c _ (mem_uc main_arg11 (by decide))).trans (B12_main_arg11 m ρ c),
       (h c _ (mem_uc main_arg12 (by decide))).trans (B12_main_arg12 m ρ c),
       (h c _ (mem_uc main_arg13 (by decide))).trans (B12_main_arg13 m ρ c),
       (h c _ (mem_uc main_arg14 (by decide))).trans (B12_main_arg14 m ρ c)⟩)
    (run_all m ρ)

/-- The run with the result named: the result buffer ends at what the head's pipeline leaves in its output array, and
    every argument array as launched. -/
theorem run_result : θ_run defs (onTc (τ := τ) (main (F := F))) ⟨m, fun _ => 0, ρ⟩ (fun r => ∀ c : Dev nD,
      r.2.mem ((c.tc : Thread nD τ).loc main_v151) = (dat1 (V11 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun s h c =>
      ⟨(h c _ (mem_uc main_v151 (by decide))).trans (B12_arr m ρ c 5),
       (h c _ (mem_uc main_arg0 (by decide))).trans (B12_main_arg0 m ρ c),
       (h c _ (mem_uc main_arg1 (by decide))).trans (B12_main_arg1 m ρ c),
       (h c _ (mem_uc main_arg2 (by decide))).trans (B12_main_arg2 m ρ c),
       (h c _ (mem_uc main_arg3 (by decide))).trans (B12_main_arg3 m ρ c),
       (h c _ (mem_uc main_arg4 (by decide))).trans (B12_main_arg4 m ρ c),
       (h c _ (mem_uc main_arg5 (by decide))).trans (B12_main_arg5 m ρ c),
       (h c _ (mem_uc main_arg6 (by decide))).trans (B12_main_arg6 m ρ c),
       (h c _ (mem_uc main_arg7 (by decide))).trans (B12_main_arg7 m ρ c),
       (h c _ (mem_uc main_arg8 (by decide))).trans (B12_main_arg8 m ρ c),
       (h c _ (mem_uc main_arg9 (by decide))).trans (B12_main_arg9 m ρ c),
       (h c _ (mem_uc main_arg10 (by decide))).trans (B12_main_arg10 m ρ c),
       (h c _ (mem_uc main_arg11 (by decide))).trans (B12_main_arg11 m ρ c),
       (h c _ (mem_uc main_arg12 (by decide))).trans (B12_main_arg12 m ρ c),
       (h c _ (mem_uc main_arg13 (by decide))).trans (B12_main_arg13 m ρ c),
       (h c _ (mem_uc main_arg14 (by decide))).trans (B12_main_arg14 m ρ c)⟩)
    (run_all m ρ)

end Cert.Kernel.Run

end
-- ==== Proof.KernelIdealRun.lean ====
/-
  The run of `KernelIdeal`'s @main, written out: two pipelined regions (the banded convolution stack over blocks of 1024 rows,
  then the dense head over blocks of 256 rows) among stretches of host operations that build the banded weight
  matrices and re-lay the head's weights. Per region: each window's block at a grid point, what the body leaves in the
  output block as a function of the input blocks, the body's triple, the pipeline's proof data and its obligation.
  Then the buffer contents at every boundary between segments, a fold from the launch memory, and the launch over the
  segments: every unscoped buffer ends at the last boundary's contents. Nothing here depends on the float instance.
-/
import proofs.«109392_g2000007139875455_pallasbulk_612_2_alg».proof.Proof.Gen.KernelIdeal.Launch
import proofs.«109392_g2000007139875455_pallasbulk_612_2_alg».proof.Proof.Gen.KernelIdeal.Skeleton
import proofs.«109392_g2000007139875455_pallasbulk_612_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the windows' blocks at the contents `V` the region is entered with -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, whether the point fetches it or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

abbrev rIn0_0 : Rect S1024x16 := Rect.unit (s := S1024x16) ![0, 0] S1024x16.size inb_S1024x16_S1024x16_0_0
abbrev rIn0_1 : Rect S16x768 := Rect.unit (s := S16x768) ![0, 0] S16x768.size inb_S16x768_S16x768_0_0
abbrev rIn0_2 : Rect S1x768 := Rect.unit (s := S1x768) ![0, 0] S1x768.size inb_S1x768_S1x768_0_0
abbrev rIn0_3 : Rect S768x768 := Rect.unit (s := S768x768) ![0, 0] S768x768.size inb_S768x768_S768x768_0_0
abbrev rIn0_4 : Rect S1x768 := Rect.unit (s := S1x768) ![0, 0] S1x768.size inb_S1x768_S1x768_0_0
abbrev rIn0_5 : Rect S768x768 := Rect.unit (s := S768x768) ![0, 0] S768x768.size inb_S768x768_S768x768_0_0
abbrev rIn0_6 : Rect S1x768 := Rect.unit (s := S1x768) ![0, 0] S1x768.size inb_S1x768_S1x768_0_0
abbrev rIn0_7 : Rect S768x768 := Rect.unit (s := S768x768) ![0, 0] S768x768.size inb_S768x768_S768x768_0_0
abbrev rIn0_8 : Rect S1x768 := Rect.unit (s := S1x768) ![0, 0] S1x768.size inb_S1x768_S1x768_0_0
abbrev rIn0_9 : Rect S768x16 := Rect.unit (s := S768x16) ![0, 0] S768x16.size inb_S768x16_S768x16_0_0
abbrev rIn0_10 : Rect S1x16 := Rect.unit (s := S1x16) ![0, 0] S1x16.size inb_S1x16_S1x16_0_0
abbrev rOut0 : Rect S1024x16 := Rect.unit (s := S1024x16) ![0, 0] S1024x16.size inb_S1024x16_S1024x16_0_0

/-- The output block after the body, from the input blocks: the body's one store, whole. -/
def out0 (x0 : Vec F S1024x16 .f32) (x1 : Vec F S16x768 .f32) (x2 : Vec F S1x768 .f32) (x3 : Vec F S768x768 .f32) (x4 : Vec F S1x768 .f32) (x5 : Vec F S768x768 .f32) (x6 : Vec F S1x768 .f32) (x7 : Vec F S768x768 .f32) (x8 : Vec F S1x768 .f32) (x9 : Vec F S768x16 .f32) (x10 : Vec F S1x16 .f32) : Vec F S1024x16 .f32 :=
  View.canon [⟨rOut0, k0_pay1 (k0_pay2 (View.ld x0 rIn0_0) (View.ld x1 rIn0_1) (View.ld x2 rIn0_2) (View.ld x3 rIn0_3) (View.ld x4 rIn0_4) (View.ld x5 rIn0_5) (View.ld x6 rIn0_6) (View.ld x7 rIn0_7) (View.ld x8 rIn0_8)) (View.ld x9 rIn0_9) (View.ld x10 rIn0_10)⟩]

/-- The one store covers the block. -/
theorem cover0 (p0 : Vec F S1024x16 .f32) (y : S1024x16.Idx) :
    ∃ pc ∈ ([⟨rOut0, p0⟩] : List (View.Piece (Elt F) S1024x16 .f32)), y ∈ pc.1.set :=
  View.cover_of_tiled [⟨rOut0, p0⟩] S1024x16.size (by rfl) y

set_option maxHeartbeats 8000000 in
/-- The body on whole staging buffers: the inputs are read and left as they were, the output ends at `out0` of them. -/
theorem sound_kernel0 (c : Dev nD) (E : Set ℕ) (i : grid0.Coords) (arg1 : Memref sig .tc .vmem S1024x16 .f32) (harg1 : arg1.IsWhole) (arg2 : Memref sig .tc .vmem S16x768 .f32) (harg2 : arg2.IsWhole) (arg3 : Memref sig .tc .vmem S1x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S768x16 .f32) (harg10 : arg10.IsWhole) (arg11 : Memref sig .tc .vmem S1x16 .f32) (harg11 : arg11.IsWhole) (arg12 : Memref sig .tc .vmem S1024x16 .f32) (harg12 : arg12.IsWhole)
    (x0 : Vec F S1024x16 .f32) (x1 : Vec F S16x768 .f32) (x2 : Vec F S1x768 .f32) (x3 : Vec F S768x768 .f32) (x4 : Vec F S1x768 .f32) (x5 : Vec F S768x768 .f32) (x6 : Vec F S1x768 .f32) (x7 : Vec F S768x768 .f32) (x8 : Vec F S1x768 .f32) (x9 : Vec F S768x16 .f32) (x10 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0 x0 x1 x2 x3 x4 x5 x6 x7 x8 x9 x10)) -∗ K ⟨⟩))
      ⊢ wp frame (wpE (defs₀ (F := F)) Variants.none c none) E (cc0__conv_stack_kernel i arg1 harg1 arg2 harg2 arg3 harg3 arg4 harg4 arg5 harg5 arg6 harg6 arg7 harg7 arg8 harg8 arg9 harg9 arg10 harg10 arg11 harg11 arg12 harg12) K := by
  simp only [cc0__conv_stack_kernel_eq_skeleton]; unfold cc0__conv_stack_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0 _)

/-- The pipeline's proof data on core `c`: the arrays as the region finds them; after the body each input's buffer at its
    block and the output's at `out0` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' buffers hold their blocks, so the triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation0 (c : Dev nD) : BodyObligation (dat0 (F := F) V c) (defs₀ (F := F)) Variants.none () Set.univ := fun t => by
  rw [bigSep_W0, bigSep_W0]
  exact sound_body0 V c t

/-! # Region 1: the windows' blocks at the contents `V` the region is entered with -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, whether the point fetches it or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, whether the point fetches it or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rIn1_0 : Rect S256x2048 := Rect.unit (s := S256x2048) ![0, 0] S256x2048.size inb_S256x2048_S256x2048_0_0
abbrev rIn1_1 : Rect S2048x128 := Rect.unit (s := S2048x128) ![0, 0] S2048x128.size inb_S2048x128_S2048x128_0_0
abbrev rIn1_2 : Rect S1x128 := Rect.unit (s := S1x128) ![0, 0] S1x128.size inb_S1x128_S1x128_0_0
abbrev rIn1_3 : Rect S1x128 := Rect.unit (s := S1x128) ![0, 0] S1x128.size inb_S1x128_S1x128_0_0
abbrev rIn1_4 : Rect S1x1 := Rect.unit (s := S1x1) ![0, 0] S1x1.size inb_S1x1_S1x1_0_0
abbrev rOut1 : Rect S256x1 := Rect.unit (s := S256x1) ![0, 0] S256x1.size inb_S256x1_S256x1_0_0

/-- The output block after the body, from the input blocks: the body's one store, whole. -/
def out1 (x0 : Vec F S256x2048 .f32) (x1 : Vec F S2048x128 .f32) (x2 : Vec F S1x128 .f32) (x3 : Vec F S1x128 .f32) (x4 : Vec F S1x1 .f32) : Vec F S256x1 .f32 :=
  View.canon [⟨rOut1, k1_pay1 (View.ld x0 rIn1_0) (View.ld x1 rIn1_1) (View.ld x2 rIn1_2) (View.ld x3 rIn1_3) (View.ld x4 rIn1_4)⟩]

/-- The one store covers the block. -/
theorem cover1 (p0 : Vec F S256x1 .f32) (y : S256x1.Idx) :
    ∃ pc ∈ ([⟨rOut1, p0⟩] : List (View.Piece (Elt F) S256x1 .f32)), y ∈ pc.1.set :=
  View.cover_of_tiled [⟨rOut1, p0⟩] S256x1.size (by rfl) y

set_option maxHeartbeats 8000000 in
/-- The body on whole staging buffers: the inputs are read and left as they were, the output ends at `out1` of them. -/
theorem sound_kernel1 (c : Dev nD) (E : Set ℕ) (i : grid1.Coords) (arg1 : Memref sig .tc .vmem S256x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S256x1 .f32) (harg6 : arg6.IsWhole)
    (x0 : Vec F S256x2048 .f32) (x1 : Vec F S2048x128 .f32) (x2 : Vec F S1x128 .f32) (x3 : Vec F S1x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1 x0 x1 x2 x3 x4)) -∗ K ⟨⟩))
      ⊢ wp frame (wpE (defs₀ (F := F)) Variants.none c none) E (cc1__head_kernel i arg1 harg1 arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1 _)

/-- The pipeline's proof data on core `c`: the arrays as the region finds them; after the body each input's buffer at its
    block and the output's at `out1` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

/-! # The run: the buffer contents at each boundary between segments, a fold through @main -/

/-- Core `c`'s buffers at launch. -/
abbrev B0 : Dev nD → Valuation τ sig (Elt F) := fun c b => (s₀ m ρ).mem ((c : Dev nD), b)
abbrev B1 : Dev nD → Valuation τ sig (Elt F) := fun c => StableHlo.after hostOps0 (B0 m ρ c)
abbrev B2 : Dev nD → Valuation τ sig (Elt F) := fun c => StableHlo.after hostOps0_1 (B1 m ρ c)
abbrev B3 : Dev nD → Valuation τ sig (Elt F) := fun c => StableHlo.after hostOps0_2 (B2 m ρ c)
/-- The contents region 0 is entered with, read at the TensorCore's references. -/
abbrev V3 : (c : Dev nD) → (b : Ref sig .tc) → Buf (Elt F) ((c : Thread nD τ).loc b) := fun c b => B3 m ρ c b
/-- At region 0's exit: its arrays at what the pipeline leaves, every other buffer as entered. -/
def B4 (c : Dev nD) : Valuation τ sig (Elt F) :=
  Pipeline.withArrays spec0 c (B3 m ρ c) fun w => (dat0 (V3 m ρ) c).arrAt w cfg0.N
theorem B4_arr (c : Dev nD) (w : Fin cfg0.W) :
    B4 m ρ c (Proc.devRef .tc (Pipeline.arrRef spec0 w)) = (dat0 (V3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev V4 : (c : Dev nD) → (b : Ref sig .tc) → Buf (Elt F) ((c : Thread nD τ).loc b) := fun c b => B4 m ρ c b
theorem hF0 (c : Dev nD) (w : Fin cfg0.W) : (dat0 (V3 m ρ) c).arrAt w cfg0.N = V4 m ρ c (Pipeline.arrRef spec0 w) :=
  (B4_arr m ρ c w).symm
theorem hrest0 (c : Dev nD) : ∀ b, b ∉ Finset.univ.image (Pipeline.arrRef spec0) → V4 m ρ c b = V3 m ρ c b :=
  fun b hb => B4_of_ne m ρ c b fun w e => hb (Finset.mem_image.mpr ⟨w, Finset.mem_univ _, e⟩)

abbrev B5 : Dev nD → Valuation τ sig (Elt F) := fun c => StableHlo.after hostOps1 (B4 m ρ c)
abbrev B6 : Dev nD → Valuation τ sig (Elt F) := fun c => StableHlo.after hostOps1_1 (B5 m ρ c)
abbrev B7 : Dev nD → Valuation τ sig (Elt F) := fun c => StableHlo.after hostOps1_2 (B6 m ρ c)
abbrev B8 : Dev nD → Valuation τ sig (Elt F) := fun c => StableHlo.after hostOps1_3 (B7 m ρ c)
abbrev B9 : Dev nD → Valuation τ sig (Elt F) := fun c => StableHlo.after hostOps1_4 (B8 m ρ c)
abbrev B10 : Dev nD → Valuation τ sig (Elt F) := fun c => StableHlo.after hostOps1_5 (B9 m ρ c)
abbrev B11 : Dev nD → Valuation τ sig (Elt F) := fun c => StableHlo.after hostOps1_6 (B10 m ρ c)
/-- The contents region 1 is entered with, read at the TensorCore's references. -/
abbrev V11 : (c : Dev nD) → (b : Ref sig .tc) → Buf (Elt F) ((c : Thread nD τ).loc b) := fun c b => B11 m ρ c b
/-- At region 1's exit: its arrays at what the pipeline leaves, every other buffer as entered. -/
def B12 (c : Dev nD) : Valuation τ sig (Elt F) :=
  Pipeline.withArrays spec1 c (B11 m ρ c) fun w => (dat1 (V11 m ρ) c).arrAt w cfg1.N
theorem B12_arr (c : Dev nD) (w : Fin cfg1.W) :
    B12 m ρ c (Proc.devRef .tc (Pipeline.arrRef spec1 w)) = (dat1 (V11 m ρ) c).arrAt w cfg1.N := by
  unfold B12; exact Pipeline.withArrays_arr spec1 launch1.win.arr_inj c _ _ w
theorem B12_of_ne (c : Dev nD) (b : Ref sig .tc) (hb : ∀ w, Pipeline.arrRef spec1 w ≠ b) :
    B12 m ρ c (Proc.devRef .tc b) = B11 m ρ c (Proc.devRef .tc b) := by
  unfold B12; exact Pipeline.withArrays_of_ne spec1 c _ _ b hb
abbrev V12 : (c : Dev nD) → (b : Ref sig .tc) → Buf (Elt F) ((c : Thread nD τ).loc b) := fun c b => B12 m ρ c b
theorem hF1 (c : Dev nD) (w : Fin cfg1.W) : (dat1 (V11 m ρ) c).arrAt w cfg1.N = V12 m ρ c (Pipeline.arrRef spec1 w) :=
  (B12_arr m ρ c w).symm
theorem hrest1 (c : Dev nD) : ∀ b, b ∉ Finset.univ.image (Pipeline.arrRef spec1) → V12 m ρ c b = V11 m ρ c b :=
  fun b hb => B12_of_ne m ρ c b fun w e => hb (Finset.mem_image.mpr ⟨w, Finset.mem_univ _, e⟩)

/-! ### No host operation and no region writes an argument's buffer: the fold at it walks back to the launch memory -/

/-- A stretch of host operations none of which writes `b` leaves `b` as it was. -/
local macro "stretch_keeps " ops:ident : term => `(StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide))))

theorem B12_main_arg0 (c : Dev nD) : B12 m ρ c (Proc.devRef .tc main_arg0) = m ((c : Thread nD τ).loc main_arg0) :=
  calc B12 m ρ c (Proc.devRef .tc main_arg0)
    _ = B11 m ρ c (Proc.devRef .tc main_arg0) := B12_of_ne m ρ c main_arg0 (by decide)
    _ = B10 m ρ c (Proc.devRef .tc main_arg0) := stretch_keeps hostOps1_6
    _ = B9 m ρ c (Proc.devRef .tc main_arg0) := stretch_keeps hostOps1_5
    _ = B8 m ρ c (Proc.devRef .tc main_arg0) := stretch_keeps hostOps1_4
    _ = B7 m ρ c (Proc.devRef .tc main_arg0) := stretch_keeps hostOps1_3
    _ = B6 m ρ c (Proc.devRef .tc main_arg0) := stretch_keeps hostOps1_2
    _ = B5 m ρ c (Proc.devRef .tc main_arg0) := stretch_keeps hostOps1_1
    _ = B4 m ρ c (Proc.devRef .tc main_arg0) := stretch_keeps hostOps1
    _ = B3 m ρ c (Proc.devRef .tc main_arg0) := B4_of_ne m ρ c main_arg0 (by decide)
    _ = B2 m ρ c (Proc.devRef .tc main_arg0) := stretch_keeps hostOps0_2
    _ = B1 m ρ c (Proc.devRef .tc main_arg0) := stretch_keeps hostOps0_1
    _ = B0 m ρ c (Proc.devRef .tc main_arg0) := stretch_keeps hostOps0
    _ = m ((c : Thread nD τ).loc main_arg0) := rfl

theorem B12_main_arg1 (c : Dev nD) : B12 m ρ c (Proc.devRef .tc main_arg1) = m ((c : Thread nD τ).loc main_arg1) :=
  calc B12 m ρ c (Proc.devRef .tc main_arg1)
    _ = B11 m ρ c (Proc.devRef .tc main_arg1) := B12_of_ne m ρ c main_arg1 (by decide)
    _ = B10 m ρ c (Proc.devRef .tc main_arg1) := stretch_keeps hostOps1_6
    _ = B9 m ρ c (Proc.devRef .tc main_arg1) := stretch_keeps hostOps1_5
    _ = B8 m ρ c (Proc.devRef .tc main_arg1) := stretch_keeps hostOps1_4
    _ = B7 m ρ c (Proc.devRef .tc main_arg1) := stretch_keeps hostOps1_3
    _ = B6 m ρ c (Proc.devRef .tc main_arg1) := stretch_keeps hostOps1_2
    _ = B5 m ρ c (Proc.devRef .tc main_arg1) := stretch_keeps hostOps1_1
    _ = B4 m ρ c (Proc.devRef .tc main_arg1) := stretch_keeps hostOps1
    _ = B3 m ρ c (Proc.devRef .tc main_arg1) := B4_of_ne m ρ c main_arg1 (by decide)
    _ = B2 m ρ c (Proc.devRef .tc main_arg1) := stretch_keeps hostOps0_2
    _ = B1 m ρ c (Proc.devRef .tc main_arg1) := stretch_keeps hostOps0_1
    _ = B0 m ρ c (Proc.devRef .tc main_arg1) := stretch_keeps hostOps0
    _ = m ((c : Thread nD τ).loc main_arg1) := rfl

theorem B12_main_arg2 (c : Dev nD) : B12 m ρ c (Proc.devRef .tc main_arg2) = m ((c : Thread nD τ).loc main_arg2) :=
  calc B12 m ρ c (Proc.devRef .tc main_arg2)
    _ = B11 m ρ c (Proc.devRef .tc main_arg2) := B12_of_ne m ρ c main_arg2 (by decide)
    _ = B10 m ρ c (Proc.devRef .tc main_arg2) := stretch_keeps hostOps1_6
    _ = B9 m ρ c (Proc.devRef .tc main_arg2) := stretch_keeps hostOps1_5
    _ = B8 m ρ c (Proc.devRef .tc main_arg2) := stretch_keeps hostOps1_4
    _ = B7 m ρ c (Proc.devRef .tc main_arg2) := stretch_keeps hostOps1_3
    _ = B6 m ρ c (Proc.devRef .tc main_arg2) := stretch_keeps hostOps1_2
    _ = B5 m ρ c (Proc.devRef .tc main_arg2) := stretch_keeps hostOps1_1
    _ = B4 m ρ c (Proc.devRef .tc main_arg2) := stretch_keeps hostOps1
    _ = B3 m ρ c (Proc.devRef .tc main_arg2) := B4_of_ne m ρ c main_arg2 (by decide)
    _ = B2 m ρ c (Proc.devRef .tc main_arg2) := stretch_keeps hostOps0_2
    _ = B1 m ρ c (Proc.devRef .tc main_arg2) := stretch_keeps hostOps0_1
    _ = B0 m ρ c (Proc.devRef .tc main_arg2) := stretch_keeps hostOps0
    _ = m ((c : Thread nD τ).loc main_arg2) := rfl

theorem B12_main_arg3 (c : Dev nD) : B12 m ρ c (Proc.devRef .tc main_arg3) = m ((c : Thread nD τ).loc main_arg3) :=
  calc B12 m ρ c (Proc.devRef .tc main_arg3)
    _ = B11 m ρ c (Proc.devRef .tc main_arg3) := B12_of_ne m ρ c main_arg3 (by decide)
    _ = B10 m ρ c (Proc.devRef .tc main_arg3) := stretch_keeps hostOps1_6
    _ = B9 m ρ c (Proc.devRef .tc main_arg3) := stretch_keeps hostOps1_5
    _ = B8 m ρ c (Proc.devRef .tc main_arg3) := stretch_keeps hostOps1_4
    _ = B7 m ρ c (Proc.devRef .tc main_arg3) := stretch_keeps hostOps1_3
    _ = B6 m ρ c (Proc.devRef .tc main_arg3) := stretch_keeps hostOps1_2
    _ = B5 m ρ c (Proc.devRef .tc main_arg3) := stretch_keeps hostOps1_1
    _ = B4 m ρ c (Proc.devRef .tc main_arg3) := stretch_keeps hostOps1
    _ = B3 m ρ c (Proc.devRef .tc main_arg3) := B4_of_ne m ρ c main_arg3 (by decide)
    _ = B2 m ρ c (Proc.devRef .tc main_arg3) := stretch_keeps hostOps0_2
    _ = B1 m ρ c (Proc.devRef .tc main_arg3) := stretch_keeps hostOps0_1
    _ = B0 m ρ c (Proc.devRef .tc main_arg3) := stretch_keeps hostOps0
    _ = m ((c : Thread nD τ).loc main_arg3) := rfl

theorem B12_main_arg4 (c : Dev nD) : B12 m ρ c (Proc.devRef .tc main_arg4) = m ((c : Thread nD τ).loc main_arg4) :=
  calc B12 m ρ c (Proc.devRef .tc main_arg4)
    _ = B11 m ρ c (Proc.devRef .tc main_arg4) := B12_of_ne m ρ c main_arg4 (by decide)
    _ = B10 m ρ c (Proc.devRef .tc main_arg4) := stretch_keeps hostOps1_6
    _ = B9 m ρ c (Proc.devRef .tc main_arg4) := stretch_keeps hostOps1_5
    _ = B8 m ρ c (Proc.devRef .tc main_arg4) := stretch_keeps hostOps1_4
    _ = B7 m ρ c (Proc.devRef .tc main_arg4) := stretch_keeps hostOps1_3
    _ = B6 m ρ c (Proc.devRef .tc main_arg4) := stretch_keeps hostOps1_2
    _ = B5 m ρ c (Proc.devRef .tc main_arg4) := stretch_keeps hostOps1_1
    _ = B4 m ρ c (Proc.devRef .tc main_arg4) := stretch_keeps hostOps1
    _ = B3 m ρ c (Proc.devRef .tc main_arg4) := B4_of_ne m ρ c main_arg4 (by decide)
    _ = B2 m ρ c (Proc.devRef .tc main_arg4) := stretch_keeps hostOps0_2
    _ = B1 m ρ c (Proc.devRef .tc main_arg4) := stretch_keeps hostOps0_1
    _ = B0 m ρ c (Proc.devRef .tc main_arg4) := stretch_keeps hostOps0
    _ = m ((c : Thread nD τ).loc main_arg4) := rfl

theorem B12_main_arg5 (c : Dev nD) : B12 m ρ c (Proc.devRef .tc main_arg5) = m ((c : Thread nD τ).loc main_arg5) :=
  calc B12 m ρ c (Proc.devRef .tc main_arg5)
    _ = B11 m ρ c (Proc.devRef .tc main_arg5) := B12_of_ne m ρ c main_arg5 (by decide)
    _ = B10 m ρ c (Proc.devRef .tc main_arg5) := stretch_keeps hostOps1_6
    _ = B9 m ρ c (Proc.devRef .tc main_arg5) := stretch_keeps hostOps1_5
    _ = B8 m ρ c (Proc.devRef .tc main_arg5) := stretch_keeps hostOps1_4
    _ = B7 m ρ c (Proc.devRef .tc main_arg5) := stretch_keeps hostOps1_3
    _ = B6 m ρ c (Proc.devRef .tc main_arg5) := stretch_keeps hostOps1_2
    _ = B5 m ρ c (Proc.devRef .tc main_arg5) := stretch_keeps hostOps1_1
    _ = B4 m ρ c (Proc.devRef .tc main_arg5) := stretch_keeps hostOps1
    _ = B3 m ρ c (Proc.devRef .tc main_arg5) := B4_of_ne m ρ c main_arg5 (by decide)
    _ = B2 m ρ c (Proc.devRef .tc main_arg5) := stretch_keeps hostOps0_2
    _ = B1 m ρ c (Proc.devRef .tc main_arg5) := stretch_keeps hostOps0_1
    _ = B0 m ρ c (Proc.devRef .tc main_arg5) := stretch_keeps hostOps0
    _ = m ((c : Thread nD τ).loc main_arg5) := rfl

theorem B12_main_arg6 (c : Dev nD) : B12 m ρ c (Proc.devRef .tc main_arg6) = m ((c : Thread nD τ).loc main_arg6) :=
  calc B12 m ρ c (Proc.devRef .tc main_arg6)
    _ = B11 m ρ c (Proc.devRef .tc main_arg6) := B12_of_ne m ρ c main_arg6 (by decide)
    _ = B10 m ρ c (Proc.devRef .tc main_arg6) := stretch_keeps hostOps1_6
    _ = B9 m ρ c (Proc.devRef .tc main_arg6) := stretch_keeps hostOps1_5
    _ = B8 m ρ c (Proc.devRef .tc main_arg6) := stretch_keeps hostOps1_4
    _ = B7 m ρ c (Proc.devRef .tc main_arg6) := stretch_keeps hostOps1_3
    _ = B6 m ρ c (Proc.devRef .tc main_arg6) := stretch_keeps hostOps1_2
    _ = B5 m ρ c (Proc.devRef .tc main_arg6) := stretch_keeps hostOps1_1
    _ = B4 m ρ c (Proc.devRef .tc main_arg6) := stretch_keeps hostOps1
    _ = B3 m ρ c (Proc.devRef .tc main_arg6) := B4_of_ne m ρ c main_arg6 (by decide)
    _ = B2 m ρ c (Proc.devRef .tc main_arg6) := stretch_keeps hostOps0_2
    _ = B1 m ρ c (Proc.devRef .tc main_arg6) := stretch_keeps hostOps0_1
    _ = B0 m ρ c (Proc.devRef .tc main_arg6) := stretch_keeps hostOps0
    _ = m ((c : Thread nD τ).loc main_arg6) := rfl

theorem B12_main_arg7 (c : Dev nD) : B12 m ρ c (Proc.devRef .tc main_arg7) = m ((c : Thread nD τ).loc main_arg7) :=
  calc B12 m ρ c (Proc.devRef .tc main_arg7)
    _ = B11 m ρ c (Proc.devRef .tc main_arg7) := B12_of_ne m ρ c main_arg7 (by decide)
    _ = B10 m ρ c (Proc.devRef .tc main_arg7) := stretch_keeps hostOps1_6
    _ = B9 m ρ c (Proc.devRef .tc main_arg7) := stretch_keeps hostOps1_5
    _ = B8 m ρ c (Proc.devRef .tc main_arg7) := stretch_keeps hostOps1_4
    _ = B7 m ρ c (Proc.devRef .tc main_arg7) := stretch_keeps hostOps1_3
    _ = B6 m ρ c (Proc.devRef .tc main_arg7) := stretch_keeps hostOps1_2
    _ = B5 m ρ c (Proc.devRef .tc main_arg7) := stretch_keeps hostOps1_1
    _ = B4 m ρ c (Proc.devRef .tc main_arg7) := stretch_keeps hostOps1
    _ = B3 m ρ c (Proc.devRef .tc main_arg7) := B4_of_ne m ρ c main_arg7 (by decide)
    _ = B2 m ρ c (Proc.devRef .tc main_arg7) := stretch_keeps hostOps0_2
    _ = B1 m ρ c (Proc.devRef .tc main_arg7) := stretch_keeps hostOps0_1
    _ = B0 m ρ c (Proc.devRef .tc main_arg7) := stretch_keeps hostOps0
    _ = m ((c : Thread nD τ).loc main_arg7) := rfl

theorem B12_main_arg8 (c : Dev nD) : B12 m ρ c (Proc.devRef .tc main_arg8) = m ((c : Thread nD τ).loc main_arg8) :=
  calc B12 m ρ c (Proc.devRef .tc main_arg8)
    _ = B11 m ρ c (Proc.devRef .tc main_arg8) := B12_of_ne m ρ c main_arg8 (by decide)
    _ = B10 m ρ c (Proc.devRef .tc main_arg8) := stretch_keeps hostOps1_6
    _ = B9 m ρ c (Proc.devRef .tc main_arg8) := stretch_keeps hostOps1_5
    _ = B8 m ρ c (Proc.devRef .tc main_arg8) := stretch_keeps hostOps1_4
    _ = B7 m ρ c (Proc.devRef .tc main_arg8) := stretch_keeps hostOps1_3
    _ = B6 m ρ c (Proc.devRef .tc main_arg8) := stretch_keeps hostOps1_2
    _ = B5 m ρ c (Proc.devRef .tc main_arg8) := stretch_keeps hostOps1_1
    _ = B4 m ρ c (Proc.devRef .tc main_arg8) := stretch_keeps hostOps1
    _ = B3 m ρ c (Proc.devRef .tc main_arg8) := B4_of_ne m ρ c main_arg8 (by decide)
    _ = B2 m ρ c (Proc.devRef .tc main_arg8) := stretch_keeps hostOps0_2
    _ = B1 m ρ c (Proc.devRef .tc main_arg8) := stretch_keeps hostOps0_1
    _ = B0 m ρ c (Proc.devRef .tc main_arg8) := stretch_keeps hostOps0
    _ = m ((c : Thread nD τ).loc main_arg8) := rfl

theorem B12_main_arg9 (c : Dev nD) : B12 m ρ c (Proc.devRef .tc main_arg9) = m ((c : Thread nD τ).loc main_arg9) :=
  calc B12 m ρ c (Proc.devRef .tc main_arg9)
    _ = B11 m ρ c (Proc.devRef .tc main_arg9) := B12_of_ne m ρ c main_arg9 (by decide)
    _ = B10 m ρ c (Proc.devRef .tc main_arg9) := stretch_keeps hostOps1_6
    _ = B9 m ρ c (Proc.devRef .tc main_arg9) := stretch_keeps hostOps1_5
    _ = B8 m ρ c (Proc.devRef .tc main_arg9) := stretch_keeps hostOps1_4
    _ = B7 m ρ c (Proc.devRef .tc main_arg9) := stretch_keeps hostOps1_3
    _ = B6 m ρ c (Proc.devRef .tc main_arg9) := stretch_keeps hostOps1_2
    _ = B5 m ρ c (Proc.devRef .tc main_arg9) := stretch_keeps hostOps1_1
    _ = B4 m ρ c (Proc.devRef .tc main_arg9) := stretch_keeps hostOps1
    _ = B3 m ρ c (Proc.devRef .tc main_arg9) := B4_of_ne m ρ c main_arg9 (by decide)
    _ = B2 m ρ c (Proc.devRef .tc main_arg9) := stretch_keeps hostOps0_2
    _ = B1 m ρ c (Proc.devRef .tc main_arg9) := stretch_keeps hostOps0_1
    _ = B0 m ρ c (Proc.devRef .tc main_arg9) := stretch_keeps hostOps0
    _ = m ((c : Thread nD τ).loc main_arg9) := rfl

theorem B12_main_arg10 (c : Dev nD) : B12 m ρ c (Proc.devRef .tc main_arg10) = m ((c : Thread nD τ).loc main_arg10) :=
  calc B12 m ρ c (Proc.devRef .tc main_arg10)
    _ = B11 m ρ c (Proc.devRef .tc main_arg10) := B12_of_ne m ρ c main_arg10 (by decide)
    _ = B10 m ρ c (Proc.devRef .tc main_arg10) := stretch_keeps hostOps1_6
    _ = B9 m ρ c (Proc.devRef .tc main_arg10) := stretch_keeps hostOps1_5
    _ = B8 m ρ c (Proc.devRef .tc main_arg10) := stretch_keeps hostOps1_4
    _ = B7 m ρ c (Proc.devRef .tc main_arg10) := stretch_keeps hostOps1_3
    _ = B6 m ρ c (Proc.devRef .tc main_arg10) := stretch_keeps hostOps1_2
    _ = B5 m ρ c (Proc.devRef .tc main_arg10) := stretch_keeps hostOps1_1
    _ = B4 m ρ c (Proc.devRef .tc main_arg10) := stretch_keeps hostOps1
    _ = B3 m ρ c (Proc.devRef .tc main_arg10) := B4_of_ne m ρ c main_arg10 (by decide)
    _ = B2 m ρ c (Proc.devRef .tc main_arg10) := stretch_keeps hostOps0_2
    _ = B1 m ρ c (Proc.devRef .tc main_arg10) := stretch_keeps hostOps0_1
    _ = B0 m ρ c (Proc.devRef .tc main_arg10) := stretch_keeps hostOps0
    _ = m ((c : Thread nD τ).loc main_arg10) := rfl

theorem B12_main_arg11 (c : Dev nD) : B12 m ρ c (Proc.devRef .tc main_arg11) = m ((c : Thread nD τ).loc main_arg11) :=
  calc B12 m ρ c (Proc.devRef .tc main_arg11)
    _ = B11 m ρ c (Proc.devRef .tc main_arg11) := B12_of_ne m ρ c main_arg11 (by decide)
    _ = B10 m ρ c (Proc.devRef .tc main_arg11) := stretch_keeps hostOps1_6
    _ = B9 m ρ c (Proc.devRef .tc main_arg11) := stretch_keeps hostOps1_5
    _ = B8 m ρ c (Proc.devRef .tc main_arg11) := stretch_keeps hostOps1_4
    _ = B7 m ρ c (Proc.devRef .tc main_arg11) := stretch_keeps hostOps1_3
    _ = B6 m ρ c (Proc.devRef .tc main_arg11) := stretch_keeps hostOps1_2
    _ = B5 m ρ c (Proc.devRef .tc main_arg11) := stretch_keeps hostOps1_1
    _ = B4 m ρ c (Proc.devRef .tc main_arg11) := stretch_keeps hostOps1
    _ = B3 m ρ c (Proc.devRef .tc main_arg11) := B4_of_ne m ρ c main_arg11 (by decide)
    _ = B2 m ρ c (Proc.devRef .tc main_arg11) := stretch_keeps hostOps0_2
    _ = B1 m ρ c (Proc.devRef .tc main_arg11) := stretch_keeps hostOps0_1
    _ = B0 m ρ c (Proc.devRef .tc main_arg11) := stretch_keeps hostOps0
    _ = m ((c : Thread nD τ).loc main_arg11) := rfl

theorem B12_main_arg12 (c : Dev nD) : B12 m ρ c (Proc.devRef .tc main_arg12) = m ((c : Thread nD τ).loc main_arg12) :=
  calc B12 m ρ c (Proc.devRef .tc main_arg12)
    _ = B11 m ρ c (Proc.devRef .tc main_arg12) := B12_of_ne m ρ c main_arg12 (by decide)
    _ = B10 m ρ c (Proc.devRef .tc main_arg12) := stretch_keeps hostOps1_6
    _ = B9 m ρ c (Proc.devRef .tc main_arg12) := stretch_keeps hostOps1_5
    _ = B8 m ρ c (Proc.devRef .tc main_arg12) := stretch_keeps hostOps1_4
    _ = B7 m ρ c (Proc.devRef .tc main_arg12) := stretch_keeps hostOps1_3
    _ = B6 m ρ c (Proc.devRef .tc main_arg12) := stretch_keeps hostOps1_2
    _ = B5 m ρ c (Proc.devRef .tc main_arg12) := stretch_keeps hostOps1_1
    _ = B4 m ρ c (Proc.devRef .tc main_arg12) := stretch_keeps hostOps1
    _ = B3 m ρ c (Proc.devRef .tc main_arg12) := B4_of_ne m ρ c main_arg12 (by decide)
    _ = B2 m ρ c (Proc.devRef .tc main_arg12) := stretch_keeps hostOps0_2
    _ = B1 m ρ c (Proc.devRef .tc main_arg12) := stretch_keeps hostOps0_1
    _ = B0 m ρ c (Proc.devRef .tc main_arg12) := stretch_keeps hostOps0
    _ = m ((c : Thread nD τ).loc main_arg12) := rfl

theorem B12_main_arg13 (c : Dev nD) : B12 m ρ c (Proc.devRef .tc main_arg13) = m ((c : Thread nD τ).loc main_arg13) :=
  calc B12 m ρ c (Proc.devRef .tc main_arg13)
    _ = B11 m ρ c (Proc.devRef .tc main_arg13) := B12_of_ne m ρ c main_arg13 (by decide)
    _ = B10 m ρ c (Proc.devRef .tc main_arg13) := stretch_keeps hostOps1_6
    _ = B9 m ρ c (Proc.devRef .tc main_arg13) := stretch_keeps hostOps1_5
    _ = B8 m ρ c (Proc.devRef .tc main_arg13) := stretch_keeps hostOps1_4
    _ = B7 m ρ c (Proc.devRef .tc main_arg13) := stretch_keeps hostOps1_3
    _ = B6 m ρ c (Proc.devRef .tc main_arg13) := stretch_keeps hostOps1_2
    _ = B5 m ρ c (Proc.devRef .tc main_arg13) := stretch_keeps hostOps1_1
    _ = B4 m ρ c (Proc.devRef .tc main_arg13) := stretch_keeps hostOps1
    _ = B3 m ρ c (Proc.devRef .tc main_arg13) := B4_of_ne m ρ c main_arg13 (by decide)
    _ = B2 m ρ c (Proc.devRef .tc main_arg13) := stretch_keeps hostOps0_2
    _ = B1 m ρ c (Proc.devRef .tc main_arg13) := stretch_keeps hostOps0_1
    _ = B0 m ρ c (Proc.devRef .tc main_arg13) := stretch_keeps hostOps0
    _ = m ((c : Thread nD τ).loc main_arg13) := rfl

theorem B12_main_arg14 (c : Dev nD) : B12 m ρ c (Proc.devRef .tc main_arg14) = m ((c : Thread nD τ).loc main_arg14) :=
  calc B12 m ρ c (Proc.devRef .tc main_arg14)
    _ = B11 m ρ c (Proc.devRef .tc main_arg14) := B12_of_ne m ρ c main_arg14 (by decide)
    _ = B10 m ρ c (Proc.devRef .tc main_arg14) := stretch_keeps hostOps1_6
    _ = B9 m ρ c (Proc.devRef .tc main_arg14) := stretch_keeps hostOps1_5
    _ = B8 m ρ c (Proc.devRef .tc main_arg14) := stretch_keeps hostOps1_4
    _ = B7 m ρ c (Proc.devRef .tc main_arg14) := stretch_keeps hostOps1_3
    _ = B6 m ρ c (Proc.devRef .tc main_arg14) := stretch_keeps hostOps1_2
    _ = B5 m ρ c (Proc.devRef .tc main_arg14) := stretch_keeps hostOps1_1
    _ = B4 m ρ c (Proc.devRef .tc main_arg14) := stretch_keeps hostOps1
    _ = B3 m ρ c (Proc.devRef .tc main_arg14) := B4_of_ne m ρ c main_arg14 (by decide)
    _ = B2 m ρ c (Proc.devRef .tc main_arg14) := stretch_keeps hostOps0_2
    _ = B1 m ρ c (Proc.devRef .tc main_arg14) := stretch_keeps hostOps0_1
    _ = B0 m ρ c (Proc.devRef .tc main_arg14) := stretch_keeps hostOps0
    _ = m ((c : Thread nD τ).loc main_arg14) := rfl

/-! ## The pipelines' proof data, the thread state between segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (B12 m ρ c) ∗ ∃ r, prngReg c r)

set_option backward.isDefEq.respectTransparency.types false in
/-- Region 0 over the thread state: entered with every unscoped buffer at `B3`, left at `B4`; its arrays split out of
    the unscoped buffers and put back at the exit contents; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B11`, left at `B12`; its arrays split out of
    the unscoped buffers and put back at the exit contents; the generator register into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (B11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's twelve segments in order. -/
abbrev segs : List (Pipeline.Seg (pcfgs (F := F)) adm (pdats m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (reg0 m ρ),
    .host (hseg hostOps1 hostOps1_sub hostOps1_fresh (B4 m ρ)),
    .host (hseg hostOps1_1 hostOps1_1_sub hostOps1_1_fresh (B5 m ρ)),
    .host (hseg hostOps1_2 hostOps1_2_sub hostOps1_2_fresh (B6 m ρ)),
    .host (hseg hostOps1_3 hostOps1_3_sub hostOps1_3_fresh (B7 m ρ)),
    .host (hseg hostOps1_4 hostOps1_4_sub hostOps1_4_fresh (B8 m ρ)),
    .host (hseg hostOps1_5 hostOps1_5_sub hostOps1_5_fresh (B9 m ρ)),
    .host (hseg hostOps1_6 hostOps1_6_sub hostOps1_6_fresh (B10 m ρ)),
    .region (reg1 m ρ) ]
set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- From any memory with zero counters every weakly fair execution of @main terminates, nothing faulting, and in every
    final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun s h c =>
      ⟨(h c _ (mem_uc main_arg0 (by decide))).trans (B12_main_arg0 m ρ c),
       (h c _ (mem_uc main_arg1 (by decide))).trans (B12_main_arg1 m ρ c),
       (h c _ (mem_uc main_arg2 (by decide))).trans (B12_main_arg2 m ρ c),
       (h c _ (mem_uc main_arg3 (by decide))).trans (B12_main_arg3 m ρ c),
       (h c _ (mem_uc main_arg4 (by decide))).trans (B12_main_arg4 m ρ c),
       (h c _ (mem_uc main_arg5 (by decide))).trans (B12_main_arg5 m ρ c),
       (h c _ (mem_uc main_arg6 (by decide))).trans (B12_main_arg6 m ρ c),
       (h c _ (mem_uc main_arg7 (by decide))).trans (B12_main_arg7 m ρ c),
       (h c _ (mem_uc main_arg8 (by decide))).trans (B12_main_arg8 m ρ c),
       (h c _ (mem_uc main_arg9 (by decide))).trans (B12_main_arg9 m ρ c),
       (h c _ (mem_uc main_arg10 (by decide))).trans (B12_main_arg10 m ρ c),
       (h c _ (mem_uc main_arg11 (by decide))).trans (B12_main_arg11 m ρ c),
       (h c _ (mem_uc main_arg12 (by decide))).trans (B12_main_arg12 m ρ c),
       (h c _ (mem_uc main_arg13 (by decide))).trans (B12_main_arg13 m ρ c),
       (h c _ (mem_uc main_arg14 (by decide))).trans (B12_main_arg14 m ρ c)⟩)
    (run_all m ρ)

/-- The run with the result named: the result buffer ends at what the head's pipeline leaves in its output array, and
    every argument array as launched. -/
theorem run_result : θ_run defs (onTc (τ := τ) (main (F := F))) ⟨m, fun _ => 0, ρ⟩ (fun r => ∀ c : Dev nD,
      r.2.mem ((c.tc : Thread nD τ).loc main_v151) = (dat1 (V11 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun s h c =>
      ⟨(h c _ (mem_uc main_v151 (by decide))).trans (B12_arr m ρ c 5),
       (h c _ (mem_uc main_arg0 (by decide))).trans (B12_main_arg0 m ρ c),
       (h c _ (mem_uc main_arg1 (by decide))).trans (B12_main_arg1 m ρ c),
       (h c _ (mem_uc main_arg2 (by decide))).trans (B12_main_arg2 m ρ c),
       (h c _ (mem_uc main_arg3 (by decide))).trans (B12_main_arg3 m ρ c),
       (h c _ (mem_uc main_arg4 (by decide))).trans (B12_main_arg4 m ρ c),
       (h c _ (mem_uc main_arg5 (by decide))).trans (B12_main_arg5 m ρ c),
       (h c _ (mem_uc main_arg6 (by decide))).trans (B12_main_arg6 m ρ c),
       (h c _ (mem_uc main_arg7 (by decide))).trans (B12_main_arg7 m ρ c),
       (h c _ (mem_uc main_arg8 (by decide))).trans (B12_main_arg8 m ρ c),
       (h c _ (mem_uc main_arg9 (by decide))).trans (B12_main_arg9 m ρ c),
       (h c _ (mem_uc main_arg10 (by decide))).trans (B12_main_arg10 m ρ c),
       (h c _ (mem_uc main_arg11 (by decide))).trans (B12_main_arg11 m ρ c),
       (h c _ (mem_uc main_arg12 (by decide))).trans (B12_main_arg12 m ρ c),
       (h c _ (mem_uc main_arg13 (by decide))).trans (B12_main_arg13 m ρ c),
       (h c _ (mem_uc main_arg14 (by decide))).trans (B12_main_arg14 m ρ c)⟩)
    (run_all m ρ)

end Cert.KernelIdeal.Run

end
-- ==== Proof.KHost1.lean ====
import proofs.«109392_g2000007139875455_pallasbulk_612_2_alg».proof.Proof.KernelIdealRun
import Idealize.ShloMosaic.Lib.ValueIdx
import Idealize.ShloMosaic.Lib.Pipeline.Value
import Idealize.ShloMosaic.Lib.StableHlo.Run

set_option maxRecDepth 16384

noncomputable section

namespace Cert.KernelIdeal.HostVal

open Cert.KernelIdeal Cert.KernelIdeal.Gen Cert.KernelIdeal.Run
open Idealize.ShloMosaic Idealize.ShloMosaic.TcCoe Idealize.ShloMosaic.Tactic
open Idealize.ShloMosaic.ValueIdx

variable (m : (ℓ : Loc nD τ sig) → Buf (Elt Ideal) ℓ) (ρ : Dev nD → PrngReg)

/-! # The arrays the first region reads that the host builds by re-laying only: the flattened input and the bias rows -/

/-- The launch memory of each argument of the program, as an array over its literal shape. -/
abbrev a0 (c : Dev nD) : S2560x1x16x128.Idx → EReal := m ((c : Thread nD τ).loc main_arg0)
abbrev a1 (c : Dev nD) : S128x1x11x1.Idx → EReal := m ((c : Thread nD τ).loc main_arg1)
abbrev a2 (c : Dev nD) : S128.Idx → EReal := m ((c : Thread nD τ).loc main_arg2)
abbrev a3 (c : Dev nD) : S128x128x11x1.Idx → EReal := m ((c : Thread nD τ).loc main_arg3)
abbrev a4 (c : Dev nD) : S128.Idx → EReal := m ((c : Thread nD τ).loc main_arg4)
abbrev a5 (c : Dev nD) : S128x128x11x1.Idx → EReal := m ((c : Thread nD τ).loc main_arg5)
abbrev a6 (c : Dev nD) : S128.Idx → EReal := m ((c : Thread nD τ).loc main_arg6)
abbrev a7 (c : Dev nD) : S128x128x11x1.Idx → EReal := m ((c : Thread nD τ).loc main_arg7)
abbrev a8 (c : Dev nD) : S128.Idx → EReal := m ((c : Thread nD τ).loc main_arg8)
abbrev a9 (c : Dev nD) : S1x128x3x1.Idx → EReal := m ((c : Thread nD τ).loc main_arg9)
abbrev a10 (c : Dev nD) : S1.Idx → EReal := m ((c : Thread nD τ).loc main_arg10)
abbrev a11 (c : Dev nD) : S100x2048.Idx → EReal := m ((c : Thread nD τ).loc main_arg11)
abbrev a12 (c : Dev nD) : S100.Idx → EReal := m ((c : Thread nD τ).loc main_arg12)
abbrev a13 (c : Dev nD) : S1x100.Idx → EReal := m ((c : Thread nD τ).loc main_arg13)
abbrev a14 (c : Dev nD) : S1.Idx → EReal := m ((c : Thread nD τ).loc main_arg14)

set_option maxHeartbeats 4000000 in
/-- The flattened input: row n = b*128 + w of the matrix the first region reads is the 16 values x[b, 0, ·, w]. -/
theorem xt_apply (c : Dev nD) (n : Fin 327680) (l : Fin 16) :
    (V3 m ρ c main_v137 : S327680x16.Idx → EReal) (ix2 n l)
      = a0 m c (ix4 ⟨n.val / 128, by omega⟩ 0 l ⟨n.val % 128, Nat.mod_lt _ (by norm_num)⟩) := by
  have e : (V3 m ρ c main_v137 : S327680x16.Idx → EReal) = fun i => shapeCast S327680x16 (transpose S2560x128x16 [0, 2, 1] (fun i => shapeCast S2560x16x128 (a0 m c) shapeCasts_S2560x1x16x128_S2560x16x128 i) transposes_S2560x16x128_S2560x128x16_0_2_1) shapeCasts_S2560x128x16_S327680x16 i := by
    show StableHlo.after hostOps0_2 (StableHlo.after hostOps0_1 (StableHlo.after hostOps0 (B0 m ρ c))) (Proc.devRef .tc main_v137) = _
    after_results_simp
    rfl
  rw [e]
  show shapeCast S327680x16 _ _ (ix2 n l) = _
  refine (shapeCast_apply _ _ (ix2 n l) (ix3 ⟨n.val / 128, by omega⟩ ⟨n.val % 128, Nat.mod_lt _ (by norm_num)⟩ l) ?_).trans ?_
  · rw [Shape.rowMajor_val_three, Shape.rowMajor_val_two]
    show (n.val / 128 * 128 + n.val % 128) * 16 + l.val = n.val * 16 + l.val
    omega
  refine (transpose_apply _ _ _ _ (ix3 ⟨n.val / 128, by omega⟩ l ⟨n.val % 128, Nat.mod_lt _ (by norm_num)⟩) ?_).trans ?_
  · intro b
    match b with
    | ⟨0, _⟩ => rfl
    | ⟨1, _⟩ => rfl
    | ⟨2, _⟩ => rfl
  show shapeCast S2560x16x128 _ _ _ = _
  refine shapeCast_apply _ _ _ _ ?_
  rw [Shape.rowMajor_val_four, Shape.rowMajor_val_three]
  show ((n.val / 128 * 1 + 0) * 16 + l.val) * 128 + n.val % 128 = (n.val / 128 * 16 + l.val) * 128 + n.val % 128
  omega

/-- A bias vector over 128 channels tiled over the six positions as one row of 768: entry q is the vector at channel q % 128. -/
theorem bias_row_read (x : S128.Idx → EReal) (q : Fin 768) :
    broadcastInDim S1x768 ![1] bcast_S768_S1x768_1
        (fun i => shapeCast S768 (broadcastInDim S6x128 ![0, 1] bcast_S1x128_S6x128_0_1
          (fun i => shapeCast S1x128 x shapeCasts_S128_S1x128 i)) shapeCasts_S6x128_S768 i) (ix2 0 q)
      = x (ix1 ⟨q.val % 128, Nat.mod_lt _ (by norm_num)⟩) := by
  refine (broadcastInDim_apply _ _ _ (ix2 0 q) (ix1 q) ?_).trans ?_
  · intro a
    match a with
    | ⟨0, _⟩ => rfl
  show shapeCast S768 _ _ (ix1 q) = _
  refine (shapeCast_apply _ _ (ix1 q) (ix2 ⟨q.val / 128, by omega⟩ ⟨q.val % 128, Nat.mod_lt _ (by norm_num)⟩) ?_).trans ?_
  · rw [Shape.rowMajor_val_two, Shape.rowMajor_val_one]
    show q.val / 128 * 128 + q.val % 128 = q.val
    omega
  refine (broadcastInDim_apply _ _ _ _ (ix2 0 ⟨q.val % 128, Nat.mod_lt _ (by norm_num)⟩) ?_).trans ?_
  · intro a
    match a with
    | ⟨0, _⟩ => rfl
    | ⟨1, _⟩ => rfl
  show shapeCast S1x128 _ _ _ = _
  refine shapeCast_apply _ _ _ _ ?_
  rw [Shape.rowMajor_val_two, Shape.rowMajor_val_one]
  show q.val % 128 = 0 * 128 + q.val % 128
  omega

set_option maxHeartbeats 4000000 in
/-- The first layer's bias row. -/
theorem b1row_apply (c : Dev nD) (q : Fin 768) :
    (V3 m ρ c main_v56 : S1x768.Idx → EReal) (ix2 0 q) = a2 m c (ix1 ⟨q.val % 128, Nat.mod_lt _ (by norm_num)⟩) := by
  have e : (V3 m ρ c main_v56 : S1x768.Idx → EReal) = broadcastInDim S1x768 ![1] bcast_S768_S1x768_1
        (fun i => shapeCast S768 (broadcastInDim S6x128 ![0, 1] bcast_S1x128_S6x128_0_1
          (fun i => shapeCast S1x128 (a2 m c) shapeCasts_S128_S1x128 i)) shapeCasts_S6x128_S768 i) := by
    show StableHlo.after hostOps0_2 (StableHlo.after hostOps0_1 (StableHlo.after hostOps0 (B0 m ρ c))) (Proc.devRef .tc main_v56) = _
    after_results_simp
    rfl
  rw [e]; exact bias_row_read _ q

set_option maxHeartbeats 4000000 in
/-- The second layer's bias row. -/
theorem b2row_apply (c : Dev nD) (q : Fin 768) :
    (V3 m ρ c main_v82 : S1x768.Idx → EReal) (ix2 0 q) = a4 m c (ix1 ⟨q.val % 128, Nat.mod_lt _ (by norm_num)⟩) := by
  have e : (V3 m ρ c main_v82 : S1x768.Idx → EReal) = broadcastInDim S1x768 ![1] bcast_S768_S1x768_1
        (fun i => shapeCast S768 (broadcastInDim S6x128 ![0, 1] bcast_S1x128_S6x128_0_1
          (fun i => shapeCast S1x128 (a4 m c) shapeCasts_S128_S1x128 i)) shapeCasts_S6x128_S768 i) := by
    show StableHlo.after hostOps0_2 (StableHlo.after hostOps0_1 (StableHlo.after hostOps0 (B0 m ρ c))) (Proc.devRef .tc main_v82) = _
    after_results_simp
    rfl
  rw [e]; exact bias_row_read _ q

set_option maxHeartbeats 4000000 in
/-- The third layer's bias row. -/
theorem b3row_apply (c : Dev nD) (q : Fin 768) :
    (V3 m ρ c main_v108 : S1x768.Idx → EReal) (ix2 0 q) = a6 m c (ix1 ⟨q.val % 128, Nat.mod_lt _ (by norm_num)⟩) := by
  have e : (V3 m ρ c main_v108 : S1x768.Idx → EReal) = broadcastInDim S1x768 ![1] bcast_S768_S1x768_1
        (fun i => shapeCast S768 (broadcastInDim S6x128 ![0, 1] bcast_S1x128_S6x128_0_1
          (fun i => shapeCast S1x128 (a6 m c) shapeCasts_S128_S1x128 i)) shapeCasts_S6x128_S768 i) := by
    show StableHlo.after hostOps0_2 (StableHlo.after hostOps0_1 (StableHlo.after hostOps0 (B0 m ρ c))) (Proc.devRef .tc main_v108) = _
    after_results_simp
    rfl
  rw [e]; exact bias_row_read _ q

set_option maxHeartbeats 4000000 in
/-- The fourth layer's bias row. -/
theorem b4row_apply (c : Dev nD) (q : Fin 768) :
    (V3 m ρ c main_v134 : S1x768.Idx → EReal) (ix2 0 q) = a8 m c (ix1 ⟨q.val % 128, Nat.mod_lt _ (by norm_num)⟩) := by
  have e : (V3 m ρ c main_v134 : S1x768.Idx → EReal) = broadcastInDim S1x768 ![1] bcast_S768_S1x768_1
        (fun i => shapeCast S768 (broadcastInDim S6x128 ![0, 1] bcast_S1x128_S6x128_0_1
          (fun i => shapeCast S1x128 (a8 m c) shapeCasts_S128_S1x128 i)) shapeCasts_S6x128_S768 i) := by
    show StableHlo.after hostOps0_2 (StableHlo.after hostOps0_1 (StableHlo.after hostOps0 (B0 m ρ c))) (Proc.devRef .tc main_v134) = _
    after_results_simp
    rfl
  rw [e]; exact bias_row_read _ q

set_option maxHeartbeats 4000000 in
/-- The fifth layer's bias row: the one bias value in each of the 16 lanes. -/
theorem b5row_apply (c : Dev nD) (s : Fin 16) :
    (V3 m ρ c main_v52 : S1x16.Idx → EReal) (ix2 0 s) = a10 m c (ix1 0) := by
  have e : (V3 m ρ c main_v52 : S1x16.Idx → EReal) = broadcastInDim S1x16 ![0, 1] bcast_S1x1_S1x16_0_1
        (fun i => shapeCast S1x1 (a10 m c) shapeCasts_S1_S1x1 i) := by
    show StableHlo.after hostOps0_2 (StableHlo.after hostOps0_1 (StableHlo.after hostOps0 (B0 m ρ c))) (Proc.devRef .tc main_v52) = _
    after_results_simp
    rfl
  rw [e]
  refine (broadcastInDim_apply _ _ _ (ix2 0 s) (ix2 0 0) ?_).trans ?_
  · intro a
    match a with
    | ⟨0, _⟩ => rfl
    | ⟨1, _⟩ => rfl
  show shapeCast S1x1 _ _ _ = _
  refine shapeCast_apply _ _ _ _ ?_
  rw [Shape.rowMajor_val_two, Shape.rowMajor_val_one]
  rfl

end Cert.KernelIdeal.HostVal

end
-- ==== Proof.KHostLib.lean ====
import proofs.«109392_g2000007139875455_pallasbulk_612_2_alg».proof.Proof.KernelIdealRun
import proofs.«109392_g2000007139875455_pallasbulk_612_2_alg».proof.Proof.KHost1
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.KernelIdeal.HostVal

open Cert.KernelIdeal Cert.KernelIdeal.Gen Cert.KernelIdeal.Run
open Idealize.ShloMosaic Idealize.ShloMosaic.TcCoe Idealize.ShloMosaic.Tactic
open Idealize.ShloMosaic.ValueIdx

variable (m : (ℓ : Loc nD τ sig) → Buf (Elt Ideal) ℓ) (ρ : Dev nD → PrngReg)

/-! # Reading the host's gathers, concatenations and index tables at an index -/

section Gather
variable {α : Type}

/-- A row gather read at (r, h, ch): the operand's row named by the start index at (r, h), read signed and clamped into [0, 20], at channel ch. -/
theorem gatherA_apply (x : S21x128.Idx → α) (idx : IVec S16x6x1 32) (r : Fin 16) (h : Fin 6) (ch : Fin 128) :
    Host.gather gather_S21x128_S16x6x1_S16x6x128_2_0_n_n_0_2_1128 x idx (ix3 r h ch)
      = x (ix2 ⟨min (idx (ix3 r h 0)).toInt.toNat 20, by omega⟩ ch) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S21x128_S16x6x1_S16x6x128_2_0_n_n_0_2_1128.startIndexMap from List.mem_singleton.mpr rfl)]
    have hsi : gather_S21x128_S16x6x1_S16x6x128_2_0_n_n_0_2_1128.siIdx (ix3 r h ch) ⟨List.idxOf (0 : Fin 2) gather_S21x128_S16x6x1_S16x6x128_2_0_n_n_0_2_1128.startIndexMap,
        List.idxOf_lt_length_iff.2 (List.mem_singleton.mpr rfl)⟩ = ix3 r h 0 := by
      funext b; refine Fin.ext ?_
      match b with
      | ⟨0, _⟩ => rfl
      | ⟨1, _⟩ => rfl
      | ⟨2, _⟩ => rfl
    rw [hsi]
    rfl
  | ⟨1, _⟩ =>
    show GatherDims.start _ _ idx 1 + GatherDims.batchCoord _ _ 1 + GatherDims.offCoord _ _ 1 = ch.val
    rw [GatherDims.batchCoord_eq_zero _ _ _ List.not_mem_nil]
    unfold GatherDims.start
    rw [dif_neg (by decide)]
    unfold GatherDims.offCoord
    rw [dif_pos (by decide)]
    have key : ∀ (n : Nat) (hn : n < ([2] : List (Fin 3)).length), (ix3 r h ch ([(2 : Fin 3)][n]'hn)).val = ch.val := by
      intro n hn
      have h0 : n = 0 := by simpa using hn
      subst h0; rfl
    simp only [Nat.zero_add]
    exact key _ _

/-- The same gather over a 6 × 16 table of start indices. -/
theorem gatherB_apply (x : S21x128.Idx → α) (idx : IVec S6x16x1 32) (r : Fin 6) (h : Fin 16) (ch : Fin 128) :
    Host.gather gather_S21x128_S6x16x1_S6x16x128_2_0_n_n_0_2_1128 x idx (ix3 r h ch)
      = x (ix2 ⟨min (idx (ix3 r h 0)).toInt.toNat 20, by omega⟩ ch) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S21x128_S6x16x1_S6x16x128_2_0_n_n_0_2_1128.startIndexMap from List.mem_singleton.mpr rfl)]
    have hsi : gather_S21x128_S6x16x1_S6x16x128_2_0_n_n_0_2_1128.siIdx (ix3 r h ch) ⟨List.idxOf (0 : Fin 2) gather_S21x128_S6x16x1_S6x16x128_2_0_n_n_0_2_1128.startIndexMap,
        List.idxOf_lt_length_iff.2 (List.mem_singleton.mpr rfl)⟩ = ix3 r h 0 := by
      funext b; refine Fin.ext ?_
      match b with
      | ⟨0, _⟩ => rfl
      | ⟨1, _⟩ => rfl
      | ⟨2, _⟩ => rfl
    rw [hsi]
    rfl
  | ⟨1, _⟩ =>
    show GatherDims.start _ _ idx 1 + GatherDims.batchCoord _ _ 1 + GatherDims.offCoord _ _ 1 = ch.val
    rw [GatherDims.batchCoord_eq_zero _ _ _ List.not_mem_nil]
    unfold GatherDims.start
    rw [dif_neg (by decide)]
    unfold GatherDims.offCoord
    rw [dif_pos (by decide)]
    have key : ∀ (n : Nat) (hn : n < ([2] : List (Fin 3)).length), (ix3 r h ch ([(2 : Fin 3)][n]'hn)).val = ch.val := by
      intro n hn
      have h0 : n = 0 := by simpa using hn
      subst h0; rfl
    simp only [Nat.zero_add]
    exact key _ _

/-- A block gather read at (j, h, ci, co): the operand's 128 × 128 block named by the start index at (j, h), read signed and
    clamped into [0, 16], at (ci, co). -/
theorem gatherC_apply (x : S17x128x128.Idx → α) (idx : IVec S6x6x1 32) (j h : Fin 6) (ci co : Fin 128) :
    Host.gather gather_S17x128x128_S6x6x1_S6x6x128x128_23_0_n_n_0_2_1128128 x idx (ix4 j h ci co)
      = x (ix3 ⟨min (idx (ix3 j h 0)).toInt.toNat 16, by omega⟩ ci co) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S17x128x128_S6x6x1_S6x6x128x128_23_0_n_n_0_2_1128128.startIndexMap from List.mem_singleton.mpr rfl)]
    have hsi : gather_S17x128x128_S6x6x1_S6x6x128x128_23_0_n_n_0_2_1128128.siIdx (ix4 j h ci co) ⟨List.idxOf (0 : Fin 3) gather_S17x128x128_S6x6x1_S6x6x128x128_23_0_n_n_0_2_1128128.startIndexMap,
        List.idxOf_lt_length_iff.2 (List.mem_singleton.mpr rfl)⟩ = ix3 j h 0 := by
      funext b; refine Fin.ext ?_
      match b with
      | ⟨0, _⟩ => rfl
      | ⟨1, _⟩ => rfl
      | ⟨2, _⟩ => rfl
    rw [hsi]
    rfl
  | ⟨1, _⟩ =>
    show GatherDims.start _ _ idx 1 + GatherDims.batchCoord _ _ 1 + GatherDims.offCoord _ _ 1 = ci.val
    rw [GatherDims.batchCoord_eq_zero _ _ _ List.not_mem_nil]
    unfold GatherDims.start
    rw [dif_neg (by decide)]
    unfold GatherDims.offCoord
    rw [dif_pos (by decide)]
    have key : ∀ (n : Nat) (hn : n < ([2, 3] : List (Fin 4)).length), n = 0 → (ix4 j h ci co ([(2 : Fin 4), 3][n]'hn)).val = ci.val := by
      intro n hn h0
      subst h0; rfl
    simp only [Nat.zero_add]
    exact key _ _ (by decide)
  | ⟨2, _⟩ =>
    show GatherDims.start _ _ idx 2 + GatherDims.batchCoord _ _ 2 + GatherDims.offCoord _ _ 2 = co.val
    rw [GatherDims.batchCoord_eq_zero _ _ _ List.not_mem_nil]
    unfold GatherDims.start
    rw [dif_neg (by decide)]
    unfold GatherDims.offCoord
    rw [dif_pos (by decide)]
    have key : ∀ (n : Nat) (hn : n < ([2, 3] : List (Fin 4)).length), n = 1 → (ix4 j h ci co ([(2 : Fin 4), 3][n]'hn)).val = co.val := by
      intro n hn h0
      subst h0; rfl
    simp only [Nat.zero_add]
    exact key _ _ (by decide)

/-- The gathers with the clamped start index named. -/
theorem gatherA_apply' (x : S21x128.Idx → α) (idx : IVec S16x6x1 32) (r : Fin 16) (h : Fin 6) (ch : Fin 128) (i : Fin 21)
    (hi : min (idx (ix3 r h 0)).toInt.toNat 20 = i.val) :
    Host.gather gather_S21x128_S16x6x1_S16x6x128_2_0_n_n_0_2_1128 x idx (ix3 r h ch) = x (ix2 i ch) := by
  rw [gatherA_apply]; exact congrArg (fun k => x (ix2 k ch)) (Fin.ext hi)
theorem gatherB_apply' (x : S21x128.Idx → α) (idx : IVec S6x16x1 32) (r : Fin 6) (h : Fin 16) (ch : Fin 128) (i : Fin 21)
    (hi : min (idx (ix3 r h 0)).toInt.toNat 20 = i.val) :
    Host.gather gather_S21x128_S6x16x1_S6x16x128_2_0_n_n_0_2_1128 x idx (ix3 r h ch) = x (ix2 i ch) := by
  rw [gatherB_apply]; exact congrArg (fun k => x (ix2 k ch)) (Fin.ext hi)
theorem gatherC_apply' (x : S17x128x128.Idx → α) (idx : IVec S6x6x1 32) (j h : Fin 6) (ci co : Fin 128) (i : Fin 17)
    (hi : min (idx (ix3 j h 0)).toInt.toNat 16 = i.val) :
    Host.gather gather_S17x128x128_S6x6x1_S6x6x128x128_23_0_n_n_0_2_1128128 x idx (ix4 j h ci co) = x (ix3 i ci co) := by
  rw [gatherC_apply]; exact congrArg (fun k => x (ix3 k ci co)) (Fin.ext hi)
end Gather

section Cat
variable {α : Type}
/-- The 21 rows a row gather reads: five zero rows, the 11 taps, five zero rows. -/
def cat3A (p : S5x128.Idx → α) (q : S11x128.Idx → α) (r : S5x128.Idx → α) : S21x128.Idx → α :=
  concatenate S21x128 0 [⟨S5x128, p⟩, ⟨S11x128, q⟩, ⟨S5x128, r⟩] concatenates_S5x128_S11x128_S5x128_S21x128_d0
/-- The 21 rows the fifth matrix's gather reads: five zero rows, the 3 taps, thirteen zero rows. -/
def cat3B (p : S5x128.Idx → α) (q : S3x128.Idx → α) (r : S13x128.Idx → α) : S21x128.Idx → α :=
  concatenate S21x128 0 [⟨S5x128, p⟩, ⟨S3x128, q⟩, ⟨S13x128, r⟩] concatenates_S5x128_S3x128_S13x128_S21x128_d0
/-- Two stacks of blocks along the leading axis: eleven tap blocks, then six zero blocks. -/
def cat2C (p : S11x128x128.Idx → α) (q : S6x128x128.Idx → α) : S17x128x128.Idx → α :=
  concatenate S17x128x128 0 [⟨S11x128x128, p⟩, ⟨S6x128x128, q⟩] concatenates_S11x128x128_S6x128x128_S17x128x128_d0
theorem cat2C_fold (p : S11x128x128.Idx → α) (q : S6x128x128.Idx → α) :
    concatenate S17x128x128 0 [⟨S11x128x128, p⟩, ⟨S6x128x128, q⟩] concatenates_S11x128x128_S6x128x128_S17x128x128_d0 = cat2C p q := rfl
end Cat

theorem catA_result (hxs hy) (F : Valuation τ sig (Elt Ideal)) :
    (StableHlo.nary (τ := τ) ![main_v8, main_v1, main_v9] main_v10
        (fun u => concatenate S21x128 0 [⟨S5x128, u 0⟩, ⟨S11x128, u 1⟩, ⟨S5x128, u 2⟩] concatenates_S5x128_S11x128_S5x128_S21x128_d0) hxs hy).result F
      (no_index (Proc.devRef .tc main_v10))
      = cat3A (F (Proc.devRef .tc main_v8)) (F (Proc.devRef .tc main_v1)) (F (Proc.devRef .tc main_v9)) := by
  rw [StableHlo.nary_result]; rfl

theorem catB_result (hxs hy) (F : Valuation τ sig (Elt Ideal)) :
    (StableHlo.nary (τ := τ) ![main_v28, main_v3, main_v29] main_v30
        (fun u => concatenate S21x128 0 [⟨S5x128, u 0⟩, ⟨S3x128, u 1⟩, ⟨S13x128, u 2⟩] concatenates_S5x128_S3x128_S13x128_S21x128_d0) hxs hy).result F
      (no_index (Proc.devRef .tc main_v30))
      = cat3B (F (Proc.devRef .tc main_v28)) (F (Proc.devRef .tc main_v3)) (F (Proc.devRef .tc main_v29)) := by
  rw [StableHlo.nary_result]; rfl

/-- The buffer contents after a stretch of operations, one pass: each operation's result at its own reference is its function of
    its operands' contents, at any other reference what was there. -/
macro "host_results" : tactic =>
  `(tactic| (simp (disch := decide) only [StableHlo.after_cons, StableHlo.after_nil,
      StableHlo.nullary_result', StableHlo.unary_result', StableHlo.binary_result', StableHlo.ternary_result', StableHlo.quaternary_result',
      StableHlo.reshape_result', catA_result, catB_result, cat2C_fold,
      StableHlo.nullary_result_ne', StableHlo.unary_result_ne', StableHlo.binary_result_ne', StableHlo.ternary_result_ne',
      StableHlo.quaternary_result_ne', StableHlo.reshape_result_ne', StableHlo.nary_result_ne']))

section CatRead
variable {α : Type}

/-- Row i of the stacked 21 rows. -/
theorem cat3A_apply (p : S5x128.Idx → α) (q : S11x128.Idx → α) (r : S5x128.Idx → α) (i : Fin 21) (ch : Fin 128) :
    cat3A p q r (ix2 i ch)
      = if h1 : i.val < 5 then p (ix2 ⟨i.val, h1⟩ ch)
        else if h2 : i.val < 16 then q (ix2 ⟨i.val - 5, by omega⟩ ch) else r (ix2 ⟨i.val - 16, by omega⟩ ch) := by
  unfold cat3A
  by_cases h1 : i.val < 5
  · rw [dif_pos h1]
    refine concatenate_apply_piece (0 : Fin 2) [⟨S5x128, p⟩, ⟨S11x128, q⟩, ⟨S5x128, r⟩] _ (ix2 i ch) 0 (by simp) S5x128 p rfl rfl 0 rfl (ix2 ⟨i.val, h1⟩ ch) ?_ ?_
    · intro b hb
      match b with
      | ⟨0, _⟩ => exact absurd rfl hb
      | ⟨1, _⟩ => rfl
    · show 0 + i.val = i.val; omega
  · rw [dif_neg h1]
    by_cases h2 : i.val < 16
    · rw [dif_pos h2]
      refine concatenate_apply_piece (0 : Fin 2) [⟨S5x128, p⟩, ⟨S11x128, q⟩, ⟨S5x128, r⟩] _ (ix2 i ch) 1 (by simp) S11x128 q rfl rfl 5 rfl (ix2 ⟨i.val - 5, by omega⟩ ch) ?_ ?_
      · intro b hb
        match b with
        | ⟨0, _⟩ => exact absurd rfl hb
        | ⟨1, _⟩ => rfl
      · show 5 + (i.val - 5) = i.val; omega
    · rw [dif_neg h2]
      refine concatenate_apply_piece (0 : Fin 2) [⟨S5x128, p⟩, ⟨S11x128, q⟩, ⟨S5x128, r⟩] _ (ix2 i ch) 2 (by simp) S5x128 r rfl rfl 16 rfl (ix2 ⟨i.val - 16, by omega⟩ ch) ?_ ?_
      · intro b hb
        match b with
        | ⟨0, _⟩ => exact absurd rfl hb
        | ⟨1, _⟩ => rfl
      · show 16 + (i.val - 16) = i.val; omega

theorem cat3B_apply (p : S5x128.Idx → α) (q : S3x128.Idx → α) (r : S13x128.Idx → α) (i : Fin 21) (ch : Fin 128) :
    cat3B p q r (ix2 i ch)
      = if h1 : i.val < 5 then p (ix2 ⟨i.val, h1⟩ ch)
        else if h2 : i.val < 8 then q (ix2 ⟨i.val - 5, by omega⟩ ch) else r (ix2 ⟨i.val - 8, by omega⟩ ch) := by
  unfold cat3B
  by_cases h1 : i.val < 5
  · rw [dif_pos h1]
    refine concatenate_apply_piece (0 : Fin 2) [⟨S5x128, p⟩, ⟨S3x128, q⟩, ⟨S13x128, r⟩] _ (ix2 i ch) 0 (by simp) S5x128 p rfl rfl 0 rfl (ix2 ⟨i.val, h1⟩ ch) ?_ ?_
    · intro b hb
      match b with
      | ⟨0, _⟩ => exact absurd rfl hb
      | ⟨1, _⟩ => rfl
    · show 0 + i.val = i.val; omega
  · rw [dif_neg h1]
    by_cases h2 : i.val < 8
    · rw [dif_pos h2]
      refine concatenate_apply_piece (0 : Fin 2) [⟨S5x128, p⟩, ⟨S3x128, q⟩, ⟨S13x128, r⟩] _ (ix2 i ch) 1 (by simp) S3x128 q rfl rfl 5 rfl (ix2 ⟨i.val - 5, by omega⟩ ch) ?_ ?_
      · intro b hb
        match b with
        | ⟨0, _⟩ => exact absurd rfl hb
        | ⟨1, _⟩ => rfl
      · show 5 + (i.val - 5) = i.val; omega
    · rw [dif_neg h2]
      refine concatenate_apply_piece (0 : Fin 2) [⟨S5x128, p⟩, ⟨S3x128, q⟩, ⟨S13x128, r⟩] _ (ix2 i ch) 2 (by simp) S13x128 r rfl rfl 8 rfl (ix2 ⟨i.val - 8, by omega⟩ ch) ?_ ?_
      · intro b hb
        match b with
        | ⟨0, _⟩ => exact absurd rfl hb
        | ⟨1, _⟩ => rfl
      · show 8 + (i.val - 8) = i.val; omega

theorem cat2C_apply (p : S11x128x128.Idx → α) (q : S6x128x128.Idx → α) (i : Fin 17) (ci co : Fin 128) :
    cat2C p q (ix3 i ci co)
      = if h1 : i.val < 11 then p (ix3 ⟨i.val, h1⟩ ci co) else q (ix3 ⟨i.val - 11, by omega⟩ ci co) := by
  unfold cat2C
  by_cases h1 : i.val < 11
  · rw [dif_pos h1]
    refine concatenate_apply_piece (0 : Fin 3) [⟨S11x128x128, p⟩, ⟨S6x128x128, q⟩] _ (ix3 i ci co) 0 (by simp) S11x128x128 p rfl rfl 0 rfl (ix3 ⟨i.val, h1⟩ ci co) ?_ ?_
    · intro b hb
      match b with
      | ⟨0, _⟩ => exact absurd rfl hb
      | ⟨1, _⟩ => rfl
      | ⟨2, _⟩ => rfl
    · show 0 + i.val = i.val; omega
  · rw [dif_neg h1]
    refine concatenate_apply_piece (0 : Fin 3) [⟨S11x128x128, p⟩, ⟨S6x128x128, q⟩] _ (ix3 i ci co) 1 (by simp) S6x128x128 q rfl rfl 11 rfl (ix3 ⟨i.val - 11, by omega⟩ ci co) ?_ ?_
    · intro b hb
      match b with
      | ⟨0, _⟩ => exact absurd rfl hb
      | ⟨1, _⟩ => rfl
      | ⟨2, _⟩ => rfl
    · show 11 + (i.val - 11) = i.val; omega
end CatRead

/-- The float zero broadcast to any shape is zero at every index. -/
theorem zeros_apply {t : Shape} (h : S_.BroadcastsInDim t (![] : Fin 0 → Fin t.rank)) (j : t.Idx) :
    broadcastInDim t ![] h (constant (F := Ideal) S_ .f32 0x00000000#32) j = 0 := by
  refine (broadcastInDim_apply _ _ _ j ix0 (fun a => a.elim0)).trans ?_
  rw [constant_apply]; exact Ideal.ofBits_zero_f32

/-- Start indices of the first banded matrix's row gather, as the host computes them: entry (r, h) is r − h + 5, wrapped by 21 were it negative. -/
def tblA : IVec S16x6x1 32 :=
  broadcastInDim S16x6x1 ![0, 1] bcast_S16x6_S16x6x1_0_1
    (select
      (cmpi .slt
        (addi (subi (broadcastInDim S16x6 ![0, 1] bcast_S16x1_S16x6_0_1 (broadcastInDim S16x1 ![0] bcast_S16_S16x1_0 (iotaInDim S16 32 0)))
            (broadcastInDim S16x6 ![0, 1] bcast_S1x6_S16x6_0_1 (broadcastInDim S1x6 ![1] bcast_S6_S1x6_1 (iotaInDim S6 32 0))))
          (broadcastInDim S16x6 ![] bcast_S_S16x6 (constantI S_ 32 5#32)))
        (broadcastInDim S16x6 ![] bcast_S_S16x6 (constantI S_ 32 0#32)))
      (addi
        (addi (subi (broadcastInDim S16x6 ![0, 1] bcast_S16x1_S16x6_0_1 (broadcastInDim S16x1 ![0] bcast_S16_S16x1_0 (iotaInDim S16 32 0)))
            (broadcastInDim S16x6 ![0, 1] bcast_S1x6_S16x6_0_1 (broadcastInDim S1x6 ![1] bcast_S6_S1x6_1 (iotaInDim S6 32 0))))
          (broadcastInDim S16x6 ![] bcast_S_S16x6 (constantI S_ 32 5#32)))
        (broadcastInDim S16x6 ![] bcast_S_S16x6 (constantI S_ 32 21#32)))
      (addi (subi (broadcastInDim S16x6 ![0, 1] bcast_S16x1_S16x6_0_1 (broadcastInDim S16x1 ![0] bcast_S16_S16x1_0 (iotaInDim S16 32 0)))
          (broadcastInDim S16x6 ![0, 1] bcast_S1x6_S16x6_0_1 (broadcastInDim S1x6 ![1] bcast_S6_S1x6_1 (iotaInDim S6 32 0))))
        (broadcastInDim S16x6 ![] bcast_S_S16x6 (constantI S_ 32 5#32))))

/-- The table never wraps: entry (r, h), read signed, is r + 5 − h. -/
theorem tblA_entry : ∀ (r : Fin 16) (h : Fin 6), (tblA (ix3 r h 0)).toInt.toNat = r.val + 5 - h.val := by
  decide +kernel

/-- Start indices of the fifth matrix's row gather: entry (j, s) is 10 + j − s + 5, wrapped by 21 were it negative. -/
def tblB : IVec S6x16x1 32 :=
  broadcastInDim S6x16x1 ![0, 1] bcast_S6x16_S6x16x1_0_1
    (select
      (cmpi .slt
        (addi (subi (broadcastInDim S6x16 ![0, 1] bcast_S6x1_S6x16_0_1
              (addi (broadcastInDim S6x1 ![] bcast_S_S6x1 (constantI S_ 32 10#32)) (broadcastInDim S6x1 ![0] bcast_S6_S6x1_0 (iotaInDim S6 32 0))))
            (broadcastInDim S6x16 ![0, 1] bcast_S1x16_S6x16_0_1 (broadcastInDim S1x16 ![1] bcast_S16_S1x16_1 (iotaInDim S16 32 0))))
          (broadcastInDim S6x16 ![] bcast_S_S6x16 (constantI S_ 32 5#32)))
        (broadcastInDim S6x16 ![] bcast_S_S6x16 (constantI S_ 32 0#32)))
      (addi
        (addi (subi (broadcastInDim S6x16 ![0, 1] bcast_S6x1_S6x16_0_1
              (addi (broadcastInDim S6x1 ![] bcast_S_S6x1 (constantI S_ 32 10#32)) (broadcastInDim S6x1 ![0] bcast_S6_S6x1_0 (iotaInDim S6 32 0))))
            (broadcastInDim S6x16 ![0, 1] bcast_S1x16_S6x16_0_1 (broadcastInDim S1x16 ![1] bcast_S16_S1x16_1 (iotaInDim S16 32 0))))
          (broadcastInDim S6x16 ![] bcast_S_S6x16 (constantI S_ 32 5#32)))
        (broadcastInDim S6x16 ![] bcast_S_S6x16 (constantI S_ 32 21#32)))
      (addi (subi (broadcastInDim S6x16 ![0, 1] bcast_S6x1_S6x16_0_1
            (addi (broadcastInDim S6x1 ![] bcast_S_S6x1 (constantI S_ 32 10#32)) (broadcastInDim S6x1 ![0] bcast_S6_S6x1_0 (iotaInDim S6 32 0))))
          (broadcastInDim S6x16 ![0, 1] bcast_S1x16_S6x16_0_1 (broadcastInDim S1x16 ![1] bcast_S16_S1x16_1 (iotaInDim S16 32 0))))
        (broadcastInDim S6x16 ![] bcast_S_S6x16 (constantI S_ 32 5#32))))

theorem tblB_entry : ∀ (j : Fin 6) (s : Fin 16), (tblB (ix3 j s 0)).toInt.toNat = 15 + j.val - s.val := by
  decide +kernel

/-- Start indices of a banded 768×768 matrix's block gather: entry (j, h) is 10 + j − h, wrapped by 17 were it negative. -/
def tblC : IVec S6x6x1 32 :=
  broadcastInDim S6x6x1 ![0, 1] bcast_S6x6_S6x6x1_0_1
    (select
      (cmpi .slt
        (subi (broadcastInDim S6x6 ![0, 1] bcast_S6x1_S6x6_0_1
            (addi (broadcastInDim S6x1 ![] bcast_S_S6x1 (constantI S_ 32 10#32)) (broadcastInDim S6x1 ![0] bcast_S6_S6x1_0 (iotaInDim S6 32 0))))
          (broadcastInDim S6x6 ![0, 1] bcast_S1x6_S6x6_0_1 (broadcastInDim S1x6 ![1] bcast_S6_S1x6_1 (iotaInDim S6 32 0))))
        (broadcastInDim S6x6 ![] bcast_S_S6x6 (constantI S_ 32 0#32)))
      (addi
        (subi (broadcastInDim S6x6 ![0, 1] bcast_S6x1_S6x6_0_1
            (addi (broadcastInDim S6x1 ![] bcast_S_S6x1 (constantI S_ 32 10#32)) (broadcastInDim S6x1 ![0] bcast_S6_S6x1_0 (iotaInDim S6 32 0))))
          (broadcastInDim S6x6 ![0, 1] bcast_S1x6_S6x6_0_1 (broadcastInDim S1x6 ![1] bcast_S6_S1x6_1 (iotaInDim S6 32 0))))
        (broadcastInDim S6x6 ![] bcast_S_S6x6 (constantI S_ 32 17#32)))
      (subi (broadcastInDim S6x6 ![0, 1] bcast_S6x1_S6x6_0_1
          (addi (broadcastInDim S6x1 ![] bcast_S_S6x1 (constantI S_ 32 10#32)) (broadcastInDim S6x1 ![0] bcast_S6_S6x1_0 (iotaInDim S6 32 0))))
        (broadcastInDim S6x6 ![0, 1] bcast_S1x6_S6x6_0_1 (broadcastInDim S1x6 ![1] bcast_S6_S1x6_1 (iotaInDim S6 32 0)))))

theorem tblC_entry : ∀ (j : Fin 6) (h : Fin 6), (tblC (ix3 j h 0)).toInt.toNat = 10 + j.val - h.val := by
  decide +kernel

/-- The lane mask of the fifth matrix: lane s is kept when s < 14. -/
def maskB : IVec S1x16x1 1 :=
  broadcastInDim S1x16x1 ![0, 1] bcast_S1x16_S1x16x1_0_1
    (cmpi .slt (broadcastInDim S1x16 ![1] bcast_S16_S1x16_1 (iotaInDim S16 32 0)) (broadcastInDim S1x16 ![] bcast_S_S1x16 (constantI S_ 32 14#32)))

theorem maskB_entry : ∀ (s : Fin 16), maskB (ix3 0 s 0) = if s.val < 14 then 1#1 else 0#1 := by
  decide +kernel

end Cert.KernelIdeal.HostVal

end
-- ==== Proof.KHost3.lean ====
import proofs.«109392_g2000007139875455_pallasbulk_612_2_alg».proof.Proof.KernelIdealRun
import proofs.«109392_g2000007139875455_pallasbulk_612_2_alg».proof.Proof.KHost1
import proofs.«109392_g2000007139875455_pallasbulk_612_2_alg».proof.Proof.KHostLib
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.KernelIdeal.HostVal

open Cert.KernelIdeal Cert.KernelIdeal.Gen Cert.KernelIdeal.Run
open Idealize.ShloMosaic Idealize.ShloMosaic.TcCoe Idealize.ShloMosaic.Tactic
open Idealize.ShloMosaic.ValueIdx

variable (m : (ℓ : Loc nD τ sig) → Buf (Elt Ideal) ℓ) (ρ : Dev nD → PrngReg)

/-! # The first layer's banded matrix: column (h, ch), row r holds tap r − h of channel ch when 0 ≤ r − h ≤ 10 -/

set_option maxHeartbeats 4000000 in
theorem m1_apply (c : Dev nD) (r : Fin 16) (q : Fin 768) :
    (V3 m ρ c main_v23 : S16x768.Idx → EReal) (ix2 r q)
      = if h : q.val / 128 ≤ r.val ∧ r.val ≤ q.val / 128 + 10 then
          a1 m c (ix4 ⟨q.val % 128, Nat.mod_lt _ (by norm_num)⟩ 0 ⟨r.val - q.val / 128, by omega⟩ 0)
        else 0 := by
  have e : (V3 m ρ c main_v23 : S16x768.Idx → EReal) = fun i => shapeCast S16x768
      (Host.gather gather_S21x128_S16x6x1_S16x6x128_2_0_n_n_0_2_1128
        (cat3A (broadcastInDim S5x128 ![] bcast_S_S5x128 (constant (F := Ideal) S_ .f32 0x00000000#32))
          (transpose S11x128 [1, 0] (fun i => shapeCast S128x11 (a1 m c) shapeCasts_S128x1x11x1_S128x11 i) transposes_S128x11_S11x128_1_0)
          (broadcastInDim S5x128 ![] bcast_S_S5x128 (constant (F := Ideal) S_ .f32 0x00000000#32)))
        tblA) shapeCasts_S16x6x128_S16x768 i := by
    show StableHlo.after hostOps0_2 (StableHlo.after hostOps0_1 (StableHlo.after hostOps0 (B0 m ρ c))) (Proc.devRef .tc main_v23) = _
    host_results
    rfl
  rw [e]
  show shapeCast S16x768 _ _ (ix2 r q) = _
  refine (shapeCast_apply _ _ (ix2 r q) (ix3 r (⟨q.val / 128, by omega⟩ : Fin 6) (⟨q.val % 128, Nat.mod_lt _ (by norm_num)⟩ : Fin 128)) ?_).trans ?_
  · rw [Shape.rowMajor_val_three, Shape.rowMajor_val_two]
    show (r.val * 6 + q.val / 128) * 128 + q.val % 128 = r.val * 768 + q.val
    omega
  refine (gatherA_apply' _ _ r _ _ (⟨r.val + 5 - q.val / 128, by omega⟩ : Fin 21) ?_).trans ?_
  · rw [tblA_entry]
    show min (r.val + 5 - q.val / 128) 20 = r.val + 5 - q.val / 128
    omega
  rw [cat3A_apply]
  by_cases h : q.val / 128 ≤ r.val ∧ r.val ≤ q.val / 128 + 10
  · rw [dif_pos h, dif_neg (show ¬ (r.val + 5 - q.val / 128 < 5) by omega), dif_pos (show r.val + 5 - q.val / 128 < 16 by omega)]
    refine (transpose_apply _ _ _ _ (ix2 (⟨q.val % 128, Nat.mod_lt _ (by norm_num)⟩ : Fin 128) (⟨r.val + 5 - q.val / 128 - 5, by omega⟩ : Fin 11)) ?_).trans ?_
    · intro b
      match b with
      | ⟨0, _⟩ => rfl
      | ⟨1, _⟩ => rfl
    show shapeCast S128x11 _ _ _ = _
    refine shapeCast_apply (s := S128x1x11x1) _ _ _ _ ?_
    rw [Shape.rowMajor_val_four, Shape.rowMajor_val_two]
    show ((q.val % 128 * 1 + 0) * 11 + (r.val - q.val / 128)) * 1 + 0 = q.val % 128 * 11 + (r.val + 5 - q.val / 128 - 5)
    omega
  · rw [dif_neg h]
    by_cases h1 : r.val + 5 - q.val / 128 < 5
    · rw [dif_pos h1]; exact zeros_apply _ _
    · rw [dif_neg h1, dif_neg (show ¬ (r.val + 5 - q.val / 128 < 16) by omega)]; exact zeros_apply _ _

end Cert.KernelIdeal.HostVal

end
-- ==== Proof.KHost4.lean ====
import proofs.«109392_g2000007139875455_pallasbulk_612_2_alg».proof.Proof.KernelIdealRun
import proofs.«109392_g2000007139875455_pallasbulk_612_2_alg».proof.Proof.KHost1
import proofs.«109392_g2000007139875455_pallasbulk_612_2_alg».proof.Proof.KHostLib
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.KernelIdeal.HostVal

open Cert.KernelIdeal Cert.KernelIdeal.Gen Cert.KernelIdeal.Run
open Idealize.ShloMosaic Idealize.ShloMosaic.TcCoe Idealize.ShloMosaic.Tactic
open Idealize.ShloMosaic.ValueIdx

variable (m : (ℓ : Loc nD τ sig) → Buf (Elt Ideal) ℓ) (ρ : Dev nD → PrngReg)

/-! # The fifth layer's matrix: row (j, ci), lane s holds tap 10 + j − s of channel ci when that is one of the three taps and s < 14 -/

set_option maxHeartbeats 4000000 in
theorem m5_apply (c : Dev nD) (k : Fin 768) (s : Fin 16) :
    (V3 m ρ c main_v50 : S768x16.Idx → EReal) (ix2 k s)
      = if h : s.val < 14 ∧ s.val ≤ 10 + k.val / 128 ∧ 10 + k.val / 128 ≤ s.val + 2 then
          a9 m c (ix4 0 ⟨k.val % 128, Nat.mod_lt _ (by norm_num)⟩ ⟨10 + k.val / 128 - s.val, by omega⟩ 0)
        else 0 := by
  have e2 : ∀ W : Valuation τ sig (Elt Ideal), StableHlo.after hostOps0_2 W (Proc.devRef .tc main_v50)
      = fun i => shapeCast S768x16 (transpose S6x128x16 [0, 2, 1] (W (Proc.devRef .tc main_v48)) transposes_S6x16x128_S6x128x16_0_2_1) shapeCasts_S6x128x16_S768x16 i := by
    intro W; host_results; rfl
  have e1 : ∀ W : Valuation τ sig (Elt Ideal), StableHlo.after hostOps0_1 W (Proc.devRef .tc main_v48)
      = select (broadcastInDim S6x16x128 ![0, 1, 2] bcast_S1x16x1_S6x16x128_0_1_2 (W (Proc.devRef .tc main_v47)))
          (W (Proc.devRef .tc main_v44))
          (broadcastInDim S6x16x128 ![] bcast_S_S6x16x128 (W (Proc.devRef .tc main_cst_10))) := by
    intro W; host_results; rfl
  have e0a : StableHlo.after hostOps0 (B0 m ρ c) (Proc.devRef .tc main_v47) = maskB := by
    host_results; rfl
  have e0b : StableHlo.after hostOps0 (B0 m ρ c) (Proc.devRef .tc main_v44)
      = Host.gather gather_S21x128_S6x16x1_S6x16x128_2_0_n_n_0_2_1128
          (cat3B (broadcastInDim S5x128 ![] bcast_S_S5x128 (constant (F := Ideal) S_ .f32 0x00000000#32))
            (transpose S3x128 [1, 0] (fun i => shapeCast S128x3 (a9 m c) shapeCasts_S1x128x3x1_S128x3 i) transposes_S128x3_S3x128_1_0)
            (broadcastInDim S13x128 ![] bcast_S_S13x128 (constant (F := Ideal) S_ .f32 0x00000000#32)))
          tblB := by
    host_results; rfl
  have e0c : StableHlo.after hostOps0 (B0 m ρ c) (Proc.devRef .tc main_cst_10) = constant (F := Ideal) S_ .f32 0x00000000#32 := by
    host_results
  have e : (V3 m ρ c main_v50 : S768x16.Idx → EReal) = fun i => shapeCast S768x16
      (transpose S6x128x16 [0, 2, 1]
        (select (broadcastInDim S6x16x128 ![0, 1, 2] bcast_S1x16x1_S6x16x128_0_1_2 maskB)
          (Host.gather gather_S21x128_S6x16x1_S6x16x128_2_0_n_n_0_2_1128
            (cat3B (broadcastInDim S5x128 ![] bcast_S_S5x128 (constant (F := Ideal) S_ .f32 0x00000000#32))
              (transpose S3x128 [1, 0] (fun i => shapeCast S128x3 (a9 m c) shapeCasts_S1x128x3x1_S128x3 i) transposes_S128x3_S3x128_1_0)
              (broadcastInDim S13x128 ![] bcast_S_S13x128 (constant (F := Ideal) S_ .f32 0x00000000#32)))
            tblB)
          (broadcastInDim S6x16x128 ![] bcast_S_S6x16x128 (constant (F := Ideal) S_ .f32 0x00000000#32)))
        transposes_S6x16x128_S6x128x16_0_2_1) shapeCasts_S6x128x16_S768x16 i := by
    show StableHlo.after hostOps0_2 (StableHlo.after hostOps0_1 (StableHlo.after hostOps0 (B0 m ρ c))) (Proc.devRef .tc main_v50) = _
    rw [e2, e1, e0a, e0b, e0c]
  rw [e]
  show shapeCast S768x16 _ _ (ix2 k s) = _
  refine (shapeCast_apply _ _ (ix2 k s) (ix3 (⟨k.val / 128, by omega⟩ : Fin 6) (⟨k.val % 128, Nat.mod_lt _ (by norm_num)⟩ : Fin 128) s) ?_).trans ?_
  · rw [Shape.rowMajor_val_three, Shape.rowMajor_val_two]
    show (k.val / 128 * 128 + k.val % 128) * 16 + s.val = k.val * 16 + s.val
    omega
  refine (transpose_apply _ _ _ _ (ix3 (⟨k.val / 128, by omega⟩ : Fin 6) s (⟨k.val % 128, Nat.mod_lt _ (by norm_num)⟩ : Fin 128)) ?_).trans ?_
  · intro b
    match b with
    | ⟨0, _⟩ => rfl
    | ⟨1, _⟩ => rfl
    | ⟨2, _⟩ => rfl
  rw [select_apply]
  have hm : broadcastInDim S6x16x128 ![0, 1, 2] bcast_S1x16x1_S6x16x128_0_1_2 maskB
      (ix3 (⟨k.val / 128, by omega⟩ : Fin 6) s (⟨k.val % 128, Nat.mod_lt _ (by norm_num)⟩ : Fin 128)) = if s.val < 14 then 1#1 else 0#1 := by
    refine (broadcastInDim_apply _ _ _ _ (ix3 0 s 0) ?_).trans (maskB_entry s)
    intro a
    match a with
    | ⟨0, _⟩ => rfl
    | ⟨1, _⟩ => rfl
    | ⟨2, _⟩ => rfl
  rw [hm]
  by_cases hs : s.val < 14
  · rw [if_pos hs, select_one]
    refine (gatherB_apply' _ _ _ s _ (⟨15 + k.val / 128 - s.val, by omega⟩ : Fin 21) ?_).trans ?_
    · rw [tblB_entry]
      show min (15 + k.val / 128 - s.val) 20 = 15 + k.val / 128 - s.val
      omega
    rw [cat3B_apply]
    by_cases h : s.val < 14 ∧ s.val ≤ 10 + k.val / 128 ∧ 10 + k.val / 128 ≤ s.val + 2
    · rw [dif_pos h, dif_neg (show ¬ (15 + k.val / 128 - s.val < 5) by omega), dif_pos (show 15 + k.val / 128 - s.val < 8 by omega)]
      refine (transpose_apply _ _ _ _ (ix2 (⟨k.val % 128, Nat.mod_lt _ (by norm_num)⟩ : Fin 128) (⟨15 + k.val / 128 - s.val - 5, by omega⟩ : Fin 3)) ?_).trans ?_
      · intro b
        match b with
        | ⟨0, _⟩ => rfl
        | ⟨1, _⟩ => rfl
      show shapeCast S128x3 _ _ _ = _
      refine shapeCast_apply (s := S1x128x3x1) _ _ _ _ ?_
      rw [Shape.rowMajor_val_four, Shape.rowMajor_val_two]
      show ((0 * 128 + k.val % 128) * 3 + (10 + k.val / 128 - s.val)) * 1 + 0 = k.val % 128 * 3 + (15 + k.val / 128 - s.val - 5)
      omega
    · rw [dif_neg h]
      by_cases h1 : 15 + k.val / 128 - s.val < 5
      · rw [dif_pos h1]; exact zeros_apply _ _
      · rw [dif_neg h1, dif_neg (show ¬ (15 + k.val / 128 - s.val < 8) by omega)]; exact zeros_apply _ _
  · rw [if_neg hs, select_zero, dif_neg (fun h => hs h.1)]
    exact zeros_apply _ _

end Cert.KernelIdeal.HostVal

end
-- ==== Proof.KHost5.lean ====
import proofs.«109392_g2000007139875455_pallasbulk_612_2_alg».proof.Proof.KernelIdealRun
import proofs.«109392_g2000007139875455_pallasbulk_612_2_alg».proof.Proof.KHost1
import proofs.«109392_g2000007139875455_pallasbulk_612_2_alg».proof.Proof.KHostLib
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.KernelIdeal.HostVal

open Cert.KernelIdeal Cert.KernelIdeal.Gen Cert.KernelIdeal.Run
open Idealize.ShloMosaic Idealize.ShloMosaic.TcCoe Idealize.ShloMosaic.Tactic
open Idealize.ShloMosaic.ValueIdx

variable (m : (ℓ : Loc nD τ sig) → Buf (Elt Ideal) ℓ) (ρ : Dev nD → PrngReg)

/-! # The banded 768 × 768 matrices of layers two to four: block (j, h) holds tap 10 + j − h when j ≤ h -/

/-- The host's banded matrix of a convolution weight, read at row k = (j, ci), column q = (h, co). -/
theorem banded_read (x : S128x128x11x1.Idx → EReal) (k q : Fin 768) :
    shapeCast S768x768
        (transpose S6x128x6x128 [0, 2, 1, 3]
          (Host.gather gather_S17x128x128_S6x6x1_S6x6x128x128_23_0_n_n_0_2_1128128
            (cat2C (transpose S11x128x128 [2, 1, 0] (fun i => shapeCast S128x128x11 x shapeCasts_S128x128x11x1_S128x128x11 i) transposes_S128x128x11_S11x128x128_2_1_0)
              (broadcastInDim S6x128x128 ![] bcast_S_S6x128x128 (constant (F := Ideal) S_ .f32 0x00000000#32)))
            tblC)
          transposes_S6x6x128x128_S6x128x6x128_0_2_1_3) shapeCasts_S6x128x6x128_S768x768 (ix2 k q)
      = if h : k.val / 128 ≤ q.val / 128 then
          x (ix4 ⟨q.val % 128, Nat.mod_lt _ (by norm_num)⟩ ⟨k.val % 128, Nat.mod_lt _ (by norm_num)⟩ ⟨10 + k.val / 128 - q.val / 128, by omega⟩ 0)
        else 0 := by
  refine (shapeCast_apply _ _ (ix2 k q) (ix4 (⟨k.val / 128, by omega⟩ : Fin 6) (⟨k.val % 128, Nat.mod_lt _ (by norm_num)⟩ : Fin 128)
    (⟨q.val / 128, by omega⟩ : Fin 6) (⟨q.val % 128, Nat.mod_lt _ (by norm_num)⟩ : Fin 128)) ?_).trans ?_
  · rw [Shape.rowMajor_val_four, Shape.rowMajor_val_two]
    show ((k.val / 128 * 128 + k.val % 128) * 6 + q.val / 128) * 128 + q.val % 128 = k.val * 768 + q.val
    omega
  refine (transpose_apply _ _ _ _ (ix4 (⟨k.val / 128, by omega⟩ : Fin 6) (⟨q.val / 128, by omega⟩ : Fin 6)
    (⟨k.val % 128, Nat.mod_lt _ (by norm_num)⟩ : Fin 128) (⟨q.val % 128, Nat.mod_lt _ (by norm_num)⟩ : Fin 128)) ?_).trans ?_
  · intro b
    match b with
    | ⟨0, _⟩ => rfl
    | ⟨1, _⟩ => rfl
    | ⟨2, _⟩ => rfl
    | ⟨3, _⟩ => rfl
  refine (gatherC_apply' _ _ _ _ _ _ (⟨10 + k.val / 128 - q.val / 128, by omega⟩ : Fin 17) ?_).trans ?_
  · rw [tblC_entry]
    show min (10 + k.val / 128 - q.val / 128) 16 = 10 + k.val / 128 - q.val / 128
    omega
  rw [cat2C_apply]
  by_cases h : k.val / 128 ≤ q.val / 128
  · rw [dif_pos h, dif_pos (show 10 + k.val / 128 - q.val / 128 < 11 by omega)]
    refine (transpose_apply _ _ _ _ (ix3 (⟨q.val % 128, Nat.mod_lt _ (by norm_num)⟩ : Fin 128) (⟨k.val % 128, Nat.mod_lt _ (by norm_num)⟩ : Fin 128)
      (⟨10 + k.val / 128 - q.val / 128, by omega⟩ : Fin 11)) ?_).trans ?_
    · intro b
      match b with
      | ⟨0, _⟩ => rfl
      | ⟨1, _⟩ => rfl
      | ⟨2, _⟩ => rfl
    show shapeCast S128x128x11 _ _ _ = _
    refine shapeCast_apply (s := S128x128x11x1) _ _ _ _ ?_
    rw [Shape.rowMajor_val_four, Shape.rowMajor_val_three]
    show ((q.val % 128 * 128 + k.val % 128) * 11 + (10 + k.val / 128 - q.val / 128)) * 1 + 0
      = (q.val % 128 * 128 + k.val % 128) * 11 + (10 + k.val / 128 - q.val / 128)
    omega
  · rw [dif_neg h, dif_neg (show ¬ (10 + k.val / 128 - q.val / 128 < 11) by omega)]
    exact zeros_apply _ _

set_option maxHeartbeats 4000000 in
/-- The second layer's banded matrix. -/
theorem M2_apply (c : Dev nD) (k q : Fin 768) :
    (V3 m ρ c main_v78 : S768x768.Idx → EReal) (ix2 k q)
      = if h : k.val / 128 ≤ q.val / 128 then
          a3 m c (ix4 ⟨q.val % 128, Nat.mod_lt _ (by norm_num)⟩ ⟨k.val % 128, Nat.mod_lt _ (by norm_num)⟩ ⟨10 + k.val / 128 - q.val / 128, by omega⟩ 0)
        else 0 := by
  have e : (V3 m ρ c main_v78 : S768x768.Idx → EReal) = fun i => shapeCast S768x768
        (transpose S6x128x6x128 [0, 2, 1, 3]
          (Host.gather gather_S17x128x128_S6x6x1_S6x6x128x128_23_0_n_n_0_2_1128128
            (cat2C (transpose S11x128x128 [2, 1, 0] (fun i => shapeCast S128x128x11 (a3 m c) shapeCasts_S128x128x11x1_S128x128x11 i) transposes_S128x128x11_S11x128x128_2_1_0)
              (broadcastInDim S6x128x128 ![] bcast_S_S6x128x128 (constant (F := Ideal) S_ .f32 0x00000000#32)))
            tblC)
          transposes_S6x6x128x128_S6x128x6x128_0_2_1_3) shapeCasts_S6x128x6x128_S768x768 i := by
    show StableHlo.after hostOps0_2 (StableHlo.after hostOps0_1 (StableHlo.after hostOps0 (B0 m ρ c))) (Proc.devRef .tc main_v78) = _
    host_results
    rfl
  rw [e]; exact banded_read _ k q

set_option maxHeartbeats 4000000 in
/-- The third layer's banded matrix. -/
theorem M3_apply (c : Dev nD) (k q : Fin 768) :
    (V3 m ρ c main_v104 : S768x768.Idx → EReal) (ix2 k q)
      = if h : k.val / 128 ≤ q.val / 128 then
          a5 m c (ix4 ⟨q.val % 128, Nat.mod_lt _ (by norm_num)⟩ ⟨k.val % 128, Nat.mod_lt _ (by norm_num)⟩ ⟨10 + k.val / 128 - q.val / 128, by omega⟩ 0)
        else 0 := by
  have e : (V3 m ρ c main_v104 : S768x768.Idx → EReal) = fun i => shapeCast S768x768
        (transpose S6x128x6x128 [0, 2, 1, 3]
          (Host.gather gather_S17x128x128_S6x6x1_S6x6x128x128_23_0_n_n_0_2_1128128
            (cat2C (transpose S11x128x128 [2, 1, 0] (fun i => shapeCast S128x128x11 (a5 m c) shapeCasts_S128x128x11x1_S128x128x11 i) transposes_S128x128x11_S11x128x128_2_1_0)
              (broadcastInDim S6x128x128 ![] bcast_S_S6x128x128 (constant (F := Ideal) S_ .f32 0x00000000#32)))
            tblC)
          transposes_S6x6x128x128_S6x128x6x128_0_2_1_3) shapeCasts_S6x128x6x128_S768x768 i := by
    show StableHlo.after hostOps0_2 (StableHlo.after hostOps0_1 (StableHlo.after hostOps0 (B0 m ρ c))) (Proc.devRef .tc main_v104) = _
    host_results
    rfl
  rw [e]; exact banded_read _ k q

set_option maxHeartbeats 4000000 in
/-- The fourth layer's banded matrix. -/
theorem M4_apply (c : Dev nD) (k q : Fin 768) :
    (V3 m ρ c main_v130 : S768x768.Idx → EReal) (ix2 k q)
      = if h : k.val / 128 ≤ q.val / 128 then
          a7 m c (ix4 ⟨q.val % 128, Nat.mod_lt _ (by norm_num)⟩ ⟨k.val % 128, Nat.mod_lt _ (by norm_num)⟩ ⟨10 + k.val / 128 - q.val / 128, by omega⟩ 0)
        else 0 := by
  have e : (V3 m ρ c main_v130 : S768x768.Idx → EReal) = fun i => shapeCast S768x768
        (transpose S6x128x6x128 [0, 2, 1, 3]
          (Host.gather gather_S17x128x128_S6x6x1_S6x6x128x128_23_0_n_n_0_2_1128128
            (cat2C (transpose S11x128x128 [2, 1, 0] (fun i => shapeCast S128x128x11 (a7 m c) shapeCasts_S128x128x11x1_S128x128x11 i) transposes_S128x128x11_S11x128x128_2_1_0)
              (broadcastInDim S6x128x128 ![] bcast_S_S6x128x128 (constant (F := Ideal) S_ .f32 0x00000000#32)))
            tblC)
          transposes_S6x6x128x128_S6x128x6x128_0_2_1_3) shapeCasts_S6x128x6x128_S768x768 i := by
    show StableHlo.after hostOps0_2 (StableHlo.after hostOps0_1 (StableHlo.after hostOps0 (B0 m ρ c))) (Proc.devRef .tc main_v130) = _
    host_results
    rfl
  rw [e]; exact banded_read _ k q

end Cert.KernelIdeal.HostVal

end
-- ==== Proof.Spec.lean ====
/-
  The network, once, in the form both programs are shown to compute. For one example b and one sensor w:
    layer 1      s1 X W B h c      = tanh (∑_{dk<11} X(h+dk) · W(c,dk) + B c)                               (h < 6 positions)
    layers 2–4   sN A W B h co     = tanh (∑_{dk<11} ∑_{ci<128} pad A (h+dk, ci) · W(co,ci,dk) + B co)      (pad: ten zero rows on top)
    layer 5      s5 A W B s        = tanh (∑_{dk<3} ∑_{c<128} pad A (s+dk, c) · W(c,dk) + B)                (s < 14 positions)
  and for one example, over all sensors,
    head         sOut Y F1 Fb Fv c0 = ∑_{o<100} tanh (∑_{w<128} ∑_{s<14} Y w s · F1 o ((s+2)·128 + w) + Fb o) · Fv o + c0.
  Everything is a total function of natural coordinates; the argument arrays enter extended by zero outside their ranges.
-/
import Idealize.ShloMosaic.PureOps.Ideal
import Idealize.ShloMosaic.Lib.ValueIdx

noncomputable section

namespace Cert.Spec

open Idealize.ShloMosaic Idealize.ShloMosaic.ValueIdx

def s1 (X : ℕ → EReal) (W : ℕ → ℕ → EReal) (B : ℕ → EReal) (h c : ℕ) : EReal :=
  Ideal.tanh ((∑ dk : Fin 11, X (h + dk.val) * W c dk.val) + B c)

def sN (A : ℕ → ℕ → EReal) (W : ℕ → ℕ → ℕ → EReal) (B : ℕ → EReal) (h co : ℕ) : EReal :=
  Ideal.tanh ((∑ dk : Fin 11, ∑ ci : Fin 128, (if 10 ≤ h + dk.val then A (h + dk.val - 10) ci.val else 0) * W co ci.val dk.val) + B co)

def s5 (A : ℕ → ℕ → EReal) (W : ℕ → ℕ → EReal) (B : EReal) (s : ℕ) : EReal :=
  Ideal.tanh ((∑ dk : Fin 3, ∑ c : Fin 128, (if 10 ≤ s + dk.val then A (s + dk.val - 10) c.val else 0) * W c.val dk.val) + B)

def sOut (Y : ℕ → ℕ → EReal) (F1 : ℕ → ℕ → EReal) (Fb Fv : ℕ → EReal) (c0 : EReal) : EReal :=
  (∑ o : Fin 100, Ideal.tanh ((∑ w : Fin 128, ∑ s : Fin 14, Y w.val s.val * F1 o.val ((s.val + 2) * 128 + w.val)) + Fb o.val) * Fv o.val) + c0

/-- The five convolution layers for one example and one sensor, at output position s. -/
def conv (X : ℕ → EReal) (W1 : ℕ → ℕ → EReal) (B1 : ℕ → EReal) (W2 : ℕ → ℕ → ℕ → EReal) (B2 : ℕ → EReal)
    (W3 : ℕ → ℕ → ℕ → EReal) (B3 : ℕ → EReal) (W4 : ℕ → ℕ → ℕ → EReal) (B4 : ℕ → EReal) (W5 : ℕ → ℕ → EReal) (B5 : EReal) (s : ℕ) : EReal :=
  s5 (sN (sN (sN (s1 X W1 B1) W2 B2) W3 B3) W4 B4) W5 B5 s

/-! ## The argument arrays as total functions of natural coordinates -/

def e1 {n : ℕ} (f : (⟨1, ![n]⟩ : Shape).Idx → EReal) (i : ℕ) : EReal := if h : i < n then f (ix1 ⟨i, h⟩) else 0
def e2 {n0 n1 : ℕ} (f : (⟨2, ![n0, n1]⟩ : Shape).Idx → EReal) (i j : ℕ) : EReal :=
  if h : i < n0 ∧ j < n1 then f (ix2 ⟨i, h.1⟩ ⟨j, h.2⟩) else 0
def e4 {n0 n1 n2 n3 : ℕ} (f : (⟨4, ![n0, n1, n2, n3]⟩ : Shape).Idx → EReal) (i j k l : ℕ) : EReal :=
  if h : i < n0 ∧ j < n1 ∧ k < n2 ∧ l < n3 then f (ix4 ⟨i, h.1⟩ ⟨j, h.2.1⟩ ⟨k, h.2.2.1⟩ ⟨l, h.2.2.2⟩) else 0

theorem e1_fin {n : ℕ} (f : (⟨1, ![n]⟩ : Shape).Idx → EReal) (i : Fin n) : e1 f i.val = f (ix1 i) := by
  unfold e1; rw [dif_pos i.isLt]
theorem e2_fin {n0 n1 : ℕ} (f : (⟨2, ![n0, n1]⟩ : Shape).Idx → EReal) (i : Fin n0) (j : Fin n1) : e2 f i.val j.val = f (ix2 i j) := by
  unfold e2; rw [dif_pos ⟨i.isLt, j.isLt⟩]
theorem e4_fin {n0 n1 n2 n3 : ℕ} (f : (⟨4, ![n0, n1, n2, n3]⟩ : Shape).Idx → EReal) (i : Fin n0) (j : Fin n1) (k : Fin n2) (l : Fin n3) :
    e4 f i.val j.val k.val l.val = f (ix4 i j k l) := by
  unfold e4; rw [dif_pos ⟨i.isLt, j.isLt, k.isLt, l.isLt⟩]

/-- The whole network for example b, from the fifteen argument arrays. -/
def net (a0 : (⟨4, ![2560, 1, 16, 128]⟩ : Shape).Idx → EReal) (a1 : (⟨4, ![128, 1, 11, 1]⟩ : Shape).Idx → EReal) (a2 : (⟨1, ![128]⟩ : Shape).Idx → EReal)
    (a3 : (⟨4, ![128, 128, 11, 1]⟩ : Shape).Idx → EReal) (a4 : (⟨1, ![128]⟩ : Shape).Idx → EReal)
    (a5 : (⟨4, ![128, 128, 11, 1]⟩ : Shape).Idx → EReal) (a6 : (⟨1, ![128]⟩ : Shape).Idx → EReal)
    (a7 : (⟨4, ![128, 128, 11, 1]⟩ : Shape).Idx → EReal) (a8 : (⟨1, ![128]⟩ : Shape).Idx → EReal)
    (a9 : (⟨4, ![1, 128, 3, 1]⟩ : Shape).Idx → EReal) (a10 : (⟨1, ![1]⟩ : Shape).Idx → EReal)
    (a11 : (⟨2, ![100, 2048]⟩ : Shape).Idx → EReal) (a12 : (⟨1, ![100]⟩ : Shape).Idx → EReal)
    (a13 : (⟨2, ![1, 100]⟩ : Shape).Idx → EReal) (a14 : (⟨1, ![1]⟩ : Shape).Idx → EReal) (b : ℕ) : EReal :=
  sOut (fun w s => conv (fun l => e4 a0 b 0 l w) (fun c dk => e4 a1 c 0 dk 0) (e1 a2)
      (fun co ci dk => e4 a3 co ci dk 0) (e1 a4) (fun co ci dk => e4 a5 co ci dk 0) (e1 a6) (fun co ci dk => e4 a7 co ci dk 0) (e1 a8)
      (fun c dk => e4 a9 0 c dk 0) (e1 a10 0) s)
    (fun o q => e2 a11 o q) (e1 a12) (fun o => e2 a13 0 o) (e1 a14 0)

end Cert.Spec

end
-- ==== Proof.KGatherE.lean ====
/-
  The entries of the five banded matrices the host gathers, in terms of the convolution weights extended by zero
  outside their ranges: the first layer's 16 × 768 matrix, the three middle layers' 768 × 768 matrices, the last
  layer's 768 × 16 matrix.
-/
import proofs.«109392_g2000007139875455_pallasbulk_612_2_alg».proof.Proof.KHost3
import proofs.«109392_g2000007139875455_pallasbulk_612_2_alg».proof.Proof.KHost4
import proofs.«109392_g2000007139875455_pallasbulk_612_2_alg».proof.Proof.KHost5
import proofs.«109392_g2000007139875455_pallasbulk_612_2_alg».proof.Proof.Spec

set_option maxRecDepth 16384

noncomputable section

namespace Cert.KernelIdeal.HostVal

open Cert.KernelIdeal Cert.KernelIdeal.Gen Cert.KernelIdeal.Run
open Idealize.ShloMosaic Idealize.ShloMosaic.ValueIdx Idealize.ShloMosaic.TcCoe Idealize.SL.Sem
open Cert.Spec

variable (m : (ℓ : Loc nD τ sig) → Buf (Elt Ideal) ℓ) (ρ : Dev nD → PrngReg)

theorem m1_e (c : Dev nD) (l : Fin 16) (q : Fin 768) : (V3 m ρ c main_v23 : S16x768.Idx → EReal) (ix2 l q)
    = if q.val / 128 ≤ l.val ∧ l.val ≤ q.val / 128 + 10 then e4 (a1 m c) (q.val % 128) 0 (l.val - q.val / 128) 0 else 0 := by
  have hl := l.isLt
  have hq := q.isLt
  rw [m1_apply]
  by_cases hc : q.val / 128 ≤ l.val ∧ l.val ≤ q.val / 128 + 10
  · rw [dif_pos hc, if_pos hc]
    exact (e4_fin (a1 m c) ⟨q.val % 128, Nat.mod_lt _ (by norm_num)⟩ (0 : Fin 1) ⟨l.val - q.val / 128, by omega⟩ (0 : Fin 1)).symm
  · rw [dif_neg hc, if_neg hc]

theorem M2_e (c : Dev nD) (k q : Fin 768) : (V3 m ρ c main_v78 : S768x768.Idx → EReal) (ix2 k q)
    = if k.val / 128 ≤ q.val / 128 then e4 (a3 m c) (q.val % 128) (k.val % 128) (10 + k.val / 128 - q.val / 128) 0 else 0 := by
  have hk := k.isLt
  have hq := q.isLt
  rw [M2_apply]
  by_cases hc : k.val / 128 ≤ q.val / 128
  · rw [dif_pos hc, if_pos hc]
    exact (e4_fin (a3 m c) ⟨q.val % 128, Nat.mod_lt _ (by norm_num)⟩ ⟨k.val % 128, Nat.mod_lt _ (by norm_num)⟩
      ⟨10 + k.val / 128 - q.val / 128, by omega⟩ (0 : Fin 1)).symm
  · rw [dif_neg hc, if_neg hc]

theorem M3_e (c : Dev nD) (k q : Fin 768) : (V3 m ρ c main_v104 : S768x768.Idx → EReal) (ix2 k q)
    = if k.val / 128 ≤ q.val / 128 then e4 (a5 m c) (q.val % 128) (k.val % 128) (10 + k.val / 128 - q.val / 128) 0 else 0 := by
  have hk := k.isLt
  have hq := q.isLt
  rw [M3_apply]
  by_cases hc : k.val / 128 ≤ q.val / 128
  · rw [dif_pos hc, if_pos hc]
    exact (e4_fin (a5 m c) ⟨q.val % 128, Nat.mod_lt _ (by norm_num)⟩ ⟨k.val % 128, Nat.mod_lt _ (by norm_num)⟩
      ⟨10 + k.val / 128 - q.val / 128, by omega⟩ (0 : Fin 1)).symm
  · rw [dif_neg hc, if_neg hc]

theorem M4_e (c : Dev nD) (k q : Fin 768) : (V3 m ρ c main_v130 : S768x768.Idx → EReal) (ix2 k q)
    = if k.val / 128 ≤ q.val / 128 then e4 (a7 m c) (q.val % 128) (k.val % 128) (10 + k.val / 128 - q.val / 128) 0 else 0 := by
  have hk := k.isLt
  have hq := q.isLt
  rw [M4_apply]
  by_cases hc : k.val / 128 ≤ q.val / 128
  · rw [dif_pos hc, if_pos hc]
    exact (e4_fin (a7 m c) ⟨q.val % 128, Nat.mod_lt _ (by norm_num)⟩ ⟨k.val % 128, Nat.mod_lt _ (by norm_num)⟩
      ⟨10 + k.val / 128 - q.val / 128, by omega⟩ (0 : Fin 1)).symm
  · rw [dif_neg hc, if_neg hc]

theorem m5_e (c : Dev nD) (k : Fin 768) (s : Fin 16) : (V3 m ρ c main_v50 : S768x16.Idx → EReal) (ix2 k s)
    = if s.val < 14 ∧ s.val ≤ 10 + k.val / 128 ∧ 10 + k.val / 128 ≤ s.val + 2 then e4 (a9 m c) 0 (k.val % 128) (10 + k.val / 128 - s.val) 0 else 0 := by
  have hk := k.isLt
  have hs := s.isLt
  rw [m5_apply]
  by_cases hc : s.val < 14 ∧ s.val ≤ 10 + k.val / 128 ∧ 10 + k.val / 128 ≤ s.val + 2
  · rw [dif_pos hc, if_pos hc]
    exact (e4_fin (a9 m c) (0 : Fin 1) ⟨k.val % 128, Nat.mod_lt _ (by norm_num)⟩ ⟨10 + k.val / 128 - s.val, by omega⟩ (0 : Fin 1)).symm
  · rw [dif_neg hc, if_neg hc]

end Cert.KernelIdeal.HostVal

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KBody.lean ====
/-
  The kernel's two bodies as functions of the blocks they load, entry by entry, on the extended reals.
  A dense layer is  tanh (a · B + bias row): entry (r, q) is tanh (∑ₖ a(r,k) · B(k,q) + bias(0,q)).
  The convolution stack's body is five such layers composed (16 → 768 → 768 → 768 → 768 → 16 columns per row);
  the head's body is one dense layer followed by a weighted row sum plus a constant.
-/
import proofs.«109392_g2000007139875455_pallasbulk_612_2_alg».proof.Proof.KernelIdealRun
import proofs.«109392_g2000007139875455_pallasbulk_612_2_alg».proof.Proof.LibDot
import proofs.«109392_g2000007139875455_pallasbulk_612_2_alg».proof.Proof.LibRowSum
import proofs.«109392_g2000007139875455_pallasbulk_612_2_alg».proof.Proof.LibColumn
import Idealize.ShloMosaic.Lib.ValueLayout

noncomputable section

namespace Cert.KernelIdeal.BodyVal

open Cert.KernelIdeal Cert.KernelIdeal.Gen Cert.KernelIdeal.Run
open Idealize.ShloMosaic Idealize.ShloMosaic.ValueIdx Idealize.ShloMosaic.TcCoe Idealize.SL.Sem
open Cert.LibDot

/-- A dense layer: entry (r, q) is tanh (∑ₖ a(r,k) · B(k,q) + bias(0,q)). -/
def dense {M K N : ℕ} (a : (⟨2, ![M, K]⟩ : Shape).Idx → EReal) (B : (⟨2, ![K, N]⟩ : Shape).Idx → EReal)
    (bias : (⟨2, ![1, N]⟩ : Shape).Idx → EReal) : (⟨2, ![M, N]⟩ : Shape).Idx → EReal :=
  fun i => Ideal.tanh ((∑ k : Fin K, a (ix2 (i 0) k) * B (ix2 k (i 1))) + bias (ix2 (0 : Fin 1) (i 1)))

theorem dense_apply {M K N : ℕ} (a : (⟨2, ![M, K]⟩ : Shape).Idx → EReal) (B : (⟨2, ![K, N]⟩ : Shape).Idx → EReal)
    (bias : (⟨2, ![1, N]⟩ : Shape).Idx → EReal) (r : Fin M) (q : Fin N) :
    dense a B bias (ix2 r q) = Ideal.tanh ((∑ k : Fin K, a (ix2 r k) * B (ix2 k q)) + bias (ix2 (0 : Fin 1) q)) := rfl

/-- The printed form of a dense layer — a product into the zero accumulator, the bias row broadcast over the rows,
    the sum, tanh — is that function. -/
theorem dense_eq {M K N : ℕ} {d : DotDims ⟨2, ![M, K]⟩ ⟨2, ![K, N]⟩ ⟨2, ![M, N]⟩} (hd : Plain d)
    (a : FVec Ideal ⟨2, ![M, K]⟩ .f32) (B : FVec Ideal ⟨2, ![K, N]⟩ .f32) (bias : FVec Ideal ⟨2, ![1, N]⟩ .f32)
    (hB : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) :
    tanh (addf (matmul d none a (shapeCast ⟨2, ![K, N]⟩ B hB) (constant ⟨2, ![M, N]⟩ .f32 0x00000000#32))
      (broadcastTo ⟨2, ![M, N]⟩ (shapeCast ⟨2, ![1, N]⟩ bias hb) hbc)) = dense a B bias := by
  funext i
  obtain ⟨r, q, rfl⟩ : ∃ (r : Fin M) (q : Fin N), i = ix2 r q := ⟨i 0, i 1, eq_ix2 i⟩
  show Ideal.tanh (matmul d none a (shapeCast ⟨2, ![K, N]⟩ B hB) (constant ⟨2, ![M, N]⟩ .f32 0x00000000#32) (ix2 r q)
      + broadcastTo ⟨2, ![M, N]⟩ (shapeCast ⟨2, ![1, N]⟩ bias hb) hbc (ix2 r q)) = _
  rw [matmul_ix2 hd, broadcastTo_1b_ab_apply, shapeCast_self, shapeCast_self]
  rfl

theorem plain_16_768 : Plain dot_S1024x16_S16x768_S1024x768_1_0_0_1_n_n :=
  ⟨rfl, rfl, fun _ _ => rfl, fun _ _ => rfl, fun _ _ => rfl, fun _ _ => rfl⟩
theorem plain_768_768 : Plain dot_S1024x768_S768x768_S1024x768_1_0_0_1_n_n :=
  ⟨rfl, rfl, fun _ _ => rfl, fun _ _ => rfl, fun _ _ => rfl, fun _ _ => rfl⟩
theorem plain_768_16 : Plain dot_S1024x768_S768x16_S1024x16_1_0_0_1_n_n :=
  ⟨rfl, rfl, fun _ _ => rfl, fun _ _ => rfl, fun _ _ => rfl, fun _ _ => rfl⟩
theorem plain_2048_128 : Plain dot_S256x2048_S2048x128_S256x128_1_0_0_1_n_n :=
  ⟨rfl, rfl, fun _ _ => rfl, fun _ _ => rfl, fun _ _ => rfl, fun _ _ => rfl⟩

/-- The first four layers of the stack's body. -/
theorem pay2_eq (v0 : Vec Ideal S1024x16 .f32) (v2 : Vec Ideal S16x768 .f32) (v5 : Vec Ideal S1x768 .f32)
    (v10 : Vec Ideal S768x768 .f32) (v13 : Vec Ideal S1x768 .f32) (v18 : Vec Ideal S768x768 .f32) (v21 : Vec Ideal S1x768 .f32)
    (v26 : Vec Ideal S768x768 .f32) (v29 : Vec Ideal S1x768 .f32) :
    k0_pay2 (F := Ideal) v0 v2 v5 v10 v13 v18 v21 v26 v29
      = dense (dense (dense (dense v0 v2 v5) v10 v13) v18 v21) v26 v29 := by
  unfold k0_pay2
  dsimp only
  rw [shapeCast_self v0, dense_eq plain_16_768, dense_eq plain_768_768, dense_eq plain_768_768, dense_eq plain_768_768]

/-- The last layer of the stack's body. -/
theorem pay1_eq (v33 : FVec Ideal S1024x768 .f32) (v34 : Vec Ideal S768x16 .f32) (v37 : Vec Ideal S1x16 .f32) :
    k0_pay1 (F := Ideal) v33 v34 v37 = dense v33 v34 v37 := by
  unfold k0_pay1
  dsimp only
  rw [dense_eq plain_768_16]

theorem hz2 : (![0, 0] : Fin 2 → Nat) = fun _ => 0 := funext fun a => by fin_cases a <;> rfl

/-- The stack's output block is the five layers composed, as a function of the loaded blocks. -/
theorem out0_eq (x0 : Vec Ideal S1024x16 .f32) (x1 : Vec Ideal S16x768 .f32) (x2 : Vec Ideal S1x768 .f32)
    (x3 : Vec Ideal S768x768 .f32) (x4 : Vec Ideal S1x768 .f32) (x5 : Vec Ideal S768x768 .f32) (x6 : Vec Ideal S1x768 .f32)
    (x7 : Vec Ideal S768x768 .f32) (x8 : Vec Ideal S1x768 .f32) (x9 : Vec Ideal S768x16 .f32) (x10 : Vec Ideal S1x16 .f32) :
    out0 (F := Ideal) x0 x1 x2 x3 x4 x5 x6 x7 x8 x9 x10
      = dense (dense (dense (dense (dense x0 x1 x2) x3 x4) x5 x6) x7 x8) x9 x10 := by
  unfold out0
  rw [View.canon_unit_zero hz2]
  simp only [View.ld_unit_zero (S := S1024x16) hz2, View.ld_unit_zero (S := S16x768) hz2, View.ld_unit_zero (S := S1x768) hz2,
    View.ld_unit_zero (S := S768x768) hz2, View.ld_unit_zero (S := S768x16) hz2, View.ld_unit_zero (S := S1x16) hz2]
  rw [pay2_eq, pay1_eq]

end Cert.KernelIdeal.BodyVal

end
-- ==== Proof.KHead.lean ====
/-
  The head's body at an entry: row r of its output block is  ∑ₒ tanh (∑_q y(r,q)·W(q,o) + b(0,o)) · v(0,o) + c(0,0),
  the sum over all 128 lanes.
-/
import proofs.«109392_g2000007139875455_pallasbulk_612_2_alg».proof.Proof.KBody

noncomputable section

namespace Cert.KernelIdeal.BodyVal

open Cert.KernelIdeal Cert.KernelIdeal.Gen Cert.KernelIdeal.Run
open Idealize.ShloMosaic Idealize.ShloMosaic.ValueIdx Idealize.ShloMosaic.TcCoe Idealize.SL.Sem
open Cert.LibDot

/-- The head as a function of its loaded blocks. -/
def head {M K N : ℕ} (y : (⟨2, ![M, K]⟩ : Shape).Idx → EReal) (W : (⟨2, ![K, N]⟩ : Shape).Idx → EReal)
    (b : (⟨2, ![1, N]⟩ : Shape).Idx → EReal) (v : (⟨2, ![1, N]⟩ : Shape).Idx → EReal)
    (c : (⟨2, ![1, 1]⟩ : Shape).Idx → EReal) (r : Fin M) : EReal :=
  (∑ o : Fin N, dense y W b (ix2 r o) * v (ix2 (0 : Fin 1) o)) + c (ix2 (0 : Fin 1) (0 : Fin 1))

theorem pay_head_apply (v0 : Vec Ideal S256x2048 .f32) (v2 : Vec Ideal S2048x128 .f32) (v5 : Vec Ideal S1x128 .f32)
    (v10 : Vec Ideal S1x128 .f32) (v16 : Vec Ideal S1x1 .f32) (r : Fin 256) (u : Fin 1) :
    k1_pay1 (F := Ideal) v0 v2 v5 v10 v16 (ix2 r u) = head v0 v2 v5 v10 v16 r := by
  unfold k1_pay1
  dsimp only
  rw [shapeCast_self v0, dense_eq plain_2048_128, addf_apply, shapeCast_a_a1_apply]
  refine (congrArg (· + _) (multiReduction_add_rows_apply _ _ _ _ r)).trans ?_
  rw [broadcastTo_1b_ab_apply, shapeCast_self]
  simp only [mulf_apply, broadcastTo_1b_ab_apply, shapeCast_self]
  have hu : u = (0 : Fin 1) := Subsingleton.elim _ _
  subst hu
  rfl

/-- The head's output block, entry by entry, as a function of the loaded blocks. -/
theorem out1_apply (x0 : Vec Ideal S256x2048 .f32) (x1 : Vec Ideal S2048x128 .f32) (x2 : Vec Ideal S1x128 .f32)
    (x3 : Vec Ideal S1x128 .f32) (x4 : Vec Ideal S1x1 .f32) (r : Fin 256) (u : Fin 1) :
    out1 (F := Ideal) x0 x1 x2 x3 x4 (ix2 r u) = head x0 x1 x2 x3 x4 r := by
  unfold out1
  rw [View.canon_unit_zero hz2]
  simp only [View.ld_unit_zero (S := S256x2048) hz2, View.ld_unit_zero (S := S2048x128) hz2, View.ld_unit_zero (S := S1x128) hz2,
    View.ld_unit_zero (S := S1x1) hz2]
  exact pay_head_apply x0 x1 x2 x3 x4 r u

end Cert.KernelIdeal.BodyVal

end
-- ==== Proof.KArr.lean ====
/-
  From blocks to arrays, for the kernel's two regions. Point t of the convolution stack's grid reads rows
  1024·t … 1024·t + 1023 of the flattened signal and the whole weight arrays, and writes the same rows of the output;
  point t of the head's grid does the same with 256 rows. A dense layer's row depends only on the same row of its
  input, so what a point writes back is its block of ONE function of the whole arrays; the blocks tile the output.
-/
import proofs.«109392_g2000007139875455_pallasbulk_612_2_alg».proof.Proof.KHead
import Idealize.ShloMosaic.Lib.Pipeline.Value

set_option maxRecDepth 16384

noncomputable section

namespace Cert.KernelIdeal.BodyVal

open Cert.KernelIdeal Cert.KernelIdeal.Gen Cert.KernelIdeal.Run
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- A dense layer's entry depends on its input through one row only. -/
theorem dense_row_congr {M M' K N : ℕ} {a : (⟨2, ![M, K]⟩ : Shape).Idx → EReal} {a' : (⟨2, ![M', K]⟩ : Shape).Idx → EReal}
    (B : (⟨2, ![K, N]⟩ : Shape).Idx → EReal) (bias : (⟨2, ![1, N]⟩ : Shape).Idx → EReal) (r : Fin M) (r' : Fin M')
    (ha : ∀ k, a (ix2 r k) = a' (ix2 r' k)) (q : Fin N) : dense a B bias (ix2 r q) = dense a' B bias (ix2 r' q) := by
  rw [dense_apply, dense_apply]
  congr 2
  exact Finset.sum_congr rfl fun k _ => by rw [ha k]

/-- The head's entry depends on its input through one row only. -/
theorem head_row_congr {M M' K N : ℕ} {y : (⟨2, ![M, K]⟩ : Shape).Idx → EReal} {y' : (⟨2, ![M', K]⟩ : Shape).Idx → EReal}
    (W : (⟨2, ![K, N]⟩ : Shape).Idx → EReal) (b v : (⟨2, ![1, N]⟩ : Shape).Idx → EReal) (c : (⟨2, ![1, 1]⟩ : Shape).Idx → EReal)
    (r : Fin M) (r' : Fin M') (hy : ∀ k, y (ix2 r k) = y' (ix2 r' k)) : head y W b v c r = head y' W b v c r' := by
  unfold head
  congr 1
  exact Finset.sum_congr rfl fun o _ => by rw [dense_row_congr W b r r' hy o]

/-! ## Region 0: the convolution stack -/

/-- The five layers over the whole arrays the region is entered with. -/
def stack (c : Dev nD) : S327680x16.Idx → EReal :=
  dense (dense (dense (dense (dense (V c main_v137 : S327680x16.Idx → EReal) (V c main_v23) (V c main_v56))
    (V c main_v78) (V c main_v82)) (V c main_v104) (V c main_v108)) (V c main_v130) (V c main_v134)) (V c main_v50) (V c main_v52)

/-- The index maps over the grid: the signal's and the output's blocks move with the point along the rows, the weight
    arrays' blocks stay. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

theorem iblk0_1_whole (c : Dev nD) (t : Fin cfg0.N) : (iblk0 V c 1 t : S16x768.Idx → EReal) = V c main_v23 := by
  obtain ⟨e0, e1, e2, e3, e4, e5, e6, e7, e8, e9, e10, e11, e12, e13, e14, e15, e16, e17, e18, e19, e20, e21, e22, e23⟩ := idx_facts0 t
  funext y
  show V c main_v23 (((cfg0.win 1).blk t).view.emb y) = V c main_v23 y
  congr 1
  funext a; apply Fin.ext
  match a with
  | ⟨0, _⟩ => show win0_1.index t (0 : Fin 2) * 16 + 1 * (y 0).val = (y 0).val; omega
  | ⟨1, _⟩ => show win0_1.index t (1 : Fin 2) * 768 + 1 * (y 1).val = (y 1).val; omega
theorem iblk0_2_whole (c : Dev nD) (t : Fin cfg0.N) : (iblk0 V c 2 t : S1x768.Idx → EReal) = V c main_v56 := by
  obtain ⟨e0, e1, e2, e3, e4, e5, e6, e7, e8, e9, e10, e11, e12, e13, e14, e15, e16, e17, e18, e19, e20, e21, e22, e23⟩ := idx_facts0 t
  funext y
  show V c main_v56 (((cfg0.win 2).blk t).view.emb y) = V c main_v56 y
  congr 1
  funext a; apply Fin.ext
  match a with
  | ⟨0, _⟩ => show win0_2.index t (0 : Fin 2) * 1 + 1 * (y 0).val = (y 0).val; omega
  | ⟨1, _⟩ => show win0_2.index t (1 : Fin 2) * 768 + 1 * (y 1).val = (y 1).val; omega
theorem iblk0_3_whole (c : Dev nD) (t : Fin cfg0.N) : (iblk0 V c 3 t : S768x768.Idx → EReal) = V c main_v78 := by
  obtain ⟨e0, e1, e2, e3, e4, e5, e6, e7, e8, e9, e10, e11, e12, e13, e14, e15, e16, e17, e18, e19, e20, e21, e22, e23⟩ := idx_facts0 t
  funext y
  show V c main_v78 (((cfg0.win 3).blk t).view.emb y) = V c main_v78 y
  congr 1
  funext a; apply Fin.ext
  match a with
  | ⟨0, _⟩ => show win0_3.index t (0 : Fin 2) * 768 + 1 * (y 0).val = (y 0).val; omega
  | ⟨1, _⟩ => show win0_3.index t (1 : Fin 2) * 768 + 1 * (y 1).val = (y 1).val; omega
theorem iblk0_4_whole (c : Dev nD) (t : Fin cfg0.N) : (iblk0 V c 4 t : S1x768.Idx → EReal) = V c main_v82 := by
  obtain ⟨e0, e1, e2, e3, e4, e5, e6, e7, e8, e9, e10, e11, e12, e13, e14, e15, e16, e17, e18, e19, e20, e21, e22, e23⟩ := idx_facts0 t
  funext y
  show V c main_v82 (((cfg0.win 4).blk t).view.emb y) = V c main_v82 y
  congr 1
  funext a; apply Fin.ext
  match a with
  | ⟨0, _⟩ => show win0_4.index t (0 : Fin 2) * 1 + 1 * (y 0).val = (y 0).val; omega
  | ⟨1, _⟩ => show win0_4.index t (1 : Fin 2) * 768 + 1 * (y 1).val = (y 1).val; omega
theorem iblk0_5_whole (c : Dev nD) (t : Fin cfg0.N) : (iblk0 V c 5 t : S768x768.Idx → EReal) = V c main_v104 := by
  obtain ⟨e0, e1, e2, e3, e4, e5, e6, e7, e8, e9, e10, e11, e12, e13, e14, e15, e16, e17, e18, e19, e20, e21, e22, e23⟩ := idx_facts0 t
  funext y
  show V c main_v104 (((cfg0.win 5).blk t).view.emb y) = V c main_v104 y
  congr 1
  funext a; apply Fin.ext
  match a with
  | ⟨0, _⟩ => show win0_5.index t (0 : Fin 2) * 768 + 1 * (y 0).val = (y 0).val; omega
  | ⟨1, _⟩ => show win0_5.index t (1 : Fin 2) * 768 + 1 * (y 1).val = (y 1).val; omega
theorem iblk0_6_whole (c : Dev nD) (t : Fin cfg0.N) : (iblk0 V c 6 t : S1x768.Idx → EReal) = V c main_v108 := by
  obtain ⟨e0, e1, e2, e3, e4, e5, e6, e7, e8, e9, e10, e11, e12, e13, e14, e15, e16, e17, e18, e19, e20, e21, e22, e23⟩ := idx_facts0 t
  funext y
  show V c main_v108 (((cfg0.win 6).blk t).view.emb y) = V c main_v108 y
  congr 1
  funext a; apply Fin.ext
  match a with
  | ⟨0, _⟩ => show win0_6.index t (0 : Fin 2) * 1 + 1 * (y 0).val = (y 0).val; omega
  | ⟨1, _⟩ => show win0_6.index t (1 : Fin 2) * 768 + 1 * (y 1).val = (y 1).val; omega
theorem iblk0_7_whole (c : Dev nD) (t : Fin cfg0.N) : (iblk0 V c 7 t : S768x768.Idx → EReal) = V c main_v130 := by
  obtain ⟨e0, e1, e2, e3, e4, e5, e6, e7, e8, e9, e10, e11, e12, e13, e14, e15, e16, e17, e18, e19, e20, e21, e22, e23⟩ := idx_facts0 t
  funext y
  show V c main_v130 (((cfg0.win 7).blk t).view.emb y) = V c main_v130 y
  congr 1
  funext a; apply Fin.ext
  match a with
  | ⟨0, _⟩ => show win0_7.index t (0 : Fin 2) * 768 + 1 * (y 0).val = (y 0).val; omega
  | ⟨1, _⟩ => show win0_7.index t (1 : Fin 2) * 768 + 1 * (y 1).val = (y 1).val; omega
theorem iblk0_8_whole (c : Dev nD) (t : Fin cfg0.N) : (iblk0 V c 8 t : S1x768.Idx → EReal) = V c main_v134 := by
  obtain ⟨e0, e1, e2, e3, e4, e5, e6, e7, e8, e9, e10, e11, e12, e13, e14, e15, e16, e17, e18, e19, e20, e21, e22, e23⟩ := idx_facts0 t
  funext y
  show V c main_v134 (((cfg0.win 8).blk t).view.emb y) = V c main_v134 y
  congr 1
  funext a; apply Fin.ext
  match a with
  | ⟨0, _⟩ => show win0_8.index t (0 : Fin 2) * 1 + 1 * (y 0).val = (y 0).val; omega
  | ⟨1, _⟩ => show win0_8.index t (1 : Fin 2) * 768 + 1 * (y 1).val = (y 1).val; omega
theorem iblk0_9_whole (c : Dev nD) (t : Fin cfg0.N) : (iblk0 V c 9 t : S768x16.Idx → EReal) = V c main_v50 := by
  obtain ⟨e0, e1, e2, e3, e4, e5, e6, e7, e8, e9, e10, e11, e12, e13, e14, e15, e16, e17, e18, e19, e20, e21, e22, e23⟩ := idx_facts0 t
  funext y
  show V c main_v50 (((cfg0.win 9).blk t).view.emb y) = V c main_v50 y
  congr 1
  funext a; apply Fin.ext
  match a with
  | ⟨0, _⟩ => show win0_9.index t (0 : Fin 2) * 768 + 1 * (y 0).val = (y 0).val; omega
  | ⟨1, _⟩ => show win0_9.index t (1 : Fin 2) * 16 + 1 * (y 1).val = (y 1).val; omega
theorem iblk0_10_whole (c : Dev nD) (t : Fin cfg0.N) : (iblk0 V c 10 t : S1x16.Idx → EReal) = V c main_v52 := by
  obtain ⟨e0, e1, e2, e3, e4, e5, e6, e7, e8, e9, e10, e11, e12, e13, e14, e15, e16, e17, e18, e19, e20, e21, e22, e23⟩ := idx_facts0 t
  funext y
  show V c main_v52 (((cfg0.win 10).blk t).view.emb y) = V c main_v52 y
  congr 1
  funext a; apply Fin.ext
  match a with
  | ⟨0, _⟩ => show win0_10.index t (0 : Fin 2) * 1 + 1 * (y 0).val = (y 0).val; omega
  | ⟨1, _⟩ => show win0_10.index t (1 : Fin 2) * 16 + 1 * (y 1).val = (y 1).val; omega

theorem row_lt0 (t : Fin cfg0.N) (r : Fin 1024) : t.val * 1024 + r.val < 327680 := by
  have ht : t.val < grid0.N := t.isLt
  rw [N_0] at ht
  have hr := r.isLt
  omega

theorem iblk0_0_apply (c : Dev nD) (t : Fin cfg0.N) (r : Fin 1024) (k : Fin 16) :
    (iblk0 V c 0 t : S1024x16.Idx → EReal) (ix2 r k) = (V c main_v137 : S327680x16.Idx → EReal) (ix2 ⟨t.val * 1024 + r.val, row_lt0 t r⟩ k) := by
  obtain ⟨e0, e1, e2, e3, e4, e5, e6, e7, e8, e9, e10, e11, e12, e13, e14, e15, e16, e17, e18, e19, e20, e21, e22, e23⟩ := idx_facts0 t
  show V c main_v137 (((cfg0.win 0).blk t).view.emb (ix2 r k)) = _
  congr 1
  funext a; apply Fin.ext
  match a with
  | ⟨0, _⟩ => show win0_0.index t (0 : Fin 2) * 1024 + 1 * r.val = t.val * 1024 + r.val; omega
  | ⟨1, _⟩ => show win0_0.index t (1 : Fin 2) * 16 + 1 * k.val = k.val; omega

theorem emb0_out (t : Fin cfg0.N) (r : Fin 1024) (s : Fin 16) :
    (((cfg0.win 11).blk t).view.emb (ix2 r s) : S327680x16.Idx) = ix2 ⟨t.val * 1024 + r.val, row_lt0 t r⟩ s := by
  obtain ⟨e0, e1, e2, e3, e4, e5, e6, e7, e8, e9, e10, e11, e12, e13, e14, e15, e16, e17, e18, e19, e20, e21, e22, e23⟩ := idx_facts0 t
  funext a; apply Fin.ext
  match a with
  | ⟨0, _⟩ => show win0_11.index t (0 : Fin 2) * 1024 + 1 * r.val = t.val * 1024 + r.val; omega
  | ⟨1, _⟩ => show win0_11.index t (1 : Fin 2) * 16 + 1 * s.val = s.val; omega

/-- What point t writes back is block t of the stack over the whole arrays. -/
theorem flushed0_eq (c : Dev nD) (t : Fin cfg0.N) :
    (dat0 V c).flushed 11 t = ((cfg0.win 11).blk t).view.read (Elt Ideal) (stack V c) := by
  show (cfg0.win 11).cut (grid0.coords t) ((dat0 V c).after 11 t) = _
  rw [after0_11, out0_eq]
  funext j
  obtain ⟨r, s, rfl⟩ : ∃ (r : Fin 1024) (s : Fin 16), j = ix2 r s := ⟨j 0, j 1, eq_ix2 j⟩
  show dense (dense (dense (dense (dense (iblk0 V c 0 t : S1024x16.Idx → EReal) (iblk0 V c 1 t) (iblk0 V c 2 t)) (iblk0 V c 3 t) (iblk0 V c 4 t))
      (iblk0 V c 5 t) (iblk0 V c 6 t)) (iblk0 V c 7 t) (iblk0 V c 8 t)) (iblk0 V c 9 t) (iblk0 V c 10 t) (ix2 r s)
    = stack V c (((cfg0.win 11).blk t).view.emb (ix2 r s))
  rw [emb0_out, iblk0_1_whole, iblk0_2_whole, iblk0_3_whole, iblk0_4_whole, iblk0_5_whole, iblk0_6_whole, iblk0_7_whole, iblk0_8_whole, iblk0_9_whole, iblk0_10_whole]
  unfold stack
  refine dense_row_congr _ _ r _ (fun k4 => ?_) s
  refine dense_row_congr _ _ r _ (fun k3 => ?_) k4
  refine dense_row_congr _ _ r _ (fun k2 => ?_) k3
  refine dense_row_congr _ _ r _ (fun k1 => ?_) k2
  refine dense_row_congr _ _ r _ (fun k0 => ?_) k1
  exact iblk0_0_apply V c t r k0

theorem mem_blk0 (t : Fin cfg0.N) (i : S327680x16.Idx) :
    i ∈ ((cfg0.win 11).blk t).view.set ↔ ∀ a : Fin 2, win0_11.index t a * S1024x16.size a ≤ (i a).val ∧ (i a).val < win0_11.index t a * S1024x16.size a + S1024x16.size a := by
  show i ∈ ((View.whole main_v138).slice (win0_11.rect t)).set ↔ _
  rw [View.set_slice_whole, Rect.mem_set_unit]
  exact Iff.rfl

/-- Every row is in the block of the point that is its number divided by 1024. -/
theorem cover0 (i : S327680x16.Idx) : ∃ t : Fin cfg0.N, (cfg0.win 11).flush t = true ∧ i ∈ ((cfg0.win 11).blk t).view.set := by
  have hi0 : (i 0).val < 327680 := (i 0).isLt
  have hi1 : (i 1).val < 16 := (i 1).isLt
  have hN : grid0.N = 320 := N_0
  let t : Fin cfg0.N := ⟨(i 0).val / 1024, by show (i 0).val / 1024 < grid0.N; omega⟩
  obtain ⟨e0, e1, e2, e3, e4, e5, e6, e7, e8, e9, e10, e11, e12, e13, e14, e15, e16, e17, e18, e19, e20, e21, e22, e23⟩ := idx_facts0 t
  have ht : t.val = (i 0).val / 1024 := rfl
  refine ⟨t, flush0_11 t, ?_⟩
  rw [mem_blk0]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 16 ≤ (i 1).val ∧ (i 1).val < win0_11.index t (1 : Fin 2) * 16 + 16; omega

/-- The stack's output array after the region. -/
theorem final0 (c : Dev nD) : (dat0 V c).arrAt 11 cfg0.N = stack V c :=
  (dat0 V c).arrAt_eq_of_cover 11 (stack V c) (fun t _ => flushed0_eq V c t) cover0

/-! ## Region 1: the head -/

/-- The head over the whole arrays the region is entered with, row by row. -/
def headAll (c : Dev nD) : S2560x1.Idx → EReal := fun i =>
  head (V c main_v149 : S2560x2048.Idx → EReal) (V c main_v143) (V c main_v145) (V c main_v148) (V c main_v150) (i 0)

theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

theorem iblk1_1_whole (c : Dev nD) (t : Fin cfg1.N) : (iblk1 V c 1 t : S2048x128.Idx → EReal) = V c main_v143 := by
  obtain ⟨e0, e1, e2, e3, e4, e5, e6, e7, e8, e9, e10, e11⟩ := idx_facts1 t
  funext y
  show V c main_v143 (((cfg1.win 1).blk t).view.emb y) = V c main_v143 y
  congr 1
  funext a; apply Fin.ext
  match a with
  | ⟨0, _⟩ => show win1_1.index t (0 : Fin 2) * 2048 + 1 * (y 0).val = (y 0).val; omega
  | ⟨1, _⟩ => show win1_1.index t (1 : Fin 2) * 128 + 1 * (y 1).val = (y 1).val; omega
theorem iblk1_2_whole (c : Dev nD) (t : Fin cfg1.N) : (iblk1 V c 2 t : S1x128.Idx → EReal) = V c main_v145 := by
  obtain ⟨e0, e1, e2, e3, e4, e5, e6, e7, e8, e9, e10, e11⟩ := idx_facts1 t
  funext y
  show V c main_v145 (((cfg1.win 2).blk t).view.emb y) = V c main_v145 y
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem iblk1_3_whole (c : Dev nD) (t : Fin cfg1.N) : (iblk1 V c 3 t : S1x128.Idx → EReal) = V c main_v148 := by
  obtain ⟨e0, e1, e2, e3, e4, e5, e6, e7, e8, e9, e10, e11⟩ := idx_facts1 t
  funext y
  show V c main_v148 (((cfg1.win 3).blk t).view.emb y) = V c main_v148 y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem iblk1_4_whole (c : Dev nD) (t : Fin cfg1.N) : (iblk1 V c 4 t : S1x1.Idx → EReal) = V c main_v150 := by
  obtain ⟨e0, e1, e2, e3, e4, e5, e6, e7, e8, e9, e10, e11⟩ := idx_facts1 t
  funext y
  show V c main_v150 (((cfg1.win 4).blk t).view.emb y) = V c main_v150 y
  congr 1
  funext a; apply Fin.ext
  match a with
  | ⟨0, _⟩ => show win1_4.index t (0 : Fin 2) * 1 + 1 * (y 0).val = (y 0).val; omega
  | ⟨1, _⟩ => show win1_4.index t (1 : Fin 2) * 1 + 1 * (y 1).val = (y 1).val; omega

theorem row_lt1 (t : Fin cfg1.N) (r : Fin 256) : t.val * 256 + r.val < 2560 := by
  have ht : t.val < grid1.N := t.isLt
  rw [N_1] at ht
  have hr := r.isLt
  omega

theorem iblk1_0_apply (c : Dev nD) (t : Fin cfg1.N) (r : Fin 256) (k : Fin 2048) :
    (iblk1 V c 0 t : S256x2048.Idx → EReal) (ix2 r k) = (V c main_v149 : S2560x2048.Idx → EReal) (ix2 ⟨t.val * 256 + r.val, row_lt1 t r⟩ k) := by
  obtain ⟨e0, e1, e2, e3, e4, e5, e6, e7, e8, e9, e10, e11⟩ := idx_facts1 t
  show V c main_v149 (((cfg1.win 0).blk t).view.emb (ix2 r k)) = _
  congr 1
  funext a; apply Fin.ext
  match a with
  | ⟨0, _⟩ => show win1_0.index t (0 : Fin 2) * 256 + 1 * r.val = t.val * 256 + r.val; omega
  | ⟨1, _⟩ => show win1_0.index t (1 : Fin 2) * 2048 + 1 * k.val = k.val; omega

theorem emb1_out (t : Fin cfg1.N) (r : Fin 256) (u : Fin 1) :
    (((cfg1.win 5).blk t).view.emb (ix2 r u) : S2560x1.Idx) = ix2 ⟨t.val * 256 + r.val, row_lt1 t r⟩ u := by
  obtain ⟨e0, e1, e2, e3, e4, e5, e6, e7, e8, e9, e10, e11⟩ := idx_facts1 t
  funext a; apply Fin.ext
  match a with
  | ⟨0, _⟩ => show win1_5.index t (0 : Fin 2) * 256 + 1 * r.val = t.val * 256 + r.val; omega
  | ⟨1, _⟩ => show win1_5.index t (1 : Fin 2) * 1 + 1 * u.val = u.val; omega

/-- What point t writes back is block t of the head over the whole arrays. -/
theorem flushed1_eq (c : Dev nD) (t : Fin cfg1.N) :
    (dat1 V c).flushed 5 t = ((cfg1.win 5).blk t).view.read (Elt Ideal) (headAll V c) := by
  show (cfg1.win 5).cut (grid1.coords t) ((dat1 V c).after 5 t) = _
  rw [after1_5]
  funext j
  obtain ⟨r, u, rfl⟩ : ∃ (r : Fin 256) (u : Fin 1), j = ix2 r u := ⟨j 0, j 1, eq_ix2 j⟩
  show out1 (F := Ideal) (iblk1 V c 0 t) (iblk1 V c 1 t) (iblk1 V c 2 t) (iblk1 V c 3 t) (iblk1 V c 4 t) (ix2 r u)
    = headAll V c (((cfg1.win 5).blk t).view.emb (ix2 r u))
  rw [out1_apply, emb1_out, iblk1_1_whole, iblk1_2_whole, iblk1_3_whole, iblk1_4_whole]
  show _ = head (V c main_v149 : S2560x2048.Idx → EReal) (V c main_v143) (V c main_v145) (V c main_v148) (V c main_v150) ⟨t.val * 256 + r.val, row_lt1 t r⟩
  exact head_row_congr _ _ _ _ r _ (fun k => iblk1_0_apply V c t r k)

theorem mem_blk1 (t : Fin cfg1.N) (i : S2560x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v151).slice (win1_5.rect t)).set ↔ _
  rw [View.set_slice_whole, Rect.mem_set_unit]
  exact Iff.rfl

theorem cover1 (i : S2560x1.Idx) : ∃ t : Fin cfg1.N, (cfg1.win 5).flush t = true ∧ i ∈ ((cfg1.win 5).blk t).view.set := by
  have hi0 : (i 0).val < 2560 := (i 0).isLt
  have hi1 : (i 1).val < 1 := (i 1).isLt
  have hN : grid1.N = 10 := N_1
  let t : Fin cfg1.N := ⟨(i 0).val / 256, by show (i 0).val / 256 < grid1.N; omega⟩
  obtain ⟨e0, e1, e2, e3, e4, e5, e6, e7, e8, e9, e10, e11⟩ := idx_facts1 t
  have ht : t.val = (i 0).val / 256 := rfl
  refine ⟨t, flush1_5 t, ?_⟩
  rw [mem_blk1]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1 ≤ (i 1).val ∧ (i 1).val < win1_5.index t (1 : Fin 2) * 1 + 1; omega

/-- The head's output array after the region. -/
theorem final1 (c : Dev nD) : (dat1 V c).arrAt 5 cfg1.N = headAll V c :=
  (dat1 V c).arrAt_eq_of_cover 5 (headAll V c) (fun t _ => flushed1_eq V c t) cover1

end Cert.KernelIdeal.BodyVal

end
-- ==== Proof.LibBand.lean ====
/-
  Sums supported on a window. In an additive commutative monoid, a sum over 0 ≤ l < N of a function that vanishes
  outside the window h ≤ l < h + K (which lies inside the range) is the sum over 0 ≤ d < K of the function shifted by h.
  This is what turns a product with a banded matrix (zero outside the band) into the convolution's sum over its taps,
  and what drops the zero rows a top padding adds.
-/
import Mathlib

namespace Cert.Band

open Finset

/-- A sum over `Fin N` of a function supported on the window `[h, h + K)` is the sum over `Fin K` of its shift. -/
theorem sum_window {M : Type*} [AddCommMonoid M] (N K h : ℕ) (hle : h + K ≤ N) (F : ℕ → M) :
    ∑ l : Fin N, (if h ≤ l.val ∧ l.val < h + K then F (l.val - h) else 0) = ∑ d : Fin K, F d.val := by
  rw [Fin.sum_univ_eq_sum_range (fun l => if h ≤ l ∧ l < h + K then F (l - h) else 0) N,
    Fin.sum_univ_eq_sum_range F K]
  have e : ∀ l ∈ range N, (if h ≤ l ∧ l < h + K then F (l - h) else 0) = if l ∈ Ico h (h + K) then F (l - h) else 0 := by
    intro l _
    simp only [mem_Ico]
  rw [sum_congr rfl e, sum_ite_mem]
  have hsub : range N ∩ Ico h (h + K) = Ico h (h + K) := by
    apply inter_eq_right.mpr
    intro l hl
    rw [mem_Ico] at hl
    rw [mem_range]
    omega
  rw [hsub, sum_Ico_eq_sum_range, Nat.add_sub_cancel_left]
  refine sum_congr rfl fun d _ => ?_
  rw [Nat.add_sub_cancel_left]

/-- The same with the window's condition in any equivalent form and the summand given on the window only. -/
theorem sum_window' {M : Type*} [AddCommMonoid M] (N K h : ℕ) (hle : h + K ≤ N) (F : ℕ → M)
    (g : Fin N → M) (hin : ∀ l : Fin N, h ≤ l.val → l.val < h + K → g l = F (l.val - h))
    (hout : ∀ l : Fin N, ¬ (h ≤ l.val ∧ l.val < h + K) → g l = 0) :
    ∑ l : Fin N, g l = ∑ d : Fin K, F d.val := by
  rw [← sum_window N K h hle F]
  refine sum_congr rfl fun l _ => ?_
  by_cases hc : h ≤ l.val ∧ l.val < h + K
  · rw [if_pos hc]; exact hin l hc.1 hc.2
  · rw [if_neg hc]; exact hout l hc

end Cert.Band
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.Bridge1.lean ====
/-
  One layer of the network in its two arrangements. In the kernel a layer is a product with a banded matrix over the
  flattened (position, channel) axis: column q = h·128 + c is position h, channel c, and the matrix is zero outside the
  band. In the reference a layer is a sum over the convolution's taps of products with the zero-padded activations.
  Both are the same finite sum of the same terms: the zero entries of the band and the zero rows of the padding drop
  out (x · 0 = 0 = 0 · x on the extended reals), and the sum over 768 columns splits into positions and channels.
-/
import proofs.«109392_g2000007139875455_pallasbulk_612_2_alg».proof.Proof.KHead
import proofs.«109392_g2000007139875455_pallasbulk_612_2_alg».proof.Proof.LibBand
import proofs.«109392_g2000007139875455_pallasbulk_612_2_alg».proof.Proof.LibSumBlocks

noncomputable section

namespace Cert.Bridge

open Idealize.ShloMosaic Idealize.ShloMosaic.ValueIdx
open Cert.KernelIdeal.BodyVal Cert.Band Cert.LibSumBlocks

theorem div_block (j c : ℕ) (hc : c < 128) : (j * 128 + c) / 128 = j := by omega
theorem mod_block (j c : ℕ) (hc : c < 128) : (j * 128 + c) % 128 = c := by omega

/-- The first layer: 16 signal values against the banded 16 × 768 matrix is the 11-tap convolution. -/
theorem conv1_entry {R : ℕ} (a : (⟨2, ![R, 16]⟩ : Shape).Idx → EReal) (M1 : (⟨2, ![16, 768]⟩ : Shape).Idx → EReal)
    (b1 : (⟨2, ![1, 768]⟩ : Shape).Idx → EReal) (n : Fin R) (X : ℕ → EReal) (W : ℕ → ℕ → EReal) (Bv : ℕ → EReal)
    (hX : ∀ l : Fin 16, a (ix2 n l) = X l.val)
    (hM : ∀ (l : Fin 16) (q : Fin 768), M1 (ix2 l q)
      = if q.val / 128 ≤ l.val ∧ l.val ≤ q.val / 128 + 10 then W (q.val % 128) (l.val - q.val / 128) else 0)
    (hb : ∀ q : Fin 768, b1 (ix2 (0 : Fin 1) q) = Bv (q.val % 128))
    (h : Fin 6) (c : Fin 128) (hq : h.val * 128 + c.val < 768) :
    dense a M1 b1 (ix2 n ⟨h.val * 128 + c.val, hq⟩)
      = Ideal.tanh ((∑ dk : Fin 11, X (h.val + dk.val) * W c.val dk.val) + Bv c.val) := by
  have e1 : (h.val * 128 + c.val) / 128 = h.val := div_block _ _ c.isLt
  have e2 : (h.val * 128 + c.val) % 128 = c.val := mod_block _ _ c.isLt
  have hh := h.isLt
  rw [dense_apply, hb]
  simp only [e2]
  congr 2
  refine sum_window' 16 11 h.val (by omega) (fun d => X (h.val + d) * W c.val d) _ ?_ ?_
  · intro l h1 h2
    rw [hX, hM]
    simp only [e1, e2]
    rw [if_pos ⟨h1, by omega⟩]
    congr 2
    omega
  · intro l hn
    rw [hM]
    simp only [e1]
    rw [if_neg (by omega), mul_zero]

/-- A middle layer: 768 activations against the block-banded 768 × 768 matrix is the 11-tap convolution of the
    activations padded with ten zero rows on top. `A j ci` is the activation at position j, channel ci. -/
theorem band_entry {R : ℕ} (a : (⟨2, ![R, 768]⟩ : Shape).Idx → EReal) (M : (⟨2, ![768, 768]⟩ : Shape).Idx → EReal)
    (bias : (⟨2, ![1, 768]⟩ : Shape).Idx → EReal) (n : Fin R) (A : ℕ → ℕ → EReal) (W : ℕ → ℕ → ℕ → EReal) (Bv : ℕ → EReal)
    (hA : ∀ k : Fin 768, a (ix2 n k) = A (k.val / 128) (k.val % 128))
    (hM : ∀ (k q : Fin 768), M (ix2 k q)
      = if k.val / 128 ≤ q.val / 128 then W (q.val % 128) (k.val % 128) (10 + k.val / 128 - q.val / 128) else 0)
    (hb : ∀ q : Fin 768, bias (ix2 (0 : Fin 1) q) = Bv (q.val % 128))
    (h : Fin 6) (co : Fin 128) (hq : h.val * 128 + co.val < 768) :
    dense a M bias (ix2 n ⟨h.val * 128 + co.val, hq⟩)
      = Ideal.tanh ((∑ dk : Fin 11, ∑ ci : Fin 128, (if 10 ≤ h.val + dk.val then A (h.val + dk.val - 10) ci.val else 0) * W co.val ci.val dk.val)
          + Bv co.val) := by
  have e1 : (h.val * 128 + co.val) / 128 = h.val := div_block _ _ co.isLt
  have e2 : (h.val * 128 + co.val) % 128 = co.val := mod_block _ _ co.isLt
  have hh := h.isLt
  rw [dense_apply, hb]
  simp only [e2]
  congr 2
  -- both sides are the sum over the positions j ≤ h of  P j = ∑ ci, A j ci · W co ci (10 + j − h)
  let P : ℕ → EReal := fun j => ∑ ci : Fin 128, A j ci.val * W co.val ci.val (10 + j - h.val)
  have hL : (∑ k : Fin 768, a (ix2 n k) * M (ix2 k ⟨h.val * 128 + co.val, hq⟩)) = ∑ j : Fin (h.val + 1), P j.val := by
    rw [sum_blocks 6 128 768 rfl]
    refine sum_window' 6 (h.val + 1) 0 (by omega) P _ ?_ ?_
    · intro j _ h2
      refine Finset.sum_congr rfl fun ci _ => ?_
      rw [hA, hM]
      simp only [e1, e2, div_block _ _ ci.isLt, mod_block _ _ ci.isLt]
      rw [if_pos (by omega)]
      simp only [Nat.sub_zero]
    · intro j hn
      refine Finset.sum_eq_zero fun ci _ => ?_
      rw [hM]
      simp only [e1, div_block _ _ ci.isLt]
      rw [if_neg (by omega), mul_zero]
  have hR : (∑ dk : Fin 11, ∑ ci : Fin 128, (if 10 ≤ h.val + dk.val then A (h.val + dk.val - 10) ci.val else 0) * W co.val ci.val dk.val)
      = ∑ j : Fin (h.val + 1), P j.val := by
    refine sum_window' 11 (h.val + 1) (10 - h.val) (by omega) P _ ?_ ?_
    · intro dk h1 h2
      refine Finset.sum_congr rfl fun ci _ => ?_
      rw [if_pos (by omega)]
      have e3 : h.val + dk.val - 10 = dk.val - (10 - h.val) := by omega
      have e4 : 10 + (dk.val - (10 - h.val)) - h.val = dk.val := by omega
      rw [e3, e4]
    · intro dk hn
      refine Finset.sum_eq_zero fun ci _ => ?_
      rw [if_neg (by omega), zero_mul]
  rw [hL, hR]

end Cert.Bridge

end
-- ==== Proof.Bridge2.lean ====
/-
  The last convolution layer and the dense head in their two arrangements.
  The last layer has one output channel and three taps; output position s < 14 of the padded activations uses
  positions j with 10 + j = s + dk, dk < 3: the same diagonal whether it is listed by j (the banded matrix) or by dk
  (the taps). The head sums over 2048 = 128 · 16 inputs: the kernel lists them as (sensor w, position s) with the two
  trailing positions and the 28 trailing hidden units weighted by zero, the reference as (row h, sensor w) with the two
  leading rows zero; row h is position s = h − 2.
-/
import proofs.«109392_g2000007139875455_pallasbulk_612_2_alg».proof.Proof.Bridge1

noncomputable section

namespace Cert.Bridge

open Idealize.ShloMosaic Idealize.ShloMosaic.ValueIdx
open Cert.KernelIdeal.BodyVal Cert.Band Cert.LibSumBlocks

/-- The diagonal 10 + j = s + dk listed by j < 6 or by dk < 3. -/
theorem diag5 (P : ℕ → ℕ → EReal) (s : ℕ) (hs : s < 14) :
    (∑ j ∈ Finset.range 6, if s ≤ 10 + j ∧ 10 + j ≤ s + 2 then P j (10 + j - s) else 0)
      = ∑ dk ∈ Finset.range 3, if 10 ≤ s + dk then P (s + dk - 10) dk else 0 := by
  interval_cases s <;> simp [Finset.sum_range_succ]

/-- The last layer: 768 activations against the banded 768 × 16 matrix is the 3-tap convolution of the activations
    padded with ten zero rows on top, at each of the 14 real output positions. -/
theorem conv5_entry {R : ℕ} (a : (⟨2, ![R, 768]⟩ : Shape).Idx → EReal) (M5 : (⟨2, ![768, 16]⟩ : Shape).Idx → EReal)
    (bias : (⟨2, ![1, 16]⟩ : Shape).Idx → EReal) (n : Fin R) (A : ℕ → ℕ → EReal) (W5 : ℕ → ℕ → EReal) (B5 : EReal)
    (hA : ∀ k : Fin 768, a (ix2 n k) = A (k.val / 128) (k.val % 128))
    (hM : ∀ (k : Fin 768) (s : Fin 16), M5 (ix2 k s)
      = if s.val < 14 ∧ s.val ≤ 10 + k.val / 128 ∧ 10 + k.val / 128 ≤ s.val + 2 then W5 (k.val % 128) (10 + k.val / 128 - s.val) else 0)
    (hb : ∀ s : Fin 16, bias (ix2 (0 : Fin 1) s) = B5)
    (s : Fin 16) (hs : s.val < 14) :
    dense a M5 bias (ix2 n s)
      = Ideal.tanh ((∑ dk : Fin 3, ∑ c : Fin 128, (if 10 ≤ s.val + dk.val then A (s.val + dk.val - 10) c.val else 0) * W5 c.val dk.val) + B5) := by
  rw [dense_apply, hb]
  congr 2
  let P : ℕ → ℕ → EReal := fun j d => ∑ c : Fin 128, A j c.val * W5 c.val d
  have hL : (∑ k : Fin 768, a (ix2 n k) * M5 (ix2 k s))
      = ∑ j ∈ Finset.range 6, if s.val ≤ 10 + j ∧ 10 + j ≤ s.val + 2 then P j (10 + j - s.val) else 0 := by
    rw [sum_blocks 6 128 768 rfl,
      ← Fin.sum_univ_eq_sum_range (fun j => if s.val ≤ 10 + j ∧ 10 + j ≤ s.val + 2 then P j (10 + j - s.val) else 0) 6]
    refine Finset.sum_congr rfl fun j _ => ?_
    by_cases hc : s.val ≤ 10 + j.val ∧ 10 + j.val ≤ s.val + 2
    · rw [if_pos hc]
      refine Finset.sum_congr rfl fun c _ => ?_
      rw [hA, hM]
      simp only [div_block _ _ c.isLt, mod_block _ _ c.isLt]
      rw [if_pos ⟨hs, hc⟩]
    · rw [if_neg hc]
      refine Finset.sum_eq_zero fun c _ => ?_
      rw [hM]
      simp only [div_block _ _ c.isLt]
      rw [if_neg (fun h => hc h.2), mul_zero]
  have hR : (∑ dk : Fin 3, ∑ c : Fin 128, (if 10 ≤ s.val + dk.val then A (s.val + dk.val - 10) c.val else 0) * W5 c.val dk.val)
      = ∑ dk ∈ Finset.range 3, if 10 ≤ s.val + dk then P (s.val + dk - 10) dk else 0 := by
    rw [← Fin.sum_univ_eq_sum_range (fun dk => if 10 ≤ s.val + dk then P (s.val + dk - 10) dk else 0) 3]
    refine Finset.sum_congr rfl fun dk _ => ?_
    by_cases hc : 10 ≤ s.val + dk.val
    · simp only [if_pos hc]
      rfl
    · simp only [if_neg hc, zero_mul, Finset.sum_const_zero]
  rw [hL, hR, diag5 P s.val hs]

/-- The kernel's head: the 2048 inputs listed as (sensor w, position s), the trailing positions and hidden units
    weighted by zero. `Y w s` is the last layer's output at sensor w, position s. -/
theorem head_entry {R : ℕ} (y : (⟨2, ![R, 2048]⟩ : Shape).Idx → EReal) (Wm : (⟨2, ![2048, 128]⟩ : Shape).Idx → EReal)
    (b v : (⟨2, ![1, 128]⟩ : Shape).Idx → EReal) (c : (⟨2, ![1, 1]⟩ : Shape).Idx → EReal) (r : Fin R)
    (Y : ℕ → ℕ → EReal) (F1 : ℕ → ℕ → EReal) (Fb Fv : ℕ → EReal) (c0 : EReal)
    (hy : ∀ q : Fin 2048, y (ix2 r q) = Y (q.val / 16) (q.val % 16))
    (hW : ∀ (q : Fin 2048) (o : Fin 128), Wm (ix2 q o)
      = if o.val < 100 ∧ q.val % 16 < 14 then F1 o.val ((q.val % 16 + 2) * 128 + q.val / 16) else 0)
    (hb : ∀ o : Fin 128, b (ix2 (0 : Fin 1) o) = if o.val < 100 then Fb o.val else 0)
    (hv : ∀ o : Fin 128, v (ix2 (0 : Fin 1) o) = if o.val < 100 then Fv o.val else 0)
    (hc : c (ix2 (0 : Fin 1) (0 : Fin 1)) = c0) :
    head y Wm b v c r
      = (∑ o : Fin 100, Ideal.tanh ((∑ w : Fin 128, ∑ s : Fin 14, Y w.val s.val * F1 o.val ((s.val + 2) * 128 + w.val)) + Fb o.val) * Fv o.val) + c0 := by
  unfold head
  rw [hc]
  congr 1
  refine sum_window' 128 100 0 (by omega)
    (fun o => Ideal.tanh ((∑ w : Fin 128, ∑ s : Fin 14, Y w.val s.val * F1 o ((s.val + 2) * 128 + w.val)) + Fb o) * Fv o) _ ?_ ?_
  · intro o _ h2
    have ho : o.val < 100 := by omega
    rw [dense_apply, hb, hv, if_pos ho, if_pos ho]
    simp only [Nat.sub_zero]
    congr 3
    rw [sum_blocks 128 16 2048 rfl]
    refine Finset.sum_congr rfl fun w _ => ?_
    refine sum_window' 16 14 0 (by omega) (fun s => Y w.val s * F1 o.val ((s + 2) * 128 + w.val)) _ ?_ ?_
    · intro s _ h4
      have hs : s.val < 14 := by omega
      have d1 : (w.val * 16 + s.val) / 16 = w.val := by have := s.isLt; omega
      have d2 : (w.val * 16 + s.val) % 16 = s.val := by have := s.isLt; omega
      rw [hy, hW]
      simp only [d1, d2, Nat.sub_zero]
      rw [if_pos ⟨ho, hs⟩]
    · intro s hn
      have d2 : (w.val * 16 + s.val) % 16 = s.val := by have := s.isLt; omega
      rw [hW]
      simp only [d2]
      rw [if_neg (by omega), mul_zero]
  · intro o hn
    rw [hv, if_neg (by omega), mul_zero]

/-- The reference's head input: the 2048 entries listed as (row h, sensor w), rows 0 and 1 zero, row h the last
    layer's position h − 2. -/
theorem ref_head_sum (C : ℕ → ℕ → EReal) (Y5 : ℕ → ℕ → EReal) (F : ℕ → EReal)
    (hC : ∀ h w, C h w = if 2 ≤ h then Y5 (h - 2) w else 0) :
    (∑ q : Fin 2048, C (q.val / 128) (q.val % 128) * F q.val)
      = ∑ w : Fin 128, ∑ s : Fin 14, Y5 s.val w.val * F ((s.val + 2) * 128 + w.val) := by
  rw [sum_blocks 16 128 2048 rfl, Finset.sum_comm]
  refine Finset.sum_congr rfl fun w _ => ?_
  refine sum_window' 16 14 2 (by omega) (fun s => Y5 s w.val * F ((s + 2) * 128 + w.val)) _ ?_ ?_
  · intro h h1 _
    simp only [div_block _ _ w.isLt, mod_block _ _ w.isLt]
    rw [hC, if_pos h1]
    have e : h.val - 2 + 2 = h.val := by omega
    rw [e]
  · intro h hn
    simp only [div_block _ _ w.isLt, mod_block _ _ w.isLt]
    have hlt := h.isLt
    rw [hC, if_neg (by omega), zero_mul]

end Cert.Bridge

end
-- ==== Proof.KClosed.lean ====
/-
  The kernel's result in closed form. Given the entries of the arrays the host builds (the banded matrices, the bias
  rows, the re-laid head weights: hypotheses here, each stated in terms of the argument arrays extended by zero), row b of
  the head's output array is the network `Spec.net` of the fifteen arguments at example b: the head over all sensors of
  the five convolution layers, each layer's banded product rewritten as its sum over taps.
-/
import proofs.«109392_g2000007139875455_pallasbulk_612_2_alg».proof.Proof.KArr
import proofs.«109392_g2000007139875455_pallasbulk_612_2_alg».proof.Proof.Bridge2
import proofs.«109392_g2000007139875455_pallasbulk_612_2_alg».proof.Proof.Spec

noncomputable section

namespace Cert.Bridge

open Idealize.ShloMosaic Idealize.ShloMosaic.ValueIdx
open Cert.KernelIdeal.BodyVal Cert.Spec

/-- A first layer's row, column by column. -/
theorem lift_conv1 {R : ℕ} (a : (⟨2, ![R, 16]⟩ : Shape).Idx → EReal) (M1 : (⟨2, ![16, 768]⟩ : Shape).Idx → EReal)
    (b1 : (⟨2, ![1, 768]⟩ : Shape).Idx → EReal) (n : Fin R) (X : ℕ → EReal) (W : ℕ → ℕ → EReal) (Bv : ℕ → EReal)
    (hX : ∀ l : Fin 16, a (ix2 n l) = X l.val)
    (hM : ∀ (l : Fin 16) (q : Fin 768), M1 (ix2 l q)
      = if q.val / 128 ≤ l.val ∧ l.val ≤ q.val / 128 + 10 then W (q.val % 128) (l.val - q.val / 128) else 0)
    (hb : ∀ q : Fin 768, b1 (ix2 (0 : Fin 1) q) = Bv (q.val % 128)) (k : Fin 768) :
    dense a M1 b1 (ix2 n k) = s1 X W Bv (k.val / 128) (k.val % 128) := by
  have hk := k.isLt
  have hq : (k.val / 128) * 128 + k.val % 128 < 768 := by omega
  have e : k = ⟨(k.val / 128) * 128 + k.val % 128, hq⟩ := Fin.ext (show k.val = k.val / 128 * 128 + k.val % 128 by omega)
  calc dense a M1 b1 (ix2 n k) = dense a M1 b1 (ix2 n ⟨(k.val / 128) * 128 + k.val % 128, hq⟩) := by rw [← e]
    _ = s1 X W Bv (k.val / 128) (k.val % 128) :=
      conv1_entry a M1 b1 n X W Bv hX hM hb ⟨k.val / 128, by omega⟩ ⟨k.val % 128, Nat.mod_lt _ (by norm_num)⟩ hq

/-- A middle layer's row, column by column. -/
theorem lift_band {R : ℕ} (a : (⟨2, ![R, 768]⟩ : Shape).Idx → EReal) (M : (⟨2, ![768, 768]⟩ : Shape).Idx → EReal)
    (bias : (⟨2, ![1, 768]⟩ : Shape).Idx → EReal) (n : Fin R) (A : ℕ → ℕ → EReal) (W : ℕ → ℕ → ℕ → EReal) (Bv : ℕ → EReal)
    (hA : ∀ k : Fin 768, a (ix2 n k) = A (k.val / 128) (k.val % 128))
    (hM : ∀ (k q : Fin 768), M (ix2 k q)
      = if k.val / 128 ≤ q.val / 128 then W (q.val % 128) (k.val % 128) (10 + k.val / 128 - q.val / 128) else 0)
    (hb : ∀ q : Fin 768, bias (ix2 (0 : Fin 1) q) = Bv (q.val % 128)) (k : Fin 768) :
    dense a M bias (ix2 n k) = sN A W Bv (k.val / 128) (k.val % 128) := by
  have hk := k.isLt
  have hq : (k.val / 128) * 128 + k.val % 128 < 768 := by omega
  have e : k = ⟨(k.val / 128) * 128 + k.val % 128, hq⟩ := Fin.ext (show k.val = k.val / 128 * 128 + k.val % 128 by omega)
  calc dense a M bias (ix2 n k) = dense a M bias (ix2 n ⟨(k.val / 128) * 128 + k.val % 128, hq⟩) := by rw [← e]
    _ = sN A W Bv (k.val / 128) (k.val % 128) :=
      band_entry a M bias n A W Bv hA hM hb ⟨k.val / 128, by omega⟩ ⟨k.val % 128, Nat.mod_lt _ (by norm_num)⟩ hq

/-- The kernel's convolution stack at row n = b·128 + w, position s < 14, is the five layers in tap form. -/
theorem stack_entry {R : ℕ} (xt : (⟨2, ![R, 16]⟩ : Shape).Idx → EReal)
    (m1 : (⟨2, ![16, 768]⟩ : Shape).Idx → EReal) (r1 : (⟨2, ![1, 768]⟩ : Shape).Idx → EReal)
    (m2 : (⟨2, ![768, 768]⟩ : Shape).Idx → EReal) (r2 : (⟨2, ![1, 768]⟩ : Shape).Idx → EReal)
    (m3 : (⟨2, ![768, 768]⟩ : Shape).Idx → EReal) (r3 : (⟨2, ![1, 768]⟩ : Shape).Idx → EReal)
    (m4 : (⟨2, ![768, 768]⟩ : Shape).Idx → EReal) (r4 : (⟨2, ![1, 768]⟩ : Shape).Idx → EReal)
    (m5 : (⟨2, ![768, 16]⟩ : Shape).Idx → EReal) (r5 : (⟨2, ![1, 16]⟩ : Shape).Idx → EReal) (n : Fin R)
    (X : ℕ → EReal) (W1 : ℕ → ℕ → EReal) (B1 : ℕ → EReal) (W2 : ℕ → ℕ → ℕ → EReal) (B2 : ℕ → EReal)
    (W3 : ℕ → ℕ → ℕ → EReal) (B3 : ℕ → EReal) (W4 : ℕ → ℕ → ℕ → EReal) (B4 : ℕ → EReal) (W5 : ℕ → ℕ → EReal) (B5 : EReal)
    (hX : ∀ l : Fin 16, xt (ix2 n l) = X l.val)
    (h1 : ∀ (l : Fin 16) (q : Fin 768), m1 (ix2 l q)
      = if q.val / 128 ≤ l.val ∧ l.val ≤ q.val / 128 + 10 then W1 (q.val % 128) (l.val - q.val / 128) else 0)
    (hr1 : ∀ q : Fin 768, r1 (ix2 (0 : Fin 1) q) = B1 (q.val % 128))
    (h2 : ∀ (k q : Fin 768), m2 (ix2 k q) = if k.val / 128 ≤ q.val / 128 then W2 (q.val % 128) (k.val % 128) (10 + k.val / 128 - q.val / 128) else 0)
    (hr2 : ∀ q : Fin 768, r2 (ix2 (0 : Fin 1) q) = B2 (q.val % 128))
    (h3 : ∀ (k q : Fin 768), m3 (ix2 k q) = if k.val / 128 ≤ q.val / 128 then W3 (q.val % 128) (k.val % 128) (10 + k.val / 128 - q.val / 128) else 0)
    (hr3 : ∀ q : Fin 768, r3 (ix2 (0 : Fin 1) q) = B3 (q.val % 128))
    (h4 : ∀ (k q : Fin 768), m4 (ix2 k q) = if k.val / 128 ≤ q.val / 128 then W4 (q.val % 128) (k.val % 128) (10 + k.val / 128 - q.val / 128) else 0)
    (hr4 : ∀ q : Fin 768, r4 (ix2 (0 : Fin 1) q) = B4 (q.val % 128))
    (h5 : ∀ (k : Fin 768) (s : Fin 16), m5 (ix2 k s)
      = if s.val < 14 ∧ s.val ≤ 10 + k.val / 128 ∧ 10 + k.val / 128 ≤ s.val + 2 then W5 (k.val % 128) (10 + k.val / 128 - s.val) else 0)
    (hr5 : ∀ s : Fin 16, r5 (ix2 (0 : Fin 1) s) = B5)
    (s : Fin 16) (hs : s.val < 14) :
    dense (dense (dense (dense (dense xt m1 r1) m2 r2) m3 r3) m4 r4) m5 r5 (ix2 n s)
      = conv X W1 B1 W2 B2 W3 B3 W4 B4 W5 B5 s.val :=
  conv5_entry _ m5 r5 n _ W5 B5
    (lift_band _ m4 r4 n _ W4 B4
      (lift_band _ m3 r3 n _ W3 B3
        (lift_band _ m2 r2 n _ W2 B2 (lift_conv1 xt m1 r1 n X W1 B1 hX h1 hr1) h2 hr2) h3 hr3) h4 hr4)
    h5 hr5 s hs

end Cert.Bridge

end
-- ==== Proof.KHost2.lean ====
import proofs.«109392_g2000007139875455_pallasbulk_612_2_alg».proof.Proof.KernelIdealRun
import proofs.«109392_g2000007139875455_pallasbulk_612_2_alg».proof.Proof.KHost1
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.KernelIdeal.HostVal

open Cert.KernelIdeal Cert.KernelIdeal.Gen Cert.KernelIdeal.Run
open Idealize.ShloMosaic Idealize.ShloMosaic.TcCoe Idealize.ShloMosaic.Tactic
open Idealize.ShloMosaic.ValueIdx

variable (m : (ℓ : Loc nD τ sig) → Buf (Elt Ideal) ℓ) (ρ : Dev nD → PrngReg)

/-! # The arrays the second region reads: the first region's output re-laid, and the head's weights padded to 128 lanes -/

set_option maxHeartbeats 4000000 in
/-- The arguments the second region's arrays are built from are as launched when the first region ends. -/
theorem B4_arg11 (c : Dev nD) : B4 m ρ c (Proc.devRef .tc main_arg11) = a11 m c := by
  rw [B4_of_ne m ρ c main_arg11 (by decide)]
  show StableHlo.after hostOps0_2 (StableHlo.after hostOps0_1 (StableHlo.after hostOps0 (B0 m ρ c))) (Proc.devRef .tc main_arg11) = _
  after_results_simp

set_option maxHeartbeats 4000000 in
theorem B4_arg12 (c : Dev nD) : B4 m ρ c (Proc.devRef .tc main_arg12) = a12 m c := by
  rw [B4_of_ne m ρ c main_arg12 (by decide)]
  show StableHlo.after hostOps0_2 (StableHlo.after hostOps0_1 (StableHlo.after hostOps0 (B0 m ρ c))) (Proc.devRef .tc main_arg12) = _
  after_results_simp

set_option maxHeartbeats 4000000 in
theorem B4_arg13 (c : Dev nD) : B4 m ρ c (Proc.devRef .tc main_arg13) = a13 m c := by
  rw [B4_of_ne m ρ c main_arg13 (by decide)]
  show StableHlo.after hostOps0_2 (StableHlo.after hostOps0_1 (StableHlo.after hostOps0 (B0 m ρ c))) (Proc.devRef .tc main_arg13) = _
  after_results_simp

set_option maxHeartbeats 4000000 in
theorem B4_arg14 (c : Dev nD) : B4 m ρ c (Proc.devRef .tc main_arg14) = a14 m c := by
  rw [B4_of_ne m ρ c main_arg14 (by decide)]
  show StableHlo.after hostOps0_2 (StableHlo.after hostOps0_1 (StableHlo.after hostOps0 (B0 m ρ c))) (Proc.devRef .tc main_arg14) = _
  after_results_simp

set_option maxHeartbeats 4000000 in
/-- The head's input: row b, column q of the first region's output re-laid as 2560 rows of 2048 is its row b*128 + q/16, lane q%16. -/
theorem yflat_apply (c : Dev nD) (b : Fin 2560) (q : Fin 2048) :
    (V11 m ρ c main_v149 : S2560x2048.Idx → EReal) (ix2 b q)
      = ((dat0 (V3 m ρ) c).arrAt 11 cfg0.N : S327680x16.Idx → EReal)
          (ix2 ⟨b.val * 128 + q.val / 16, by omega⟩ ⟨q.val % 16, Nat.mod_lt _ (by norm_num)⟩) := by
  have e : (V11 m ρ c main_v149 : S2560x2048.Idx → EReal)
      = fun i => shapeCast S2560x2048 (B4 m ρ c (Proc.devRef .tc main_v138) : S327680x16.Idx → EReal) shapeCasts_S327680x16_S2560x2048 i := by
    show StableHlo.after hostOps1_6 (StableHlo.after hostOps1_5 (StableHlo.after hostOps1_4 (StableHlo.after hostOps1_3 (StableHlo.after hostOps1_2 (StableHlo.after hostOps1_1 (StableHlo.after hostOps1 (B4 m ρ c))))))) (Proc.devRef .tc main_v149) = _
    after_results_simp
    rfl
  rw [e, show B4 m ρ c (Proc.devRef .tc main_v138) = _ from B4_arr m ρ c 11]
  show shapeCast S2560x2048 _ _ (ix2 b q) = _
  refine shapeCast_apply (s := S327680x16) _ _ _ _ ?_
  rw [Shape.rowMajor_val_two, Shape.rowMajor_val_two]
  show (b.val * 128 + q.val / 16) * 16 + q.val % 16 = b.val * 2048 + q.val
  omega

/-- The integer zero converted to a float is zero. -/
theorem sitofp_zero_first : (sitofp (F := Ideal) .f32 (constantI S_ 32 0#32) : S_.Idx → EReal) (Shape.Idx.first h_S_) = 0 := by
  show (((0#32 : BitVec 32).toInt : ℝ) : EReal) = 0
  simp

/-- A vector of 100 entries padded with the float zero to 128 lanes and laid as one row: entry o is the vector's below 100 and zero from 100 on. -/
theorem pad128_row_read (x : S100.Idx → EReal) (o : Fin 128) :
    broadcastInDim S1x128 ![1] bcast_S128_S1x128_1
        (pad S128 ![0] ![28] ![0] x (sitofp (F := Ideal) .f32 (constantI S_ 32 0#32)) pads_S100_S128_0280 h_S_) (ix2 0 o)
      = if h : o.val < 100 then x (ix1 ⟨o.val, h⟩) else 0 := by
  refine (broadcastInDim_apply _ _ _ (ix2 0 o) (ix1 o) ?_).trans ?_
  · intro a
    match a with
    | ⟨0, _⟩ => rfl
  by_cases h : o.val < 100
  · rw [dif_pos h]
    refine pad_apply_of_inside _ _ _ _ _ _ _ (ix1 o) (ix1 ⟨o.val, h⟩) ?_
    intro a
    match a with
    | ⟨0, _⟩ => show o.val = 0 + o.val * (0 + 1); omega
  · rw [dif_neg h]
    refine (pad_apply_of_not_inside _ _ _ _ _ _ _ (ix1 o) (0 : Fin 1) ?_).trans sitofp_zero_first
    show ¬(0 ≤ o.val ∧ (o.val - 0) % (0 + 1) = 0 ∧ (o.val - 0) / (0 + 1) < 100)
    omega

set_option maxHeartbeats 4000000 in
/-- The head's first bias, padded to 128 lanes. -/
theorem b1h_apply (c : Dev nD) (o : Fin 128) :
    (V11 m ρ c main_v145 : S1x128.Idx → EReal) (ix2 0 o) = if h : o.val < 100 then a12 m c (ix1 ⟨o.val, h⟩) else 0 := by
  have e : (V11 m ρ c main_v145 : S1x128.Idx → EReal) = broadcastInDim S1x128 ![1] bcast_S128_S1x128_1
        (pad S128 ![0] ![28] ![0] (B4 m ρ c (Proc.devRef .tc main_arg12) : S100.Idx → EReal) (sitofp (F := Ideal) .f32 (constantI S_ 32 0#32)) pads_S100_S128_0280 h_S_) := by
    show StableHlo.after hostOps1_6 (StableHlo.after hostOps1_5 (StableHlo.after hostOps1_4 (StableHlo.after hostOps1_3 (StableHlo.after hostOps1_2 (StableHlo.after hostOps1_1 (StableHlo.after hostOps1 (B4 m ρ c))))))) (Proc.devRef .tc main_v145) = _
    after_results_simp
    rfl
  rw [e, B4_arg12]; exact pad128_row_read _ o

set_option maxHeartbeats 4000000 in
/-- The head's second weight row, padded to 128 lanes. -/
theorem vrow_apply (c : Dev nD) (o : Fin 128) :
    (V11 m ρ c main_v148 : S1x128.Idx → EReal) (ix2 0 o) = if h : o.val < 100 then a13 m c (ix2 0 ⟨o.val, h⟩) else 0 := by
  have e : (V11 m ρ c main_v148 : S1x128.Idx → EReal) = broadcastInDim S1x128 ![1] bcast_S128_S1x128_1
        (pad S128 ![0] ![28] ![0] (fun i => shapeCast S100 (B4 m ρ c (Proc.devRef .tc main_arg13) : S1x100.Idx → EReal) shapeCasts_S1x100_S100 i) (sitofp (F := Ideal) .f32 (constantI S_ 32 0#32)) pads_S100_S128_0280 h_S_) := by
    show StableHlo.after hostOps1_6 (StableHlo.after hostOps1_5 (StableHlo.after hostOps1_4 (StableHlo.after hostOps1_3 (StableHlo.after hostOps1_2 (StableHlo.after hostOps1_1 (StableHlo.after hostOps1 (B4 m ρ c))))))) (Proc.devRef .tc main_v148) = _
    after_results_simp
    rfl
  rw [e, B4_arg13, pad128_row_read]
  by_cases h : o.val < 100
  · rw [dif_pos h, dif_pos h]
    show shapeCast S100 _ _ _ = _
    refine shapeCast_apply (s := S1x100) _ _ _ _ ?_
    rw [Shape.rowMajor_val_two, Shape.rowMajor_val_one]
    show 0 * 100 + o.val = o.val
    omega
  · rw [dif_neg h, dif_neg h]

set_option maxHeartbeats 4000000 in
/-- The head's last bias as a 1×1 array. -/
theorem c_apply (c : Dev nD) :
    (V11 m ρ c main_v150 : S1x1.Idx → EReal) (ix2 0 0) = a14 m c (ix1 0) := by
  have e : (V11 m ρ c main_v150 : S1x1.Idx → EReal) = fun i => shapeCast S1x1 (B4 m ρ c (Proc.devRef .tc main_arg14) : S1.Idx → EReal) shapeCasts_S1_S1x1 i := by
    show StableHlo.after hostOps1_6 (StableHlo.after hostOps1_5 (StableHlo.after hostOps1_4 (StableHlo.after hostOps1_3 (StableHlo.after hostOps1_2 (StableHlo.after hostOps1_1 (StableHlo.after hostOps1 (B4 m ρ c))))))) (Proc.devRef .tc main_v150) = _
    after_results_simp
    rfl
  rw [e, B4_arg14]
  show shapeCast S1x1 _ _ _ = _
  refine shapeCast_apply (s := S1) _ _ _ _ ?_
  rw [Shape.rowMajor_val_two, Shape.rowMajor_val_one]
  rfl

set_option maxHeartbeats 4000000 in
/-- The head's first weight matrix re-laid for the first region's row order: row q = w*16 + p (sensor w, lane p), column o
    is the dense weight of output o at input feature (p + 2)*128 + w when o < 100 and p < 14, and zero on the padding. -/
theorem fc1p_apply (c : Dev nD) (q : Fin 2048) (o : Fin 128) :
    (V11 m ρ c main_v143 : S2048x128.Idx → EReal) (ix2 q o)
      = if h : o.val < 100 ∧ q.val % 16 < 14 then a11 m c (ix2 ⟨o.val, h.1⟩ ⟨(q.val % 16 + 2) * 128 + q.val / 16, by omega⟩) else 0 := by
  have e : (V11 m ρ c main_v143 : S2048x128.Idx → EReal)
      = fun i => shapeCast S2048x128 (transpose S128x16x128 [2, 1, 0]
          (pad S128x16x128 ![0, 0, 0] ![28, 2, 0] ![0, 0, 0]
            (extractStridedSlice S100x14x128 ![0, 2, 0]
              (fun i => shapeCast S100x16x128 (B4 m ρ c (Proc.devRef .tc main_arg11) : S100x2048.Idx → EReal) shapeCasts_S100x2048_S100x16x128 i)
              slices_S100x16x128_S100x14x128_0_2_0)
            (sitofp (F := Ideal) .f32 (constantI S_ 32 0#32)) pads_S100x14x128_S128x16x128_0280_020_000 h_S_)
          transposes_S128x16x128_S128x16x128_2_1_0) shapeCasts_S128x16x128_S2048x128 i := by
    show StableHlo.after hostOps1_6 (StableHlo.after hostOps1_5 (StableHlo.after hostOps1_4 (StableHlo.after hostOps1_3 (StableHlo.after hostOps1_2 (StableHlo.after hostOps1_1 (StableHlo.after hostOps1 (B4 m ρ c))))))) (Proc.devRef .tc main_v143) = _
    after_results_simp
    rfl
  rw [e, B4_arg11]
  show shapeCast S2048x128 _ _ (ix2 q o) = _
  refine (shapeCast_apply _ _ (ix2 q o) (ix3 (⟨q.val / 16, by omega⟩ : Fin 128) (⟨q.val % 16, Nat.mod_lt _ (by norm_num)⟩ : Fin 16) o) ?_).trans ?_
  · rw [Shape.rowMajor_val_three, Shape.rowMajor_val_two]
    show (q.val / 16 * 16 + q.val % 16) * 128 + o.val = q.val * 128 + o.val
    omega
  refine (transpose_apply _ _ _ _ (ix3 o (⟨q.val % 16, Nat.mod_lt _ (by norm_num)⟩ : Fin 16) (⟨q.val / 16, by omega⟩ : Fin 128)) ?_).trans ?_
  · intro b
    match b with
    | ⟨0, _⟩ => rfl
    | ⟨1, _⟩ => rfl
    | ⟨2, _⟩ => rfl
  by_cases h : o.val < 100 ∧ q.val % 16 < 14
  · rw [dif_pos h]
    refine (pad_apply_of_inside _ _ _ _ _ _ _ _ (ix3 (⟨o.val, h.1⟩ : Fin 100) (⟨q.val % 16, h.2⟩ : Fin 14) (⟨q.val / 16, by omega⟩ : Fin 128)) ?_).trans ?_
    · intro a
      match a with
      | ⟨0, _⟩ => show o.val = 0 + o.val * (0 + 1); omega
      | ⟨1, _⟩ => show q.val % 16 = 0 + q.val % 16 * (0 + 1); omega
      | ⟨2, _⟩ => show q.val / 16 = 0 + q.val / 16 * (0 + 1); omega
    refine (extractStridedSlice_apply _ _ _ _ (ix3 (⟨o.val, h.1⟩ : Fin 100) (⟨q.val % 16 + 2, by omega⟩ : Fin 16) (⟨q.val / 16, by omega⟩ : Fin 128)) ?_).trans ?_
    · intro a
      match a with
      | ⟨0, _⟩ => show o.val = 0 + o.val; omega
      | ⟨1, _⟩ => show q.val % 16 + 2 = 2 + q.val % 16; omega
      | ⟨2, _⟩ => show q.val / 16 = 0 + q.val / 16; omega
    show shapeCast S100x16x128 _ _ _ = _
    refine shapeCast_apply (s := S100x2048) _ _ _ _ ?_
    rw [Shape.rowMajor_val_two, Shape.rowMajor_val_three]
    show o.val * 2048 + ((q.val % 16 + 2) * 128 + q.val / 16) = (o.val * 16 + (q.val % 16 + 2)) * 128 + q.val / 16
    omega
  · rw [dif_neg h]
    by_cases ho : o.val < 100
    · refine (pad_apply_of_not_inside _ _ _ _ _ _ _ _ (1 : Fin 3) ?_).trans sitofp_zero_first
      show ¬(0 ≤ q.val % 16 ∧ (q.val % 16 - 0) % (0 + 1) = 0 ∧ (q.val % 16 - 0) / (0 + 1) < 14)
      omega
    · refine (pad_apply_of_not_inside _ _ _ _ _ _ _ _ (0 : Fin 3) ?_).trans sitofp_zero_first
      show ¬(0 ≤ o.val ∧ (o.val - 0) % (0 + 1) = 0 ∧ (o.val - 0) / (0 + 1) < 100)
      omega

end Cert.KernelIdeal.HostVal

end
-- ==== Proof.KFinal.lean ====
/-
  The kernel's result: row b of the head's output array is the network of the fifteen arguments at example b.
  The entries of the five gathered matrices (the banded weights) are hypotheses of the main statement here, each as an
  explicit function of one argument array extended by zero; everything else is read off the host operations.
-/
import proofs.«109392_g2000007139875455_pallasbulk_612_2_alg».proof.Proof.KClosed
import proofs.«109392_g2000007139875455_pallasbulk_612_2_alg».proof.Proof.KHost2

set_option maxRecDepth 16384

noncomputable section

namespace Cert.KernelIdeal.Final

open Cert.KernelIdeal Cert.KernelIdeal.Gen Cert.KernelIdeal.Run Cert.KernelIdeal.BodyVal Cert.KernelIdeal.HostVal
open Idealize.ShloMosaic Idealize.ShloMosaic.ValueIdx Idealize.ShloMosaic.TcCoe Idealize.SL.Sem
open Cert.Spec Cert.Bridge

variable (m : (ℓ : Loc nD τ sig) → Buf (Elt Ideal) ℓ) (ρ : Dev nD → PrngReg)

theorem row_lt (b : Fin 2560) (w : ℕ) (hw : w < 128) : b.val * 128 + w < 327680 := by
  have := b.isLt; omega

/-- Row b·128 + w of the flattened signal is example b's signal at sensor w. -/
theorem xt_row (c : Dev nD) (b : Fin 2560) (w : Fin 128) (l : Fin 16) :
    (V3 m ρ c main_v137 : S327680x16.Idx → EReal) (ix2 ⟨b.val * 128 + w.val, row_lt b w.val w.isLt⟩ l) = e4 (a0 m c) b.val 0 l.val w.val := by
  rw [xt_apply]
  have hb := b.isLt
  have hw := w.isLt
  have e := e4_fin (a0 m c) b (0 : Fin 1) l w
  rw [show ((0 : Fin 1) : ℕ) = 0 from rfl] at e
  rw [e]
  congr 1
  funext a; apply Fin.ext
  match a with
  | ⟨0, _⟩ => show (b.val * 128 + w.val) / 128 = b.val; omega
  | ⟨1, _⟩ => rfl
  | ⟨2, _⟩ => rfl
  | ⟨3, _⟩ => show (b.val * 128 + w.val) % 128 = w.val; omega

theorem brow_e (f : S128.Idx → EReal) (q : Fin 768) : f (ix1 ⟨q.val % 128, Nat.mod_lt _ (by norm_num)⟩) = e1 f (q.val % 128) :=
  (e1_fin f ⟨q.val % 128, Nat.mod_lt _ (by norm_num)⟩).symm

/-- The convolution stack at row b·128 + w, position s < 14, in tap form. -/
theorem conv_row (c : Dev nD) (b : Fin 2560) (w : Fin 128) (s : Fin 16) (hs : s.val < 14)
    (h1 : ∀ (l : Fin 16) (q : Fin 768), (V3 m ρ c main_v23 : S16x768.Idx → EReal) (ix2 l q)
      = if q.val / 128 ≤ l.val ∧ l.val ≤ q.val / 128 + 10 then e4 (a1 m c) (q.val % 128) 0 (l.val - q.val / 128) 0 else 0)
    (h2 : ∀ (k q : Fin 768), (V3 m ρ c main_v78 : S768x768.Idx → EReal) (ix2 k q)
      = if k.val / 128 ≤ q.val / 128 then e4 (a3 m c) (q.val % 128) (k.val % 128) (10 + k.val / 128 - q.val / 128) 0 else 0)
    (h3 : ∀ (k q : Fin 768), (V3 m ρ c main_v104 : S768x768.Idx → EReal) (ix2 k q)
      = if k.val / 128 ≤ q.val / 128 then e4 (a5 m c) (q.val % 128) (k.val % 128) (10 + k.val / 128 - q.val / 128) 0 else 0)
    (h4 : ∀ (k q : Fin 768), (V3 m ρ c main_v130 : S768x768.Idx → EReal) (ix2 k q)
      = if k.val / 128 ≤ q.val / 128 then e4 (a7 m c) (q.val % 128) (k.val % 128) (10 + k.val / 128 - q.val / 128) 0 else 0)
    (h5 : ∀ (k : Fin 768) (s : Fin 16), (V3 m ρ c main_v50 : S768x16.Idx → EReal) (ix2 k s)
      = if s.val < 14 ∧ s.val ≤ 10 + k.val / 128 ∧ 10 + k.val / 128 ≤ s.val + 2 then e4 (a9 m c) 0 (k.val % 128) (10 + k.val / 128 - s.val) 0 else 0) :
    dense (dense (dense (dense (dense (V3 m ρ c main_v137 : S327680x16.Idx → EReal) (V3 m ρ c main_v23 : S16x768.Idx → EReal) (V3 m ρ c main_v56 : S1x768.Idx → EReal))
        (V3 m ρ c main_v78 : S768x768.Idx → EReal) (V3 m ρ c main_v82 : S1x768.Idx → EReal)) (V3 m ρ c main_v104 : S768x768.Idx → EReal) (V3 m ρ c main_v108 : S1x768.Idx → EReal))
        (V3 m ρ c main_v130 : S768x768.Idx → EReal) (V3 m ρ c main_v134 : S1x768.Idx → EReal)) (V3 m ρ c main_v50 : S768x16.Idx → EReal) (V3 m ρ c main_v52 : S1x16.Idx → EReal)
        (ix2 ⟨b.val * 128 + w.val, row_lt b w.val w.isLt⟩ s)
      = conv (fun l => e4 (a0 m c) b.val 0 l w.val) (fun ch dk => e4 (a1 m c) ch 0 dk 0) (e1 (a2 m c))
      (fun co ci dk => e4 (a3 m c) co ci dk 0) (e1 (a4 m c)) (fun co ci dk => e4 (a5 m c) co ci dk 0) (e1 (a6 m c))
      (fun co ci dk => e4 (a7 m c) co ci dk 0) (e1 (a8 m c)) (fun ch dk => e4 (a9 m c) 0 ch dk 0) (e1 (a10 m c) 0) s.val :=
  stack_entry (V3 m ρ c main_v137 : S327680x16.Idx → EReal) (V3 m ρ c main_v23 : S16x768.Idx → EReal) (V3 m ρ c main_v56 : S1x768.Idx → EReal)
    (V3 m ρ c main_v78 : S768x768.Idx → EReal) (V3 m ρ c main_v82 : S1x768.Idx → EReal) (V3 m ρ c main_v104 : S768x768.Idx → EReal) (V3 m ρ c main_v108 : S1x768.Idx → EReal)
    (V3 m ρ c main_v130 : S768x768.Idx → EReal) (V3 m ρ c main_v134 : S1x768.Idx → EReal) (V3 m ρ c main_v50 : S768x16.Idx → EReal) (V3 m ρ c main_v52 : S1x16.Idx → EReal)
    ⟨b.val * 128 + w.val, row_lt b w.val w.isLt⟩
    (fun l => e4 (a0 m c) b.val 0 l w.val) (fun ch dk => e4 (a1 m c) ch 0 dk 0) (e1 (a2 m c))
      (fun co ci dk => e4 (a3 m c) co ci dk 0) (e1 (a4 m c)) (fun co ci dk => e4 (a5 m c) co ci dk 0) (e1 (a6 m c))
      (fun co ci dk => e4 (a7 m c) co ci dk 0) (e1 (a8 m c)) (fun ch dk => e4 (a9 m c) 0 ch dk 0) (e1 (a10 m c) 0)
    (fun l => xt_row m ρ c b w l) h1
    (fun q => (b1row_apply m ρ c q).trans (brow_e _ q)) h2
    (fun q => (b2row_apply m ρ c q).trans (brow_e _ q)) h3
    (fun q => (b3row_apply m ρ c q).trans (brow_e _ q)) h4
    (fun q => (b4row_apply m ρ c q).trans (brow_e _ q)) h5
    (fun s' => (b5row_apply m ρ c s').trans (e1_fin (a10 m c) (0 : Fin 1)).symm)
    s hs

end Cert.KernelIdeal.Final

end
-- ==== Proof.KFinal2.lean ====
/-
  The kernel's result is the network: the head over all sensors of the stack's rows, each row in tap form.
  First for abstract arrays with the stated entries, then for the arrays the two regions are entered with.
-/
import proofs.«109392_g2000007139875455_pallasbulk_612_2_alg».proof.Proof.KFinal

set_option maxRecDepth 16384

noncomputable section

namespace Cert.Bridge

open Idealize.ShloMosaic Idealize.ShloMosaic.ValueIdx
open Cert.KernelIdeal.BodyVal Cert.Spec

variable (A0 : (⟨4, ![2560, 1, 16, 128]⟩ : Shape).Idx → EReal) (A1 : (⟨4, ![128, 1, 11, 1]⟩ : Shape).Idx → EReal) (A2 : (⟨1, ![128]⟩ : Shape).Idx → EReal)
  (A3 : (⟨4, ![128, 128, 11, 1]⟩ : Shape).Idx → EReal) (A4 : (⟨1, ![128]⟩ : Shape).Idx → EReal)
  (A5 : (⟨4, ![128, 128, 11, 1]⟩ : Shape).Idx → EReal) (A6 : (⟨1, ![128]⟩ : Shape).Idx → EReal)
  (A7 : (⟨4, ![128, 128, 11, 1]⟩ : Shape).Idx → EReal) (A8 : (⟨1, ![128]⟩ : Shape).Idx → EReal)
  (A9 : (⟨4, ![1, 128, 3, 1]⟩ : Shape).Idx → EReal) (A10 : (⟨1, ![1]⟩ : Shape).Idx → EReal)
  (A11 : (⟨2, ![100, 2048]⟩ : Shape).Idx → EReal) (A12 : (⟨1, ![100]⟩ : Shape).Idx → EReal)
  (A13 : (⟨2, ![1, 100]⟩ : Shape).Idx → EReal) (A14 : (⟨1, ![1]⟩ : Shape).Idx → EReal)

theorem row_lt' (b : Fin 2560) (w : ℕ) (hw : w < 128) : b.val * 128 + w < 327680 := by
  have := b.isLt; omega

/-- The head of a stacked array whose rows are the tap-form layers is the network. -/
theorem net_of_kernel (b : Fin 2560)
    (y : (⟨2, ![2560, 2048]⟩ : Shape).Idx → EReal) (Wm : (⟨2, ![2048, 128]⟩ : Shape).Idx → EReal)
    (bb vv : (⟨2, ![1, 128]⟩ : Shape).Idx → EReal) (cc : (⟨2, ![1, 1]⟩ : Shape).Idx → EReal)
    (Ystack : (⟨2, ![327680, 16]⟩ : Shape).Idx → EReal)
    (hy : ∀ q : Fin 2048, y (ix2 b q)
      = Ystack (ix2 ⟨b.val * 128 + q.val / 16, row_lt' b _ (by have := q.isLt; omega)⟩ ⟨q.val % 16, Nat.mod_lt _ (by norm_num)⟩))
    (hW : ∀ (q : Fin 2048) (o : Fin 128), Wm (ix2 q o)
      = if o.val < 100 ∧ q.val % 16 < 14 then e2 A11 o.val ((q.val % 16 + 2) * 128 + q.val / 16) else 0)
    (hb : ∀ o : Fin 128, bb (ix2 (0 : Fin 1) o) = if o.val < 100 then e1 A12 o.val else 0)
    (hv : ∀ o : Fin 128, vv (ix2 (0 : Fin 1) o) = if o.val < 100 then e2 A13 0 o.val else 0)
    (hc : cc (ix2 (0 : Fin 1) (0 : Fin 1)) = e1 A14 0)
    (hstack : ∀ (w : Fin 128) (s : Fin 16), s.val < 14 →
      Ystack (ix2 ⟨b.val * 128 + w.val, row_lt' b w.val w.isLt⟩ s)
        = conv (fun l => e4 A0 b.val 0 l w.val) (fun ch dk => e4 A1 ch 0 dk 0) (e1 A2)
      (fun co ci dk => e4 A3 co ci dk 0) (e1 A4) (fun co ci dk => e4 A5 co ci dk 0) (e1 A6)
      (fun co ci dk => e4 A7 co ci dk 0) (e1 A8) (fun ch dk => e4 A9 0 ch dk 0) (e1 A10 0) s.val) :
    head y Wm bb vv cc b = net A0 A1 A2 A3 A4 A5 A6 A7 A8 A9 A10 A11 A12 A13 A14 b.val := by
  let Yk : ℕ → ℕ → EReal := fun w s =>
    if h : w < 128 ∧ s < 16 then Ystack (ix2 ⟨b.val * 128 + w, row_lt' b w h.1⟩ ⟨s, h.2⟩) else 0
  have hy' : ∀ q : Fin 2048, y (ix2 b q) = Yk (q.val / 16) (q.val % 16) := fun q => by
    have hq := q.isLt
    rw [hy]
    show _ = dite _ _ _
    rw [dif_pos ⟨by omega, Nat.mod_lt _ (by norm_num)⟩]
  rw [head_entry y Wm bb vv cc b Yk (fun o q => e2 A11 o q) (e1 A12) (fun o => e2 A13 0 o) (e1 A14 0) hy' hW hb hv hc]
  unfold net sOut
  refine congrArg (· + e1 A14 0) (Finset.sum_congr rfl fun o _ => ?_)
  refine congrArg (fun z => Ideal.tanh (z + e1 A12 o.val) * e2 A13 0 o.val) ?_
  refine Finset.sum_congr rfl fun w _ => Finset.sum_congr rfl fun s _ => ?_
  refine congrArg (· * e2 A11 o.val ((s.val + 2) * 128 + w.val)) ?_
  have hs := s.isLt
  show dite _ _ _ = _
  rw [dif_pos ⟨w.isLt, by omega⟩]
  exact hstack w ⟨s.val, by omega⟩ hs

end Cert.Bridge

namespace Cert.KernelIdeal.Final

open Cert.KernelIdeal Cert.KernelIdeal.Gen Cert.KernelIdeal.Run Cert.KernelIdeal.BodyVal Cert.KernelIdeal.HostVal
open Idealize.ShloMosaic Idealize.ShloMosaic.ValueIdx Idealize.ShloMosaic.TcCoe Idealize.SL.Sem
open Cert.Spec Cert.Bridge

variable (m : (ℓ : Loc nD τ sig) → Buf (Elt Ideal) ℓ) (ρ : Dev nD → PrngReg)

theorem hW_e (c : Dev nD) (q : Fin 2048) (o : Fin 128) : (V11 m ρ c main_v143 : S2048x128.Idx → EReal) (ix2 q o)
    = if o.val < 100 ∧ q.val % 16 < 14 then e2 (a11 m c) o.val ((q.val % 16 + 2) * 128 + q.val / 16) else 0 := by
  have hq := q.isLt
  rw [fc1p_apply]
  by_cases hc : o.val < 100 ∧ q.val % 16 < 14
  · rw [dif_pos hc, if_pos hc]
    exact (e2_fin (a11 m c) ⟨o.val, hc.1⟩ ⟨(q.val % 16 + 2) * 128 + q.val / 16, by omega⟩).symm
  · rw [dif_neg hc, if_neg hc]

theorem hb_e (c : Dev nD) (o : Fin 128) : (V11 m ρ c main_v145 : S1x128.Idx → EReal) (ix2 (0 : Fin 1) o) = if o.val < 100 then e1 (a12 m c) o.val else 0 := by
  rw [b1h_apply]
  by_cases hc : o.val < 100
  · rw [dif_pos hc, if_pos hc]; exact (e1_fin (a12 m c) ⟨o.val, hc⟩).symm
  · rw [dif_neg hc, if_neg hc]

theorem hv_e (c : Dev nD) (o : Fin 128) : (V11 m ρ c main_v148 : S1x128.Idx → EReal) (ix2 (0 : Fin 1) o) = if o.val < 100 then e2 (a13 m c) 0 o.val else 0 := by
  rw [vrow_apply]
  by_cases hc : o.val < 100
  · rw [dif_pos hc, if_pos hc]; exact (e2_fin (a13 m c) (0 : Fin 1) ⟨o.val, hc⟩).symm
  · rw [dif_neg hc, if_neg hc]

theorem hc_e (c : Dev nD) : (V11 m ρ c main_v150 : S1x1.Idx → EReal) (ix2 (0 : Fin 1) (0 : Fin 1)) = e1 (a14 m c) 0 := by
  rw [c_apply]; exact (e1_fin (a14 m c) (0 : Fin 1)).symm

end Cert.KernelIdeal.Final

end
-- ==== Proof.KFinal3.lean ====
/-
  The kernel's result for the arrays the two regions are entered with: row b of the head's output array is the network
  of the fifteen arguments at example b. The gathered matrices' entries are the hypotheses h1 … h5.
-/
import proofs.«109392_g2000007139875455_pallasbulk_612_2_alg».proof.Proof.KFinal2

set_option maxRecDepth 16384

noncomputable section

namespace Cert.KernelIdeal.Final

open Cert.KernelIdeal Cert.KernelIdeal.Gen Cert.KernelIdeal.Run Cert.KernelIdeal.BodyVal Cert.KernelIdeal.HostVal
open Idealize.ShloMosaic Idealize.ShloMosaic.ValueIdx Idealize.ShloMosaic.TcCoe Idealize.SL.Sem
open Cert.Spec Cert.Bridge

variable (m : (ℓ : Loc nD τ sig) → Buf (Elt Ideal) ℓ) (ρ : Dev nD → PrngReg)

theorem kernel_net
    (h1 : ∀ (c : Dev nD) (l : Fin 16) (q : Fin 768), (V3 m ρ c main_v23 : S16x768.Idx → EReal) (ix2 l q)
      = if q.val / 128 ≤ l.val ∧ l.val ≤ q.val / 128 + 10 then e4 (a1 m c) (q.val % 128) 0 (l.val - q.val / 128) 0 else 0)
    (h2 : ∀ (c : Dev nD) (k q : Fin 768), (V3 m ρ c main_v78 : S768x768.Idx → EReal) (ix2 k q)
      = if k.val / 128 ≤ q.val / 128 then e4 (a3 m c) (q.val % 128) (k.val % 128) (10 + k.val / 128 - q.val / 128) 0 else 0)
    (h3 : ∀ (c : Dev nD) (k q : Fin 768), (V3 m ρ c main_v104 : S768x768.Idx → EReal) (ix2 k q)
      = if k.val / 128 ≤ q.val / 128 then e4 (a5 m c) (q.val % 128) (k.val % 128) (10 + k.val / 128 - q.val / 128) 0 else 0)
    (h4 : ∀ (c : Dev nD) (k q : Fin 768), (V3 m ρ c main_v130 : S768x768.Idx → EReal) (ix2 k q)
      = if k.val / 128 ≤ q.val / 128 then e4 (a7 m c) (q.val % 128) (k.val % 128) (10 + k.val / 128 - q.val / 128) 0 else 0)
    (h5 : ∀ (c : Dev nD) (k : Fin 768) (s : Fin 16), (V3 m ρ c main_v50 : S768x16.Idx → EReal) (ix2 k s)
      = if s.val < 14 ∧ s.val ≤ 10 + k.val / 128 ∧ 10 + k.val / 128 ≤ s.val + 2 then e4 (a9 m c) 0 (k.val % 128) (10 + k.val / 128 - s.val) 0 else 0)
    (c : Dev nD) (b : Fin 2560) :
    ((dat1 (V11 m ρ) c).arrAt 5 cfg1.N : S2560x1.Idx → EReal) (ix2 b (0 : Fin 1)) = net (a0 m c) (a1 m c) (a2 m c) (a3 m c) (a4 m c) (a5 m c) (a6 m c) (a7 m c) (a8 m c) (a9 m c) (a10 m c) (a11 m c) (a12 m c) (a13 m c) (a14 m c) b.val :=
  (congrFun (final1 (V11 m ρ) c) (ix2 b (0 : Fin 1))).trans
    (net_of_kernel (a0 m c) (a1 m c) (a2 m c) (a3 m c) (a4 m c) (a5 m c) (a6 m c) (a7 m c) (a8 m c) (a9 m c) (a10 m c) (a11 m c) (a12 m c) (a13 m c) (a14 m c) b
      (V11 m ρ c main_v149 : S2560x2048.Idx → EReal) (V11 m ρ c main_v143 : S2048x128.Idx → EReal)
      (V11 m ρ c main_v145 : S1x128.Idx → EReal) (V11 m ρ c main_v148 : S1x128.Idx → EReal) (V11 m ρ c main_v150 : S1x1.Idx → EReal)
      (stack (V3 m ρ) c)
      (fun q => (yflat_apply m ρ c b q).trans (congrFun (final0 (V3 m ρ) c) _))
      (hW_e m ρ c) (hb_e m ρ c) (hv_e m ρ c) (hc_e m ρ c)
      (fun w s hs => conv_row m ρ c b w s hs (h1 c) (h2 c) (h3 c) (h4 c) (h5 c)))

/-- The head's output array, whole. -/
theorem kernel_value
    (h1 : ∀ (c : Dev nD) (l : Fin 16) (q : Fin 768), (V3 m ρ c main_v23 : S16x768.Idx → EReal) (ix2 l q)
      = if q.val / 128 ≤ l.val ∧ l.val ≤ q.val / 128 + 10 then e4 (a1 m c) (q.val % 128) 0 (l.val - q.val / 128) 0 else 0)
    (h2 : ∀ (c : Dev nD) (k q : Fin 768), (V3 m ρ c main_v78 : S768x768.Idx → EReal) (ix2 k q)
      = if k.val / 128 ≤ q.val / 128 then e4 (a3 m c) (q.val % 128) (k.val % 128) (10 + k.val / 128 - q.val / 128) 0 else 0)
    (h3 : ∀ (c : Dev nD) (k q : Fin 768), (V3 m ρ c main_v104 : S768x768.Idx → EReal) (ix2 k q)
      = if k.val / 128 ≤ q.val / 128 then e4 (a5 m c) (q.val % 128) (k.val % 128) (10 + k.val / 128 - q.val / 128) 0 else 0)
    (h4 : ∀ (c : Dev nD) (k q : Fin 768), (V3 m ρ c main_v130 : S768x768.Idx → EReal) (ix2 k q)
      = if k.val / 128 ≤ q.val / 128 then e4 (a7 m c) (q.val % 128) (k.val % 128) (10 + k.val / 128 - q.val / 128) 0 else 0)
    (h5 : ∀ (c : Dev nD) (k : Fin 768) (s : Fin 16), (V3 m ρ c main_v50 : S768x16.Idx → EReal) (ix2 k s)
      = if s.val < 14 ∧ s.val ≤ 10 + k.val / 128 ∧ 10 + k.val / 128 ≤ s.val + 2 then e4 (a9 m c) 0 (k.val % 128) (10 + k.val / 128 - s.val) 0 else 0)
    (c : Dev nD) :
    ((dat1 (V11 m ρ) c).arrAt 5 cfg1.N : S2560x1.Idx → EReal) = fun i => net (a0 m c) (a1 m c) (a2 m c) (a3 m c) (a4 m c) (a5 m c) (a6 m c) (a7 m c) (a8 m c) (a9 m c) (a10 m c) (a11 m c) (a12 m c) (a13 m c) (a14 m c) (i 0).val := by
  funext i
  obtain ⟨b, u, rfl⟩ : ∃ (b : Fin 2560) (u : Fin 1), i = ix2 b u := ⟨i 0, i 1, eq_ix2 i⟩
  obtain rfl : u = 0 := Subsingleton.elim _ _
  exact kernel_net m ρ h1 h2 h3 h4 h5 c b

end Cert.KernelIdeal.Final

end
-- ==== Proof.RefHead.lean ====
/-
  The dense head of the reference read at an index, at the ideal values: row b of the flattened feature matrix against
  the first layer's weights, its bias, the hyperbolic tangent, the weighted sum over the 100 hidden units and the output
  bias.
-/
import proofs.«109392_g2000007139875455_pallasbulk_612_2_alg».proof.Proof.Gen.ReferenceIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.HostVal

open Cert.ReferenceIdeal Cert.ReferenceIdeal.Gen
open Idealize.ShloMosaic Idealize.ShloMosaic.ValueIdx
open scoped BigOperators

theorem hz2 : (![0, 0] : Fin 2 → Nat) = fun _ => 0 := funext fun a => by fin_cases a <;> rfl

/-- The dense layer's product read at an index: row b of the left matrix against column o of the right one. -/
theorem dense_apply (A : FVec Ideal S2560x2048 .f32) (B : FVec Ideal S2048x100 .f32) (b : Fin 2560) (o : Fin 100) :
    matmul dot_S2560x2048_S2048x100_S2560x100_1_0_0_1_n_n none A B (constant (F := Ideal) S2560x100 .f32 0x00000000#32) (ix2 b o)
      = ∑ q : Fin 2048, A (ix2 b q) * B (ix2 q o) := by
  show FloatOps.matmul _ none A B _ (ix2 b o) = _
  rw [Ideal.matmul_constant_zero_apply,
    ← Equiv.sum_comp (contrEquiv1 dot_S2560x2048_S2048x100_S2560x100_1_0_0_1_n_n 2048 rfl rfl).symm]
  refine Finset.sum_congr rfl fun q _ => ?_
  have c2 := contrEquiv1_symm_val dot_S2560x2048_S2048x100_S2560x100_1_0_0_1_n_n 2048 rfl rfl q
  have l2 : dot_S2560x2048_S2048x100_S2560x100_1_0_0_1_n_n.lhsIdx (ix2 b o) ((contrEquiv1 _ 2048 rfl rfl).symm q) = ix2 b q := by
    funext ax; apply Fin.ext
    match ax with
    | ⟨0, _⟩ => simp [DotDims.lhsIdx, dot_S2560x2048_S2048x100_S2560x100_1_0_0_1_n_n]; rfl
    | ⟨1, _⟩ => simp [DotDims.lhsIdx, dot_S2560x2048_S2048x100_S2560x100_1_0_0_1_n_n]; exact c2
  have r2 : dot_S2560x2048_S2048x100_S2560x100_1_0_0_1_n_n.rhsIdx (ix2 b o) ((contrEquiv1 _ 2048 rfl rfl).symm q) = ix2 q o := by
    funext ax; apply Fin.ext
    match ax with
    | ⟨0, _⟩ => simp [DotDims.rhsIdx, dot_S2560x2048_S2048x100_S2560x100_1_0_0_1_n_n]; exact c2
    | ⟨1, _⟩ => simp [DotDims.rhsIdx, dot_S2560x2048_S2048x100_S2560x100_1_0_0_1_n_n]; rfl
  rw [l2, r2]

/-- The reduced index b with lane o put back is (b, o). -/
theorem lift_row (h : S2560x100.Reduces [1] S2560) (b : Fin 2560) (k : Fin (S2560x100.size 1)) :
    h.lift (ix1 b) k = ix2 b (⟨k.val, k.isLt⟩ : Fin 100) := by
  funext c; apply Fin.ext
  fin_cases c <;> rfl

/-- The lane sum of a [2560,100] array read at row b. -/
theorem laneSum_apply (src : FVec Ideal S2560x100 .f32) (h : S2560x100.Reduces [1] S2560) (hφ : FKind.Formats .f32)
    (hacc : (0x00000000#32 : BitVec 32) = FKind.add.neutral .f32 hφ) (b : Fin 2560) :
    multiReduction (F := Ideal) .add [1] S2560 src 0x00000000#32 h hφ hacc (ix1 b) = ∑ o : Fin 100, src (ix2 b o) := by
  refine (Ideal.multiReduction_add_single src 0x00000000#32 h hφ hacc (ix1 b)).trans ?_
  exact Finset.sum_congr rfl fun k _ => congrArg src (lift_row h b k)

/-- A [2560] array cast to [2560,1] reads, at (b, 0), the operand at b. -/
theorem cast_col_apply {α : Type} (x : S2560.Idx → α) (h : S2560.ShapeCasts S2560x1) (b : Fin 2560) (u : Fin 1) :
    shapeCast S2560x1 x h (ix2 b u) = x (ix1 b) :=
  shapeCast_apply x h _ _ (by
    have hu : u.val = 0 := by omega
    rw [Shape.rowMajor_val_two, Shape.rowMajor_val_one]
    show b.val = b.val * 1 + u.val
    omega)

/-- A [1,1] array broadcast to [2560,1] reads its one entry everywhere. -/
theorem bcast_11_apply {α : Type} (x : S1x1.Idx → α) (h : S1x1.Broadcasts S2560x1) (b : Fin 2560) (u : Fin 1) :
    broadcastTo S2560x1 x h (ix2 b u) = x (ix2 (0 : Fin 1) (0 : Fin 1)) := by
  refine broadcastTo_apply x h (ix2 b u) (ix2 (0 : Fin 1) (0 : Fin 1)) fun ax => ?_
  match ax with
  | ⟨0, _⟩ => rfl
  | ⟨1, _⟩ => rfl

/-- THE HEAD'S BODY AT AN INDEX: the dense layer, its bias, the hyperbolic tangent, the weighted lane sum and the
    output bias. -/
theorem k1_pay1_apply (x0 : Vec Ideal S2560x2048 .f32) (x1 : Vec Ideal S2048x100 .f32) (x2 x3 : Vec Ideal S1x100 .f32)
    (x4 : Vec Ideal S1x1 .f32) (b : Fin 2560) :
    k1_pay1 (F := Ideal) x0 x1 x2 x3 x4 (ix2 b (0 : Fin 1))
      = (∑ o : Fin 100, Ideal.tanh ((∑ q : Fin 2048, x0 (ix2 b q) * x1 (ix2 q o)) + x2 (ix2 (0 : Fin 1) o)) * x3 (ix2 (0 : Fin 1) o))
        + x4 (ix2 (0 : Fin 1) (0 : Fin 1)) := by
  unfold k1_pay1
  simp only [shapeCast_self]
  refine congrArg₂ (· + ·) ?_ (bcast_11_apply x4 _ b 0)
  refine (cast_col_apply _ _ b 0).trans ?_
  refine (laneSum_apply _ _ _ _ b).trans ?_
  refine Finset.sum_congr rfl fun o _ => ?_
  refine congrArg₂ (· * ·) ?_ (broadcastTo_1b_ab_apply x3 _ b o)
  refine congrArg Ideal.tanh ?_
  exact congrArg₂ (· + ·) (dense_apply x0 x1 b o) (broadcastTo_1b_ab_apply x2 _ b o)

/-- The head's output block from its input blocks, at an index. -/
theorem out1_5_apply (x0 : Vec Ideal S2560x2048 .f32) (x1 : Vec Ideal S2048x100 .f32) (x2 x3 : Vec Ideal S1x100 .f32)
    (x4 : Vec Ideal S1x1 .f32) (b : Fin 2560) :
    out1_5 (F := Ideal) x0 x1 x2 x3 x4 (ix2 b (0 : Fin 1))
      = (∑ o : Fin 100, Ideal.tanh ((∑ q : Fin 2048, x0 (ix2 b q) * x1 (ix2 q o)) + x2 (ix2 (0 : Fin 1) o)) * x3 (ix2 (0 : Fin 1) o))
        + x4 (ix2 (0 : Fin 1) (0 : Fin 1)) := by
  unfold out1_5
  rw [View.canon_unit_zero hz2]
  simp only [View.ld_unit_zero (S := S2560x2048) hz2, View.ld_unit_zero (S := S2048x100) hz2,
    View.ld_unit_zero (S := S1x100) hz2, View.ld_unit_zero (S := S1x1) hz2]
  exact k1_pay1_apply x0 x1 x2 x3 x4 b

end Cert.ReferenceIdeal.HostVal

end
-- ==== Proof.RefHeadArr.lean ====
/-
  The head's region has one grid point and every window whole, so what its pipeline leaves in the output array is the
  head's body applied to the five whole input arrays as the region finds them.
-/
import proofs.«109392_g2000007139875455_pallasbulk_612_2_alg».proof.Proof.Gen.ReferenceIdeal.Frame
import Idealize.ShloMosaic.Lib.ValueIdx
import Idealize.ShloMosaic.Lib.Pipeline.Value

set_option maxRecDepth 16384

noncomputable section

namespace Cert.ReferenceIdeal.HostVal

open Cert.ReferenceIdeal Cert.ReferenceIdeal.Gen
open Idealize.ShloMosaic Idealize.ShloMosaic.TcCoe Idealize.ShloMosaic.ValueIdx
open Idealize.ShloMosaic.Pipeline (Dat Cfg Window)
open scoped BigOperators

variable {F : FTy → Type} [FloatOps F]
variable (V : (c : Dev nD) → (b : Ref sig .tc) → Buf (Elt F) ((c : Thread nD τ).loc b))

/-- The head's windows sit at block index 0 on every axis, at its one grid point. -/
theorem head_idx : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem emb1_0 (t : Fin cfg1.N) (j : S2560x2048.Idx) : ((cfg1.win 0).blk t).view.emb j = j := by
  have e := head_idx t
  funext a; apply Fin.ext
  match a with
  | ⟨0, _⟩ => show win1_0.index t (0 : Fin 2) * 2560 + 1 * (j 0).val = (j 0).val; omega
  | ⟨1, _⟩ => show win1_0.index t (1 : Fin 2) * 2048 + 1 * (j 1).val = (j 1).val; omega

/-- Window 0 is whole: its block is its array. -/
theorem iblk1_0 (c : Dev nD) (t : Fin cfg1.N) : (iblk1 V c 0 t : S2560x2048.Idx → Elt F .f32) = V c main_v19 := by
  funext j
  show V c main_v19 (((cfg1.win 0).blk t).view.emb j) = V c main_v19 j
  rw [emb1_0]

theorem emb1_1 (t : Fin cfg1.N) (j : S2048x100.Idx) : ((cfg1.win 1).blk t).view.emb j = j := by
  have e := head_idx t
  funext a; apply Fin.ext
  match a with
  | ⟨0, _⟩ => show win1_1.index t (0 : Fin 2) * 2048 + 1 * (j 0).val = (j 0).val; omega
  | ⟨1, _⟩ => show win1_1.index t (1 : Fin 2) * 100 + 1 * (j 1).val = (j 1).val; omega

/-- Window 1 is whole: its block is its array. -/
theorem iblk1_1 (c : Dev nD) (t : Fin cfg1.N) : (iblk1 V c 1 t : S2048x100.Idx → Elt F .f32) = V c main_v20 := by
  funext j
  show V c main_v20 (((cfg1.win 1).blk t).view.emb j) = V c main_v20 j
  rw [emb1_1]

theorem emb1_2 (t : Fin cfg1.N) (j : S1x100.Idx) : ((cfg1.win 2).blk t).view.emb j = j := by
  have e := head_idx t
  funext a; apply Fin.ext
  match a with
  | ⟨0, _⟩ => show win1_2.index t (0 : Fin 2) * 1 + 1 * (j 0).val = (j 0).val; omega
  | ⟨1, _⟩ => show win1_2.index t (1 : Fin 2) * 100 + 1 * (j 1).val = (j 1).val; omega

/-- Window 2 is whole: its block is its array. -/
theorem iblk1_2 (c : Dev nD) (t : Fin cfg1.N) : (iblk1 V c 2 t : S1x100.Idx → Elt F .f32) = V c main_v21 := by
  funext j
  show V c main_v21 (((cfg1.win 2).blk t).view.emb j) = V c main_v21 j
  rw [emb1_2]

theorem emb1_3 (t : Fin cfg1.N) (j : S1x100.Idx) : ((cfg1.win 3).blk t).view.emb j = j := by
  have e := head_idx t
  funext a; apply Fin.ext
  match a with
  | ⟨0, _⟩ => show win1_3.index t (0 : Fin 2) * 1 + 1 * (j 0).val = (j 0).val; omega
  | ⟨1, _⟩ => show win1_3.index t (1 : Fin 2) * 100 + 1 * (j 1).val = (j 1).val; omega

/-- Window 3 is whole: its block is its array. -/
theorem iblk1_3 (c : Dev nD) (t : Fin cfg1.N) : (iblk1 V c 3 t : S1x100.Idx → Elt F .f32) = V c main_arg13 := by
  funext j
  show V c main_arg13 (((cfg1.win 3).blk t).view.emb j) = V c main_arg13 j
  rw [emb1_3]

theorem emb1_4 (t : Fin cfg1.N) (j : S1x1.Idx) : ((cfg1.win 4).blk t).view.emb j = j := by
  have e := head_idx t
  funext a; apply Fin.ext
  match a with
  | ⟨0, _⟩ => show win1_4.index t (0 : Fin 2) * 1 + 1 * (j 0).val = (j 0).val; omega
  | ⟨1, _⟩ => show win1_4.index t (1 : Fin 2) * 1 + 1 * (j 1).val = (j 1).val; omega

/-- Window 4 is whole: its block is its array. -/
theorem iblk1_4 (c : Dev nD) (t : Fin cfg1.N) : (iblk1 V c 4 t : S1x1.Idx → Elt F .f32) = V c main_v22 := by
  funext j
  show V c main_v22 (((cfg1.win 4).blk t).view.emb j) = V c main_v22 j
  rw [emb1_4]

theorem emb1_5 (t : Fin cfg1.N) (j : S2560x1.Idx) : ((cfg1.win 5).blk t).view.emb j = j := by
  have e := head_idx t
  funext a; apply Fin.ext
  match a with
  | ⟨0, _⟩ => show win1_5.index t (0 : Fin 2) * 2560 + 1 * (j 0).val = (j 0).val; omega
  | ⟨1, _⟩ => show win1_5.index t (1 : Fin 2) * 1 + 1 * (j 1).val = (j 1).val; omega

theorem out1_5_congr {x0 x0' : Vec F S2560x2048 .f32} {x1 x1' : Vec F S2048x100 .f32} {x2 x2' x3 x3' : Vec F S1x100 .f32}
    {x4 x4' : Vec F S1x1 .f32} (h0 : x0 = x0') (h1 : x1 = x1') (h2 : x2 = x2') (h3 : x3 = x3') (h4 : x4 = x4') :
    out1_5 x0 x1 x2 x3 x4 = out1_5 x0' x1' x2' x3' x4' := by
  subst h0 h1 h2 h3 h4; rfl

/-- The output window is whole: reading an array through the point's block gives the array … -/
theorem read1_5 (t : Fin cfg1.N) (G : S2560x1.Idx → Elt F .f32) : ((cfg1.win 5).blk t).view.read (Elt F) G = G := by
  funext j
  show G (((cfg1.win 5).blk t).view.emb j) = G j
  rw [emb1_5]

/-- … and nothing of the staging buffer is cut off when it is written back. -/
theorem cut1_5 (t : Fin cfg1.N) (X : Vec F S2560x1 .f32) : (cfg1.win 5).cut (grid1.coords t) X = X := by
  funext j
  rfl

/-- WHAT THE ONE POINT WRITES BACK is the head's body of the five whole input arrays. -/
theorem head_flushed (c : Dev nD) (t : Fin cfg1.N) :
    (dat1 V c).flushed 5 t = ((cfg1.win 5).blk t).view.read (Elt F)
      (out1_5 (V c main_v19) (V c main_v20) (V c main_v21) (V c main_arg13) (V c main_v22)) := by
  show (cfg1.win 5).cut (grid1.coords t) ((dat1 V c).after 5 t) = _
  rw [after1_5, cut1_5, read1_5]
  exact out1_5_congr (iblk1_0 V c t) (iblk1_1 V c t) (iblk1_2 V c t) (iblk1_3 V c t) (iblk1_4 V c t)

/-- An index of the output array is in the point's block iff each coordinate is in the block's range on its axis. -/
theorem head_mem_blk (t : Fin cfg1.N) (i : S2560x1.Idx) :
    i ∈ ((cfg1.win 5).blk t).view.set ↔ ∀ a : Fin 2, win1_5.index t a * S2560x1.size a ≤ (i a).val ∧ (i a).val < win1_5.index t a * S2560x1.size a + S2560x1.size a := by
  show i ∈ ((View.whole main_v23).slice (win1_5.rect t)).set ↔ _
  rw [View.set_slice_whole, Rect.mem_set_unit]
  exact Iff.rfl

theorem head_cover (i : S2560x1.Idx) : ∃ t : Fin cfg1.N, (cfg1.win 5).flush t = true ∧ i ∈ ((cfg1.win 5).blk t).view.set := by
  refine ⟨t1_0, flush1_5 t1_0, ?_⟩
  rw [head_mem_blk]
  have e := head_idx t1_0
  have h0 : (i 0).val < 2560 := (i 0).isLt
  have h1 : (i 1).val < 1 := (i 1).isLt
  intro a
  match a with
  | ⟨0, _⟩ => show win1_5.index t1_0 (0 : Fin 2) * 2560 ≤ (i 0).val ∧ (i 0).val < win1_5.index t1_0 (0 : Fin 2) * 2560 + 2560; omega
  | ⟨1, _⟩ => show win1_5.index t1_0 (1 : Fin 2) * 1 ≤ (i 1).val ∧ (i 1).val < win1_5.index t1_0 (1 : Fin 2) * 1 + 1; omega

/-- THE OUTPUT ARRAY after the head's region: the head's body of the five whole input arrays. -/
theorem head_final (c : Dev nD) :
    (dat1 V c).arrAt 5 cfg1.N = out1_5 (V c main_v19) (V c main_v20) (V c main_v21) (V c main_arg13) (V c main_v22) :=
  (dat1 V c).arrAt_eq_of_cover 5 _ (fun t _ => head_flushed V c t) head_cover

end Cert.ReferenceIdeal.HostVal

end
-- ==== Proof.RefHost1.lean ====
/-
  What the convolution stack's region is entered with: each operand array is a host re-layout of one argument (a unit
  axis dropped or added, the taps axis brought first, a bias made a row), read here index by index.
-/
import proofs.«109392_g2000007139875455_pallasbulk_612_2_alg».proof.Proof.Gen.ReferenceIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.ReferenceIdeal.HostVal

open Cert.ReferenceIdeal Cert.ReferenceIdeal.Gen
open Idealize.ShloMosaic Idealize.ShloMosaic.TcCoe Idealize.ShloMosaic.ValueIdx
open Idealize.ShloMosaic.Pipeline (Dat Cfg Window)
open scoped BigOperators

open Idealize.ShloMosaic.StableHlo

variable {F : FTy → Type} [FloatOps F]
variable (m : (ℓ : Loc nD τ sig) → Buf (Elt F) ℓ) (ρ : Dev nD → PrngReg)

/-- The input operand of the convolution stack: the batch with its channel axis dropped and a trailing unit axis. -/
theorem V1_x4_eq (c : Dev nD) : (V1 m ρ c main_v1 : S2560x16x128x1.Idx → Elt F .f32)
    = broadcastInDim S2560x16x128x1 ![0, 1, 2] bcast_S2560x16x128_S2560x16x128x1_0_1_2
        (shapeCast S2560x16x128 (m ((c : Thread nD τ).loc main_arg0)) shapeCasts_S2560x1x16x128_S2560x16x128) := by
  show StableHlo.after hostOps0 _ (Proc.devRef .tc main_v1) = _
  after_results
  all_goals rfl

theorem V1_x4_apply (c : Dev nD) (b : Fin 2560) (l : Fin 16) (w : Fin 128) :
    (V1 m ρ c main_v1 : S2560x16x128x1.Idx → Elt F .f32) (ix4 b l w (0 : Fin 1))
      = (m ((c : Thread nD τ).loc main_arg0) : S2560x1x16x128.Idx → Elt F .f32) (ix4 b (0 : Fin 1) l w) := by
  rw [V1_x4_eq]
  refine (broadcastInDim_apply _ _ _ (ix4 b l w (0 : Fin 1)) (ix3 b l w) (fun a => ?_)).trans ?_
  · match a with
    | ⟨0, _⟩ => rfl
    | ⟨1, _⟩ => rfl
    | ⟨2, _⟩ => rfl
  · exact shapeCast_apply _ _ _ _ (by
      show (S2560x1x16x128.rowMajor (ix4 b (0 : Fin 1) l w)).val = (S2560x16x128.rowMajor (ix3 b l w)).val
      rw [Shape.rowMajor_val_four, Shape.rowMajor_val_three]
      show ((b.val * 1 + 0) * 16 + l.val) * 128 + w.val = (b.val * 16 + l.val) * 128 + w.val
      omega)

/-- The first convolution's weights, taps first. -/
theorem V1_w1k_eq (c : Dev nD) : (V1 m ρ c main_v3 : S11x128.Idx → Elt F .f32)
    = transpose S11x128 [1, 0] (shapeCast S128x11 (m ((c : Thread nD τ).loc main_arg1)) shapeCasts_S128x1x11x1_S128x11)
        transposes_S128x11_S11x128_1_0 := by
  show StableHlo.after hostOps0 _ (Proc.devRef .tc main_v3) = _
  after_results
  all_goals rfl

theorem V1_w1k_apply (c : Dev nD) (dk : Fin 11) (ch : Fin 128) :
    (V1 m ρ c main_v3 : S11x128.Idx → Elt F .f32) (ix2 dk ch)
      = (m ((c : Thread nD τ).loc main_arg1) : S128x1x11x1.Idx → Elt F .f32) (ix4 ch (0 : Fin 1) dk (0 : Fin 1)) := by
  rw [V1_w1k_eq]
  refine (transpose_ix2_apply _ _ dk ch).trans ?_
  exact shapeCast_apply _ _ _ _ (by
    show (S128x1x11x1.rowMajor (ix4 ch (0 : Fin 1) dk (0 : Fin 1))).val = (S128x11.rowMajor (ix2 ch dk)).val
    rw [Shape.rowMajor_val_four, Shape.rowMajor_val_two]
    show ((ch.val * 1 + 0) * 11 + dk.val) * 1 + 0 = ch.val * 11 + dk.val
    omega)

/-- The w2k operand of the convolution stack: the argument with its unit axis dropped, taps first. -/
theorem V1_w2k_eq (c : Dev nD) : (V1 m ρ c main_v5 : S11x128x128.Idx → Elt F .f32)
    = transpose S11x128x128 [2, 1, 0] (shapeCast S128x128x11 (m ((c : Thread nD τ).loc main_arg3)) shapeCasts_S128x128x11x1_S128x128x11)
        transposes_S128x128x11_S11x128x128_2_1_0 := by
  show StableHlo.after hostOps0 _ (Proc.devRef .tc main_v5) = _
  after_results
  all_goals rfl

theorem V1_w2k_apply (c : Dev nD) (dk : Fin 11) (ci co : Fin 128) :
    (V1 m ρ c main_v5 : S11x128x128.Idx → Elt F .f32) (ix3 dk ci co)
      = (m ((c : Thread nD τ).loc main_arg3) : S128x128x11x1.Idx → Elt F .f32) (ix4 co ci dk (0 : Fin 1)) := by
  rw [V1_w2k_eq]
  refine (transpose_apply _ _ _ (ix3 dk ci co) (ix3 co ci dk) (fun a => ?_)).trans ?_
  · match a with
    | ⟨0, _⟩ => rfl
    | ⟨1, _⟩ => rfl
    | ⟨2, _⟩ => rfl
  · exact shapeCast_apply _ _ _ _ (by
      show (S128x128x11x1.rowMajor (ix4 co ci dk (0 : Fin 1))).val = (S128x128x11.rowMajor (ix3 co ci dk)).val
      rw [Shape.rowMajor_val_four, Shape.rowMajor_val_three]
      show ((co.val * 128 + ci.val) * 11 + dk.val) * 1 + 0 = (co.val * 128 + ci.val) * 11 + dk.val
      omega)

/-- The w3k operand of the convolution stack: the argument with its unit axis dropped, taps first. -/
theorem V1_w3k_eq (c : Dev nD) : (V1 m ρ c main_v7 : S11x128x128.Idx → Elt F .f32)
    = transpose S11x128x128 [2, 1, 0] (shapeCast S128x128x11 (m ((c : Thread nD τ).loc main_arg5)) shapeCasts_S128x128x11x1_S128x128x11)
        transposes_S128x128x11_S11x128x128_2_1_0 := by
  show StableHlo.after hostOps0 _ (Proc.devRef .tc main_v7) = _
  after_results
  all_goals rfl

theorem V1_w3k_apply (c : Dev nD) (dk : Fin 11) (ci co : Fin 128) :
    (V1 m ρ c main_v7 : S11x128x128.Idx → Elt F .f32) (ix3 dk ci co)
      = (m ((c : Thread nD τ).loc main_arg5) : S128x128x11x1.Idx → Elt F .f32) (ix4 co ci dk (0 : Fin 1)) := by
  rw [V1_w3k_eq]
  refine (transpose_apply _ _ _ (ix3 dk ci co) (ix3 co ci dk) (fun a => ?_)).trans ?_
  · match a with
    | ⟨0, _⟩ => rfl
    | ⟨1, _⟩ => rfl
    | ⟨2, _⟩ => rfl
  · exact shapeCast_apply _ _ _ _ (by
      show (S128x128x11x1.rowMajor (ix4 co ci dk (0 : Fin 1))).val = (S128x128x11.rowMajor (ix3 co ci dk)).val
      rw [Shape.rowMajor_val_four, Shape.rowMajor_val_three]
      show ((co.val * 128 + ci.val) * 11 + dk.val) * 1 + 0 = (co.val * 128 + ci.val) * 11 + dk.val
      omega)

/-- The w4k operand of the convolution stack: the argument with its unit axis dropped, taps first. -/
theorem V1_w4k_eq (c : Dev nD) : (V1 m ρ c main_v9 : S11x128x128.Idx → Elt F .f32)
    = transpose S11x128x128 [2, 1, 0] (shapeCast S128x128x11 (m ((c : Thread nD τ).loc main_arg7)) shapeCasts_S128x128x11x1_S128x128x11)
        transposes_S128x128x11_S11x128x128_2_1_0 := by
  show StableHlo.after hostOps0 _ (Proc.devRef .tc main_v9) = _
  after_results
  all_goals rfl

theorem V1_w4k_apply (c : Dev nD) (dk : Fin 11) (ci co : Fin 128) :
    (V1 m ρ c main_v9 : S11x128x128.Idx → Elt F .f32) (ix3 dk ci co)
      = (m ((c : Thread nD τ).loc main_arg7) : S128x128x11x1.Idx → Elt F .f32) (ix4 co ci dk (0 : Fin 1)) := by
  rw [V1_w4k_eq]
  refine (transpose_apply _ _ _ (ix3 dk ci co) (ix3 co ci dk) (fun a => ?_)).trans ?_
  · match a with
    | ⟨0, _⟩ => rfl
    | ⟨1, _⟩ => rfl
    | ⟨2, _⟩ => rfl
  · exact shapeCast_apply _ _ _ _ (by
      show (S128x128x11x1.rowMajor (ix4 co ci dk (0 : Fin 1))).val = (S128x128x11.rowMajor (ix3 co ci dk)).val
      rw [Shape.rowMajor_val_four, Shape.rowMajor_val_three]
      show ((co.val * 128 + ci.val) * 11 + dk.val) * 1 + 0 = (co.val * 128 + ci.val) * 11 + dk.val
      omega)

/-- The last convolution's weights, taps first. -/
theorem V1_w5k_eq (c : Dev nD) : (V1 m ρ c main_v11 : S3x128.Idx → Elt F .f32)
    = transpose S3x128 [1, 0] (shapeCast S128x3 (m ((c : Thread nD τ).loc main_arg9)) shapeCasts_S1x128x3x1_S128x3)
        transposes_S128x3_S3x128_1_0 := by
  show StableHlo.after hostOps0 _ (Proc.devRef .tc main_v11) = _
  after_results
  all_goals rfl

theorem V1_w5k_apply (c : Dev nD) (dk : Fin 3) (ch : Fin 128) :
    (V1 m ρ c main_v11 : S3x128.Idx → Elt F .f32) (ix2 dk ch)
      = (m ((c : Thread nD τ).loc main_arg9) : S1x128x3x1.Idx → Elt F .f32) (ix4 (0 : Fin 1) ch dk (0 : Fin 1)) := by
  rw [V1_w5k_eq]
  refine (transpose_ix2_apply _ _ dk ch).trans ?_
  exact shapeCast_apply _ _ _ _ (by
    show (S1x128x3x1.rowMajor (ix4 (0 : Fin 1) ch dk (0 : Fin 1))).val = (S128x3.rowMajor (ix2 ch dk)).val
    rw [Shape.rowMajor_val_four, Shape.rowMajor_val_two]
    show ((0 * 128 + ch.val) * 3 + dk.val) * 1 + 0 = ch.val * 3 + dk.val
    omega)

/-- The b1k operand: the bias as one row. -/
theorem V1_b1k_eq (c : Dev nD) : (V1 m ρ c main_v12 : S1x128.Idx → Elt F .f32)
    = broadcastInDim S1x128 ![1] bcast_S128_S1x128_1 (m ((c : Thread nD τ).loc main_arg2)) := by
  show StableHlo.after hostOps0 _ (Proc.devRef .tc main_v12) = _
  after_results
  all_goals rfl

theorem V1_b1k_apply (c : Dev nD) (ch : Fin 128) :
    (V1 m ρ c main_v12 : S1x128.Idx → Elt F .f32) (ix2 (0 : Fin 1) ch)
      = (m ((c : Thread nD τ).loc main_arg2) : S128.Idx → Elt F .f32) (ix1 ch) := by
  rw [V1_b1k_eq]
  refine broadcastInDim_apply _ _ _ (ix2 (0 : Fin 1) ch) (ix1 ch) (fun a => ?_)
  match a with
  | ⟨0, _⟩ => rfl

/-- The b2k operand: the bias as one row. -/
theorem V1_b2k_eq (c : Dev nD) : (V1 m ρ c main_v13 : S1x128.Idx → Elt F .f32)
    = broadcastInDim S1x128 ![1] bcast_S128_S1x128_1 (m ((c : Thread nD τ).loc main_arg4)) := by
  show StableHlo.after hostOps0 _ (Proc.devRef .tc main_v13) = _
  after_results
  all_goals rfl

theorem V1_b2k_apply (c : Dev nD) (ch : Fin 128) :
    (V1 m ρ c main_v13 : S1x128.Idx → Elt F .f32) (ix2 (0 : Fin 1) ch)
      = (m ((c : Thread nD τ).loc main_arg4) : S128.Idx → Elt F .f32) (ix1 ch) := by
  rw [V1_b2k_eq]
  refine broadcastInDim_apply _ _ _ (ix2 (0 : Fin 1) ch) (ix1 ch) (fun a => ?_)
  match a with
  | ⟨0, _⟩ => rfl

/-- The b3k operand: the bias as one row. -/
theorem V1_b3k_eq (c : Dev nD) : (V1 m ρ c main_v14 : S1x128.Idx → Elt F .f32)
    = broadcastInDim S1x128 ![1] bcast_S128_S1x128_1 (m ((c : Thread nD τ).loc main_arg6)) := by
  show StableHlo.after hostOps0 _ (Proc.devRef .tc main_v14) = _
  after_results
  all_goals rfl

theorem V1_b3k_apply (c : Dev nD) (ch : Fin 128) :
    (V1 m ρ c main_v14 : S1x128.Idx → Elt F .f32) (ix2 (0 : Fin 1) ch)
      = (m ((c : Thread nD τ).loc main_arg6) : S128.Idx → Elt F .f32) (ix1 ch) := by
  rw [V1_b3k_eq]
  refine broadcastInDim_apply _ _ _ (ix2 (0 : Fin 1) ch) (ix1 ch) (fun a => ?_)
  match a with
  | ⟨0, _⟩ => rfl

/-- The b4k operand: the bias as one row. -/
theorem V1_b4k_eq (c : Dev nD) : (V1 m ρ c main_v15 : S1x128.Idx → Elt F .f32)
    = broadcastInDim S1x128 ![1] bcast_S128_S1x128_1 (m ((c : Thread nD τ).loc main_arg8)) := by
  show StableHlo.after hostOps0 _ (Proc.devRef .tc main_v15) = _
  after_results
  all_goals rfl

theorem V1_b4k_apply (c : Dev nD) (ch : Fin 128) :
    (V1 m ρ c main_v15 : S1x128.Idx → Elt F .f32) (ix2 (0 : Fin 1) ch)
      = (m ((c : Thread nD τ).loc main_arg8) : S128.Idx → Elt F .f32) (ix1 ch) := by
  rw [V1_b4k_eq]
  refine broadcastInDim_apply _ _ _ (ix2 (0 : Fin 1) ch) (ix1 ch) (fun a => ?_)
  match a with
  | ⟨0, _⟩ => rfl

/-- The last convolution's bias as a [1,1] array. -/
theorem V1_b5k_eq (c : Dev nD) : (V1 m ρ c main_v16 : S1x1.Idx → Elt F .f32)
    = shapeCast S1x1 (m ((c : Thread nD τ).loc main_arg10)) shapeCasts_S1_S1x1 := by
  show StableHlo.after hostOps0 _ (Proc.devRef .tc main_v16) = _
  after_results
  all_goals rfl

theorem V1_b5k_apply (c : Dev nD) :
    (V1 m ρ c main_v16 : S1x1.Idx → Elt F .f32) (ix2 (0 : Fin 1) (0 : Fin 1))
      = (m ((c : Thread nD τ).loc main_arg10) : S1.Idx → Elt F .f32) (ix1 (0 : Fin 1)) := by
  rw [V1_b5k_eq]
  exact shapeCast_apply _ _ _ _ (by
    show (S1.rowMajor (ix1 (0 : Fin 1))).val = (S1x1.rowMajor (ix2 (0 : Fin 1) (0 : Fin 1))).val
    rw [Shape.rowMajor_val_two, Shape.rowMajor_val_one]
    rfl)

end Cert.ReferenceIdeal.HostVal

end
-- ==== Proof.RefHost2.lean ====
/-
  What the head's region is entered with: the feature matrix is the convolution stack's output array re-laid as
  [2560, 2048]; the dense layers' weights and biases are host re-layouts of the arguments, which nothing before the
  head writes.
-/
import proofs.«109392_g2000007139875455_pallasbulk_612_2_alg».proof.Proof.Gen.ReferenceIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.ReferenceIdeal.HostVal

open Cert.ReferenceIdeal Cert.ReferenceIdeal.Gen
open Idealize.ShloMosaic Idealize.ShloMosaic.TcCoe Idealize.ShloMosaic.ValueIdx
open Idealize.ShloMosaic.Pipeline (Dat Cfg Window)
open scoped BigOperators

open Idealize.ShloMosaic.StableHlo

variable {F : FTy → Type} [FloatOps F]
variable (m : (ℓ : Loc nD τ sig) → Buf (Elt F) ℓ) (ρ : Dev nD → PrngReg)

/-- No host operation before the head and no window of the convolution stack writes argument 11: at the stack's exit it
    is as launched. -/
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl

/-- No host operation before the head and no window of the convolution stack writes argument 12: at the stack's exit it
    is as launched. -/
theorem W2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl

/-- No host operation before the head and no window of the convolution stack writes argument 13: at the stack's exit it
    is as launched. -/
theorem W2_main_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl

/-- No host operation before the head and no window of the convolution stack writes argument 14: at the stack's exit it
    is as launched. -/
theorem W2_main_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg14) := rfl

/-- The head's feature matrix: the convolution stack's output array with its unit axis dropped and its last two axes
    merged. -/
theorem V3_flat_eq (c : Dev nD) : (V3 m ρ c main_v19 : S2560x2048.Idx → Elt F .f32)
    = shapeCast S2560x2048 (shapeCast S2560x16x128 ((dat0 (V1 m ρ) c).arrAt 11 cfg0.N) shapeCasts_S2560x16x128x1_S2560x16x128)
        shapeCasts_S2560x16x128_S2560x2048 := by
  have e : W2 m ρ c (Proc.devRef .tc main_v17) = (dat0 (V1 m ρ) c).arrAt 11 cfg0.N := W2_arr m ρ c 11
  rw [← e]
  show StableHlo.after hostOps1 _ (Proc.devRef .tc main_v19) = _
  after_results
  all_goals rfl

theorem V3_flat_apply (c : Dev nD) (b : Fin 2560) (q : Fin 2048) :
    (V3 m ρ c main_v19 : S2560x2048.Idx → Elt F .f32) (ix2 b q)
      = ((dat0 (V1 m ρ) c).arrAt 11 cfg0.N : S2560x16x128x1.Idx → Elt F .f32)
          (ix4 b (⟨q.val / 128, by have := q.isLt; omega⟩ : Fin 16) (⟨q.val % 128, Nat.mod_lt _ (by decide)⟩ : Fin 128) (0 : Fin 1)) := by
  rw [V3_flat_eq]
  refine (shapeCast_apply _ _ (ix2 b q)
    (ix3 b (⟨q.val / 128, by have := q.isLt; omega⟩ : Fin 16) (⟨q.val % 128, Nat.mod_lt _ (by decide)⟩ : Fin 128)) ?_).trans ?_
  · rw [Shape.rowMajor_val_three, Shape.rowMajor_val_two]
    show (b.val * 16 + q.val / 128) * 128 + q.val % 128 = b.val * 2048 + q.val
    omega
  · exact shapeCast_apply _ _ _ _ (by
      show (S2560x16x128x1.rowMajor (ix4 b (⟨q.val / 128, by have := q.isLt; omega⟩ : Fin 16) (⟨q.val % 128, Nat.mod_lt _ (by decide)⟩ : Fin 128) (0 : Fin 1))).val
        = (S2560x16x128.rowMajor (ix3 b (⟨q.val / 128, by have := q.isLt; omega⟩ : Fin 16) (⟨q.val % 128, Nat.mod_lt _ (by decide)⟩ : Fin 128))).val
      rw [Shape.rowMajor_val_four, Shape.rowMajor_val_three]
      show ((b.val * 16 + q.val / 128) * 128 + q.val % 128) * 1 + 0 = (b.val * 16 + q.val / 128) * 128 + q.val % 128
      omega)

/-- The first dense layer's weights, transposed. -/
theorem V3_fc1w_eq (c : Dev nD) : (V3 m ρ c main_v20 : S2048x100.Idx → Elt F .f32)
    = transpose S2048x100 [1, 0] (m ((c : Thread nD τ).loc main_arg11)) transposes_S100x2048_S2048x100_1_0 := by
  rw [← W2_main_arg11 m ρ c]
  show StableHlo.after hostOps1 _ (Proc.devRef .tc main_v20) = _
  after_results
  all_goals rfl

theorem V3_fc1w_apply (c : Dev nD) (q : Fin 2048) (o : Fin 100) :
    (V3 m ρ c main_v20 : S2048x100.Idx → Elt F .f32) (ix2 q o)
      = (m ((c : Thread nD τ).loc main_arg11) : S100x2048.Idx → Elt F .f32) (ix2 o q) := by
  rw [V3_fc1w_eq]
  exact transpose_ix2_apply _ _ q o

/-- The first dense layer's bias as one row. -/
theorem V3_fc1b_eq (c : Dev nD) : (V3 m ρ c main_v21 : S1x100.Idx → Elt F .f32)
    = broadcastInDim S1x100 ![1] bcast_S100_S1x100_1 (m ((c : Thread nD τ).loc main_arg12)) := by
  rw [← W2_main_arg12 m ρ c]
  show StableHlo.after hostOps1 _ (Proc.devRef .tc main_v21) = _
  after_results
  all_goals rfl

theorem V3_fc1b_apply (c : Dev nD) (o : Fin 100) :
    (V3 m ρ c main_v21 : S1x100.Idx → Elt F .f32) (ix2 (0 : Fin 1) o)
      = (m ((c : Thread nD τ).loc main_arg12) : S100.Idx → Elt F .f32) (ix1 o) := by
  rw [V3_fc1b_eq]
  refine broadcastInDim_apply _ _ _ (ix2 (0 : Fin 1) o) (ix1 o) (fun a => ?_)
  match a with
  | ⟨0, _⟩ => rfl

/-- The second dense layer's weights are the argument itself. -/
theorem V3_fc2w_eq (c : Dev nD) : V3 m ρ c main_arg13 = m ((c : Thread nD τ).loc main_arg13) :=
  calc W3 m ρ c (Proc.devRef .tc main_arg13)
    _ = W2 m ρ c (Proc.devRef .tc main_arg13) := StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := W2_main_arg13 m ρ c

/-- The second dense layer's bias as a [1,1] array. -/
theorem V3_fc2b_eq (c : Dev nD) : (V3 m ρ c main_v22 : S1x1.Idx → Elt F .f32)
    = shapeCast S1x1 (m ((c : Thread nD τ).loc main_arg14)) shapeCasts_S1_S1x1 := by
  rw [← W2_main_arg14 m ρ c]
  show StableHlo.after hostOps1 _ (Proc.devRef .tc main_v22) = _
  after_results
  all_goals rfl

theorem V3_fc2b_apply (c : Dev nD) :
    (V3 m ρ c main_v22 : S1x1.Idx → Elt F .f32) (ix2 (0 : Fin 1) (0 : Fin 1))
      = (m ((c : Thread nD τ).loc main_arg14) : S1.Idx → Elt F .f32) (ix1 (0 : Fin 1)) := by
  rw [V3_fc2b_eq]
  exact shapeCast_apply _ _ _ _ (by
    show (S1.rowMajor (ix1 (0 : Fin 1))).val = (S1x1.rowMajor (ix2 (0 : Fin 1) (0 : Fin 1))).val
    rw [Shape.rowMajor_val_two, Shape.rowMajor_val_one]
    rfl)

end Cert.ReferenceIdeal.HostVal

end
-- ==== Proof.RefConvArr.lean ====
/-
  From blocks to the array for the convolution stack's region: the grid has one point per example; point t reads
  example t's rows of the input array and the whole weight and bias arrays, and writes example t's rows of the output
  array. So the output array ends as one function of the operand arrays: its rows of example b are the body's result
  on the input's rows of example b.
-/
import proofs.«109392_g2000007139875455_pallasbulk_612_2_alg».proof.Proof.Gen.ReferenceIdeal.Frame
import Idealize.ShloMosaic.Lib.ValueIdx
import Idealize.ShloMosaic.Lib.Pipeline.Value

set_option maxRecDepth 16384

noncomputable section

namespace Cert.ReferenceIdeal.HostVal

open Cert.ReferenceIdeal Cert.ReferenceIdeal.Gen
open Idealize.ShloMosaic Idealize.ShloMosaic.TcCoe Idealize.ShloMosaic.ValueIdx
open Idealize.ShloMosaic.Pipeline (Dat Cfg Window)
open scoped BigOperators

variable {F : FTy → Type} [FloatOps F]
variable (V : (c : Dev nD) → (b : Ref sig .tc) → Buf (Elt F) ((c : Thread nD τ).loc b))

theorem lt_N0 (t : Fin cfg0.N) : t.val < 2560 := by have := t.isLt; have h : cfg0.N = 2560 := N_0; omega

/-- The printed index maps, decided over the grid: the input and output blocks move with the example's number on the
    batch axis and sit at block 0 on every other axis; every weight and bias window sits at block 0. -/
theorem conv_idx : ∀ t : Fin cfg0.N, win0_0.index t (0 : Fin 4) = t.val
    ∧ win0_0.index t (1 : Fin 4) = 0
    ∧ win0_0.index t (2 : Fin 4) = 0
    ∧ win0_0.index t (3 : Fin 4) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 3) = 0
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 3) = 0
    ∧ win0_5.index t (1 : Fin 3) = 0
    ∧ win0_5.index t (2 : Fin 3) = 0
    ∧ win0_6.index t (0 : Fin 2) = 0
    ∧ win0_6.index t (1 : Fin 2) = 0
    ∧ win0_7.index t (0 : Fin 3) = 0
    ∧ win0_7.index t (1 : Fin 3) = 0
    ∧ win0_7.index t (2 : Fin 3) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 4) = t.val
    ∧ win0_11.index t (1 : Fin 4) = 0
    ∧ win0_11.index t (2 : Fin 4) = 0
    ∧ win0_11.index t (3 : Fin 4) = 0 :=
  (by decide +kernel : ∀ t : Fin grid0.N, _)

/-- Block t of the [2560,16,128,1] array of window 0: example t's rows. -/
theorem emb0_0 (t : Fin cfg0.N) (j : S1x16x128x1.Idx) :
    ((cfg0.win 0).blk t).view.emb j = (ix4 (⟨t.val, lt_N0 t⟩ : Fin 2560) (j 1) (j 2) (j 3) : S2560x16x128x1.Idx) := by
  have e := conv_idx t
  have h0 : (j 0).val < 1 := (j 0).isLt
  funext a; apply Fin.ext
  match a with
  | ⟨0, _⟩ => show win0_0.index t (0 : Fin 4) * 1 + 1 * (j 0).val = t.val; omega
  | ⟨1, _⟩ => show win0_0.index t (1 : Fin 4) * 16 + 1 * (j 1).val = (j 1).val; omega
  | ⟨2, _⟩ => show win0_0.index t (2 : Fin 4) * 128 + 1 * (j 2).val = (j 2).val; omega
  | ⟨3, _⟩ => show win0_0.index t (3 : Fin 4) * 1 + 1 * (j 3).val = (j 3).val; omega

/-- The input window's block at point t is example t of the input array. -/
theorem iblk0_0 (c : Dev nD) (t : Fin cfg0.N) :
    (iblk0 V c 0 t : S1x16x128x1.Idx → Elt F .f32) = fun j => V c main_v1 (ix4 (⟨t.val, lt_N0 t⟩ : Fin 2560) (j 1) (j 2) (j 3)) := by
  funext j
  show V c main_v1 (((cfg0.win 0).blk t).view.emb j) = V c main_v1 (ix4 (⟨t.val, lt_N0 t⟩ : Fin 2560) (j 1) (j 2) (j 3))
  rw [emb0_0]

theorem emb0_1 (t : Fin cfg0.N) (j : S11x128.Idx) : ((cfg0.win 1).blk t).view.emb j = j := by
  have e := conv_idx t
  funext a; apply Fin.ext
  match a with
  | ⟨0, _⟩ => show win0_1.index t (0 : Fin 2) * 11 + 1 * (j 0).val = (j 0).val; omega
  | ⟨1, _⟩ => show win0_1.index t (1 : Fin 2) * 128 + 1 * (j 1).val = (j 1).val; omega

/-- Window 1 is whole: its block is its array. -/
theorem iblk0_1 (c : Dev nD) (t : Fin cfg0.N) : (iblk0 V c 1 t : S11x128.Idx → Elt F .f32) = V c main_v3 := by
  funext j
  show V c main_v3 (((cfg0.win 1).blk t).view.emb j) = V c main_v3 j
  rw [emb0_1]

theorem emb0_2 (t : Fin cfg0.N) (j : S1x128.Idx) : ((cfg0.win 2).blk t).view.emb j = j := by
  have e := conv_idx t
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- Window 2 is whole: its block is its array. -/
theorem iblk0_2 (c : Dev nD) (t : Fin cfg0.N) : (iblk0 V c 2 t : S1x128.Idx → Elt F .f32) = V c main_v12 := by
  funext j
  show V c main_v12 (((cfg0.win 2).blk t).view.emb j) = V c main_v12 j
  rw [emb0_2]

theorem emb0_3 (t : Fin cfg0.N) (j : S11x128x128.Idx) : ((cfg0.win 3).blk t).view.emb j = j := by
  have e := conv_idx t
  funext a; apply Fin.ext
  match a with
  | ⟨0, _⟩ => show win0_3.index t (0 : Fin 3) * 11 + 1 * (j 0).val = (j 0).val; omega
  | ⟨1, _⟩ => show win0_3.index t (1 : Fin 3) * 128 + 1 * (j 1).val = (j 1).val; omega
  | ⟨2, _⟩ => show win0_3.index t (2 : Fin 3) * 128 + 1 * (j 2).val = (j 2).val; omega

/-- Window 3 is whole: its block is its array. -/
theorem iblk0_3 (c : Dev nD) (t : Fin cfg0.N) : (iblk0 V c 3 t : S11x128x128.Idx → Elt F .f32) = V c main_v5 := by
  funext j
  show V c main_v5 (((cfg0.win 3).blk t).view.emb j) = V c main_v5 j
  rw [emb0_3]

theorem emb0_4 (t : Fin cfg0.N) (j : S1x128.Idx) : ((cfg0.win 4).blk t).view.emb j = j := by
  have e := conv_idx t
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- Window 4 is whole: its block is its array. -/
theorem iblk0_4 (c : Dev nD) (t : Fin cfg0.N) : (iblk0 V c 4 t : S1x128.Idx → Elt F .f32) = V c main_v13 := by
  funext j
  show V c main_v13 (((cfg0.win 4).blk t).view.emb j) = V c main_v13 j
  rw [emb0_4]

theorem emb0_5 (t : Fin cfg0.N) (j : S11x128x128.Idx) : ((cfg0.win 5).blk t).view.emb j = j := by
  have e := conv_idx t
  funext a; apply Fin.ext
  match a with
  | ⟨0, _⟩ => show win0_5.index t (0 : Fin 3) * 11 + 1 * (j 0).val = (j 0).val; omega
  | ⟨1, _⟩ => show win0_5.index t (1 : Fin 3) * 128 + 1 * (j 1).val = (j 1).val; omega
  | ⟨2, _⟩ => show win0_5.index t (2 : Fin 3) * 128 + 1 * (j 2).val = (j 2).val; omega

/-- Window 5 is whole: its block is its array. -/
theorem iblk0_5 (c : Dev nD) (t : Fin cfg0.N) : (iblk0 V c 5 t : S11x128x128.Idx → Elt F .f32) = V c main_v7 := by
  funext j
  show V c main_v7 (((cfg0.win 5).blk t).view.emb j) = V c main_v7 j
  rw [emb0_5]

theorem emb0_6 (t : Fin cfg0.N) (j : S1x128.Idx) : ((cfg0.win 6).blk t).view.emb j = j := by
  have e := conv_idx t
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- Window 6 is whole: its block is its array. -/
theorem iblk0_6 (c : Dev nD) (t : Fin cfg0.N) : (iblk0 V c 6 t : S1x128.Idx → Elt F .f32) = V c main_v14 := by
  funext j
  show V c main_v14 (((cfg0.win 6).blk t).view.emb j) = V c main_v14 j
  rw [emb0_6]

theorem emb0_7 (t : Fin cfg0.N) (j : S11x128x128.Idx) : ((cfg0.win 7).blk t).view.emb j = j := by
  have e := conv_idx t
  funext a; apply Fin.ext
  match a with
  | ⟨0, _⟩ => show win0_7.index t (0 : Fin 3) * 11 + 1 * (j 0).val = (j 0).val; omega
  | ⟨1, _⟩ => show win0_7.index t (1 : Fin 3) * 128 + 1 * (j 1).val = (j 1).val; omega
  | ⟨2, _⟩ => show win0_7.index t (2 : Fin 3) * 128 + 1 * (j 2).val = (j 2).val; omega

/-- Window 7 is whole: its block is its array. -/
theorem iblk0_7 (c : Dev nD) (t : Fin cfg0.N) : (iblk0 V c 7 t : S11x128x128.Idx → Elt F .f32) = V c main_v9 := by
  funext j
  show V c main_v9 (((cfg0.win 7).blk t).view.emb j) = V c main_v9 j
  rw [emb0_7]

theorem emb0_8 (t : Fin cfg0.N) (j : S1x128.Idx) : ((cfg0.win 8).blk t).view.emb j = j := by
  have e := conv_idx t
  funext a; apply Fin.ext
  match a with
  | ⟨0, _⟩ => show win0_8.index t (0 : Fin 2) * 1 + 1 * (j 0).val = (j 0).val; omega
  | ⟨1, _⟩ => show win0_8.index t (1 : Fin 2) * 128 + 1 * (j 1).val = (j 1).val; omega

/-- Window 8 is whole: its block is its array. -/
theorem iblk0_8 (c : Dev nD) (t : Fin cfg0.N) : (iblk0 V c 8 t : S1x128.Idx → Elt F .f32) = V c main_v15 := by
  funext j
  show V c main_v15 (((cfg0.win 8).blk t).view.emb j) = V c main_v15 j
  rw [emb0_8]

theorem emb0_9 (t : Fin cfg0.N) (j : S3x128.Idx) : ((cfg0.win 9).blk t).view.emb j = j := by
  have e := conv_idx t
  funext a; apply Fin.ext
  match a with
  | ⟨0, _⟩ => show win0_9.index t (0 : Fin 2) * 3 + 1 * (j 0).val = (j 0).val; omega
  | ⟨1, _⟩ => show win0_9.index t (1 : Fin 2) * 128 + 1 * (j 1).val = (j 1).val; omega

/-- Window 9 is whole: its block is its array. -/
theorem iblk0_9 (c : Dev nD) (t : Fin cfg0.N) : (iblk0 V c 9 t : S3x128.Idx → Elt F .f32) = V c main_v11 := by
  funext j
  show V c main_v11 (((cfg0.win 9).blk t).view.emb j) = V c main_v11 j
  rw [emb0_9]

theorem emb0_10 (t : Fin cfg0.N) (j : S1x1.Idx) : ((cfg0.win 10).blk t).view.emb j = j := by
  have e := conv_idx t
  funext a; apply Fin.ext
  match a with
  | ⟨0, _⟩ => show win0_10.index t (0 : Fin 2) * 1 + 1 * (j 0).val = (j 0).val; omega
  | ⟨1, _⟩ => show win0_10.index t (1 : Fin 2) * 1 + 1 * (j 1).val = (j 1).val; omega

/-- Window 10 is whole: its block is its array. -/
theorem iblk0_10 (c : Dev nD) (t : Fin cfg0.N) : (iblk0 V c 10 t : S1x1.Idx → Elt F .f32) = V c main_v16 := by
  funext j
  show V c main_v16 (((cfg0.win 10).blk t).view.emb j) = V c main_v16 j
  rw [emb0_10]

/-- Block t of the [2560,16,128,1] array of window 11: example t's rows. -/
theorem emb0_11 (t : Fin cfg0.N) (j : S1x16x128x1.Idx) :
    ((cfg0.win 11).blk t).view.emb j = (ix4 (⟨t.val, lt_N0 t⟩ : Fin 2560) (j 1) (j 2) (j 3) : S2560x16x128x1.Idx) := by
  have e := conv_idx t
  have h0 : (j 0).val < 1 := (j 0).isLt
  funext a; apply Fin.ext
  match a with
  | ⟨0, _⟩ => show win0_11.index t (0 : Fin 4) * 1 + 1 * (j 0).val = t.val; omega
  | ⟨1, _⟩ => show win0_11.index t (1 : Fin 4) * 16 + 1 * (j 1).val = (j 1).val; omega
  | ⟨2, _⟩ => show win0_11.index t (2 : Fin 4) * 128 + 1 * (j 2).val = (j 2).val; omega
  | ⟨3, _⟩ => show win0_11.index t (3 : Fin 4) * 1 + 1 * (j 3).val = (j 3).val; omega

theorem out0_11_congr {x0 x0' x1 x1' x2 x2' x3 x3' x4 x4' x5 x5' x6 x6' x7 x7' x8 x8' x9 x9' x10 x10' : _}
    (h0 : (x0 : Vec F S1x16x128x1 .f32) = x0') (h1 : (x1 : Vec F S11x128 .f32) = x1') (h2 : (x2 : Vec F S1x128 .f32) = x2') (h3 : (x3 : Vec F S11x128x128 .f32) = x3') (h4 : (x4 : Vec F S1x128 .f32) = x4') (h5 : (x5 : Vec F S11x128x128 .f32) = x5') (h6 : (x6 : Vec F S1x128 .f32) = x6') (h7 : (x7 : Vec F S11x128x128 .f32) = x7') (h8 : (x8 : Vec F S1x128 .f32) = x8') (h9 : (x9 : Vec F S3x128 .f32) = x9') (h10 : (x10 : Vec F S1x1 .f32) = x10') :
    out0_11 x0 x1 x2 x3 x4 x5 x6 x7 x8 x9 x10 = out0_11 x0' x1' x2' x3' x4' x5' x6' x7' x8' x9' x10' := by
  subst h0 h1 h2 h3 h4 h5 h6 h7 h8 h9 h10; rfl

/-- Reading an array through the output window's block at point t reads example t's rows … -/
theorem read0_11 (t : Fin cfg0.N) (G : S2560x16x128x1.Idx → Elt F .f32) :
    ((cfg0.win 11).blk t).view.read (Elt F) G = fun j => G (ix4 (⟨t.val, lt_N0 t⟩ : Fin 2560) (j 1) (j 2) (j 3)) := by
  funext j
  show G (((cfg0.win 11).blk t).view.emb j) = _
  rw [emb0_11]

/-- … and nothing of the staging buffer is cut off when it is written back. -/
theorem cut0_11 (t : Fin cfg0.N) (X : Vec F S1x16x128x1 .f32) : (cfg0.win 11).cut (grid0.coords t) X = X := by
  funext j
  rfl

/-- THE CONVOLUTION STACK'S OUTPUT ARRAY as one function of its operand arrays: example b's rows are the body's result
    on example b's input rows and the (whole) weight and bias arrays. -/
def convArr (A0 : S2560x16x128x1.Idx → Elt F .f32) (x1 : Vec F S11x128 .f32) (x2 : Vec F S1x128 .f32) (x3 : Vec F S11x128x128 .f32) (x4 : Vec F S1x128 .f32) (x5 : Vec F S11x128x128 .f32) (x6 : Vec F S1x128 .f32) (x7 : Vec F S11x128x128 .f32) (x8 : Vec F S1x128 .f32) (x9 : Vec F S3x128 .f32) (x10 : Vec F S1x1 .f32) :
    S2560x16x128x1.Idx → Elt F .f32 :=
  fun i => out0_11 (fun y => A0 (ix4 (i 0) (y 1) (y 2) (y 3))) x1 x2 x3 x4 x5 x6 x7 x8 x9 x10 (ix4 (0 : Fin 1) (i 1) (i 2) (i 3))

theorem convArr_apply (A0 : S2560x16x128x1.Idx → Elt F .f32) (x1 : Vec F S11x128 .f32) (x2 : Vec F S1x128 .f32) (x3 : Vec F S11x128x128 .f32) (x4 : Vec F S1x128 .f32) (x5 : Vec F S11x128x128 .f32) (x6 : Vec F S1x128 .f32) (x7 : Vec F S11x128x128 .f32) (x8 : Vec F S1x128 .f32) (x9 : Vec F S3x128 .f32) (x10 : Vec F S1x1 .f32)
    (b : Fin 2560) (h : Fin 16) (w : Fin 128) (u : Fin 1) :
    convArr A0 x1 x2 x3 x4 x5 x6 x7 x8 x9 x10 (ix4 b h w u)
      = out0_11 (fun y => A0 (ix4 b (y 1) (y 2) (y 3))) x1 x2 x3 x4 x5 x6 x7 x8 x9 x10 (ix4 (0 : Fin 1) h w u) := rfl

/-- WHAT POINT t WRITES BACK is block t of that function of the operand arrays as the region finds them. -/
theorem conv_flushed (c : Dev nD) (t : Fin cfg0.N) :
    (dat0 V c).flushed 11 t = ((cfg0.win 11).blk t).view.read (Elt F) (convArr (V c main_v1) (V c main_v3) (V c main_v12) (V c main_v5) (V c main_v13) (V c main_v7) (V c main_v14) (V c main_v9) (V c main_v15) (V c main_v11) (V c main_v16)) := by
  show (cfg0.win 11).cut (grid0.coords t) ((dat0 V c).after 11 t) = _
  rw [after0_11, cut0_11, read0_11]
  funext j
  have hj : (ix4 (0 : Fin 1) (j 1) (j 2) (j 3) : S1x16x128x1.Idx) = j := by
    have h0 : (j 0).val < 1 := (j 0).isLt
    funext a
    match a with
    | ⟨0, _⟩ => exact Fin.ext (by show 0 = (j 0).val; omega)
    | ⟨1, _⟩ => rfl
    | ⟨2, _⟩ => rfl
    | ⟨3, _⟩ => rfl
  refine (congrFun (out0_11_congr (iblk0_0 V c t) (iblk0_1 V c t) (iblk0_2 V c t) (iblk0_3 V c t) (iblk0_4 V c t) (iblk0_5 V c t) (iblk0_6 V c t) (iblk0_7 V c t) (iblk0_8 V c t) (iblk0_9 V c t) (iblk0_10 V c t)) j).trans ?_
  refine Eq.trans ?_ (convArr_apply (V c main_v1) (V c main_v3) (V c main_v12) (V c main_v5) (V c main_v13) (V c main_v7) (V c main_v14) (V c main_v9) (V c main_v15) (V c main_v11) (V c main_v16) (⟨t.val, lt_N0 t⟩ : Fin 2560) (j 1) (j 2) (j 3)).symm
  exact congrArg (out0_11 (fun y => V c main_v1 (ix4 (⟨t.val, lt_N0 t⟩ : Fin 2560) (y 1) (y 2) (y 3))) (V c main_v3) (V c main_v12) (V c main_v5) (V c main_v13) (V c main_v7) (V c main_v14) (V c main_v9) (V c main_v15) (V c main_v11) (V c main_v16)) hj.symm

/-- An index of the output array is in point t's block iff each coordinate is in the block's range on its axis. -/
theorem conv_mem_blk (t : Fin cfg0.N) (i : S2560x16x128x1.Idx) :
    i ∈ ((cfg0.win 11).blk t).view.set ↔ ∀ a : Fin 4, win0_11.index t a * S1x16x128x1.size a ≤ (i a).val ∧ (i a).val < win0_11.index t a * S1x16x128x1.size a + S1x16x128x1.size a := by
  show i ∈ ((View.whole main_v17).slice (win0_11.rect t)).set ↔ _
  rw [View.set_slice_whole, Rect.mem_set_unit]
  exact Iff.rfl

/-- Point b covers example b's rows: the output's blocks tile the array. -/
theorem conv_cover (i : S2560x16x128x1.Idx) : ∃ t : Fin cfg0.N, (cfg0.win 11).flush t = true ∧ i ∈ ((cfg0.win 11).blk t).view.set := by
  have h0 : (i 0).val < 2560 := (i 0).isLt
  have h1 : (i 1).val < 16 := (i 1).isLt
  have h2 : (i 2).val < 128 := (i 2).isLt
  have h3 : (i 3).val < 1 := (i 3).isLt
  obtain ⟨t, ht⟩ : ∃ t : Fin cfg0.N, t.val = (i 0).val := ⟨⟨(i 0).val, by have h : cfg0.N = 2560 := N_0; omega⟩, rfl⟩
  refine ⟨t, flush0_11 t, ?_⟩
  rw [conv_mem_blk]
  have e := conv_idx t
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 16 ≤ (i 1).val ∧ (i 1).val < win0_11.index t (1 : Fin 4) * 16 + 16; omega
  | ⟨2, _⟩ => show win0_11.index t (2 : Fin 4) * 128 ≤ (i 2).val ∧ (i 2).val < win0_11.index t (2 : Fin 4) * 128 + 128; omega
  | ⟨3, _⟩ => show win0_11.index t (3 : Fin 4) * 1 ≤ (i 3).val ∧ (i 3).val < win0_11.index t (3 : Fin 4) * 1 + 1; omega

/-- THE OUTPUT ARRAY after the convolution stack's region. -/
theorem conv_final (c : Dev nD) :
    (dat0 V c).arrAt 11 cfg0.N = convArr (V c main_v1) (V c main_v3) (V c main_v12) (V c main_v5) (V c main_v13) (V c main_v7) (V c main_v14) (V c main_v9) (V c main_v15) (V c main_v11) (V c main_v16) :=
  (dat0 V c).arrAt_eq_of_cover 11 _ (fun t _ => conv_flushed V c t) conv_cover

/-- … read at an index: row (h, w) of example b is the body's result, at (h, w), on example b's input rows. -/
theorem conv_final_apply (c : Dev nD) (b : Fin 2560) (h : Fin 16) (w : Fin 128) :
    ((dat0 V c).arrAt 11 cfg0.N : S2560x16x128x1.Idx → Elt F .f32) (ix4 b h w (0 : Fin 1))
      = out0_11 (fun y => V c main_v1 (ix4 b (y 1) (y 2) (y 3))) (V c main_v3) (V c main_v12) (V c main_v5) (V c main_v13) (V c main_v7) (V c main_v14) (V c main_v9) (V c main_v15) (V c main_v11) (V c main_v16) (ix4 (0 : Fin 1) h w (0 : Fin 1)) := by
  rw [conv_final]
  exact convArr_apply (V c main_v1) (V c main_v3) (V c main_v12) (V c main_v5) (V c main_v13) (V c main_v7) (V c main_v14) (V c main_v9) (V c main_v15) (V c main_v11) (V c main_v16) b h w 0

end Cert.ReferenceIdeal.HostVal

end
-- ==== Proof.RefConvSpec.lean ====
/-
  The per-example convolution stack as plain functions on extended reals.

  One example is a signal of 16 positions by 128 sensors. Layer 1 is a valid convolution along the position
  axis with 11 taps from one input channel to 128 channels, followed by tanh. Layers 2 to 4 first put 10 zero
  rows on top of the previous layer's 6 rows (16 rows), then apply a valid 11-tap convolution from 128 to 128
  channels and tanh (6 rows again). Layer 5 pads the same way, applies a valid 3-tap convolution to one channel
  and tanh (14 rows), and the result is padded by 2 zero rows on top (16 rows).
  Every sum is a finite sum in the extended reals; only commutativity and associativity of + are ever needed.
-/
import Idealize.ShloMosaic.PureOps.Ideal
import Idealize.ShloMosaic.Lib.ValueIdx

noncomputable section

open scoped BigOperators

namespace Cert.RefSpec

open Idealize.ShloMosaic Idealize.ShloMosaic.ValueIdx

/-- The signal of one example: (1, 16 positions, 128 sensors, 1). -/
abbrev SSig : Shape := ⟨4, ![1, 16, 128, 1]⟩
/-- Layer 1 taps: (11 taps, 128 channels). -/
abbrev STap1 : Shape := ⟨2, ![11, 128]⟩
/-- A bias row: (1, 128 channels). -/
abbrev SBias : Shape := ⟨2, ![1, 128]⟩
/-- Layers 2 to 4 taps: (11 taps, 128 input channels, 128 output channels). -/
abbrev STapN : Shape := ⟨3, ![11, 128, 128]⟩
/-- Layer 5 taps: (3 taps, 128 channels). -/
abbrev STap5 : Shape := ⟨2, ![3, 128]⟩
/-- Layer 5 bias: (1, 1). -/
abbrev SBias5 : Shape := ⟨2, ![1, 1]⟩

/-- The tanh of the extended reals: -1 at ⊥, 1 at ⊤, the real tanh elsewhere. -/
abbrev T : EReal → EReal := Ideal.tanh

/-- Layer 1 at output row `h`, sensor `w`, channel `c`. -/
def c1 (x0 : SSig.Idx → EReal) (x1 : STap1.Idx → EReal) (x2 : SBias.Idx → EReal)
    (h : Fin 6) (w c : Fin 128) : EReal :=
  T ((∑ dk : Fin 11, x0 (ix4 0 (⟨h.val + dk.val, by omega⟩ : Fin 16) w 0) * x1 (ix2 dk c)) + x2 (ix2 0 c))

/-- Ten zero rows on top of a 6-row activation. -/
def pad (a : Fin 6 → Fin 128 → Fin 128 → EReal) (r : Fin 16) (w c : Fin 128) : EReal :=
  if h : 10 ≤ r.val then a (⟨r.val - 10, by omega⟩ : Fin 6) w c else 0

/-- A layer 2 to 4 at output row `h`, sensor `w`, output channel `co`, from the previous layer's activation `a`. -/
def cN (a : Fin 6 → Fin 128 → Fin 128 → EReal) (x3 : STapN.Idx → EReal) (x4 : SBias.Idx → EReal)
    (h : Fin 6) (w co : Fin 128) : EReal :=
  T ((∑ dk : Fin 11, ∑ ci : Fin 128, pad a (⟨h.val + dk.val, by omega⟩ : Fin 16) w ci * x3 (ix3 dk ci co))
      + x4 (ix2 0 co))

/-- Layer 5 at output row `s`, sensor `w`. -/
def c5 (a : Fin 6 → Fin 128 → Fin 128 → EReal) (x9 : STap5.Idx → EReal) (x10 : SBias5.Idx → EReal)
    (s : Fin 14) (w : Fin 128) : EReal :=
  T ((∑ dk : Fin 3, ∑ c : Fin 128, pad a (⟨s.val + dk.val, by omega⟩ : Fin 16) w c * x9 (ix2 dk c))
      + x10 (ix2 0 0))

/-- The whole stack at position `h`, sensor `w`: two zero rows on top of layer 5. -/
def convOut (x0 : SSig.Idx → EReal) (x1 : STap1.Idx → EReal) (x2 : SBias.Idx → EReal)
    (x3 : STapN.Idx → EReal) (x4 : SBias.Idx → EReal) (x5 : STapN.Idx → EReal) (x6 : SBias.Idx → EReal)
    (x7 : STapN.Idx → EReal) (x8 : SBias.Idx → EReal) (x9 : STap5.Idx → EReal) (x10 : SBias5.Idx → EReal)
    (h : Fin 16) (w : Fin 128) : EReal :=
  if hh : 2 ≤ h.val then
    c5 (cN (cN (cN (c1 x0 x1 x2) x3 x4) x5 x6) x7 x8) x9 x10 (⟨h.val - 2, by omega⟩ : Fin 14) w
  else 0

end Cert.RefSpec

end
-- ==== Proof.RefResult.lean ====
/-
  The reference's result as a function of its argument arrays, at the ideal values: the pieces assembled. The head's
  region leaves in the result array the dense head of its five input arrays; the feature matrix among them is the
  convolution stack's output array re-laid; that array's rows of example b are the stack's body on example b's rows of
  the input and the whole weight arrays; and every operand array is a host re-layout of one argument.
-/
import proofs.«109392_g2000007139875455_pallasbulk_612_2_alg».proof.Proof.RefHead
import proofs.«109392_g2000007139875455_pallasbulk_612_2_alg».proof.Proof.RefHeadArr
import proofs.«109392_g2000007139875455_pallasbulk_612_2_alg».proof.Proof.RefHost1
import proofs.«109392_g2000007139875455_pallasbulk_612_2_alg».proof.Proof.RefHost2
import proofs.«109392_g2000007139875455_pallasbulk_612_2_alg».proof.Proof.RefConvArr
import proofs.«109392_g2000007139875455_pallasbulk_612_2_alg».proof.Proof.RefConvSpec

set_option maxRecDepth 16384

noncomputable section

namespace Cert.ReferenceIdeal.HostVal

open Cert.ReferenceIdeal Cert.ReferenceIdeal.Gen
open Idealize.ShloMosaic Idealize.ShloMosaic.TcCoe Idealize.ShloMosaic.ValueIdx
open Idealize.ShloMosaic.Pipeline (Dat Cfg Window)
open scoped BigOperators

variable (m : (ℓ : Loc nD τ sig) → Buf (Elt Ideal) ℓ) (ρ : Dev nD → PrngReg)

/-! ## The convolution stack's operands as functions of the arguments -/

theorem V1_x4_fun (c : Dev nD) (b : Fin 2560) :
    (fun y : S1x16x128x1.Idx => (V1 m ρ c main_v1 : S2560x16x128x1.Idx → EReal) (ix4 b (y 1) (y 2) (y 3))) = (fun i => (m ((c : Thread nD τ).loc main_arg0) : S2560x1x16x128.Idx → EReal) (ix4 b (0 : Fin 1) (i 1) (i 2))) := by
  funext y
  have h3 : (y 3).val < 1 := (y 3).isLt
  have e : (ix4 b (y 1) (y 2) (y 3) : S2560x16x128x1.Idx) = ix4 b (y 1) (y 2) (0 : Fin 1) := by
    funext a
    match a with
    | ⟨0, _⟩ => rfl
    | ⟨1, _⟩ => rfl
    | ⟨2, _⟩ => rfl
    | ⟨3, _⟩ => exact Fin.ext (by show (y 3).val = 0; omega)
  exact (congrArg (V1 m ρ c main_v1 : S2560x16x128x1.Idx → EReal) e).trans (V1_x4_apply m ρ c b (y 1) (y 2))

theorem V1_w1k_fun (c : Dev nD) : (V1 m ρ c main_v3 : S11x128.Idx → EReal) = (fun i => (m ((c : Thread nD τ).loc main_arg1) : S128x1x11x1.Idx → EReal) (ix4 (i 1) (0 : Fin 1) (i 0) (0 : Fin 1))) := by
  funext i
  obtain ⟨dk, ch, rfl⟩ : ∃ (dk : Fin 11) (ch : Fin 128), i = ix2 dk ch := ⟨i 0, i 1, eq_ix2 i⟩
  exact V1_w1k_apply m ρ c dk ch

theorem V1_w2k_fun (c : Dev nD) : (V1 m ρ c main_v5 : S11x128x128.Idx → EReal) = (fun i => (m ((c : Thread nD τ).loc main_arg3) : S128x128x11x1.Idx → EReal) (ix4 (i 2) (i 1) (i 0) (0 : Fin 1))) := by
  funext i
  obtain ⟨dk, ci, co, rfl⟩ : ∃ (dk : Fin 11) (ci co : Fin 128), i = ix3 dk ci co := ⟨i 0, i 1, i 2, eq_ix3 i⟩
  exact V1_w2k_apply m ρ c dk ci co

theorem V1_w3k_fun (c : Dev nD) : (V1 m ρ c main_v7 : S11x128x128.Idx → EReal) = (fun i => (m ((c : Thread nD τ).loc main_arg5) : S128x128x11x1.Idx → EReal) (ix4 (i 2) (i 1) (i 0) (0 : Fin 1))) := by
  funext i
  obtain ⟨dk, ci, co, rfl⟩ : ∃ (dk : Fin 11) (ci co : Fin 128), i = ix3 dk ci co := ⟨i 0, i 1, i 2, eq_ix3 i⟩
  exact V1_w3k_apply m ρ c dk ci co

theorem V1_w4k_fun (c : Dev nD) : (V1 m ρ c main_v9 : S11x128x128.Idx → EReal) = (fun i => (m ((c : Thread nD τ).loc main_arg7) : S128x128x11x1.Idx → EReal) (ix4 (i 2) (i 1) (i 0) (0 : Fin 1))) := by
  funext i
  obtain ⟨dk, ci, co, rfl⟩ : ∃ (dk : Fin 11) (ci co : Fin 128), i = ix3 dk ci co := ⟨i 0, i 1, i 2, eq_ix3 i⟩
  exact V1_w4k_apply m ρ c dk ci co

theorem V1_w5k_fun (c : Dev nD) : (V1 m ρ c main_v11 : S3x128.Idx → EReal) = (fun i => (m ((c : Thread nD τ).loc main_arg9) : S1x128x3x1.Idx → EReal) (ix4 (0 : Fin 1) (i 1) (i 0) (0 : Fin 1))) := by
  funext i
  obtain ⟨dk, ch, rfl⟩ : ∃ (dk : Fin 3) (ch : Fin 128), i = ix2 dk ch := ⟨i 0, i 1, eq_ix2 i⟩
  exact V1_w5k_apply m ρ c dk ch

theorem V1_b1k_fun (c : Dev nD) : (V1 m ρ c main_v12 : S1x128.Idx → EReal) = (fun i => (m ((c : Thread nD τ).loc main_arg2) : S128.Idx → EReal) (ix1 (i 1))) := by
  funext i
  obtain ⟨u, ch, rfl⟩ : ∃ (u : Fin 1) (ch : Fin 128), i = ix2 u ch := ⟨i 0, i 1, eq_ix2 i⟩
  obtain rfl : u = 0 := Subsingleton.elim _ _
  exact V1_b1k_apply m ρ c ch

theorem V1_b2k_fun (c : Dev nD) : (V1 m ρ c main_v13 : S1x128.Idx → EReal) = (fun i => (m ((c : Thread nD τ).loc main_arg4) : S128.Idx → EReal) (ix1 (i 1))) := by
  funext i
  obtain ⟨u, ch, rfl⟩ : ∃ (u : Fin 1) (ch : Fin 128), i = ix2 u ch := ⟨i 0, i 1, eq_ix2 i⟩
  obtain rfl : u = 0 := Subsingleton.elim _ _
  exact V1_b2k_apply m ρ c ch

theorem V1_b3k_fun (c : Dev nD) : (V1 m ρ c main_v14 : S1x128.Idx → EReal) = (fun i => (m ((c : Thread nD τ).loc main_arg6) : S128.Idx → EReal) (ix1 (i 1))) := by
  funext i
  obtain ⟨u, ch, rfl⟩ : ∃ (u : Fin 1) (ch : Fin 128), i = ix2 u ch := ⟨i 0, i 1, eq_ix2 i⟩
  obtain rfl : u = 0 := Subsingleton.elim _ _
  exact V1_b3k_apply m ρ c ch

theorem V1_b4k_fun (c : Dev nD) : (V1 m ρ c main_v15 : S1x128.Idx → EReal) = (fun i => (m ((c : Thread nD τ).loc main_arg8) : S128.Idx → EReal) (ix1 (i 1))) := by
  funext i
  obtain ⟨u, ch, rfl⟩ : ∃ (u : Fin 1) (ch : Fin 128), i = ix2 u ch := ⟨i 0, i 1, eq_ix2 i⟩
  obtain rfl : u = 0 := Subsingleton.elim _ _
  exact V1_b4k_apply m ρ c ch

theorem V1_b5k_fun (c : Dev nD) : (V1 m ρ c main_v16 : S1x1.Idx → EReal) = (fun _ => (m ((c : Thread nD τ).loc main_arg10) : S1.Idx → EReal) (ix1 (0 : Fin 1))) := by
  funext i
  obtain ⟨u, v, rfl⟩ : ∃ (u : Fin 1) (v : Fin 1), i = ix2 u v := ⟨i 0, i 1, eq_ix2 i⟩
  obtain rfl : u = 0 := Subsingleton.elim _ _
  obtain rfl : v = 0 := Subsingleton.elim _ _
  exact V1_b5k_apply m ρ c

theorem conv_congr {conv : (S1x16x128x1.Idx → EReal) → (S11x128.Idx → EReal) → (S1x128.Idx → EReal) → (S11x128x128.Idx → EReal) → (S1x128.Idx → EReal) → (S11x128x128.Idx → EReal) → (S1x128.Idx → EReal) → (S11x128x128.Idx → EReal) → (S1x128.Idx → EReal) → (S3x128.Idx → EReal) → (S1x1.Idx → EReal) → Fin 16 → Fin 128 → EReal}
    {x0 x0' x1 x1' x2 x2' x3 x3' x4 x4' x5 x5' x6 x6' x7 x7' x8 x8' x9 x9' x10 x10' : _}
    (h0 : (x0 : S1x16x128x1.Idx → EReal) = x0') (h1 : (x1 : S11x128.Idx → EReal) = x1') (h2 : (x2 : S1x128.Idx → EReal) = x2') (h3 : (x3 : S11x128x128.Idx → EReal) = x3') (h4 : (x4 : S1x128.Idx → EReal) = x4') (h5 : (x5 : S11x128x128.Idx → EReal) = x5') (h6 : (x6 : S1x128.Idx → EReal) = x6') (h7 : (x7 : S11x128x128.Idx → EReal) = x7') (h8 : (x8 : S1x128.Idx → EReal) = x8') (h9 : (x9 : S3x128.Idx → EReal) = x9') (h10 : (x10 : S1x1.Idx → EReal) = x10') (h : Fin 16) (w : Fin 128) :
    conv x0 x1 x2 x3 x4 x5 x6 x7 x8 x9 x10 h w = conv x0' x1' x2' x3' x4' x5' x6' x7' x8' x9' x10' h w := by
  subst h0 h1 h2 h3 h4 h5 h6 h7 h8 h9 h10; rfl

/-! ## The reference's result -/

/-- THE REFERENCE'S RESULT at example b, as a function of the argument arrays: the dense head on the flattened
    per-example convolution stack. The stack's arithmetic enters through `hconv`: the body's result block at (h, w) is
    the function `conv` of its eleven input blocks. -/
theorem ref_result_of
    (conv : (S1x16x128x1.Idx → EReal) → (S11x128.Idx → EReal) → (S1x128.Idx → EReal) → (S11x128x128.Idx → EReal) → (S1x128.Idx → EReal) → (S11x128x128.Idx → EReal) → (S1x128.Idx → EReal) → (S11x128x128.Idx → EReal) → (S1x128.Idx → EReal) → (S3x128.Idx → EReal) → (S1x1.Idx → EReal) → Fin 16 → Fin 128 → EReal)
    (hconv : ∀ (x0 : Vec Ideal S1x16x128x1 .f32) (x1 : Vec Ideal S11x128 .f32) (x2 : Vec Ideal S1x128 .f32) (x3 : Vec Ideal S11x128x128 .f32) (x4 : Vec Ideal S1x128 .f32) (x5 : Vec Ideal S11x128x128 .f32) (x6 : Vec Ideal S1x128 .f32) (x7 : Vec Ideal S11x128x128 .f32) (x8 : Vec Ideal S1x128 .f32) (x9 : Vec Ideal S3x128 .f32) (x10 : Vec Ideal S1x1 .f32) (h : Fin 16) (w : Fin 128),
      out0_11 (F := Ideal) x0 x1 x2 x3 x4 x5 x6 x7 x8 x9 x10 (ix4 (0 : Fin 1) h w (0 : Fin 1)) = conv x0 x1 x2 x3 x4 x5 x6 x7 x8 x9 x10 h w)
    (c : Dev nD) (b : Fin 2560) :
    ((dat1 (V3 m ρ) c).arrAt 5 cfg1.N : S2560x1.Idx → EReal) (ix2 b (0 : Fin 1))
      = (∑ o : Fin 100, Ideal.tanh ((∑ q : Fin 2048,
            conv (fun i => (m ((c : Thread nD τ).loc main_arg0) : S2560x1x16x128.Idx → EReal) (ix4 b (0 : Fin 1) (i 1) (i 2)))
              (fun i => (m ((c : Thread nD τ).loc main_arg1) : S128x1x11x1.Idx → EReal) (ix4 (i 1) (0 : Fin 1) (i 0) (0 : Fin 1)))
              (fun i => (m ((c : Thread nD τ).loc main_arg2) : S128.Idx → EReal) (ix1 (i 1)))
              (fun i => (m ((c : Thread nD τ).loc main_arg3) : S128x128x11x1.Idx → EReal) (ix4 (i 2) (i 1) (i 0) (0 : Fin 1)))
              (fun i => (m ((c : Thread nD τ).loc main_arg4) : S128.Idx → EReal) (ix1 (i 1)))
              (fun i => (m ((c : Thread nD τ).loc main_arg5) : S128x128x11x1.Idx → EReal) (ix4 (i 2) (i 1) (i 0) (0 : Fin 1)))
              (fun i => (m ((c : Thread nD τ).loc main_arg6) : S128.Idx → EReal) (ix1 (i 1)))
              (fun i => (m ((c : Thread nD τ).loc main_arg7) : S128x128x11x1.Idx → EReal) (ix4 (i 2) (i 1) (i 0) (0 : Fin 1)))
              (fun i => (m ((c : Thread nD τ).loc main_arg8) : S128.Idx → EReal) (ix1 (i 1)))
              (fun i => (m ((c : Thread nD τ).loc main_arg9) : S1x128x3x1.Idx → EReal) (ix4 (0 : Fin 1) (i 1) (i 0) (0 : Fin 1)))
              (fun _ => (m ((c : Thread nD τ).loc main_arg10) : S1.Idx → EReal) (ix1 (0 : Fin 1)))
              (⟨q.val / 128, by have := q.isLt; omega⟩ : Fin 16) (⟨q.val % 128, Nat.mod_lt _ (by decide)⟩ : Fin 128)
            * (m ((c : Thread nD τ).loc main_arg11) : S100x2048.Idx → EReal) (ix2 o q))
          + (m ((c : Thread nD τ).loc main_arg12) : S100.Idx → EReal) (ix1 o)) * (m ((c : Thread nD τ).loc main_arg13) : S1x100.Idx → EReal) (ix2 (0 : Fin 1) o))
        + (m ((c : Thread nD τ).loc main_arg14) : S1.Idx → EReal) (ix1 (0 : Fin 1)) := by
  rw [head_final (V3 m ρ) c]
  refine (out1_5_apply _ _ _ _ _ b).trans ?_
  refine congrArg₂ (· + ·) (Finset.sum_congr rfl fun o _ => ?_) (V3_fc2b_apply m ρ c)
  refine congrArg₂ (· * ·) (congrArg Ideal.tanh (congrArg₂ (· + ·) (Finset.sum_congr rfl fun q _ => ?_) (V3_fc1b_apply m ρ c o))) ?_
  · refine congrArg₂ (· * ·) ?_ (V3_fc1w_apply m ρ c q o)
    refine (V3_flat_apply m ρ c b q).trans ?_
    refine (conv_final_apply (V1 m ρ) c b _ _).trans ?_
    refine (hconv _ _ _ _ _ _ _ _ _ _ _ _ _).trans ?_
    exact conv_congr (V1_x4_fun m ρ c b) (V1_w1k_fun m ρ c) (V1_b1k_fun m ρ c) (V1_w2k_fun m ρ c) (V1_b2k_fun m ρ c)
      (V1_w3k_fun m ρ c) (V1_b3k_fun m ρ c) (V1_w4k_fun m ρ c) (V1_b4k_fun m ρ c) (V1_w5k_fun m ρ c) (V1_b5k_fun m ρ c) _ _
  · exact congrFun (V3_fc2w_eq m ρ c) _

/-- The same with the per-example convolution stack named by its specification. -/
theorem ref_result
    (hconv : ∀ (x0 : Vec Ideal S1x16x128x1 .f32) (x1 : Vec Ideal S11x128 .f32) (x2 : Vec Ideal S1x128 .f32) (x3 : Vec Ideal S11x128x128 .f32) (x4 : Vec Ideal S1x128 .f32) (x5 : Vec Ideal S11x128x128 .f32) (x6 : Vec Ideal S1x128 .f32) (x7 : Vec Ideal S11x128x128 .f32) (x8 : Vec Ideal S1x128 .f32) (x9 : Vec Ideal S3x128 .f32) (x10 : Vec Ideal S1x1 .f32) (h : Fin 16) (w : Fin 128),
      out0_11 (F := Ideal) x0 x1 x2 x3 x4 x5 x6 x7 x8 x9 x10 (ix4 (0 : Fin 1) h w (0 : Fin 1)) = Cert.RefSpec.convOut x0 x1 x2 x3 x4 x5 x6 x7 x8 x9 x10 h w)
    (c : Dev nD) (b : Fin 2560) :
    ((dat1 (V3 m ρ) c).arrAt 5 cfg1.N : S2560x1.Idx → EReal) (ix2 b (0 : Fin 1))
      = (∑ o : Fin 100, Ideal.tanh ((∑ q : Fin 2048,
            Cert.RefSpec.convOut (fun i => (m ((c : Thread nD τ).loc main_arg0) : S2560x1x16x128.Idx → EReal) (ix4 b (0 : Fin 1) (i 1) (i 2)))
              (fun i => (m ((c : Thread nD τ).loc main_arg1) : S128x1x11x1.Idx → EReal) (ix4 (i 1) (0 : Fin 1) (i 0) (0 : Fin 1)))
              (fun i => (m ((c : Thread nD τ).loc main_arg2) : S128.Idx → EReal) (ix1 (i 1)))
              (fun i => (m ((c : Thread nD τ).loc main_arg3) : S128x128x11x1.Idx → EReal) (ix4 (i 2) (i 1) (i 0) (0 : Fin 1)))
              (fun i => (m ((c : Thread nD τ).loc main_arg4) : S128.Idx → EReal) (ix1 (i 1)))
              (fun i => (m ((c : Thread nD τ).loc main_arg5) : S128x128x11x1.Idx → EReal) (ix4 (i 2) (i 1) (i 0) (0 : Fin 1)))
              (fun i => (m ((c : Thread nD τ).loc main_arg6) : S128.Idx → EReal) (ix1 (i 1)))
              (fun i => (m ((c : Thread nD τ).loc main_arg7) : S128x128x11x1.Idx → EReal) (ix4 (i 2) (i 1) (i 0) (0 : Fin 1)))
              (fun i => (m ((c : Thread nD τ).loc main_arg8) : S128.Idx → EReal) (ix1 (i 1)))
              (fun i => (m ((c : Thread nD τ).loc main_arg9) : S1x128x3x1.Idx → EReal) (ix4 (0 : Fin 1) (i 1) (i 0) (0 : Fin 1)))
              (fun _ => (m ((c : Thread nD τ).loc main_arg10) : S1.Idx → EReal) (ix1 (0 : Fin 1)))
              (⟨q.val / 128, by have := q.isLt; omega⟩ : Fin 16) (⟨q.val % 128, Nat.mod_lt _ (by decide)⟩ : Fin 128)
            * (m ((c : Thread nD τ).loc main_arg11) : S100x2048.Idx → EReal) (ix2 o q))
          + (m ((c : Thread nD τ).loc main_arg12) : S100.Idx → EReal) (ix1 o)) * (m ((c : Thread nD τ).loc main_arg13) : S1x100.Idx → EReal) (ix2 (0 : Fin 1) o))
        + (m ((c : Thread nD τ).loc main_arg14) : S1.Idx → EReal) (ix1 (0 : Fin 1)) :=
  ref_result_of m ρ Cert.RefSpec.convOut hconv c b

end Cert.ReferenceIdeal.HostVal

end
-- ==== Proof.RefConv.lean ====
/-
  Layer 1 of the reference's convolution body, read at an index, over the extended reals.

  The body forms layer 1 as a left-to-right accumulation from zero of eleven products: rows d..d+5 of the
  16-row signal (one channel, broadcast along the 128 output channels) times row d of the tap array (broadcast
  along rows and sensors), then adds the bias row, applies tanh, and puts ten zero rows on top. Read at
  (row r, sensor w, channel c) this is the specification's `pad (c1 x0 x1 x2) r w c`; the eleven-term
  accumulation from zero is the finite sum over the taps.
-/
import proofs.«109392_g2000007139875455_pallasbulk_612_2_alg».proof.Proof.Gen.ReferenceIdeal.Frame
import proofs.«109392_g2000007139875455_pallasbulk_612_2_alg».proof.Proof.RefConvSpec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.ConvVal

open Idealize.ShloMosaic Idealize.ShloMosaic.ValueIdx Cert.ReferenceIdeal Cert.ReferenceIdeal.Gen

/-- A one-row load of a two-axis array read at column c is the array at (row, c). -/
theorem ld_row2 {n : Nat} (x : (⟨2, ![n, 128]⟩ : Shape).Idx → EReal) (off : Fin 2 → Nat)
    (inb : ∀ a, off a + (⟨2, ![1, 128]⟩ : Shape).size a ≤ (⟨2, ![n, 128]⟩ : Shape).size a)
    (d : Fin n) (h0 : off 0 = d.val) (h1 : off 1 = 0) (c : Fin 128) :
    View.ld (Val := Elt Ideal) (e' := .f32) x (Rect.unit off (⟨2, ![1, 128]⟩ : Shape).size inb) (ix2 0 c) = x (ix2 d c) := by
  show x _ = x _
  congr 1; funext a; apply Fin.ext
  match a with
  | ⟨0, _⟩ => show off 0 + 1 * 0 = d.val; omega
  | ⟨1, _⟩ => show off 1 + 1 * c.val = c.val; omega

/-- A sum of eleven terms as the left-to-right accumulation from zero. -/
theorem sum11 {M : Type*} [AddCommMonoid M] (f : Fin 11 → M) :
    ∑ i, f i = 0 + f 0 + f 1 + f 2 + f 3 + f 4 + f 5 + f 6 + f 7 + f 8 + f 9 + f 10 := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_castSucc, Fin.sum_univ_castSucc, Fin.sum_univ_castSucc, Fin.sum_univ_zero]
  rfl

/-- The broadcast zero scalar reads zero. -/
theorem zero_bcast_apply {s : Shape} (i : s.Idx) :
    (broadcast s (Scalar.ofBits (F := Ideal) .f32 0x00000000#32) : FVec Ideal s .f32) i = 0 := by
  show Ideal.ofBits .f32 0x00000000#32 = 0
  exact Ideal.ofBits_zero_f32

/-- The signal with its leading unit axis dropped. -/
theorem pay2_apply (v0 : Vec Ideal S1x16x128x1 .f32) (r : Fin 16) (w : Fin 128) :
    k0_pay2 v0 (ix3 r w 0) = v0 (ix4 0 r w 0) := by
  unfold k0_pay2
  refine (shapeCast_apply v0 _ (ix3 r w 0) (ix4 0 r w 0) ?_)
  rw [Shape.rowMajor_val_four, Shape.rowMajor_val_three]
  show (((0 : Fin 1).val * 16 + r.val) * 128 + w.val) * 1 + (0 : Fin 1).val = (r.val * 128 + w.val) * 1 + (0 : Fin 1).val
  simp

/-- Six consecutive rows of the 16-row signal, from row d. -/
theorem slice1_apply (X : FVec Ideal S16x128x1 .f32) (off : Fin 3 → Nat)
    (hs : S16x128x1.Slices off S6x128x1) (d : Nat) (h0 : off 0 = d) (h1 : off 1 = 0) (h2 : off 2 = 0)
    (h : Fin 6) (hd : h.val + d < 16) (w : Fin 128) :
    extractStridedSlice S6x128x1 off X hs (ix3 h w 0) = X (ix3 (⟨h.val + d, hd⟩ : Fin 16) w 0) := by
  refine extractStridedSlice_apply off X hs (ix3 h w 0) (ix3 (⟨h.val + d, hd⟩ : Fin 16) w 0) ?_
  intro a
  match a with
  | ⟨0, _⟩ => show h.val + d = off 0 + h.val; omega
  | ⟨1, _⟩ => show w.val = off 1 + w.val; omega
  | ⟨2, _⟩ => show (0 : Fin 1).val = off 2 + (0 : Fin 1).val; simp [h2]

/-- A one-channel activation broadcast along the channel axis. -/
theorem bcastC_apply (Y : FVec Ideal S6x128x1 .f32) (h : Fin 6) (w c : Fin 128) :
    broadcastTo S6x128x128 Y broadcasts_S6x128x1_S6x128x128 (ix3 h w c) = Y (ix3 h w 0) := by
  refine broadcastTo_apply _ _ (ix3 h w c) (ix3 h w 0) ?_
  intro a
  match a with
  | ⟨0, _⟩ => rfl
  | ⟨1, _⟩ => rfl
  | ⟨2, _⟩ => rfl

/-- A row of 128 channel values broadcast along rows and sensors. -/
theorem bcastRow_apply (v : Vec Ideal S1x128 .f32) (h : Fin 6) (w c : Fin 128) :
    broadcastTo S6x128x128 (shapeCast S1x1x128 (shapeCast S128 v shapeCasts_S1x128_S128) shapeCasts_S128_S1x1x128)
        broadcasts_S1x1x128_S6x128x128 (ix3 h w c) = v (ix2 0 c) := by
  refine (broadcastTo_apply _ _ (ix3 h w c) (ix3 0 0 c) ?_).trans ?_
  · intro a
    match a with
    | ⟨0, _⟩ => rfl
    | ⟨1, _⟩ => rfl
    | ⟨2, _⟩ => rfl
  · refine (shapeCast_apply _ _ (ix3 0 0 c) (ix1 c) ?_).trans ?_
    · rw [Shape.rowMajor_val_one, Shape.rowMajor_val_three]
      show c.val = ((0 : Fin 1).val * 1 + (0 : Fin 1).val) * 128 + c.val
      simp
    · refine shapeCast_apply v _ (ix1 c) (ix2 0 c) ?_
      rw [Shape.rowMajor_val_one, Shape.rowMajor_val_two]
      show (0 : Fin 1).val * 128 + c.val = c.val
      simp

/-- One tap of layer 1 taken from the 16-row signal. -/
theorem tap1_apply (X : FVec Ideal S16x128x1 .f32) (v : Vec Ideal S1x128 .f32) (off : Fin 3 → Nat)
    (hs : S16x128x1.Slices off S6x128x1) (d : Nat) (h0 : off 0 = d) (h1 : off 1 = 0) (h2 : off 2 = 0)
    (h : Fin 6) (hd : h.val + d < 16) (w c : Fin 128) :
    mulf (broadcastTo S6x128x128 (extractStridedSlice S6x128x1 off X hs) broadcasts_S6x128x1_S6x128x128)
      (broadcastTo S6x128x128 (shapeCast S1x1x128 (shapeCast S128 v shapeCasts_S1x128_S128) shapeCasts_S128_S1x1x128)
        broadcasts_S1x1x128_S6x128x128) (ix3 h w c)
      = X (ix3 (⟨h.val + d, hd⟩ : Fin 16) w 0) * v (ix2 0 c) := by
  rw [mulf_apply, bcastC_apply, bcastRow_apply, slice1_apply X off hs d h0 h1 h2 h hd w]

/-- Taps 0..4 of layer 1, accumulated left to right from zero. -/
theorem pay3_apply (v0 : Vec Ideal S1x16x128x1 .f32) (v4 v12 v20 v28 v36 : Vec Ideal S1x128 .f32)
    (h : Fin 6) (w c : Fin 128) :
    k0_pay3 v0 v4 v12 v20 v28 v36 (ix3 h w c)
      = 0 + k0_pay2 v0 (ix3 (⟨h.val + 0, by omega⟩ : Fin 16) w 0) * v4 (ix2 0 c)
          + k0_pay2 v0 (ix3 (⟨h.val + 1, by omega⟩ : Fin 16) w 0) * v12 (ix2 0 c)
          + k0_pay2 v0 (ix3 (⟨h.val + 2, by omega⟩ : Fin 16) w 0) * v20 (ix2 0 c)
          + k0_pay2 v0 (ix3 (⟨h.val + 3, by omega⟩ : Fin 16) w 0) * v28 (ix2 0 c)
          + k0_pay2 v0 (ix3 (⟨h.val + 4, by omega⟩ : Fin 16) w 0) * v36 (ix2 0 c) := by
  unfold k0_pay3
  simp only [addf_apply]
  refine congrArg₂ (· + ·) (congrArg₂ (· + ·) (congrArg₂ (· + ·) (congrArg₂ (· + ·) (congrArg₂ (· + ·) ?_ ?_) ?_) ?_) ?_) ?_
  · exact zero_bcast_apply _
  · exact tap1_apply _ _ _ _ 0 rfl rfl rfl h (by omega) w c
  · exact tap1_apply _ _ _ _ 1 rfl rfl rfl h (by omega) w c
  · exact tap1_apply _ _ _ _ 2 rfl rfl rfl h (by omega) w c
  · exact tap1_apply _ _ _ _ 3 rfl rfl rfl h (by omega) w c
  · exact tap1_apply _ _ _ _ 4 rfl rfl rfl h (by omega) w c

/-- Rows 5..10 of the signal. -/
theorem pay4_apply (v0 : Vec Ideal S1x16x128x1 .f32) (h : Fin 6) (w : Fin 128) :
    k0_pay4 v0 (ix3 h w 0) = k0_pay2 v0 (ix3 (⟨h.val + 5, by omega⟩ : Fin 16) w 0) := by
  unfold k0_pay4
  exact slice1_apply _ _ _ 5 rfl rfl rfl h (by omega) w

/-- Taps 5..10 of layer 1 added to the running accumulation. -/
theorem pay5_apply (v1 : FVec Ideal S16x128x1 .f32) (v42 : FVec Ideal S6x128x128 .f32) (v43 : FVec Ideal S6x128x1 .f32)
    (v44 v52 v60 v68 v76 v84 : Vec Ideal S1x128 .f32) (h : Fin 6) (w c : Fin 128) :
    k0_pay5 v1 v42 v43 v44 v52 v60 v68 v76 v84 (ix3 h w c)
      = v42 (ix3 h w c) + v43 (ix3 h w 0) * v44 (ix2 0 c)
          + v1 (ix3 (⟨h.val + 6, by omega⟩ : Fin 16) w 0) * v52 (ix2 0 c)
          + v1 (ix3 (⟨h.val + 7, by omega⟩ : Fin 16) w 0) * v60 (ix2 0 c)
          + v1 (ix3 (⟨h.val + 8, by omega⟩ : Fin 16) w 0) * v68 (ix2 0 c)
          + v1 (ix3 (⟨h.val + 9, by omega⟩ : Fin 16) w 0) * v76 (ix2 0 c)
          + v1 (ix3 (⟨h.val + 10, by omega⟩ : Fin 16) w 0) * v84 (ix2 0 c) := by
  unfold k0_pay5
  simp only [addf_apply]
  refine congrArg₂ (· + ·) (congrArg₂ (· + ·) (congrArg₂ (· + ·) (congrArg₂ (· + ·) (congrArg₂ (· + ·) (congrArg₂ (· + ·) rfl ?_) ?_) ?_) ?_) ?_) ?_
  · rw [mulf_apply, bcastC_apply, bcastRow_apply]
  · exact tap1_apply _ _ _ _ 6 rfl rfl rfl h (by omega) w c
  · exact tap1_apply _ _ _ _ 7 rfl rfl rfl h (by omega) w c
  · exact tap1_apply _ _ _ _ 8 rfl rfl rfl h (by omega) w c
  · exact tap1_apply _ _ _ _ 9 rfl rfl rfl h (by omega) w c
  · exact tap1_apply _ _ _ _ 10 rfl rfl rfl h (by omega) w c

/-- A bias row broadcast along rows and sensors. -/
theorem bcastBias_apply (v : Vec Ideal S1x128 .f32) (h : Fin 6) (w c : Fin 128) :
    broadcastTo S6x128x128 (shapeCast S1x1x128 (shapeCast S1x128 v shapeCasts_S1x128_S1x128) shapeCasts_S1x128_S1x1x128)
        broadcasts_S1x1x128_S6x128x128 (ix3 h w c) = v (ix2 0 c) := by
  refine (broadcastTo_apply _ _ (ix3 h w c) (ix3 0 0 c) ?_).trans ?_
  · intro a
    match a with
    | ⟨0, _⟩ => rfl
    | ⟨1, _⟩ => rfl
    | ⟨2, _⟩ => rfl
  · refine (shapeCast_apply _ _ (ix3 0 0 c) (ix2 0 c) ?_).trans ?_
    · rw [Shape.rowMajor_val_two, Shape.rowMajor_val_three]
      show (0 : Fin 1).val * 128 + c.val = ((0 : Fin 1).val * 1 + (0 : Fin 1).val) * 128 + c.val
      simp
    · rw [shapeCast_self]

/-- Ten zero rows on top of six rows. -/
theorem padTop_apply (A : FVec Ideal S6x128x128 .f32) (r : Fin 16) (w c : Fin 128) :
    concatenate S16x128x128 0 [⟨S10x128x128, broadcast S10x128x128 (Scalar.ofBits (F := Ideal) .f32 0x00000000#32)⟩, ⟨S6x128x128, A⟩]
        concatenates_S10x128x128_S6x128x128_S16x128x128_d0 (ix3 r w c)
      = if hr : 10 ≤ r.val then A (ix3 (⟨r.val - 10, by omega⟩ : Fin 6) w c) else 0 := by
  by_cases hr : 10 ≤ r.val
  · rw [dif_pos hr]
    refine concatenate_pair_apply_right (t := S16x128x128) (s₁ := S10x128x128) (s₂ := S6x128x128) 0 _ _ _ (ix3 r w c) rfl rfl (ix3 (⟨r.val - 10, by omega⟩ : Fin 6) w c) ?_ ?_
    · intro b hb
      match b with
      | ⟨0, _⟩ => exact absurd rfl hb
      | ⟨1, _⟩ => rfl
      | ⟨2, _⟩ => rfl
    · show r.val - 10 + 10 = r.val
      omega
  · rw [dif_neg hr]
    refine (concatenate_pair_apply_left (t := S16x128x128) (s₁ := S10x128x128) (s₂ := S6x128x128) 0 _ _ _ (ix3 r w c) rfl (ix3 (⟨r.val, by omega⟩ : Fin 10) w c) ?_).trans (zero_bcast_apply _)
    intro b
    match b with
    | ⟨0, _⟩ => rfl
    | ⟨1, _⟩ => rfl
    | ⟨2, _⟩ => rfl

/-- Layer 1's bias, tanh and the ten zero rows on top. -/
theorem pay6_apply (v90 : FVec Ideal S6x128x128 .f32) (v91 : Vec Ideal S1x128 .f32) (r : Fin 16) (w c : Fin 128) :
    k0_pay6 v90 v91 (ix3 r w c)
      = if hr : 10 ≤ r.val then Ideal.tanh (v90 (ix3 (⟨r.val - 10, by omega⟩ : Fin 6) w c) + v91 (ix2 0 c)) else 0 := by
  unfold k0_pay6
  refine (padTop_apply _ r w c).trans ?_
  by_cases hr : 10 ≤ r.val
  · rw [dif_pos hr, dif_pos hr]
    show Ideal.tanh ((addf _ _ : FVec Ideal S6x128x128 .f32) (ix3 _ w c)) = _
    rw [addf_apply, bcastBias_apply]
  · rw [dif_neg hr, dif_neg hr]

theorem hz4 : (![0, 0, 0, 0] : Fin 4 → Nat) = fun _ => 0 := by
  funext a; fin_cases a <;> rfl
theorem hz2 : (![0, 0] : Fin 2 → Nat) = fun _ => 0 := by
  funext a; fin_cases a <;> rfl

theorem ldx1_0 (x1 : Vec Ideal S11x128 .f32) (c : Fin 128) : View.ld x1 r0_1 (ix2 0 c) = x1 (ix2 0 c) :=
  ld_row2 x1 _ _ 0 rfl rfl c
theorem ldx1_1 (x1 : Vec Ideal S11x128 .f32) (c : Fin 128) : View.ld x1 r0_2 (ix2 0 c) = x1 (ix2 1 c) :=
  ld_row2 x1 _ _ 1 rfl rfl c
theorem ldx1_2 (x1 : Vec Ideal S11x128 .f32) (c : Fin 128) : View.ld x1 r0_3 (ix2 0 c) = x1 (ix2 2 c) :=
  ld_row2 x1 _ _ 2 rfl rfl c
theorem ldx1_3 (x1 : Vec Ideal S11x128 .f32) (c : Fin 128) : View.ld x1 r0_4 (ix2 0 c) = x1 (ix2 3 c) :=
  ld_row2 x1 _ _ 3 rfl rfl c
theorem ldx1_4 (x1 : Vec Ideal S11x128 .f32) (c : Fin 128) : View.ld x1 r0_5 (ix2 0 c) = x1 (ix2 4 c) :=
  ld_row2 x1 _ _ 4 rfl rfl c
theorem ldx1_5 (x1 : Vec Ideal S11x128 .f32) (c : Fin 128) : View.ld x1 r0_6 (ix2 0 c) = x1 (ix2 5 c) :=
  ld_row2 x1 _ _ 5 rfl rfl c
theorem ldx1_6 (x1 : Vec Ideal S11x128 .f32) (c : Fin 128) : View.ld x1 r0_7 (ix2 0 c) = x1 (ix2 6 c) :=
  ld_row2 x1 _ _ 6 rfl rfl c
theorem ldx1_7 (x1 : Vec Ideal S11x128 .f32) (c : Fin 128) : View.ld x1 r0_8 (ix2 0 c) = x1 (ix2 7 c) :=
  ld_row2 x1 _ _ 7 rfl rfl c
theorem ldx1_8 (x1 : Vec Ideal S11x128 .f32) (c : Fin 128) : View.ld x1 r0_9 (ix2 0 c) = x1 (ix2 8 c) :=
  ld_row2 x1 _ _ 8 rfl rfl c
theorem ldx1_9 (x1 : Vec Ideal S11x128 .f32) (c : Fin 128) : View.ld x1 r0_10 (ix2 0 c) = x1 (ix2 9 c) :=
  ld_row2 x1 _ _ 9 rfl rfl c
theorem ldx1_10 (x1 : Vec Ideal S11x128 .f32) (c : Fin 128) : View.ld x1 r0_11 (ix2 0 c) = x1 (ix2 10 c) :=
  ld_row2 x1 _ _ 10 rfl rfl c

/-- Layer 1 before the bias: the eleven taps accumulated over the loaded signal and tap rows. -/
def acc1 (x0 : Vec Ideal S1x16x128x1 .f32) (x1 : Vec Ideal S11x128 .f32) : FVec Ideal S6x128x128 .f32 :=
  k0_pay5 (k0_pay2 (View.ld x0 r0_0))
    (k0_pay3 (View.ld x0 r0_0) (View.ld x1 r0_1) (View.ld x1 r0_2) (View.ld x1 r0_3) (View.ld x1 r0_4) (View.ld x1 r0_5))
    (k0_pay4 (View.ld x0 r0_0)) (View.ld x1 r0_6) (View.ld x1 r0_7) (View.ld x1 r0_8) (View.ld x1 r0_9) (View.ld x1 r0_10)
    (View.ld x1 r0_11)

/-- Layer 1's activation under ten zero rows. -/
def act1 (x0 : Vec Ideal S1x16x128x1 .f32) (x1 : Vec Ideal S11x128 .f32) (x2 : Vec Ideal S1x128 .f32) :
    FVec Ideal S16x128x128 .f32 :=
  k0_pay6 (acc1 x0 x1) (View.ld x2 r0_12)

theorem acc1_apply (x0 : Vec Ideal S1x16x128x1 .f32) (x1 : Vec Ideal S11x128 .f32) (h : Fin 6) (w c : Fin 128) :
    acc1 x0 x1 (ix3 h w c)
      = ∑ dk : Fin 11, x0 (ix4 0 (⟨h.val + dk.val, by omega⟩ : Fin 16) w 0) * x1 (ix2 dk c) := by
  unfold acc1
  rw [pay5_apply, pay3_apply, pay4_apply, sum11]
  rw [ldx1_0, ldx1_1, ldx1_2, ldx1_3, ldx1_4, ldx1_5, ldx1_6, ldx1_7, ldx1_8, ldx1_9, ldx1_10]
  simp only [pay2_apply, View.ld_unit_zero (S := S1x16x128x1) hz4]
  rfl

theorem act1_apply (x0 : Vec Ideal S1x16x128x1 .f32) (x1 : Vec Ideal S11x128 .f32) (x2 : Vec Ideal S1x128 .f32)
    (r : Fin 16) (w c : Fin 128) :
    act1 x0 x1 x2 (ix3 r w c) = Cert.RefSpec.pad (Cert.RefSpec.c1 x0 x1 x2) r w c := by
  unfold act1 Cert.RefSpec.pad
  rw [pay6_apply]
  by_cases hr : 10 ≤ r.val
  · rw [dif_pos hr, dif_pos hr, acc1_apply, View.ld_unit_zero (S := S1x128) hz2]
    rfl
  · rw [dif_neg hr, dif_neg hr]

end Cert.ReferenceIdeal.ConvVal

end
-- ==== Proof.RefConv2.lean ====
/-
  Layers 2 to 4 of the reference's convolution body: the shared readings, and layer 2.

  A 128-to-128 layer takes the previous activation under ten zero rows (16 rows), and for each tap d multiplies
  rows d..d+5, flattened to 768 rows of 128 channels, by the tap's 128 by 128 matrix; the eleven products are
  accumulated left to right, the bias row is added, tanh is applied, the 768 rows are read back as 6 rows by 128
  sensors, and ten zero rows go on top again. Read at (row, sensor, channel) this is the specification's
  `pad (cN a X b)`, given that the input activation reads `pad a`. A matrix product read at (row n, column co)
  is the accumulator there plus the sum over the 128 contracted channels; flat row h*128+w is (row h, sensor w).
-/
import proofs.«109392_g2000007139875455_pallasbulk_612_2_alg».proof.Proof.Gen.ReferenceIdeal.Frame
import proofs.«109392_g2000007139875455_pallasbulk_612_2_alg».proof.Proof.RefConvSpec
import proofs.«109392_g2000007139875455_pallasbulk_612_2_alg».proof.Proof.RefConv
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.ConvVal

open Idealize.ShloMosaic Idealize.ShloMosaic.ValueIdx Cert.ReferenceIdeal Cert.ReferenceIdeal.Gen

/-- The 768 by 128 times 128 by 128 matrix product into an accumulator, at (row n, column co). -/
theorem mm_apply (L : FVec Ideal S768x128 .f32) (R : FVec Ideal S128x128 .f32) (acc : FVec Ideal S768x128 .f32)
    (n : Fin 768) (co : Fin 128) :
    matmul dot_S768x128_S128x128_S768x128_1_0_0_1_n_n none L R acc (ix2 n co)
      = acc (ix2 n co) + ∑ ci : Fin 128, L (ix2 n ci) * R (ix2 ci co) := by
  show FloatOps.matmul dot_S768x128_S128x128_S768x128_1_0_0_1_n_n none L R acc (ix2 n co) = _
  rw [Ideal.matmul_apply, ← Equiv.sum_comp (contrEquiv1 dot_S768x128_S128x128_S768x128_1_0_0_1_n_n 128 rfl rfl).symm]
  refine congrArg (acc (ix2 n co) + ·) (Finset.sum_congr rfl fun c _ => ?_)
  have c2 := contrEquiv1_symm_val dot_S768x128_S128x128_S768x128_1_0_0_1_n_n 128 rfl rfl c
  have l2 : dot_S768x128_S128x128_S768x128_1_0_0_1_n_n.lhsIdx (ix2 n co)
      ((contrEquiv1 dot_S768x128_S128x128_S768x128_1_0_0_1_n_n 128 rfl rfl).symm c) = ix2 n c := by
    funext ax; apply Fin.ext
    match ax with
    | ⟨0, _⟩ => simp [DotDims.lhsIdx, dot_S768x128_S128x128_S768x128_1_0_0_1_n_n]; rfl
    | ⟨1, _⟩ => simp [DotDims.lhsIdx, dot_S768x128_S128x128_S768x128_1_0_0_1_n_n]; exact c2
  have r2 : dot_S768x128_S128x128_S768x128_1_0_0_1_n_n.rhsIdx (ix2 n co)
      ((contrEquiv1 dot_S768x128_S128x128_S768x128_1_0_0_1_n_n 128 rfl rfl).symm c) = ix2 c co := by
    funext ax; apply Fin.ext
    match ax with
    | ⟨0, _⟩ => simp [DotDims.rhsIdx, dot_S768x128_S128x128_S768x128_1_0_0_1_n_n]; exact c2
    | ⟨1, _⟩ => simp [DotDims.rhsIdx, dot_S768x128_S128x128_S768x128_1_0_0_1_n_n]; rfl
  rw [l2, r2]

/-- Six consecutive rows of a 16-row activation from row d, with rows and sensors flattened: flat row h*128+w. -/
theorem sliceFlat_apply (P : FVec Ideal S16x128x128 .f32) (off : Fin 3 → Nat)
    (hs : S16x128x128.Slices off S6x128x128) (d : Nat) (h0 : off 0 = d) (h1 : off 1 = 0) (h2 : off 2 = 0)
    (h : Fin 6) (hd : h.val + d < 16) (w ci : Fin 128) :
    shapeCast S768x128 (extractStridedSlice S6x128x128 off P hs) shapeCasts_S6x128x128_S768x128
        (ix2 (⟨h.val * 128 + w.val, by omega⟩ : Fin 768) ci)
      = P (ix3 (⟨h.val + d, hd⟩ : Fin 16) w ci) := by
  refine (shapeCast_apply _ _ (ix2 (⟨h.val * 128 + w.val, by omega⟩ : Fin 768) ci) (ix3 h w ci) ?_).trans ?_
  · rw [Shape.rowMajor_val_three, Shape.rowMajor_val_two]
    rfl
  · refine extractStridedSlice_apply off P hs (ix3 h w ci) (ix3 (⟨h.val + d, hd⟩ : Fin 16) w ci) ?_
    intro a
    match a with
    | ⟨0, _⟩ => show h.val + d = off 0 + h.val; omega
    | ⟨1, _⟩ => show w.val = off 1 + w.val; omega
    | ⟨2, _⟩ => show ci.val = off 2 + ci.val; omega

/-- One tap's 128 by 128 matrix with its leading unit axis dropped. -/
theorem wFlat_apply (W : Vec Ideal S1x128x128 .f32) (ci co : Fin 128) :
    shapeCast S128x128 W shapeCasts_S1x128x128_S128x128 (ix2 ci co) = W (ix3 0 ci co) := by
  refine shapeCast_apply W _ (ix2 ci co) (ix3 0 ci co) ?_
  rw [Shape.rowMajor_val_three, Shape.rowMajor_val_two]
  show ((0 : Fin 1).val * 128 + ci.val) * 128 + co.val = ci.val * 128 + co.val
  simp

/-- One tap of a 128-to-128 layer into the zero accumulator: rows d..d+5 of the padded activation, flattened,
    times the tap's matrix. -/
theorem tapMM0_apply (P : FVec Ideal S16x128x128 .f32) (W : Vec Ideal S1x128x128 .f32) (off : Fin 3 → Nat)
    (hs : S16x128x128.Slices off S6x128x128) (d : Nat) (h0 : off 0 = d) (h1 : off 1 = 0) (h2 : off 2 = 0)
    (h : Fin 6) (hd : h.val + d < 16) (w co : Fin 128) :
    matmul dot_S768x128_S128x128_S768x128_1_0_0_1_n_n none
        (shapeCast S768x128 (extractStridedSlice S6x128x128 off P hs) shapeCasts_S6x128x128_S768x128)
        (shapeCast S128x128 W shapeCasts_S1x128x128_S128x128 : FVec Ideal S128x128 .f32) (constant S768x128 .f32 0x00000000#32)
        (ix2 (⟨h.val * 128 + w.val, by omega⟩ : Fin 768) co)
      = ∑ ci : Fin 128, P (ix3 (⟨h.val + d, hd⟩ : Fin 16) w ci) * W (ix3 0 ci co) := by
  rw [mm_apply, constant_apply, Ideal.ofBits_zero_f32, zero_add]
  refine Finset.sum_congr rfl fun ci _ => ?_
  rw [sliceFlat_apply P off hs d h0 h1 h2 h hd w ci, wFlat_apply]

/-- A flattened activation times one tap's matrix into the zero accumulator. -/
theorem preMM0_apply (L : FVec Ideal S768x128 .f32) (W : Vec Ideal S1x128x128 .f32) (n : Fin 768) (co : Fin 128) :
    matmul dot_S768x128_S128x128_S768x128_1_0_0_1_n_n none L
        (shapeCast S128x128 W shapeCasts_S1x128x128_S128x128 : FVec Ideal S128x128 .f32) (constant S768x128 .f32 0x00000000#32) (ix2 n co)
      = ∑ ci : Fin 128, L (ix2 n ci) * W (ix3 0 ci co) := by
  rw [mm_apply, constant_apply, Ideal.ofBits_zero_f32, zero_add]
  refine Finset.sum_congr rfl fun ci _ => ?_
  rw [wFlat_apply]

/-- The flat (768, 128) activation read back as (6, 128, 128): row h, sensor w is flat row h*128+w. -/
theorem unflat_apply (V : FVec Ideal S768x128 .f32) (h : Fin 6) (w c : Fin 128) :
    shapeCast S6x128x128 V shapeCasts_S768x128_S6x128x128 (ix3 h w c)
      = V (ix2 (⟨h.val * 128 + w.val, by omega⟩ : Fin 768) c) := by
  refine shapeCast_apply V _ (ix3 h w c) (ix2 (⟨h.val * 128 + w.val, by omega⟩ : Fin 768) c) ?_
  rw [Shape.rowMajor_val_three, Shape.rowMajor_val_two]
  rfl

/-- A bias row broadcast along the 768 flat rows. -/
theorem bcastBias2_apply (b : Vec Ideal S1x128 .f32) (n : Fin 768) (c : Fin 128) :
    broadcastTo S768x128 (shapeCast S1x128 b shapeCasts_S1x128_S1x128) broadcasts_S1x128_S768x128 (ix2 n c)
      = b (ix2 0 c) := by
  refine (broadcastTo_apply _ _ (ix2 n c) (ix2 0 c) ?_).trans ?_
  · intro a
    match a with
    | ⟨0, _⟩ => rfl
    | ⟨1, _⟩ => rfl
  · rw [shapeCast_self]

/-- Layer 2, taps 0..3, accumulated from zero. -/
theorem pay7_apply (v90 : FVec Ideal S6x128x128 .f32) (v91 : Vec Ideal S1x128 .f32)
    (W0 W1 W2 W3 : Vec Ideal S1x128x128 .f32) (h : Fin 6) (w co : Fin 128) :
    k0_pay7 v90 v91 W0 W1 W2 W3 (ix2 (⟨h.val * 128 + w.val, by omega⟩ : Fin 768) co)
      = 0 + (∑ ci : Fin 128, k0_pay6 v90 v91 (ix3 (⟨h.val + 0, by omega⟩ : Fin 16) w ci) * W0 (ix3 0 ci co))
          + (∑ ci : Fin 128, k0_pay6 v90 v91 (ix3 (⟨h.val + 1, by omega⟩ : Fin 16) w ci) * W1 (ix3 0 ci co))
          + (∑ ci : Fin 128, k0_pay6 v90 v91 (ix3 (⟨h.val + 2, by omega⟩ : Fin 16) w ci) * W2 (ix3 0 ci co))
          + (∑ ci : Fin 128, k0_pay6 v90 v91 (ix3 (⟨h.val + 3, by omega⟩ : Fin 16) w ci) * W3 (ix3 0 ci co)) := by
  unfold k0_pay7
  simp only [addf_apply]
  refine congrArg₂ (· + ·) (congrArg₂ (· + ·) (congrArg₂ (· + ·) (congrArg₂ (· + ·) ?_ ?_) ?_) ?_) ?_
  · exact zero_bcast_apply _
  · exact tapMM0_apply _ _ _ _ 0 rfl rfl rfl h (by omega) w co
  · exact tapMM0_apply _ _ _ _ 1 rfl rfl rfl h (by omega) w co
  · exact tapMM0_apply _ _ _ _ 2 rfl rfl rfl h (by omega) w co
  · exact tapMM0_apply _ _ _ _ 3 rfl rfl rfl h (by omega) w co

/-- Layer 2, rows 4..9 of the padded activation, flattened. -/
theorem pay8_apply (v90 : FVec Ideal S6x128x128 .f32) (v91 : Vec Ideal S1x128 .f32) (h : Fin 6) (w ci : Fin 128) :
    k0_pay8 v90 v91 (ix2 (⟨h.val * 128 + w.val, by omega⟩ : Fin 768) ci)
      = k0_pay6 v90 v91 (ix3 (⟨h.val + 4, by omega⟩ : Fin 16) w ci) := by
  unfold k0_pay8
  exact sliceFlat_apply _ _ _ 4 rfl rfl rfl h (by omega) w ci

theorem pay9_apply (W : Vec Ideal S1x128x128 .f32) (ci co : Fin 128) :
    k0_pay9 W (ix2 ci co) = W (ix3 0 ci co) := by
  unfold k0_pay9
  exact wFlat_apply W ci co

theorem pay12_apply (W : Vec Ideal S1x128x128 .f32) (ci co : Fin 128) :
    k0_pay12 W (ix2 ci co) = W (ix3 0 ci co) := by
  unfold k0_pay12
  exact wFlat_apply W ci co

/-- Layer 2, tap 4 and taps 5..9 added to the running accumulation. -/
theorem pay10_apply (P : FVec Ideal S16x128x128 .f32) (v123 v125 : FVec Ideal S768x128 .f32)
    (v127 : FVec Ideal S128x128 .f32) (z : FVec Ideal S768x128 .f32)
    (W5 W6 W7 W8 W9 : Vec Ideal S1x128x128 .f32) (h : Fin 6) (w co : Fin 128) :
    k0_pay10 P v123 v125 v127 z W5 W6 W7 W8 W9 (ix2 (⟨h.val * 128 + w.val, by omega⟩ : Fin 768) co)
      = v123 (ix2 (⟨h.val * 128 + w.val, by omega⟩ : Fin 768) co) + (z (ix2 (⟨h.val * 128 + w.val, by omega⟩ : Fin 768) co) + ∑ ci : Fin 128, v125 (ix2 (⟨h.val * 128 + w.val, by omega⟩ : Fin 768) ci) * v127 (ix2 ci co))
          + (∑ ci : Fin 128, P (ix3 (⟨h.val + 5, by omega⟩ : Fin 16) w ci) * W5 (ix3 0 ci co))
          + (∑ ci : Fin 128, P (ix3 (⟨h.val + 6, by omega⟩ : Fin 16) w ci) * W6 (ix3 0 ci co))
          + (∑ ci : Fin 128, P (ix3 (⟨h.val + 7, by omega⟩ : Fin 16) w ci) * W7 (ix3 0 ci co))
          + (∑ ci : Fin 128, P (ix3 (⟨h.val + 8, by omega⟩ : Fin 16) w ci) * W8 (ix3 0 ci co))
          + (∑ ci : Fin 128, P (ix3 (⟨h.val + 9, by omega⟩ : Fin 16) w ci) * W9 (ix3 0 ci co)) := by
  unfold k0_pay10
  simp only [addf_apply]
  refine congrArg₂ (· + ·) (congrArg₂ (· + ·) (congrArg₂ (· + ·) (congrArg₂ (· + ·) (congrArg₂ (· + ·) (congrArg₂ (· + ·) rfl ?_) ?_) ?_) ?_) ?_) ?_
  · exact mm_apply _ _ _ _ _
  · exact tapMM0_apply _ _ _ _ 5 rfl rfl rfl h (by omega) w co
  · exact tapMM0_apply _ _ _ _ 6 rfl rfl rfl h (by omega) w co
  · exact tapMM0_apply _ _ _ _ 7 rfl rfl rfl h (by omega) w co
  · exact tapMM0_apply _ _ _ _ 8 rfl rfl rfl h (by omega) w co
  · exact tapMM0_apply _ _ _ _ 9 rfl rfl rfl h (by omega) w co

/-- Layer 2, rows 10..15 of the padded activation, flattened. -/
theorem pay11_apply (P : FVec Ideal S16x128x128 .f32) (h : Fin 6) (w ci : Fin 128) :
    k0_pay11 P (ix2 (⟨h.val * 128 + w.val, by omega⟩ : Fin 768) ci)
      = P (ix3 (⟨h.val + 10, by omega⟩ : Fin 16) w ci) := by
  unfold k0_pay11
  exact sliceFlat_apply _ _ _ 10 rfl rfl rfl h (by omega) w ci

/-- Layer 2's last tap, bias, tanh, and the ten zero rows on top. -/
theorem pay13_apply (v159 v161 : FVec Ideal S768x128 .f32) (v163 : FVec Ideal S128x128 .f32)
    (z : FVec Ideal S768x128 .f32) (b : Vec Ideal S1x128 .f32) (r : Fin 16) (w c : Fin 128) :
    k0_pay13 v159 v161 v163 z b (ix3 r w c)
      = if hr : 10 ≤ r.val then
          Ideal.tanh (v159 (ix2 (⟨(r.val - 10) * 128 + w.val, by omega⟩ : Fin 768) c)
            + (z (ix2 (⟨(r.val - 10) * 128 + w.val, by omega⟩ : Fin 768) c)
              + ∑ ci : Fin 128, v161 (ix2 (⟨(r.val - 10) * 128 + w.val, by omega⟩ : Fin 768) ci) * v163 (ix2 ci c))
            + b (ix2 0 c))
        else 0 := by
  unfold k0_pay13
  refine (padTop_apply _ r w c).trans ?_
  by_cases hr : 10 ≤ r.val
  · rw [dif_pos hr, dif_pos hr, unflat_apply]
    show Ideal.tanh ((addf (addf _ _) _ : FVec Ideal S768x128 .f32) (ix2 _ c)) = _
    rw [addf_apply, addf_apply, bcastBias2_apply, mm_apply]
  · rw [dif_neg hr, dif_neg hr]

/-- The padded activation at row h+10 is the activation at row h. -/
theorem pad_pos (a : Fin 6 → Fin 128 → Fin 128 → EReal) (h : Fin 6) (w c : Fin 128) :
    Cert.RefSpec.pad a (⟨h.val + 10, by omega⟩ : Fin 16) w c = a h w c := by
  unfold Cert.RefSpec.pad
  rw [dif_pos (show 10 ≤ h.val + 10 from Nat.le_add_left _ _)]
  exact congrArg (fun x => a x w c) (Fin.ext (show h.val + 10 - 10 = h.val by omega))

/-- The padded activation below row 10 is zero. -/
theorem pad_neg (a : Fin 6 → Fin 128 → Fin 128 → EReal) (r : Fin 16) (hr : r.val < 10) (w c : Fin 128) :
    Cert.RefSpec.pad a r w c = 0 := by
  unfold Cert.RefSpec.pad
  rw [dif_neg (by omega)]

/-- Every row of 16 is below 10 or is h+10 for a row h of 6. -/
theorem row_cases (r : Fin 16) : r.val < 10 ∨ ∃ h : Fin 6, r = (⟨h.val + 10, by omega⟩ : Fin 16) := by
  by_cases hr : r.val < 10
  · exact Or.inl hr
  · exact Or.inr ⟨⟨r.val - 10, by omega⟩, Fin.ext (by show r.val = r.val - 10 + 10; omega)⟩

/-- Ten zero rows on top of six rows, read at row h+10. -/
theorem padTop_pos (A : FVec Ideal S6x128x128 .f32) (h : Fin 6) (w c : Fin 128) :
    concatenate S16x128x128 0 [⟨S10x128x128, broadcast S10x128x128 (Scalar.ofBits (F := Ideal) .f32 0x00000000#32)⟩, ⟨S6x128x128, A⟩]
        concatenates_S10x128x128_S6x128x128_S16x128x128_d0 (ix3 (⟨h.val + 10, by omega⟩ : Fin 16) w c)
      = A (ix3 h w c) := by
  refine concatenate_pair_apply_right (t := S16x128x128) (s₁ := S10x128x128) (s₂ := S6x128x128) 0 _ _ _
    (ix3 (⟨h.val + 10, by omega⟩ : Fin 16) w c) rfl rfl (ix3 h w c) ?_ ?_
  · intro b hb
    match b with
    | ⟨0, _⟩ => exact absurd rfl hb
    | ⟨1, _⟩ => rfl
    | ⟨2, _⟩ => rfl
  · rfl

/-- Ten zero rows on top of six rows, read below row 10. -/
theorem padTop_neg (A : FVec Ideal S6x128x128 .f32) (r : Fin 16) (hr : r.val < 10) (w c : Fin 128) :
    concatenate S16x128x128 0 [⟨S10x128x128, broadcast S10x128x128 (Scalar.ofBits (F := Ideal) .f32 0x00000000#32)⟩, ⟨S6x128x128, A⟩]
        concatenates_S10x128x128_S6x128x128_S16x128x128_d0 (ix3 r w c) = 0 := by
  rw [padTop_apply, dif_neg (by omega)]

/-- Tap k of a (11, 128, 128) tap array as one (1, 128, 128) matrix. -/
def rowN (X : Vec Ideal S11x128x128 .f32) (k : Fin 11) : Vec Ideal S1x128x128 .f32 :=
  fun j => X (ix3 k (j 1) (j 2))

/-- A one-tap load of the tap array is that tap's matrix. -/
theorem ld_rowN (X : Vec Ideal S11x128x128 .f32) (off : Fin 3 → Nat)
    (inb : ∀ a, off a + S1x128x128.size a ≤ S11x128x128.size a)
    (k : Fin 11) (h0 : off 0 = k.val) (h1 : off 1 = 0) (h2 : off 2 = 0) :
    View.ld X (Rect.unit off S1x128x128.size inb) = rowN X k := by
  funext j
  show X _ = X _
  congr 1; funext a; apply Fin.ext
  match a with
  | ⟨0, _⟩ =>
    have hj : (j 0).val < 1 := (j 0).isLt
    show off 0 + 1 * (j 0).val = k.val
    omega
  | ⟨1, _⟩ => show off 1 + 1 * (j 1).val = (j 1).val; omega
  | ⟨2, _⟩ => show off 2 + 1 * (j 2).val = (j 2).val; omega

theorem ldxN_0 (X : Vec Ideal S11x128x128 .f32) : View.ld X r0_13 = rowN X 0 :=
  ld_rowN X _ _ 0 rfl rfl rfl
theorem ldxN_1 (X : Vec Ideal S11x128x128 .f32) : View.ld X r0_14 = rowN X 1 :=
  ld_rowN X _ _ 1 rfl rfl rfl
theorem ldxN_2 (X : Vec Ideal S11x128x128 .f32) : View.ld X r0_15 = rowN X 2 :=
  ld_rowN X _ _ 2 rfl rfl rfl
theorem ldxN_3 (X : Vec Ideal S11x128x128 .f32) : View.ld X r0_16 = rowN X 3 :=
  ld_rowN X _ _ 3 rfl rfl rfl
theorem ldxN_4 (X : Vec Ideal S11x128x128 .f32) : View.ld X r0_17 = rowN X 4 :=
  ld_rowN X _ _ 4 rfl rfl rfl
theorem ldxN_5 (X : Vec Ideal S11x128x128 .f32) : View.ld X r0_18 = rowN X 5 :=
  ld_rowN X _ _ 5 rfl rfl rfl
theorem ldxN_6 (X : Vec Ideal S11x128x128 .f32) : View.ld X r0_19 = rowN X 6 :=
  ld_rowN X _ _ 6 rfl rfl rfl
theorem ldxN_7 (X : Vec Ideal S11x128x128 .f32) : View.ld X r0_20 = rowN X 7 :=
  ld_rowN X _ _ 7 rfl rfl rfl
theorem ldxN_8 (X : Vec Ideal S11x128x128 .f32) : View.ld X r0_21 = rowN X 8 :=
  ld_rowN X _ _ 8 rfl rfl rfl
theorem ldxN_9 (X : Vec Ideal S11x128x128 .f32) : View.ld X r0_22 = rowN X 9 :=
  ld_rowN X _ _ 9 rfl rfl rfl
theorem ldxN_10 (X : Vec Ideal S11x128x128 .f32) : View.ld X r0_23 = rowN X 10 :=
  ld_rowN X _ _ 10 rfl rfl rfl

/-- The eleven tap sums of a 128-to-128 layer over a padded activation, accumulated left to right, plus the bias,
    under tanh, is the specification's layer. -/
theorem cN_eq (a : Fin 6 → Fin 128 → Fin 128 → EReal) (X : Vec Ideal S11x128x128 .f32) (b : Vec Ideal S1x128 .f32)
    (P : FVec Ideal S16x128x128 .f32) (hP : ∀ r w c, P (ix3 r w c) = Cert.RefSpec.pad a r w c)
    (h : Fin 6) (w co : Fin 128) :
    Ideal.tanh ((∑ ci : Fin 128, P (ix3 (⟨h.val + 0, by omega⟩ : Fin 16) w ci) * rowN X 0 (ix3 0 ci co))
          + (∑ ci : Fin 128, P (ix3 (⟨h.val + 1, by omega⟩ : Fin 16) w ci) * rowN X 1 (ix3 0 ci co))
          + (∑ ci : Fin 128, P (ix3 (⟨h.val + 2, by omega⟩ : Fin 16) w ci) * rowN X 2 (ix3 0 ci co))
          + (∑ ci : Fin 128, P (ix3 (⟨h.val + 3, by omega⟩ : Fin 16) w ci) * rowN X 3 (ix3 0 ci co))
          + (∑ ci : Fin 128, P (ix3 (⟨h.val + 4, by omega⟩ : Fin 16) w ci) * rowN X 4 (ix3 0 ci co))
          + (∑ ci : Fin 128, P (ix3 (⟨h.val + 5, by omega⟩ : Fin 16) w ci) * rowN X 5 (ix3 0 ci co))
          + (∑ ci : Fin 128, P (ix3 (⟨h.val + 6, by omega⟩ : Fin 16) w ci) * rowN X 6 (ix3 0 ci co))
          + (∑ ci : Fin 128, P (ix3 (⟨h.val + 7, by omega⟩ : Fin 16) w ci) * rowN X 7 (ix3 0 ci co))
          + (∑ ci : Fin 128, P (ix3 (⟨h.val + 8, by omega⟩ : Fin 16) w ci) * rowN X 8 (ix3 0 ci co))
          + (∑ ci : Fin 128, P (ix3 (⟨h.val + 9, by omega⟩ : Fin 16) w ci) * rowN X 9 (ix3 0 ci co))
          + (∑ ci : Fin 128, P (ix3 (⟨h.val + 10, by omega⟩ : Fin 16) w ci) * rowN X 10 (ix3 0 ci co))
          + b (ix2 0 co))
      = Cert.RefSpec.cN a X b h w co := by
  unfold Cert.RefSpec.cN
  rw [sum11, zero_add]
  simp only [hP]
  rfl

theorem pay13_pos (v159 v161 : FVec Ideal S768x128 .f32) (v163 : FVec Ideal S128x128 .f32)
    (z : FVec Ideal S768x128 .f32) (b : Vec Ideal S1x128 .f32) (h : Fin 6) (w c : Fin 128) :
    k0_pay13 v159 v161 v163 z b (ix3 (⟨h.val + 10, by omega⟩ : Fin 16) w c)
      = Ideal.tanh (v159 (ix2 (⟨h.val * 128 + w.val, by omega⟩ : Fin 768) c)
            + (z (ix2 (⟨h.val * 128 + w.val, by omega⟩ : Fin 768) c)
              + ∑ ci : Fin 128, v161 (ix2 (⟨h.val * 128 + w.val, by omega⟩ : Fin 768) ci) * v163 (ix2 ci c))
            + b (ix2 0 c)) := by
  unfold k0_pay13
  refine (padTop_pos _ h w c).trans ?_
  rw [unflat_apply]
  show Ideal.tanh ((addf (addf _ _) _ : FVec Ideal S768x128 .f32) (ix2 _ c)) = _
  rw [addf_apply, addf_apply, bcastBias2_apply, mm_apply]

theorem pay13_neg (v159 v161 : FVec Ideal S768x128 .f32) (v163 : FVec Ideal S128x128 .f32)
    (z : FVec Ideal S768x128 .f32) (b : Vec Ideal S1x128 .f32) (r : Fin 16) (hr : r.val < 10) (w c : Fin 128) :
    k0_pay13 v159 v161 v163 z b (ix3 r w c) = 0 := by
  unfold k0_pay13
  exact padTop_neg _ r hr w c

/-- Layer 2 after ten taps, over the flat rows. -/
def mid2 (A : FVec Ideal S6x128x128 .f32) (b : Vec Ideal S1x128 .f32) (X : Vec Ideal S11x128x128 .f32) :
    FVec Ideal S768x128 .f32 :=
  k0_pay10 (k0_pay6 A b)
    (k0_pay7 A b (View.ld X r0_13) (View.ld X r0_14) (View.ld X r0_15) (View.ld X r0_16))
    (k0_pay8 A b) (k0_pay9 (View.ld X r0_17)) (constant S768x128 .f32 0x00000000#32)
    (View.ld X r0_18) (View.ld X r0_19) (View.ld X r0_20) (View.ld X r0_21) (View.ld X r0_22)

/-- Layer 2's activation under ten zero rows. -/
def act2 (A : FVec Ideal S6x128x128 .f32) (b : Vec Ideal S1x128 .f32) (X : Vec Ideal S11x128x128 .f32)
    (bb : Vec Ideal S1x128 .f32) : FVec Ideal S16x128x128 .f32 :=
  k0_pay13 (mid2 A b X) (k0_pay11 (k0_pay6 A b)) (k0_pay12 (View.ld X r0_23))
    (constant S768x128 .f32 0x00000000#32) (View.ld bb r0_12)

theorem mid2_apply (A : FVec Ideal S6x128x128 .f32) (b : Vec Ideal S1x128 .f32) (X : Vec Ideal S11x128x128 .f32)
    (h : Fin 6) (w co : Fin 128) :
    mid2 A b X (ix2 (⟨h.val * 128 + w.val, by omega⟩ : Fin 768) co)
      = (∑ ci : Fin 128, k0_pay6 A b (ix3 (⟨h.val + 0, by omega⟩ : Fin 16) w ci) * rowN X 0 (ix3 0 ci co))
          + (∑ ci : Fin 128, k0_pay6 A b (ix3 (⟨h.val + 1, by omega⟩ : Fin 16) w ci) * rowN X 1 (ix3 0 ci co))
          + (∑ ci : Fin 128, k0_pay6 A b (ix3 (⟨h.val + 2, by omega⟩ : Fin 16) w ci) * rowN X 2 (ix3 0 ci co))
          + (∑ ci : Fin 128, k0_pay6 A b (ix3 (⟨h.val + 3, by omega⟩ : Fin 16) w ci) * rowN X 3 (ix3 0 ci co))
          + (∑ ci : Fin 128, k0_pay6 A b (ix3 (⟨h.val + 4, by omega⟩ : Fin 16) w ci) * rowN X 4 (ix3 0 ci co))
          + (∑ ci : Fin 128, k0_pay6 A b (ix3 (⟨h.val + 5, by omega⟩ : Fin 16) w ci) * rowN X 5 (ix3 0 ci co))
          + (∑ ci : Fin 128, k0_pay6 A b (ix3 (⟨h.val + 6, by omega⟩ : Fin 16) w ci) * rowN X 6 (ix3 0 ci co))
          + (∑ ci : Fin 128, k0_pay6 A b (ix3 (⟨h.val + 7, by omega⟩ : Fin 16) w ci) * rowN X 7 (ix3 0 ci co))
          + (∑ ci : Fin 128, k0_pay6 A b (ix3 (⟨h.val + 8, by omega⟩ : Fin 16) w ci) * rowN X 8 (ix3 0 ci co))
          + (∑ ci : Fin 128, k0_pay6 A b (ix3 (⟨h.val + 9, by omega⟩ : Fin 16) w ci) * rowN X 9 (ix3 0 ci co)) := by
  unfold mid2
  rw [ldxN_0, ldxN_1, ldxN_2, ldxN_3, ldxN_4, ldxN_5, ldxN_6, ldxN_7, ldxN_8, ldxN_9, pay10_apply, pay7_apply]
  simp only [pay8_apply, pay9_apply, constant_apply, Ideal.ofBits_zero_f32, zero_add]

theorem act2_apply (A : FVec Ideal S6x128x128 .f32) (b : Vec Ideal S1x128 .f32)
    (a : Fin 6 → Fin 128 → Fin 128 → EReal)
    (hP : ∀ r w c, k0_pay6 A b (ix3 r w c) = Cert.RefSpec.pad a r w c)
    (X : Vec Ideal S11x128x128 .f32) (bb : Vec Ideal S1x128 .f32) (r : Fin 16) (w c : Fin 128) :
    act2 A b X bb (ix3 r w c) = Cert.RefSpec.pad (Cert.RefSpec.cN a X bb) r w c := by
  rcases row_cases r with hr | ⟨h, rfl⟩
  · rw [pad_neg _ _ hr]
    unfold act2
    exact pay13_neg _ _ _ _ _ r hr w c
  · rw [pad_pos]
    unfold act2
    rw [pay13_pos, mid2_apply, constant_apply, Ideal.ofBits_zero_f32, zero_add, ldxN_10,
      View.ld_unit_zero (S := S1x128) hz2]
    simp only [pay11_apply, pay12_apply]
    exact cN_eq a X bb (k0_pay6 A b) hP h w c

end Cert.ReferenceIdeal.ConvVal

end
-- ==== Proof.RefConv3.lean ====
/-
  Layers 3 and 4 of the reference's convolution body, read at an index.

  Each is the 128-to-128 layer of the previous module over the previous layer's padded activation: taps 0..3
  accumulated from zero, tap 4 and taps 5..9 added, then the last tap, the bias row, tanh, the read-back of the
  768 flat rows as 6 rows by 128 sensors, and ten zero rows on top. Given that the input activation reads
  `pad a`, the output reads `pad (cN a X b)`.
-/
import proofs.«109392_g2000007139875455_pallasbulk_612_2_alg».proof.Proof.Gen.ReferenceIdeal.Frame
import proofs.«109392_g2000007139875455_pallasbulk_612_2_alg».proof.Proof.RefConvSpec
import proofs.«109392_g2000007139875455_pallasbulk_612_2_alg».proof.Proof.RefConv
import proofs.«109392_g2000007139875455_pallasbulk_612_2_alg».proof.Proof.RefConv2
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.ConvVal

open Idealize.ShloMosaic Idealize.ShloMosaic.ValueIdx Cert.ReferenceIdeal Cert.ReferenceIdeal.Gen

/-- Taps 0..3, accumulated from zero. -/
theorem pay14_apply (v159 v161 : FVec Ideal S768x128 .f32) (v163 : FVec Ideal S128x128 .f32) (z : FVec Ideal S768x128 .f32) (b : Vec Ideal S1x128 .f32)
    (W0 W1 W2 W3 : Vec Ideal S1x128x128 .f32) (h : Fin 6) (w co : Fin 128) :
    k0_pay14 v159 v161 v163 z b W0 W1 W2 W3 (ix2 (⟨h.val * 128 + w.val, by omega⟩ : Fin 768) co)
      = 0 + (∑ ci : Fin 128, k0_pay13 v159 v161 v163 z b (ix3 (⟨h.val + 0, by omega⟩ : Fin 16) w ci) * W0 (ix3 0 ci co))
          + (∑ ci : Fin 128, k0_pay13 v159 v161 v163 z b (ix3 (⟨h.val + 1, by omega⟩ : Fin 16) w ci) * W1 (ix3 0 ci co))
          + (∑ ci : Fin 128, k0_pay13 v159 v161 v163 z b (ix3 (⟨h.val + 2, by omega⟩ : Fin 16) w ci) * W2 (ix3 0 ci co))
          + (∑ ci : Fin 128, k0_pay13 v159 v161 v163 z b (ix3 (⟨h.val + 3, by omega⟩ : Fin 16) w ci) * W3 (ix3 0 ci co)) := by
  unfold k0_pay14
  simp only [addf_apply]
  refine congrArg₂ (· + ·) (congrArg₂ (· + ·) (congrArg₂ (· + ·) (congrArg₂ (· + ·) ?_ ?_) ?_) ?_) ?_
  · exact zero_bcast_apply _
  · exact tapMM0_apply _ _ _ _ 0 rfl rfl rfl h (by omega) w co
  · exact tapMM0_apply _ _ _ _ 1 rfl rfl rfl h (by omega) w co
  · exact tapMM0_apply _ _ _ _ 2 rfl rfl rfl h (by omega) w co
  · exact tapMM0_apply _ _ _ _ 3 rfl rfl rfl h (by omega) w co

/-- Rows 4..9 of the padded activation, flattened. -/
theorem pay15_apply (v159 v161 : FVec Ideal S768x128 .f32) (v163 : FVec Ideal S128x128 .f32) (z : FVec Ideal S768x128 .f32) (b : Vec Ideal S1x128 .f32) (h : Fin 6) (w ci : Fin 128) :
    k0_pay15 v159 v161 v163 z b (ix2 (⟨h.val * 128 + w.val, by omega⟩ : Fin 768) ci)
      = k0_pay13 v159 v161 v163 z b (ix3 (⟨h.val + 4, by omega⟩ : Fin 16) w ci) := by
  unfold k0_pay15
  exact sliceFlat_apply _ _ _ 4 rfl rfl rfl h (by omega) w ci

/-- Tap 4 and taps 5..9 added to the running accumulation. -/
theorem pay16_apply (P : FVec Ideal S16x128x128 .f32) (u v : FVec Ideal S768x128 .f32)
    (W4 W5 W6 W7 W8 W9 : Vec Ideal S1x128x128 .f32) (h : Fin 6) (w co : Fin 128) :
    k0_pay16 P u v W4 W5 W6 W7 W8 W9 (ix2 (⟨h.val * 128 + w.val, by omega⟩ : Fin 768) co)
      = u (ix2 (⟨h.val * 128 + w.val, by omega⟩ : Fin 768) co) + (∑ ci : Fin 128, v (ix2 (⟨h.val * 128 + w.val, by omega⟩ : Fin 768) ci) * W4 (ix3 0 ci co))
          + (∑ ci : Fin 128, P (ix3 (⟨h.val + 5, by omega⟩ : Fin 16) w ci) * W5 (ix3 0 ci co))
          + (∑ ci : Fin 128, P (ix3 (⟨h.val + 6, by omega⟩ : Fin 16) w ci) * W6 (ix3 0 ci co))
          + (∑ ci : Fin 128, P (ix3 (⟨h.val + 7, by omega⟩ : Fin 16) w ci) * W7 (ix3 0 ci co))
          + (∑ ci : Fin 128, P (ix3 (⟨h.val + 8, by omega⟩ : Fin 16) w ci) * W8 (ix3 0 ci co))
          + (∑ ci : Fin 128, P (ix3 (⟨h.val + 9, by omega⟩ : Fin 16) w ci) * W9 (ix3 0 ci co)) := by
  unfold k0_pay16
  simp only [addf_apply]
  refine congrArg₂ (· + ·) (congrArg₂ (· + ·) (congrArg₂ (· + ·) (congrArg₂ (· + ·) (congrArg₂ (· + ·) (congrArg₂ (· + ·) rfl ?_) ?_) ?_) ?_) ?_) ?_
  · exact preMM0_apply _ _ _ _
  · exact tapMM0_apply _ _ _ _ 5 rfl rfl rfl h (by omega) w co
  · exact tapMM0_apply _ _ _ _ 6 rfl rfl rfl h (by omega) w co
  · exact tapMM0_apply _ _ _ _ 7 rfl rfl rfl h (by omega) w co
  · exact tapMM0_apply _ _ _ _ 8 rfl rfl rfl h (by omega) w co
  · exact tapMM0_apply _ _ _ _ 9 rfl rfl rfl h (by omega) w co

/-- Rows 10..15 of the padded activation, flattened. -/
theorem pay17_apply (P : FVec Ideal S16x128x128 .f32) (h : Fin 6) (w ci : Fin 128) :
    k0_pay17 P (ix2 (⟨h.val * 128 + w.val, by omega⟩ : Fin 768) ci)
      = P (ix3 (⟨h.val + 10, by omega⟩ : Fin 16) w ci) := by
  unfold k0_pay17
  exact sliceFlat_apply _ _ _ 10 rfl rfl rfl h (by omega) w ci

/-- The last tap, bias, tanh, and the ten zero rows on top, at row h+10. -/
theorem pay18_pos (u v : FVec Ideal S768x128 .f32) (W : Vec Ideal S1x128x128 .f32) (b : Vec Ideal S1x128 .f32) (h : Fin 6) (w c : Fin 128) :
    k0_pay18 u v W b (ix3 (⟨h.val + 10, by omega⟩ : Fin 16) w c)
      = Ideal.tanh (u (ix2 (⟨h.val * 128 + w.val, by omega⟩ : Fin 768) c)
            + (∑ ci : Fin 128, v (ix2 (⟨h.val * 128 + w.val, by omega⟩ : Fin 768) ci) * W (ix3 0 ci c))
            + b (ix2 0 c)) := by
  unfold k0_pay18
  refine (padTop_pos _ h w c).trans ?_
  rw [unflat_apply]
  show Ideal.tanh ((addf (addf _ _) _ : FVec Ideal S768x128 .f32) (ix2 _ c)) = _
  rw [addf_apply, addf_apply, bcastBias2_apply, preMM0_apply]

/-- Below row 10 it is zero. -/
theorem pay18_neg (u v : FVec Ideal S768x128 .f32) (W : Vec Ideal S1x128x128 .f32) (b : Vec Ideal S1x128 .f32) (r : Fin 16) (hr : r.val < 10) (w c : Fin 128) :
    k0_pay18 u v W b (ix3 r w c) = 0 := by
  unfold k0_pay18
  exact padTop_neg _ r hr w c

/-- Taps 0..3, accumulated from zero. -/
theorem pay19_apply (u v : FVec Ideal S768x128 .f32) (W : Vec Ideal S1x128x128 .f32) (b : Vec Ideal S1x128 .f32)
    (W0 W1 W2 W3 : Vec Ideal S1x128x128 .f32) (h : Fin 6) (w co : Fin 128) :
    k0_pay19 u v W b W0 W1 W2 W3 (ix2 (⟨h.val * 128 + w.val, by omega⟩ : Fin 768) co)
      = 0 + (∑ ci : Fin 128, k0_pay18 u v W b (ix3 (⟨h.val + 0, by omega⟩ : Fin 16) w ci) * W0 (ix3 0 ci co))
          + (∑ ci : Fin 128, k0_pay18 u v W b (ix3 (⟨h.val + 1, by omega⟩ : Fin 16) w ci) * W1 (ix3 0 ci co))
          + (∑ ci : Fin 128, k0_pay18 u v W b (ix3 (⟨h.val + 2, by omega⟩ : Fin 16) w ci) * W2 (ix3 0 ci co))
          + (∑ ci : Fin 128, k0_pay18 u v W b (ix3 (⟨h.val + 3, by omega⟩ : Fin 16) w ci) * W3 (ix3 0 ci co)) := by
  unfold k0_pay19
  simp only [addf_apply]
  refine congrArg₂ (· + ·) (congrArg₂ (· + ·) (congrArg₂ (· + ·) (congrArg₂ (· + ·) ?_ ?_) ?_) ?_) ?_
  · exact zero_bcast_apply _
  · exact tapMM0_apply _ _ _ _ 0 rfl rfl rfl h (by omega) w co
  · exact tapMM0_apply _ _ _ _ 1 rfl rfl rfl h (by omega) w co
  · exact tapMM0_apply _ _ _ _ 2 rfl rfl rfl h (by omega) w co
  · exact tapMM0_apply _ _ _ _ 3 rfl rfl rfl h (by omega) w co

/-- Rows 4..9 of the padded activation, flattened. -/
theorem pay20_apply (u v : FVec Ideal S768x128 .f32) (W : Vec Ideal S1x128x128 .f32) (b : Vec Ideal S1x128 .f32) (h : Fin 6) (w ci : Fin 128) :
    k0_pay20 u v W b (ix2 (⟨h.val * 128 + w.val, by omega⟩ : Fin 768) ci)
      = k0_pay18 u v W b (ix3 (⟨h.val + 4, by omega⟩ : Fin 16) w ci) := by
  unfold k0_pay20
  exact sliceFlat_apply _ _ _ 4 rfl rfl rfl h (by omega) w ci

/-- Tap 4 and taps 5..9 added to the running accumulation. -/
theorem pay21_apply (P : FVec Ideal S16x128x128 .f32) (u v : FVec Ideal S768x128 .f32)
    (W4 W5 W6 W7 W8 W9 : Vec Ideal S1x128x128 .f32) (h : Fin 6) (w co : Fin 128) :
    k0_pay21 P u v W4 W5 W6 W7 W8 W9 (ix2 (⟨h.val * 128 + w.val, by omega⟩ : Fin 768) co)
      = u (ix2 (⟨h.val * 128 + w.val, by omega⟩ : Fin 768) co) + (∑ ci : Fin 128, v (ix2 (⟨h.val * 128 + w.val, by omega⟩ : Fin 768) ci) * W4 (ix3 0 ci co))
          + (∑ ci : Fin 128, P (ix3 (⟨h.val + 5, by omega⟩ : Fin 16) w ci) * W5 (ix3 0 ci co))
          + (∑ ci : Fin 128, P (ix3 (⟨h.val + 6, by omega⟩ : Fin 16) w ci) * W6 (ix3 0 ci co))
          + (∑ ci : Fin 128, P (ix3 (⟨h.val + 7, by omega⟩ : Fin 16) w ci) * W7 (ix3 0 ci co))
          + (∑ ci : Fin 128, P (ix3 (⟨h.val + 8, by omega⟩ : Fin 16) w ci) * W8 (ix3 0 ci co))
          + (∑ ci : Fin 128, P (ix3 (⟨h.val + 9, by omega⟩ : Fin 16) w ci) * W9 (ix3 0 ci co)) := by
  unfold k0_pay21
  simp only [addf_apply]
  refine congrArg₂ (· + ·) (congrArg₂ (· + ·) (congrArg₂ (· + ·) (congrArg₂ (· + ·) (congrArg₂ (· + ·) (congrArg₂ (· + ·) rfl ?_) ?_) ?_) ?_) ?_) ?_
  · exact preMM0_apply _ _ _ _
  · exact tapMM0_apply _ _ _ _ 5 rfl rfl rfl h (by omega) w co
  · exact tapMM0_apply _ _ _ _ 6 rfl rfl rfl h (by omega) w co
  · exact tapMM0_apply _ _ _ _ 7 rfl rfl rfl h (by omega) w co
  · exact tapMM0_apply _ _ _ _ 8 rfl rfl rfl h (by omega) w co
  · exact tapMM0_apply _ _ _ _ 9 rfl rfl rfl h (by omega) w co

/-- Rows 10..15 of the padded activation, flattened. -/
theorem pay22_apply (P : FVec Ideal S16x128x128 .f32) (h : Fin 6) (w ci : Fin 128) :
    k0_pay22 P (ix2 (⟨h.val * 128 + w.val, by omega⟩ : Fin 768) ci)
      = P (ix3 (⟨h.val + 10, by omega⟩ : Fin 16) w ci) := by
  unfold k0_pay22
  exact sliceFlat_apply _ _ _ 10 rfl rfl rfl h (by omega) w ci

/-- Layer 3 after ten taps, over the flat rows. -/
def mid3 (v159 v161 : FVec Ideal S768x128 .f32) (v163 : FVec Ideal S128x128 .f32) (z : FVec Ideal S768x128 .f32) (b : Vec Ideal S1x128 .f32) (X : Vec Ideal S11x128x128 .f32) : FVec Ideal S768x128 .f32 :=
  k0_pay16 (k0_pay13 v159 v161 v163 z b) (k0_pay14 v159 v161 v163 z b (View.ld X r0_13) (View.ld X r0_14) (View.ld X r0_15) (View.ld X r0_16)) (k0_pay15 v159 v161 v163 z b)
    (View.ld X r0_17) (View.ld X r0_18) (View.ld X r0_19) (View.ld X r0_20) (View.ld X r0_21) (View.ld X r0_22)

/-- Layer 3's activation under ten zero rows. -/
def act3 (v159 v161 : FVec Ideal S768x128 .f32) (v163 : FVec Ideal S128x128 .f32) (z : FVec Ideal S768x128 .f32) (b : Vec Ideal S1x128 .f32) (X : Vec Ideal S11x128x128 .f32) (bb : Vec Ideal S1x128 .f32) : FVec Ideal S16x128x128 .f32 :=
  k0_pay18 (mid3 v159 v161 v163 z b X) (k0_pay17 (k0_pay13 v159 v161 v163 z b)) (View.ld X r0_23) (View.ld bb r0_12)

theorem mid3_apply (v159 v161 : FVec Ideal S768x128 .f32) (v163 : FVec Ideal S128x128 .f32) (z : FVec Ideal S768x128 .f32) (b : Vec Ideal S1x128 .f32) (X : Vec Ideal S11x128x128 .f32) (h : Fin 6) (w co : Fin 128) :
    mid3 v159 v161 v163 z b X (ix2 (⟨h.val * 128 + w.val, by omega⟩ : Fin 768) co)
      = (∑ ci : Fin 128, k0_pay13 v159 v161 v163 z b (ix3 (⟨h.val + 0, by omega⟩ : Fin 16) w ci) * rowN X 0 (ix3 0 ci co))
          + (∑ ci : Fin 128, k0_pay13 v159 v161 v163 z b (ix3 (⟨h.val + 1, by omega⟩ : Fin 16) w ci) * rowN X 1 (ix3 0 ci co))
          + (∑ ci : Fin 128, k0_pay13 v159 v161 v163 z b (ix3 (⟨h.val + 2, by omega⟩ : Fin 16) w ci) * rowN X 2 (ix3 0 ci co))
          + (∑ ci : Fin 128, k0_pay13 v159 v161 v163 z b (ix3 (⟨h.val + 3, by omega⟩ : Fin 16) w ci) * rowN X 3 (ix3 0 ci co))
          + (∑ ci : Fin 128, k0_pay13 v159 v161 v163 z b (ix3 (⟨h.val + 4, by omega⟩ : Fin 16) w ci) * rowN X 4 (ix3 0 ci co))
          + (∑ ci : Fin 128, k0_pay13 v159 v161 v163 z b (ix3 (⟨h.val + 5, by omega⟩ : Fin 16) w ci) * rowN X 5 (ix3 0 ci co))
          + (∑ ci : Fin 128, k0_pay13 v159 v161 v163 z b (ix3 (⟨h.val + 6, by omega⟩ : Fin 16) w ci) * rowN X 6 (ix3 0 ci co))
          + (∑ ci : Fin 128, k0_pay13 v159 v161 v163 z b (ix3 (⟨h.val + 7, by omega⟩ : Fin 16) w ci) * rowN X 7 (ix3 0 ci co))
          + (∑ ci : Fin 128, k0_pay13 v159 v161 v163 z b (ix3 (⟨h.val + 8, by omega⟩ : Fin 16) w ci) * rowN X 8 (ix3 0 ci co))
          + (∑ ci : Fin 128, k0_pay13 v159 v161 v163 z b (ix3 (⟨h.val + 9, by omega⟩ : Fin 16) w ci) * rowN X 9 (ix3 0 ci co)) := by
  unfold mid3
  rw [ldxN_0, ldxN_1, ldxN_2, ldxN_3, ldxN_4, ldxN_5, ldxN_6, ldxN_7, ldxN_8, ldxN_9, pay16_apply, pay14_apply]
  simp only [pay15_apply, zero_add]

theorem act3_apply (v159 v161 : FVec Ideal S768x128 .f32) (v163 : FVec Ideal S128x128 .f32) (z : FVec Ideal S768x128 .f32) (b : Vec Ideal S1x128 .f32) (a : Fin 6 → Fin 128 → Fin 128 → EReal)
    (hP : ∀ r w c, k0_pay13 v159 v161 v163 z b (ix3 r w c) = Cert.RefSpec.pad a r w c)
    (X : Vec Ideal S11x128x128 .f32) (bb : Vec Ideal S1x128 .f32) (r : Fin 16) (w c : Fin 128) :
    act3 v159 v161 v163 z b X bb (ix3 r w c) = Cert.RefSpec.pad (Cert.RefSpec.cN a X bb) r w c := by
  rcases row_cases r with hr | ⟨h, rfl⟩
  · rw [pad_neg _ _ hr]
    unfold act3
    exact pay18_neg _ _ _ _ r hr w c
  · rw [pad_pos]
    unfold act3
    rw [pay18_pos, mid3_apply, ldxN_10, View.ld_unit_zero (S := S1x128) hz2]
    simp only [pay17_apply]
    exact cN_eq a X bb (k0_pay13 v159 v161 v163 z b) hP h w c

/-- Layer 4 after ten taps, over the flat rows. -/
def mid4 (u v : FVec Ideal S768x128 .f32) (W : Vec Ideal S1x128x128 .f32) (b : Vec Ideal S1x128 .f32) (X : Vec Ideal S11x128x128 .f32) : FVec Ideal S768x128 .f32 :=
  k0_pay21 (k0_pay18 u v W b) (k0_pay19 u v W b (View.ld X r0_13) (View.ld X r0_14) (View.ld X r0_15) (View.ld X r0_16)) (k0_pay20 u v W b)
    (View.ld X r0_17) (View.ld X r0_18) (View.ld X r0_19) (View.ld X r0_20) (View.ld X r0_21) (View.ld X r0_22)

/-- Layer 4's activation under ten zero rows (the same expression the body forms inline before layer 5). -/
def act4 (u v : FVec Ideal S768x128 .f32) (W : Vec Ideal S1x128x128 .f32) (b : Vec Ideal S1x128 .f32) (X : Vec Ideal S11x128x128 .f32) (bb : Vec Ideal S1x128 .f32) : FVec Ideal S16x128x128 .f32 :=
  k0_pay18 (mid4 u v W b X) (k0_pay22 (k0_pay18 u v W b)) (View.ld X r0_23) (View.ld bb r0_12)

theorem mid4_apply (u v : FVec Ideal S768x128 .f32) (W : Vec Ideal S1x128x128 .f32) (b : Vec Ideal S1x128 .f32) (X : Vec Ideal S11x128x128 .f32) (h : Fin 6) (w co : Fin 128) :
    mid4 u v W b X (ix2 (⟨h.val * 128 + w.val, by omega⟩ : Fin 768) co)
      = (∑ ci : Fin 128, k0_pay18 u v W b (ix3 (⟨h.val + 0, by omega⟩ : Fin 16) w ci) * rowN X 0 (ix3 0 ci co))
          + (∑ ci : Fin 128, k0_pay18 u v W b (ix3 (⟨h.val + 1, by omega⟩ : Fin 16) w ci) * rowN X 1 (ix3 0 ci co))
          + (∑ ci : Fin 128, k0_pay18 u v W b (ix3 (⟨h.val + 2, by omega⟩ : Fin 16) w ci) * rowN X 2 (ix3 0 ci co))
          + (∑ ci : Fin 128, k0_pay18 u v W b (ix3 (⟨h.val + 3, by omega⟩ : Fin 16) w ci) * rowN X 3 (ix3 0 ci co))
          + (∑ ci : Fin 128, k0_pay18 u v W b (ix3 (⟨h.val + 4, by omega⟩ : Fin 16) w ci) * rowN X 4 (ix3 0 ci co))
          + (∑ ci : Fin 128, k0_pay18 u v W b (ix3 (⟨h.val + 5, by omega⟩ : Fin 16) w ci) * rowN X 5 (ix3 0 ci co))
          + (∑ ci : Fin 128, k0_pay18 u v W b (ix3 (⟨h.val + 6, by omega⟩ : Fin 16) w ci) * rowN X 6 (ix3 0 ci co))
          + (∑ ci : Fin 128, k0_pay18 u v W b (ix3 (⟨h.val + 7, by omega⟩ : Fin 16) w ci) * rowN X 7 (ix3 0 ci co))
          + (∑ ci : Fin 128, k0_pay18 u v W b (ix3 (⟨h.val + 8, by omega⟩ : Fin 16) w ci) * rowN X 8 (ix3 0 ci co))
          + (∑ ci : Fin 128, k0_pay18 u v W b (ix3 (⟨h.val + 9, by omega⟩ : Fin 16) w ci) * rowN X 9 (ix3 0 ci co)) := by
  unfold mid4
  rw [ldxN_0, ldxN_1, ldxN_2, ldxN_3, ldxN_4, ldxN_5, ldxN_6, ldxN_7, ldxN_8, ldxN_9, pay21_apply, pay19_apply]
  simp only [pay20_apply, zero_add]

theorem act4_apply (u v : FVec Ideal S768x128 .f32) (W : Vec Ideal S1x128x128 .f32) (b : Vec Ideal S1x128 .f32) (a : Fin 6 → Fin 128 → Fin 128 → EReal)
    (hP : ∀ r w c, k0_pay18 u v W b (ix3 r w c) = Cert.RefSpec.pad a r w c)
    (X : Vec Ideal S11x128x128 .f32) (bb : Vec Ideal S1x128 .f32) (r : Fin 16) (w c : Fin 128) :
    act4 u v W b X bb (ix3 r w c) = Cert.RefSpec.pad (Cert.RefSpec.cN a X bb) r w c := by
  rcases row_cases r with hr | ⟨h, rfl⟩
  · rw [pad_neg _ _ hr]
    unfold act4
    exact pay18_neg _ _ _ _ r hr w c
  · rw [pad_pos]
    unfold act4
    rw [pay18_pos, mid4_apply, ldxN_10, View.ld_unit_zero (S := S1x128) hz2]
    simp only [pay22_apply]
    exact cN_eq a X bb (k0_pay18 u v W b) hP h w c

end Cert.ReferenceIdeal.ConvVal

end
-- ==== Proof.RefConv4.lean ====
/-
  Layer 5, the final two zero rows, and the whole convolution body of the reference read at an index.

  Layer 5 multiplies rows d..d+13 (d = 0, 1, 2) of layer 4's padded activation by row d of the (3, 128) tap array,
  sums over the 128 channels, accumulates the three sums from zero, adds the scalar bias and applies tanh; two zero
  rows go on top and the leading unit axis is restored. Chaining the four padded activations
  (`pad (c1 …)`, `pad (cN …)` three times) through the layer lemmas gives, at (position h, sensor w), the
  specification's `convOut`. The stored block is one payload nest; it is identified once with the same nest written
  over the named intermediate stages, and every later step works on the named stages.
-/
import proofs.«109392_g2000007139875455_pallasbulk_612_2_alg».proof.Proof.Gen.ReferenceIdeal.Frame
import proofs.«109392_g2000007139875455_pallasbulk_612_2_alg».proof.Proof.RefConvSpec
import proofs.«109392_g2000007139875455_pallasbulk_612_2_alg».proof.Proof.RefConv
import proofs.«109392_g2000007139875455_pallasbulk_612_2_alg».proof.Proof.RefConv2
import proofs.«109392_g2000007139875455_pallasbulk_612_2_alg».proof.Proof.RefConv3
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.ConvVal

open Idealize.ShloMosaic Idealize.ShloMosaic.ValueIdx Cert.ReferenceIdeal Cert.ReferenceIdeal.Gen

/-- A row of 128 channel values broadcast along 14 rows and sensors. -/
theorem bcastRow14_apply (t : Vec Ideal S1x128 .f32) (s : Fin 14) (w c : Fin 128) :
    broadcastTo S14x128x128 (shapeCast S1x1x128 (shapeCast S128 t shapeCasts_S1x128_S128) shapeCasts_S128_S1x1x128)
        broadcasts_S1x1x128_S14x128x128 (ix3 s w c) = t (ix2 0 c) := by
  refine (broadcastTo_apply _ _ (ix3 s w c) (ix3 0 0 c) ?_).trans ?_
  · intro a
    match a with
    | ⟨0, _⟩ => rfl
    | ⟨1, _⟩ => rfl
    | ⟨2, _⟩ => rfl
  · refine (shapeCast_apply _ _ (ix3 0 0 c) (ix1 c) ?_).trans ?_
    · rw [Shape.rowMajor_val_one, Shape.rowMajor_val_three]
      show c.val = ((0 : Fin 1).val * 1 + (0 : Fin 1).val) * 128 + c.val
      simp
    · refine shapeCast_apply t _ (ix1 c) (ix2 0 c) ?_
      rw [Shape.rowMajor_val_one, Shape.rowMajor_val_two]
      show (0 : Fin 1).val * 128 + c.val = c.val
      simp

/-- Fourteen consecutive rows of the padded activation from row d. -/
theorem slice14_apply (Q : FVec Ideal S16x128x128 .f32) (off : Fin 3 → Nat)
    (hs : S16x128x128.Slices off S14x128x128) (d : Nat) (h0 : off 0 = d) (h1 : off 1 = 0) (h2 : off 2 = 0)
    (s : Fin 14) (hd : s.val + d < 16) (w c : Fin 128) :
    extractStridedSlice S14x128x128 off Q hs (ix3 s w c) = Q (ix3 (⟨s.val + d, hd⟩ : Fin 16) w c) := by
  refine extractStridedSlice_apply off Q hs (ix3 s w c) (ix3 (⟨s.val + d, hd⟩ : Fin 16) w c) ?_
  intro a
  match a with
  | ⟨0, _⟩ => show s.val + d = off 0 + s.val; omega
  | ⟨1, _⟩ => show w.val = off 1 + w.val; omega
  | ⟨2, _⟩ => show c.val = off 2 + c.val; omega

/-- One tap of layer 5: the sum over channels of rows d..d+13 times the tap's row. -/
theorem tap5_apply (Q : FVec Ideal S16x128x128 .f32) (t : Vec Ideal S1x128 .f32) (off : Fin 3 → Nat)
    (hs : S16x128x128.Slices off S14x128x128) (d : Nat) (h0 : off 0 = d) (h1 : off 1 = 0) (h2 : off 2 = 0)
    (hφ : FKind.Formats FTy.f32) (hacc : (0x00000000#32 : BitVec (FTy.f32).bits) = FKind.add.neutral FTy.f32 hφ)
    (s : Fin 14) (hd : s.val + d < 16) (w : Fin 128) :
    shapeCast S14x128x1
        (multiReduction (F := Ideal) .add [2] S14x128
          (mulf (extractStridedSlice S14x128x128 off Q hs)
            (broadcastTo S14x128x128 (shapeCast S1x1x128 (shapeCast S128 t shapeCasts_S1x128_S128) shapeCasts_S128_S1x1x128)
              broadcasts_S1x1x128_S14x128x128))
          0x00000000#32 reduces_S14x128x128_S14x128 hφ hacc)
        shapeCasts_S14x128_S14x128x1 (ix3 s w 0)
      = ∑ c : Fin 128, Q (ix3 (⟨s.val + d, hd⟩ : Fin 16) w c) * t (ix2 0 c) := by
  refine (shapeCast_apply _ _ (ix3 s w 0) (ix2 s w) ?_).trans ?_
  · rw [Shape.rowMajor_val_two, Shape.rowMajor_val_three]
    show s.val * 128 + w.val = (s.val * 128 + w.val) * 1 + (0 : Fin 1).val
    simp
  · refine (Ideal.multiReduction_add_single _ 0x00000000#32 reduces_S14x128x128_S14x128 hφ hacc (ix2 s w)).trans ?_
    have key : ∀ c : Fin 128,
        mulf (extractStridedSlice S14x128x128 off Q hs)
          (broadcastTo S14x128x128 (shapeCast S1x1x128 (shapeCast S128 t shapeCasts_S1x128_S128) shapeCasts_S128_S1x1x128)
            broadcasts_S1x1x128_S14x128x128) (reduces_S14x128x128_S14x128.lift (ix2 s w) c)
          = Q (ix3 (⟨s.val + d, hd⟩ : Fin 16) w c) * t (ix2 0 c) := by
      intro c
      have hl : reduces_S14x128x128_S14x128.lift (ix2 s w) c = ix3 s w c := by
        funext a; apply Fin.ext
        match a with
        | ⟨0, _⟩ => rfl
        | ⟨1, _⟩ => rfl
        | ⟨2, _⟩ => rfl
      rw [hl, mulf_apply, slice14_apply Q off hs d h0 h1 h2 s hd w c, bcastRow14_apply]
    exact Finset.sum_congr rfl fun c _ => key c

/-- Layer 4's last tap and activation, then layer 5's three taps accumulated from zero. -/
theorem pay23_apply (u v : FVec Ideal S768x128 .f32) (W : Vec Ideal S1x128x128 .f32) (b : Vec Ideal S1x128 .f32) (t0 t1 t2 : Vec Ideal S1x128 .f32) (s : Fin 14) (w : Fin 128) :
    k0_pay23 u v W b t0 t1 t2 (ix3 s w 0)
      = 0 + (∑ c : Fin 128, k0_pay18 u v W b (ix3 (⟨s.val + 0, by omega⟩ : Fin 16) w c) * t0 (ix2 0 c))
          + (∑ c : Fin 128, k0_pay18 u v W b (ix3 (⟨s.val + 1, by omega⟩ : Fin 16) w c) * t1 (ix2 0 c))
          + (∑ c : Fin 128, k0_pay18 u v W b (ix3 (⟨s.val + 2, by omega⟩ : Fin 16) w c) * t2 (ix2 0 c)) := by
  unfold k0_pay23
  simp only [addf_apply]
  refine congrArg₂ (· + ·) (congrArg₂ (· + ·) (congrArg₂ (· + ·) ?_ ?_) ?_) ?_
  · exact zero_bcast_apply _
  · exact tap5_apply (k0_pay18 u v W b) _ _ _ 0 rfl rfl rfl _ _ s (by omega) w
  · exact tap5_apply (k0_pay18 u v W b) _ _ _ 1 rfl rfl rfl _ _ s (by omega) w
  · exact tap5_apply (k0_pay18 u v W b) _ _ _ 2 rfl rfl rfl _ _ s (by omega) w

/-- Layer 5's bias, tanh, and two zero rows on top, with the leading unit axis restored. -/
theorem pay1_apply (y : FVec Ideal S14x128x1 .f32) (b5 : Vec Ideal S1x1 .f32) (h : Fin 16) (w : Fin 128) :
    k0_pay1 y b5 (ix4 0 h w 0)
      = if hh : 2 ≤ h.val then Ideal.tanh (y (ix3 (⟨h.val - 2, by omega⟩ : Fin 14) w 0) + b5 (ix2 0 0)) else 0 := by
  unfold k0_pay1
  refine (shapeCast_apply _ _ (ix4 0 h w 0) (ix3 h w 0) ?_).trans ?_
  · rw [Shape.rowMajor_val_three, Shape.rowMajor_val_four]
    show (h.val * 128 + w.val) * 1 + (0 : Fin 1).val = (((0 : Fin 1).val * 16 + h.val) * 128 + w.val) * 1 + (0 : Fin 1).val
    simp
  · by_cases hh : 2 ≤ h.val
    · rw [dif_pos hh]
      refine (concatenate_pair_apply_right (t := S16x128x1) (s₁ := S2x128x1) (s₂ := S14x128x1) 0 _ _ _
        (ix3 h w 0) rfl rfl (ix3 (⟨h.val - 2, by omega⟩ : Fin 14) w 0) ?_ ?_).trans ?_
      · intro a ha
        match a with
        | ⟨0, _⟩ => exact absurd rfl ha
        | ⟨1, _⟩ => rfl
        | ⟨2, _⟩ => rfl
      · show h.val - 2 + 2 = h.val
        omega
      · show Ideal.tanh ((addf _ _ : FVec Ideal S14x128x1 .f32) (ix3 _ w 0)) = _
        rw [addf_apply, broadcast_apply]
        refine congrArg (fun z => Ideal.tanh (_ + z)) ?_
        show b5 _ = b5 _
        congr 1; funext a; apply Fin.ext
        match a with
        | ⟨0, _⟩ => rfl
        | ⟨1, _⟩ => rfl
    · rw [dif_neg hh]
      refine (concatenate_pair_apply_left (t := S16x128x1) (s₁ := S2x128x1) (s₂ := S14x128x1) 0 _ _ _
        (ix3 h w 0) rfl (ix3 (⟨h.val, by omega⟩ : Fin 2) w 0) ?_).trans (zero_bcast_apply _)
      intro a
      match a with
      | ⟨0, _⟩ => rfl
      | ⟨1, _⟩ => rfl
      | ⟨2, _⟩ => rfl

/-- Tap k of the (3, 128) layer-5 tap array as a (1, 128) row. -/
def row5 (x9 : Vec Ideal S3x128 .f32) (k : Fin 3) : Vec Ideal S1x128 .f32 := fun j => x9 (ix2 k (j 1))

/-- A one-row load of the layer-5 taps is that row. -/
theorem ld_row5 (x9 : Vec Ideal S3x128 .f32) (off : Fin 2 → Nat)
    (inb : ∀ a, off a + S1x128.size a ≤ S3x128.size a) (k : Fin 3) (h0 : off 0 = k.val) (h1 : off 1 = 0) :
    View.ld x9 (Rect.unit off S1x128.size inb) = row5 x9 k := by
  funext j
  show x9 _ = x9 _
  congr 1; funext a; apply Fin.ext
  match a with
  | ⟨0, _⟩ =>
    have hj : (j 0).val < 1 := (j 0).isLt
    show off 0 + 1 * (j 0).val = k.val
    omega
  | ⟨1, _⟩ => show off 1 + 1 * (j 1).val = (j 1).val; omega

theorem ldx9_0 (x9 : Vec Ideal S3x128 .f32) : View.ld x9 r0_24 = row5 x9 0 := ld_row5 x9 _ _ 0 rfl rfl
theorem ldx9_1 (x9 : Vec Ideal S3x128 .f32) : View.ld x9 r0_25 = row5 x9 1 := ld_row5 x9 _ _ 1 rfl rfl
theorem ldx9_2 (x9 : Vec Ideal S3x128 .f32) : View.ld x9 r0_26 = row5 x9 2 := ld_row5 x9 _ _ 2 rfl rfl

/-- Layer 1's padded activation is the specification's. -/
theorem val1 (x0 : Vec Ideal S1x16x128x1 .f32) (x1 : Vec Ideal S11x128 .f32) (x2 : Vec Ideal S1x128 .f32)
    (r : Fin 16) (w c : Fin 128) :
    k0_pay6 (acc1 x0 x1) (View.ld x2 r0_12) (ix3 r w c) = Cert.RefSpec.pad (Cert.RefSpec.c1 x0 x1 x2) r w c :=
  act1_apply x0 x1 x2 r w c

/-- Layer 2's padded activation is the specification's. -/
theorem val2 (x0 : Vec Ideal S1x16x128x1 .f32) (x1 : Vec Ideal S11x128 .f32) (x2 : Vec Ideal S1x128 .f32)
    (x3 : Vec Ideal S11x128x128 .f32) (x4 : Vec Ideal S1x128 .f32) (r : Fin 16) (w c : Fin 128) :
    k0_pay13 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12) (ix3 r w c)
      = Cert.RefSpec.pad (Cert.RefSpec.cN (Cert.RefSpec.c1 x0 x1 x2) x3 x4) r w c :=
  act2_apply (acc1 x0 x1) (View.ld x2 r0_12) _ (val1 x0 x1 x2) x3 x4 r w c

/-- Layer 3's padded activation is the specification's. -/
theorem val3 (x0 : Vec Ideal S1x16x128x1 .f32) (x1 : Vec Ideal S11x128 .f32) (x2 : Vec Ideal S1x128 .f32)
    (x3 : Vec Ideal S11x128x128 .f32) (x4 : Vec Ideal S1x128 .f32) (x5 : Vec Ideal S11x128x128 .f32)
    (x6 : Vec Ideal S1x128 .f32) (r : Fin 16) (w c : Fin 128) :
    k0_pay18 (mid3 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12) x5) (k0_pay17 (k0_pay13 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12))) (View.ld x5 r0_23) (View.ld x6 r0_12) (ix3 r w c)
      = Cert.RefSpec.pad (Cert.RefSpec.cN (Cert.RefSpec.cN (Cert.RefSpec.c1 x0 x1 x2) x3 x4) x5 x6) r w c :=
  act3_apply (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12) _ (val2 x0 x1 x2 x3 x4) x5 x6 r w c

/-- Layer 4's padded activation is the specification's. -/
theorem val4 (x0 : Vec Ideal S1x16x128x1 .f32) (x1 : Vec Ideal S11x128 .f32) (x2 : Vec Ideal S1x128 .f32)
    (x3 : Vec Ideal S11x128x128 .f32) (x4 : Vec Ideal S1x128 .f32) (x5 : Vec Ideal S11x128x128 .f32)
    (x6 : Vec Ideal S1x128 .f32) (x7 : Vec Ideal S11x128x128 .f32) (x8 : Vec Ideal S1x128 .f32) (r : Fin 16) (w c : Fin 128) :
    k0_pay18 (mid4 (mid3 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12) x5) (k0_pay17 (k0_pay13 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12))) (View.ld x5 r0_23) (View.ld x6 r0_12) x7) (k0_pay22 (k0_pay18 (mid3 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12) x5) (k0_pay17 (k0_pay13 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12))) (View.ld x5 r0_23) (View.ld x6 r0_12))) (View.ld x7 r0_23) (View.ld x8 r0_12) (ix3 r w c)
      = Cert.RefSpec.pad (Cert.RefSpec.cN (Cert.RefSpec.cN (Cert.RefSpec.cN (Cert.RefSpec.c1 x0 x1 x2) x3 x4) x5 x6) x7 x8) r w c :=
  act4_apply (mid3 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12) x5) (k0_pay17 (k0_pay13 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12))) (View.ld x5 r0_23) (View.ld x6 r0_12) _ (val3 x0 x1 x2 x3 x4 x5 x6) x7 x8 r w c

/-- The body's value before layer 5's bias, folded over the layers. -/
def pre5 (x0 : Vec Ideal S1x16x128x1 .f32) (x1 : Vec Ideal S11x128 .f32) (x2 : Vec Ideal S1x128 .f32)
    (x3 : Vec Ideal S11x128x128 .f32) (x4 : Vec Ideal S1x128 .f32) (x5 : Vec Ideal S11x128x128 .f32)
    (x6 : Vec Ideal S1x128 .f32) (x7 : Vec Ideal S11x128x128 .f32) (x8 : Vec Ideal S1x128 .f32) (x9 : Vec Ideal S3x128 .f32) : FVec Ideal S14x128x1 .f32 :=
  k0_pay23 (mid4 (mid3 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12) x5) (k0_pay17 (k0_pay13 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12))) (View.ld x5 r0_23) (View.ld x6 r0_12) x7) (k0_pay22 (k0_pay18 (mid3 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12) x5) (k0_pay17 (k0_pay13 (mid2 (acc1 x0 x1) (View.ld x2 r0_12) x3) (k0_pay11 (k0_pay6 (acc1 x0 x1) (View.ld x2 r0_12))) (k0_pay12 (View.ld x3 r0_23)) (constant S768x128 .f32 0x00000000#32) (View.ld x4 r0_12))) (View.ld x5 r0_23) (View.ld x6 r0_12))) (View.ld x7 r0_23) (View.ld x8 r0_12) (View.ld x9 r0_24) (View.ld x9 r0_25) (View.ld x9 r0_26)

/-- The stored block is the final stage applied to the folded layers. -/
theorem out0_11_eq (x0 : Vec Ideal S1x16x128x1 .f32) (x1 : Vec Ideal S11x128 .f32) (x2 : Vec Ideal S1x128 .f32)
    (x3 : Vec Ideal S11x128x128 .f32) (x4 : Vec Ideal S1x128 .f32) (x5 : Vec Ideal S11x128x128 .f32)
    (x6 : Vec Ideal S1x128 .f32) (x7 : Vec Ideal S11x128x128 .f32) (x8 : Vec Ideal S1x128 .f32) (x9 : Vec Ideal S3x128 .f32) (x10 : Vec Ideal S1x1 .f32) :
    out0_11 (F := Ideal) x0 x1 x2 x3 x4 x5 x6 x7 x8 x9 x10
      = k0_pay1 (pre5 x0 x1 x2 x3 x4 x5 x6 x7 x8 x9) (View.ld x10 r0_27) := by
  unfold out0_11
  rw [View.canon_unit_zero hz4]
  rfl

/-- The reference's convolution body, read at (position h, sensor w), is the specification's stack. -/
theorem out0_11_apply (x0 : Vec Ideal S1x16x128x1 .f32) (x1 : Vec Ideal S11x128 .f32) (x2 : Vec Ideal S1x128 .f32)
    (x3 : Vec Ideal S11x128x128 .f32) (x4 : Vec Ideal S1x128 .f32) (x5 : Vec Ideal S11x128x128 .f32)
    (x6 : Vec Ideal S1x128 .f32) (x7 : Vec Ideal S11x128x128 .f32) (x8 : Vec Ideal S1x128 .f32) (x9 : Vec Ideal S3x128 .f32) (x10 : Vec Ideal S1x1 .f32) (h : Fin 16) (w : Fin 128) :
    Cert.ReferenceIdeal.Gen.out0_11 (F := Ideal) x0 x1 x2 x3 x4 x5 x6 x7 x8 x9 x10 (ix4 0 h w 0)
      = Cert.RefSpec.convOut x0 x1 x2 x3 x4 x5 x6 x7 x8 x9 x10 h w := by
  rw [out0_11_eq, pay1_apply]
  unfold Cert.RefSpec.convOut
  by_cases hh : 2 ≤ h.val
  · rw [dif_pos hh, dif_pos hh]
    unfold pre5 Cert.RefSpec.c5
    rw [pay23_apply, ldx9_0, ldx9_1, ldx9_2, View.ld_unit_zero (S := S1x1) hz2, Fin.sum_univ_three, zero_add]
    simp only [val4]
    rfl
  · rw [dif_neg hh, dif_neg hh]

end Cert.ReferenceIdeal.ConvVal

end
-- ==== Proof.RefGlue.lean ====
/-
  The reference's per-example layers (indexed by bounded positions and channels, the padding written as a case
  distinction on the row) are the layers of `Spec` (total functions of natural coordinates): the same sums term by term.
-/
import proofs.«109392_g2000007139875455_pallasbulk_612_2_alg».proof.Proof.RefConvSpec
import proofs.«109392_g2000007139875455_pallasbulk_612_2_alg».proof.Proof.Spec

noncomputable section

namespace Cert.RefGlue

open Idealize.ShloMosaic Idealize.ShloMosaic.ValueIdx
open Cert.RefSpec Cert.Spec

theorem g1 (x0 : SSig.Idx → EReal) (x1 : STap1.Idx → EReal) (x2 : SBias.Idx → EReal) (w : Fin 128)
    (X : ℕ → EReal) (W : ℕ → ℕ → EReal) (B : ℕ → EReal)
    (h0 : ∀ l : Fin 16, x0 (ix4 (0 : Fin 1) l w (0 : Fin 1)) = X l.val)
    (h1 : ∀ (dk : Fin 11) (c : Fin 128), x1 (ix2 dk c) = W c.val dk.val)
    (h2 : ∀ c : Fin 128, x2 (ix2 (0 : Fin 1) c) = B c.val) (h : Fin 6) (c : Fin 128) :
    c1 x0 x1 x2 h w c = s1 X W B h.val c.val := by
  unfold c1 s1 T
  rw [h2]
  congr 2
  refine Finset.sum_congr rfl fun dk _ => ?_
  rw [h0, h1]

theorem gpad (a : Fin 6 → Fin 128 → Fin 128 → EReal) (w : Fin 128) (A : ℕ → ℕ → EReal)
    (ha : ∀ (j : Fin 6) (ci : Fin 128), a j w ci = A j.val ci.val) (r : Fin 16) (ci : Fin 128) :
    RefSpec.pad a r w ci = if 10 ≤ r.val then A (r.val - 10) ci.val else 0 := by
  unfold RefSpec.pad
  by_cases hc : 10 ≤ r.val
  · rw [dif_pos hc, if_pos hc, ha]
  · rw [dif_neg hc, if_neg hc]

theorem gN (a : Fin 6 → Fin 128 → Fin 128 → EReal) (x3 : STapN.Idx → EReal) (x4 : SBias.Idx → EReal) (w : Fin 128)
    (A : ℕ → ℕ → EReal) (W : ℕ → ℕ → ℕ → EReal) (B : ℕ → EReal)
    (ha : ∀ (j : Fin 6) (ci : Fin 128), a j w ci = A j.val ci.val)
    (h3 : ∀ (dk : Fin 11) (ci co : Fin 128), x3 (ix3 dk ci co) = W co.val ci.val dk.val)
    (h4 : ∀ co : Fin 128, x4 (ix2 (0 : Fin 1) co) = B co.val) (h : Fin 6) (co : Fin 128) :
    cN a x3 x4 h w co = sN A W B h.val co.val := by
  unfold cN sN T
  rw [h4]
  congr 2
  refine Finset.sum_congr rfl fun dk _ => ?_
  refine Finset.sum_congr rfl fun ci _ => ?_
  rw [gpad a w A ha, h3]

theorem g5 (a : Fin 6 → Fin 128 → Fin 128 → EReal) (x9 : STap5.Idx → EReal) (x10 : SBias5.Idx → EReal) (w : Fin 128)
    (A : ℕ → ℕ → EReal) (W : ℕ → ℕ → EReal) (B : EReal)
    (ha : ∀ (j : Fin 6) (ci : Fin 128), a j w ci = A j.val ci.val)
    (h9 : ∀ (dk : Fin 3) (c : Fin 128), x9 (ix2 dk c) = W c.val dk.val)
    (h10 : x10 (ix2 (0 : Fin 1) (0 : Fin 1)) = B) (s : Fin 14) :
    c5 a x9 x10 s w = s5 A W B s.val := by
  unfold c5 s5 T
  rw [h10]
  congr 2
  refine Finset.sum_congr rfl fun dk _ => ?_
  refine Finset.sum_congr rfl fun c _ => ?_
  rw [gpad a w A ha, h9]

/-- The reference's stack at row h, sensor w: zero for the two top rows, else the five layers at position h − 2. -/
theorem gOut (x0 : SSig.Idx → EReal) (x1 : STap1.Idx → EReal) (x2 : SBias.Idx → EReal)
    (x3 : STapN.Idx → EReal) (x4 : SBias.Idx → EReal) (x5 : STapN.Idx → EReal) (x6 : SBias.Idx → EReal)
    (x7 : STapN.Idx → EReal) (x8 : SBias.Idx → EReal) (x9 : STap5.Idx → EReal) (x10 : SBias5.Idx → EReal) (w : Fin 128)
    (X : ℕ → EReal) (W1 : ℕ → ℕ → EReal) (B1 : ℕ → EReal) (W2 : ℕ → ℕ → ℕ → EReal) (B2 : ℕ → EReal)
    (W3 : ℕ → ℕ → ℕ → EReal) (B3 : ℕ → EReal) (W4 : ℕ → ℕ → ℕ → EReal) (B4 : ℕ → EReal) (W5 : ℕ → ℕ → EReal) (B5 : EReal)
    (h0 : ∀ l : Fin 16, x0 (ix4 (0 : Fin 1) l w (0 : Fin 1)) = X l.val)
    (h1 : ∀ (dk : Fin 11) (c : Fin 128), x1 (ix2 dk c) = W1 c.val dk.val)
    (h2 : ∀ c : Fin 128, x2 (ix2 (0 : Fin 1) c) = B1 c.val)
    (h3 : ∀ (dk : Fin 11) (ci co : Fin 128), x3 (ix3 dk ci co) = W2 co.val ci.val dk.val)
    (h4 : ∀ co : Fin 128, x4 (ix2 (0 : Fin 1) co) = B2 co.val)
    (h5 : ∀ (dk : Fin 11) (ci co : Fin 128), x5 (ix3 dk ci co) = W3 co.val ci.val dk.val)
    (h6 : ∀ co : Fin 128, x6 (ix2 (0 : Fin 1) co) = B3 co.val)
    (h7 : ∀ (dk : Fin 11) (ci co : Fin 128), x7 (ix3 dk ci co) = W4 co.val ci.val dk.val)
    (h8 : ∀ co : Fin 128, x8 (ix2 (0 : Fin 1) co) = B4 co.val)
    (h9 : ∀ (dk : Fin 3) (c : Fin 128), x9 (ix2 dk c) = W5 c.val dk.val)
    (h10 : x10 (ix2 (0 : Fin 1) (0 : Fin 1)) = B5) (h : Fin 16) :
    convOut x0 x1 x2 x3 x4 x5 x6 x7 x8 x9 x10 h w
      = if 2 ≤ h.val then conv X W1 B1 W2 B2 W3 B3 W4 B4 W5 B5 (h.val - 2) else 0 := by
  unfold convOut conv
  by_cases hc : 2 ≤ h.val
  · rw [dif_pos hc, if_pos hc]
    exact g5 _ x9 x10 w _ W5 B5
      (fun j ci => gN _ x7 x8 w _ W4 B4
        (fun j ci => gN _ x5 x6 w _ W3 B3
          (fun j ci => gN _ x3 x4 w _ W2 B2 (fun j ci => g1 x0 x1 x2 w X W1 B1 h0 h1 h2 j ci) h3 h4 j ci) h5 h6 j ci) h7 h8 j ci)
      h9 h10 ⟨h.val - 2, by have := h.isLt; omega⟩
  · rw [dif_neg hc, if_neg hc]

end Cert.RefGlue

end
-- ==== Proof.RefNet.lean ====
/-
  The reference's result in closed form is the network `Spec.net`: its head sums over the 2048 inputs as (row h, sensor w),
  rows 0 and 1 being the zero padding and row h the last layer's position h − 2; regrouped by sensor and position this is
  the head of `Spec`, and the per-example layers are `Spec`'s layers term by term.
-/
import proofs.«109392_g2000007139875455_pallasbulk_612_2_alg».proof.Proof.RefGlue
import proofs.«109392_g2000007139875455_pallasbulk_612_2_alg».proof.Proof.LibBand
import proofs.«109392_g2000007139875455_pallasbulk_612_2_alg».proof.Proof.LibSumBlocks

noncomputable section

namespace Cert.RefGlue

open Idealize.ShloMosaic Idealize.ShloMosaic.ValueIdx
open Cert.RefSpec Cert.Spec Cert.Band Cert.LibSumBlocks

/-- The reference's head input: the 2048 entries listed as (row h, sensor w), rows 0 and 1 zero, row h the last
    layer's position h − 2; regrouped by sensor and position. -/
theorem ref_head_sum' (C : ℕ → ℕ → EReal) (Y5 : ℕ → ℕ → EReal) (F : ℕ → EReal)
    (hC : ∀ h w, h < 16 → w < 128 → C h w = if 2 ≤ h then Y5 (h - 2) w else 0) :
    (∑ q : Fin 2048, C (q.val / 128) (q.val % 128) * F q.val)
      = ∑ w : Fin 128, ∑ s : Fin 14, Y5 s.val w.val * F ((s.val + 2) * 128 + w.val) := by
  have dv : ∀ (j c : ℕ), c < 128 → (j * 128 + c) / 128 = j := fun j c hc => by omega
  have md : ∀ (j c : ℕ), c < 128 → (j * 128 + c) % 128 = c := fun j c hc => by omega
  rw [sum_blocks 16 128 2048 rfl, Finset.sum_comm]
  refine Finset.sum_congr rfl fun w _ => ?_
  refine sum_window' 16 14 2 (by omega) (fun s => Y5 s w.val * F ((s + 2) * 128 + w.val)) _ ?_ ?_
  · intro h h1 _
    simp only [dv _ _ w.isLt, md _ _ w.isLt]
    rw [hC _ _ h.isLt w.isLt, if_pos h1]
    have e : h.val - 2 + 2 = h.val := by omega
    rw [e]
  · intro h hn
    simp only [dv _ _ w.isLt, md _ _ w.isLt]
    have hlt := h.isLt
    rw [hC _ _ h.isLt w.isLt, if_neg (by omega), zero_mul]

variable (A0 : (⟨4, ![2560, 1, 16, 128]⟩ : Shape).Idx → EReal) (A1 : (⟨4, ![128, 1, 11, 1]⟩ : Shape).Idx → EReal) (A2 : (⟨1, ![128]⟩ : Shape).Idx → EReal)
  (A3 : (⟨4, ![128, 128, 11, 1]⟩ : Shape).Idx → EReal) (A4 : (⟨1, ![128]⟩ : Shape).Idx → EReal)
  (A5 : (⟨4, ![128, 128, 11, 1]⟩ : Shape).Idx → EReal) (A6 : (⟨1, ![128]⟩ : Shape).Idx → EReal)
  (A7 : (⟨4, ![128, 128, 11, 1]⟩ : Shape).Idx → EReal) (A8 : (⟨1, ![128]⟩ : Shape).Idx → EReal)
  (A9 : (⟨4, ![1, 128, 3, 1]⟩ : Shape).Idx → EReal) (A10 : (⟨1, ![1]⟩ : Shape).Idx → EReal)
  (A11 : (⟨2, ![100, 2048]⟩ : Shape).Idx → EReal) (A12 : (⟨1, ![100]⟩ : Shape).Idx → EReal)
  (A13 : (⟨2, ![1, 100]⟩ : Shape).Idx → EReal) (A14 : (⟨1, ![1]⟩ : Shape).Idx → EReal)

/-- The reference's stack for example b at row h, sensor w, from the argument arrays. -/
theorem conv_of_args (b : Fin 2560) (h : Fin 16) (w : Fin 128) :
    convOut (fun i => A0 (ix4 b (0 : Fin 1) (i 1) (i 2))) (fun i => A1 (ix4 (i 1) (0 : Fin 1) (i 0) (0 : Fin 1))) (fun i => A2 (ix1 (i 1)))
      (fun i => A3 (ix4 (i 2) (i 1) (i 0) (0 : Fin 1))) (fun i => A4 (ix1 (i 1))) (fun i => A5 (ix4 (i 2) (i 1) (i 0) (0 : Fin 1))) (fun i => A6 (ix1 (i 1)))
      (fun i => A7 (ix4 (i 2) (i 1) (i 0) (0 : Fin 1))) (fun i => A8 (ix1 (i 1))) (fun i => A9 (ix4 (0 : Fin 1) (i 1) (i 0) (0 : Fin 1))) (fun _ => A10 (ix1 (0 : Fin 1))) h w
      = if 2 ≤ h.val then conv (fun l => e4 A0 b.val 0 l w.val) (fun ch dk => e4 A1 ch 0 dk 0) (e1 A2)
      (fun co ci dk => e4 A3 co ci dk 0) (e1 A4) (fun co ci dk => e4 A5 co ci dk 0) (e1 A6)
      (fun co ci dk => e4 A7 co ci dk 0) (e1 A8) (fun ch dk => e4 A9 0 ch dk 0) (e1 A10 0) (h.val - 2) else 0 :=
  gOut _ _ _ _ _ _ _ _ _ _ _ w (fun l => e4 A0 b.val 0 l w.val) (fun ch dk => e4 A1 ch 0 dk 0) (e1 A2)
      (fun co ci dk => e4 A3 co ci dk 0) (e1 A4) (fun co ci dk => e4 A5 co ci dk 0) (e1 A6)
      (fun co ci dk => e4 A7 co ci dk 0) (e1 A8) (fun ch dk => e4 A9 0 ch dk 0) (e1 A10 0)
    (fun l => (e4_fin A0 b (0 : Fin 1) l w).symm)
    (fun dk ch => (e4_fin A1 ch (0 : Fin 1) dk (0 : Fin 1)).symm)
    (fun ch => (e1_fin A2 ch).symm)
    (fun dk ci co => (e4_fin A3 co ci dk (0 : Fin 1)).symm)
    (fun co => (e1_fin A4 co).symm)
    (fun dk ci co => (e4_fin A5 co ci dk (0 : Fin 1)).symm)
    (fun co => (e1_fin A6 co).symm)
    (fun dk ci co => (e4_fin A7 co ci dk (0 : Fin 1)).symm)
    (fun co => (e1_fin A8 co).symm)
    (fun dk ch => (e4_fin A9 (0 : Fin 1) ch dk (0 : Fin 1)).symm)
    (e1_fin A10 (0 : Fin 1)).symm h

/-- The reference's closed form is the network. -/
theorem net_of_ref (b : Fin 2560) :
    (∑ o : Fin 100, Ideal.tanh ((∑ q : Fin 2048,
        convOut (fun i => A0 (ix4 b (0 : Fin 1) (i 1) (i 2))) (fun i => A1 (ix4 (i 1) (0 : Fin 1) (i 0) (0 : Fin 1))) (fun i => A2 (ix1 (i 1)))
      (fun i => A3 (ix4 (i 2) (i 1) (i 0) (0 : Fin 1))) (fun i => A4 (ix1 (i 1))) (fun i => A5 (ix4 (i 2) (i 1) (i 0) (0 : Fin 1))) (fun i => A6 (ix1 (i 1)))
      (fun i => A7 (ix4 (i 2) (i 1) (i 0) (0 : Fin 1))) (fun i => A8 (ix1 (i 1))) (fun i => A9 (ix4 (0 : Fin 1) (i 1) (i 0) (0 : Fin 1))) (fun _ => A10 (ix1 (0 : Fin 1)))
          (⟨q.val / 128, by have := q.isLt; omega⟩ : Fin 16) (⟨q.val % 128, Nat.mod_lt _ (by decide)⟩ : Fin 128)
        * A11 (ix2 o q)) + A12 (ix1 o)) * A13 (ix2 (0 : Fin 1) o)) + A14 (ix1 (0 : Fin 1))
      = net A0 A1 A2 A3 A4 A5 A6 A7 A8 A9 A10 A11 A12 A13 A14 b.val := by
  unfold net sOut
  have e14 : A14 (ix1 (0 : Fin 1)) = e1 A14 0 := (e1_fin A14 (0 : Fin 1)).symm
  refine congrArg₂ (· + ·) (Finset.sum_congr rfl fun o _ => ?_) e14
  have e12 : A12 (ix1 o) = e1 A12 o.val := (e1_fin A12 o).symm
  have e13 : A13 (ix2 (0 : Fin 1) o) = e2 A13 0 o.val := (e2_fin A13 (0 : Fin 1) o).symm
  -- the stack by natural row and sensor, zero outside the ranges
  let C : ℕ → ℕ → EReal := fun h w =>
    if hh : h < 16 ∧ w < 128 then convOut (fun i => A0 (ix4 b (0 : Fin 1) (i 1) (i 2))) (fun i => A1 (ix4 (i 1) (0 : Fin 1) (i 0) (0 : Fin 1))) (fun i => A2 (ix1 (i 1)))
      (fun i => A3 (ix4 (i 2) (i 1) (i 0) (0 : Fin 1))) (fun i => A4 (ix1 (i 1))) (fun i => A5 (ix4 (i 2) (i 1) (i 0) (0 : Fin 1))) (fun i => A6 (ix1 (i 1)))
      (fun i => A7 (ix4 (i 2) (i 1) (i 0) (0 : Fin 1))) (fun i => A8 (ix1 (i 1))) (fun i => A9 (ix4 (0 : Fin 1) (i 1) (i 0) (0 : Fin 1))) (fun _ => A10 (ix1 (0 : Fin 1))) ⟨h, hh.1⟩ ⟨w, hh.2⟩ else 0
  have hCdef : ∀ (h w : ℕ) (hh : h < 16 ∧ w < 128), C h w
      = convOut (fun i => A0 (ix4 b (0 : Fin 1) (i 1) (i 2))) (fun i => A1 (ix4 (i 1) (0 : Fin 1) (i 0) (0 : Fin 1))) (fun i => A2 (ix1 (i 1)))
      (fun i => A3 (ix4 (i 2) (i 1) (i 0) (0 : Fin 1))) (fun i => A4 (ix1 (i 1))) (fun i => A5 (ix4 (i 2) (i 1) (i 0) (0 : Fin 1))) (fun i => A6 (ix1 (i 1)))
      (fun i => A7 (ix4 (i 2) (i 1) (i 0) (0 : Fin 1))) (fun i => A8 (ix1 (i 1))) (fun i => A9 (ix4 (0 : Fin 1) (i 1) (i 0) (0 : Fin 1))) (fun _ => A10 (ix1 (0 : Fin 1))) ⟨h, hh.1⟩ ⟨w, hh.2⟩ := fun h w hh => by
    show dite _ _ _ = _
    exact dif_pos hh
  have hsum : (∑ q : Fin 2048,
        convOut (fun i => A0 (ix4 b (0 : Fin 1) (i 1) (i 2))) (fun i => A1 (ix4 (i 1) (0 : Fin 1) (i 0) (0 : Fin 1))) (fun i => A2 (ix1 (i 1)))
      (fun i => A3 (ix4 (i 2) (i 1) (i 0) (0 : Fin 1))) (fun i => A4 (ix1 (i 1))) (fun i => A5 (ix4 (i 2) (i 1) (i 0) (0 : Fin 1))) (fun i => A6 (ix1 (i 1)))
      (fun i => A7 (ix4 (i 2) (i 1) (i 0) (0 : Fin 1))) (fun i => A8 (ix1 (i 1))) (fun i => A9 (ix4 (0 : Fin 1) (i 1) (i 0) (0 : Fin 1))) (fun _ => A10 (ix1 (0 : Fin 1)))
          (⟨q.val / 128, by have := q.isLt; omega⟩ : Fin 16) (⟨q.val % 128, Nat.mod_lt _ (by decide)⟩ : Fin 128)
        * A11 (ix2 o q))
      = ∑ q : Fin 2048, C (q.val / 128) (q.val % 128) * e2 A11 o.val q.val := by
    refine Finset.sum_congr rfl fun q _ => ?_
    have hq := q.isLt
    have hc : q.val / 128 < 16 ∧ q.val % 128 < 128 := ⟨by omega, Nat.mod_lt _ (by decide)⟩
    exact congrArg₂ (· * ·) (hCdef _ _ hc).symm (e2_fin A11 o q).symm
  have hS := hsum.trans (ref_head_sum' C (fun s w => conv (fun l => e4 A0 b.val 0 l w) (fun ch dk => e4 A1 ch 0 dk 0) (e1 A2)
      (fun co ci dk => e4 A3 co ci dk 0) (e1 A4) (fun co ci dk => e4 A5 co ci dk 0) (e1 A6)
      (fun co ci dk => e4 A7 co ci dk 0) (e1 A8) (fun ch dk => e4 A9 0 ch dk 0) (e1 A10 0) s) (fun q => e2 A11 o.val q)
    (fun h w hh hw => (hCdef h w ⟨hh, hw⟩).trans
      (conv_of_args A0 A1 A2 A3 A4 A5 A6 A7 A8 A9 A10 b ⟨h, hh⟩ ⟨w, hw⟩)))
  exact congrArg₂ (fun (z : EReal) (y : EReal × EReal) => Ideal.tanh (z + y.1) * y.2) hS
    (show ((A12 (ix1 o), A13 (ix2 (0 : Fin 1) o)) : EReal × EReal) = (e1 A12 o.val, e2 A13 0 o.val) from by rw [e12, e13])

end Cert.RefGlue

end
-- ==== Proof.RFinal.lean ====
/-
  The reference's result: its head's output array is the network of the fifteen arguments, example by example.
-/
import proofs.«109392_g2000007139875455_pallasbulk_612_2_alg».proof.Proof.RefResult
import proofs.«109392_g2000007139875455_pallasbulk_612_2_alg».proof.Proof.RefConv4
import proofs.«109392_g2000007139875455_pallasbulk_612_2_alg».proof.Proof.RefNet

set_option maxRecDepth 16384

noncomputable section

namespace Cert.ReferenceIdeal.Final

open Cert.ReferenceIdeal Cert.ReferenceIdeal.Gen Cert.ReferenceIdeal.HostVal
open Idealize.ShloMosaic Idealize.ShloMosaic.ValueIdx Idealize.ShloMosaic.TcCoe Idealize.SL.Sem
open Cert.Spec

variable (m : (ℓ : Loc nD τ sig) → Buf (Elt Ideal) ℓ) (ρ : Dev nD → PrngReg)

theorem ref_net (c : Dev nD) (b : Fin 2560) :
    ((dat1 (V3 m ρ) c).arrAt 5 cfg1.N : S2560x1.Idx → EReal) (ix2 b (0 : Fin 1))
      = net (m ((c : Thread nD τ).loc main_arg0) : S2560x1x16x128.Idx → EReal)
        (m ((c : Thread nD τ).loc main_arg1) : S128x1x11x1.Idx → EReal)
        (m ((c : Thread nD τ).loc main_arg2) : S128.Idx → EReal)
        (m ((c : Thread nD τ).loc main_arg3) : S128x128x11x1.Idx → EReal)
        (m ((c : Thread nD τ).loc main_arg4) : S128.Idx → EReal)
        (m ((c : Thread nD τ).loc main_arg5) : S128x128x11x1.Idx → EReal)
        (m ((c : Thread nD τ).loc main_arg6) : S128.Idx → EReal)
        (m ((c : Thread nD τ).loc main_arg7) : S128x128x11x1.Idx → EReal)
        (m ((c : Thread nD τ).loc main_arg8) : S128.Idx → EReal)
        (m ((c : Thread nD τ).loc main_arg9) : S1x128x3x1.Idx → EReal)
        (m ((c : Thread nD τ).loc main_arg10) : S1.Idx → EReal)
        (m ((c : Thread nD τ).loc main_arg11) : S100x2048.Idx → EReal)
        (m ((c : Thread nD τ).loc main_arg12) : S100.Idx → EReal)
        (m ((c : Thread nD τ).loc main_arg13) : S1x100.Idx → EReal)
        (m ((c : Thread nD τ).loc main_arg14) : S1.Idx → EReal) b.val :=
  (ref_result m ρ Cert.ReferenceIdeal.ConvVal.out0_11_apply c b).trans
    (Cert.RefGlue.net_of_ref _ _ _ _ _ _ _ _ _ _ _ _ _ _ _ b)

/-- The head's output array, whole. -/
theorem ref_value (c : Dev nD) :
    ((dat1 (V3 m ρ) c).arrAt 5 cfg1.N : S2560x1.Idx → EReal)
      = fun i => net (m ((c : Thread nD τ).loc main_arg0) : S2560x1x16x128.Idx → EReal)
        (m ((c : Thread nD τ).loc main_arg1) : S128x1x11x1.Idx → EReal)
        (m ((c : Thread nD τ).loc main_arg2) : S128.Idx → EReal)
        (m ((c : Thread nD τ).loc main_arg3) : S128x128x11x1.Idx → EReal)
        (m ((c : Thread nD τ).loc main_arg4) : S128.Idx → EReal)
        (m ((c : Thread nD τ).loc main_arg5) : S128x128x11x1.Idx → EReal)
        (m ((c : Thread nD τ).loc main_arg6) : S128.Idx → EReal)
        (m ((c : Thread nD τ).loc main_arg7) : S128x128x11x1.Idx → EReal)
        (m ((c : Thread nD τ).loc main_arg8) : S128.Idx → EReal)
        (m ((c : Thread nD τ).loc main_arg9) : S1x128x3x1.Idx → EReal)
        (m ((c : Thread nD τ).loc main_arg10) : S1.Idx → EReal)
        (m ((c : Thread nD τ).loc main_arg11) : S100x2048.Idx → EReal)
        (m ((c : Thread nD τ).loc main_arg12) : S100.Idx → EReal)
        (m ((c : Thread nD τ).loc main_arg13) : S1x100.Idx → EReal)
        (m ((c : Thread nD τ).loc main_arg14) : S1.Idx → EReal) (i 0).val := by
  funext i
  obtain ⟨b, u, rfl⟩ : ∃ (b : Fin 2560) (u : Fin 1), i = ix2 b u := ⟨i 0, i 1, eq_ix2 i⟩
  obtain rfl : u = 0 := Subsingleton.elim _ _
  exact ref_net m ρ c b

/-- The same with the argument arrays named: any arrays equal to the launch memory's. -/
theorem ref_value' (c : Dev nD)
    (A0 : (⟨4, ![2560, 1, 16, 128]⟩ : Shape).Idx → EReal) (A1 : (⟨4, ![128, 1, 11, 1]⟩ : Shape).Idx → EReal) (A2 : (⟨1, ![128]⟩ : Shape).Idx → EReal) (A3 : (⟨4, ![128, 128, 11, 1]⟩ : Shape).Idx → EReal) (A4 : (⟨1, ![128]⟩ : Shape).Idx → EReal) (A5 : (⟨4, ![128, 128, 11, 1]⟩ : Shape).Idx → EReal) (A6 : (⟨1, ![128]⟩ : Shape).Idx → EReal) (A7 : (⟨4, ![128, 128, 11, 1]⟩ : Shape).Idx → EReal) (A8 : (⟨1, ![128]⟩ : Shape).Idx → EReal) (A9 : (⟨4, ![1, 128, 3, 1]⟩ : Shape).Idx → EReal) (A10 : (⟨1, ![1]⟩ : Shape).Idx → EReal) (A11 : (⟨2, ![100, 2048]⟩ : Shape).Idx → EReal) (A12 : (⟨1, ![100]⟩ : Shape).Idx → EReal) (A13 : (⟨2, ![1, 100]⟩ : Shape).Idx → EReal) (A14 : (⟨1, ![1]⟩ : Shape).Idx → EReal)
    (e0 : (m ((c : Thread nD τ).loc main_arg0) : S2560x1x16x128.Idx → EReal) = A0)
    (e1 : (m ((c : Thread nD τ).loc main_arg1) : S128x1x11x1.Idx → EReal) = A1)
    (e2 : (m ((c : Thread nD τ).loc main_arg2) : S128.Idx → EReal) = A2)
    (e3 : (m ((c : Thread nD τ).loc main_arg3) : S128x128x11x1.Idx → EReal) = A3)
    (e4 : (m ((c : Thread nD τ).loc main_arg4) : S128.Idx → EReal) = A4)
    (e5 : (m ((c : Thread nD τ).loc main_arg5) : S128x128x11x1.Idx → EReal) = A5)
    (e6 : (m ((c : Thread nD τ).loc main_arg6) : S128.Idx → EReal) = A6)
    (e7 : (m ((c : Thread nD τ).loc main_arg7) : S128x128x11x1.Idx → EReal) = A7)
    (e8 : (m ((c : Thread nD τ).loc main_arg8) : S128.Idx → EReal) = A8)
    (e9 : (m ((c : Thread nD τ).loc main_arg9) : S1x128x3x1.Idx → EReal) = A9)
    (e10 : (m ((c : Thread nD τ).loc main_arg10) : S1.Idx → EReal) = A10)
    (e11 : (m ((c : Thread nD τ).loc main_arg11) : S100x2048.Idx → EReal) = A11)
    (e12 : (m ((c : Thread nD τ).loc main_arg12) : S100.Idx → EReal) = A12)
    (e13 : (m ((c : Thread nD τ).loc main_arg13) : S1x100.Idx → EReal) = A13)
    (e14 : (m ((c : Thread nD τ).loc main_arg14) : S1.Idx → EReal) = A14) :
    ((dat1 (V3 m ρ) c).arrAt 5 cfg1.N : S2560x1.Idx → EReal)
      = fun i => net A0 A1 A2 A3 A4 A5 A6 A7 A8 A9 A10 A11 A12 A13 A14 (i 0).val := by
  subst e0 e1 e2 e3 e4 e5 e6 e7 e8 e9 e10 e11 e12 e13 e14
  exact ref_value m ρ c

end Cert.ReferenceIdeal.Final

end
-- ==== Proof.ReferenceRun.lean ====
/-
  The reference's run with its result named. The reference is two pipelined regions (the convolution stack, one grid
  point per example, then the dense head on the whole batch at once) among host operations; its segments, the buffer
  contents at each boundary and the launch's ingredients are the generated frame's. Here the same launch is read with a
  larger post: every unscoped buffer ends at the last boundary's contents, so the result buffer ends at what the head's
  pipeline leaves in its output array and every argument array ends as launched. Nothing depends on the float instance.
-/
import proofs.«109392_g2000007139875455_pallasbulk_612_2_alg».proof.Proof.Gen.ReferenceIdeal.Frame

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
/-- From any memory with zero counters every weakly fair execution of @main terminates, nothing faulting, and in every
    final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run with the result named: the result buffer ends at what the head's pipeline leaves in its output array, and
    every argument array as launched. -/
theorem run_result : θ_run defs (onTc (τ := τ) (main (F := F))) ⟨m, fun _ => 0, ρ⟩ (fun r => ∀ c : Dev nD,
      r.2.mem ((c.tc : Thread nD τ).loc main_v23) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun s h c =>
      ⟨(h c _ (mem_uc main_v23 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)
    (run_all m ρ)

end Cert.ReferenceIdeal.Run

end
-- ==== Proof.Alg.lean ====
/-
  The two idealized programs end with equal results: both runs are posted at the same function of the kernel's argument
  arrays, the network `Spec.net`, example by example — the kernel's by its closed form, the reference's by its own, whose
  argument arrays are the kernel's by hypothesis. The entries of the kernel's five gathered matrices are hypotheses here.
-/
import proofs.«109392_g2000007139875455_pallasbulk_612_2_alg».proof.Defs
import proofs.«109392_g2000007139875455_pallasbulk_612_2_alg».proof.Proof.KFinal3
import proofs.«109392_g2000007139875455_pallasbulk_612_2_alg».proof.Proof.RFinal
import proofs.«109392_g2000007139875455_pallasbulk_612_2_alg».proof.Proof.ReferenceRun
import proofs.«109392_g2000007139875455_pallasbulk_612_2_alg».proof.Proof.Gen.Pre_finite_inputs

set_option maxRecDepth 16384

noncomputable section

namespace Cert.Proof

open Cert.KernelIdeal Cert.KernelIdeal.Gen Cert.KernelIdeal.Run Cert.KernelIdeal.HostVal
open Idealize.ShloMosaic Idealize.ShloMosaic.ValueIdx Idealize.SL.Sem
open Cert.Spec

theorem algebraic_of
    (h1 : ∀ (m : (ℓ : Loc nD τ sig) → Buf (Elt Ideal) ℓ) (ρ : Dev nD → PrngReg) (c : Dev nD) (l : Fin 16) (q : Fin 768), (V3 m ρ c main_v23 : S16x768.Idx → EReal) (ix2 l q)
      = if q.val / 128 ≤ l.val ∧ l.val ≤ q.val / 128 + 10 then e4 (a1 m c) (q.val % 128) 0 (l.val - q.val / 128) 0 else 0)
    (h2 : ∀ (m : (ℓ : Loc nD τ sig) → Buf (Elt Ideal) ℓ) (ρ : Dev nD → PrngReg) (c : Dev nD) (k q : Fin 768), (V3 m ρ c main_v78 : S768x768.Idx → EReal) (ix2 k q)
      = if k.val / 128 ≤ q.val / 128 then e4 (a3 m c) (q.val % 128) (k.val % 128) (10 + k.val / 128 - q.val / 128) 0 else 0)
    (h3 : ∀ (m : (ℓ : Loc nD τ sig) → Buf (Elt Ideal) ℓ) (ρ : Dev nD → PrngReg) (c : Dev nD) (k q : Fin 768), (V3 m ρ c main_v104 : S768x768.Idx → EReal) (ix2 k q)
      = if k.val / 128 ≤ q.val / 128 then e4 (a5 m c) (q.val % 128) (k.val % 128) (10 + k.val / 128 - q.val / 128) 0 else 0)
    (h4 : ∀ (m : (ℓ : Loc nD τ sig) → Buf (Elt Ideal) ℓ) (ρ : Dev nD → PrngReg) (c : Dev nD) (k q : Fin 768), (V3 m ρ c main_v130 : S768x768.Idx → EReal) (ix2 k q)
      = if k.val / 128 ≤ q.val / 128 then e4 (a7 m c) (q.val % 128) (k.val % 128) (10 + k.val / 128 - q.val / 128) 0 else 0)
    (h5 : ∀ (m : (ℓ : Loc nD τ sig) → Buf (Elt Ideal) ℓ) (ρ : Dev nD → PrngReg) (c : Dev nD) (k : Fin 768) (s : Fin 16), (V3 m ρ c main_v50 : S768x16.Idx → EReal) (ix2 k s)
      = if s.val < 14 ∧ s.val ≤ 10 + k.val / 128 ∧ 10 + k.val / 128 ≤ s.val + 2 then e4 (a9 m c) 0 (k.val % 128) (10 + k.val / 128 - s.val) 0 else 0) :
    Cert.algebraic_KernelIdeal_ReferenceIdeal := by
  intro m ρ m' ρ' _ hagree
  refine ⟨fun c => (fun (i : S2560x1.Idx) => net (a0 m c) (a1 m c) (a2 m c) (a3 m c) (a4 m c) (a5 m c) (a6 m c) (a7 m c) (a8 m c) (a9 m c) (a10 m c) (a11 m c) (a12 m c) (a13 m c) (a14 m c) (i 0).val), ?_, ?_⟩
  · exact (θ_run Cert.KernelIdeal.defs _ _).mono
      (fun r h c => ⟨(h c).1.trans (Cert.KernelIdeal.Final.kernel_value m ρ (h1 m ρ) (h2 m ρ) (h3 m ρ) (h4 m ρ) (h5 m ρ) c), (h c).2⟩)
      (Cert.KernelIdeal.Run.run_result (F := Ideal) m ρ)
  · exact (θ_run Cert.ReferenceIdeal.defs _ _).mono
      (fun r h c => ⟨(h c).1.trans (Cert.ReferenceIdeal.Final.ref_value' m' ρ' c (a0 m c) (a1 m c) (a2 m c) (a3 m c) (a4 m c) (a5 m c) (a6 m c) (a7 m c) (a8 m c) (a9 m c) (a10 m c) (a11 m c) (a12 m c) (a13 m c) (a14 m c)
        (hagree c).1
        (hagree c).2.1
        (hagree c).2.2.1
        (hagree c).2.2.2.1
        (hagree c).2.2.2.2.1
        (hagree c).2.2.2.2.2.1
        (hagree c).2.2.2.2.2.2.1
        (hagree c).2.2.2.2.2.2.2.1
        (hagree c).2.2.2.2.2.2.2.2.1
        (hagree c).2.2.2.2.2.2.2.2.2.1
        (hagree c).2.2.2.2.2.2.2.2.2.2.1
        (hagree c).2.2.2.2.2.2.2.2.2.2.2.1
        (hagree c).2.2.2.2.2.2.2.2.2.2.2.2.1
        (hagree c).2.2.2.2.2.2.2.2.2.2.2.2.2.1
        (hagree c).2.2.2.2.2.2.2.2.2.2.2.2.2.2), (h c).2⟩)
      (Cert.ReferenceIdeal.Run.run_result (F := Ideal) m' ρ')

end Cert.Proof

end
-- ==== Proof.lean ====
/-
  The proof of `Cert.Claim`: the kernel — a small convolutional network whose five convolution layers are rewritten as
  dense products with banded matrices over a flattened (position, channel) axis, followed by a dense head on re-laid
  weights — against the reference, which runs the same network tap by tap with zero-padded activations.

  The frames. Each program's @main is two pipelined regions among host operations. The reference's frame is the generated one.
  The kernel's (at the word level and idealized, one text at any float instance) is Proof/KernelRun.lean and
  Proof/KernelIdealRun.lean: per region the body's triple and the pipeline's proof data, then the launch over the twelve
  segments of @main; every argument array ends as launched.

  The idealization rewrote nothing, so `preserves` is trivial.

  The values. Both idealized programs end with the network `Spec.net` of the fifteen argument arrays in the result buffer,
  example by example (Proof/Alg.lean). On the kernel's side the host-built matrices are read entry by entry
  (Proof/KHost*.lean, Proof/KGatherE.lean), the two bodies are dense layers (Proof/KBody.lean, Proof/KHead.lean), the blocks
  tile the arrays (Proof/KArr.lean), and a product with a banded matrix is the convolution's sum over its taps
  (Proof/LibBand.lean, Proof/Bridge1.lean, Proof/Bridge2.lean, Proof/KClosed.lean, Proof/KFinal*.lean). On the reference's side
  the convolution body is read at an index (Proof/RefConv*.lean), the host operations, arrays and head likewise
  (Proof/RefHost*.lean, Proof/RefConvArr.lean, Proof/RefHead*.lean, Proof/RefResult.lean), and its head's sum over
  (row, sensor) is regrouped by (sensor, position) (Proof/RefGlue.lean, Proof/RefNet.lean, Proof/RFinal.lean).
  The only laws used on the extended reals are commutativity and associativity of +, x · 0 = 0 = 0 · x, and re-indexing of
  finite sums: no finiteness of the inputs is needed, and the precondition is never opened.
-/
import proofs.«109392_g2000007139875455_pallasbulk_612_2_alg».proof.Defs
import proofs.«109392_g2000007139875455_pallasbulk_612_2_alg».proof.Proof.Gen.Kernel
import proofs.«109392_g2000007139875455_pallasbulk_612_2_alg».proof.Proof.Gen.Kernel.Skeleton
import proofs.«109392_g2000007139875455_pallasbulk_612_2_alg».proof.Proof.Gen.Kernel.Launch
import proofs.«109392_g2000007139875455_pallasbulk_612_2_alg».proof.Proof.Gen.Kernel.Regions
import proofs.«109392_g2000007139875455_pallasbulk_612_2_alg».proof.Proof.Gen.Kernel.Points
import proofs.«109392_g2000007139875455_pallasbulk_612_2_alg».proof.Proof.Gen.KernelIdeal
import proofs.«109392_g2000007139875455_pallasbulk_612_2_alg».proof.Proof.Gen.KernelIdeal.Skeleton
import proofs.«109392_g2000007139875455_pallasbulk_612_2_alg».proof.Proof.Gen.KernelIdeal.Launch
import proofs.«109392_g2000007139875455_pallasbulk_612_2_alg».proof.Proof.Gen.KernelIdeal.Regions
import proofs.«109392_g2000007139875455_pallasbulk_612_2_alg».proof.Proof.Gen.KernelIdeal.Points
import proofs.«109392_g2000007139875455_pallasbulk_612_2_alg».proof.Proof.Gen.ReferenceIdeal
import proofs.«109392_g2000007139875455_pallasbulk_612_2_alg».proof.Proof.Gen.ReferenceIdeal.Skeleton
import proofs.«109392_g2000007139875455_pallasbulk_612_2_alg».proof.Proof.Gen.ReferenceIdeal.Launch
import proofs.«109392_g2000007139875455_pallasbulk_612_2_alg».proof.Proof.Gen.ReferenceIdeal.Points
import proofs.«109392_g2000007139875455_pallasbulk_612_2_alg».proof.Proof.Gen.ReferenceIdeal.Frame
import proofs.«109392_g2000007139875455_pallasbulk_612_2_alg».proof.Proof.Gen.Pre_finite_inputs
import proofs.«109392_g2000007139875455_pallasbulk_612_2_alg».proof.Proof.KernelRun
import proofs.«109392_g2000007139875455_pallasbulk_612_2_alg».proof.Proof.KernelIdealRun
import proofs.«109392_g2000007139875455_pallasbulk_612_2_alg».proof.Proof.KGatherE
import proofs.«109392_g2000007139875455_pallasbulk_612_2_alg».proof.Proof.Alg
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Run.frame (F := Bits) m ρ

/-- So does the idealized kernel. -/
theorem frame_ki : Cert.frame_KernelIdeal := fun m ρ _ => Cert.KernelIdeal.Run.frame (F := Ideal) m ρ

/-- So does the idealized reference. -/
theorem frame_ri : Cert.frame_ReferenceIdeal := fun m ρ _ => Cert.ReferenceIdeal.Gen.frame (F := Ideal) m ρ

/-- The idealization rewrote no operation. -/
theorem preserves : Cert.preserves_Kernel_KernelIdeal := trivial

/-- Both idealized programs end with the network of the argument arrays in the result buffer. -/
theorem algebraic : Cert.algebraic_KernelIdeal_ReferenceIdeal :=
  algebraic_of Cert.KernelIdeal.HostVal.m1_e Cert.KernelIdeal.HostVal.M2_e Cert.KernelIdeal.HostVal.M3_e
    Cert.KernelIdeal.HostVal.M4_e Cert.KernelIdeal.HostVal.m5_e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
